-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v114_0)) (v1 : (c : Dev Cert.KernelIdeal.nD) → Buf (Elt Ideal) ((c.tc : Thread Cert.KernelIdeal.nD Cert.KernelIdeal.τ).loc Cert.KernelIdeal.main_v114_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114_0) = v0 c
          ∧ r.2.mem ((c.tc : Thread Cert.KernelIdeal.nD Cert.KernelIdeal.τ).loc Cert.KernelIdeal.main_v114_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v333) = v0 c
          ∧ r.2.mem ((c.tc : Thread Cert.ReferenceIdeal.nD Cert.ReferenceIdeal.τ).loc Cert.ReferenceIdeal.main_v336) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128x4 : Shape := ⟨3, ![8192, 128, 4]⟩
abbrev S2048x2048 : Shape := ⟨2, ![2048, 2048]⟩
abbrev S_ : Shape := ⟨0, ![]⟩

class Facts : Prop where
  bcast_S_S8192x128x4 : S_.BroadcastsInDim S8192x128x4 (![] : Fin 0 → Fin S8192x128x4.rank)
  reducesTo_S8192x128x4_S_d0_1_2 : S8192x128x4.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  main_v18

def fn {F : FTy → Type} [FloatOps F] (main_arg0 : FVec F S8192x128x4 .f32) (main_arg1 : FVec F S2048x2048 .f32) (main_arg2 : FVec F S2048x2048 .f32) (main_arg3 : FVec F S2048x2048 .f32) : IVec S_ 1 :=
  let main_v0 : FVec F S8192x128x4 .f32 := Host.absf main_arg0
  let main_cst : FVec F S_ .f32 := constant S_ .f32 0x7F800000#32
  let main_v1 : FVec F S8192x128x4 .f32 := broadcastInDim S8192x128x4 ![] bcast_S_S8192x128x4 main_cst
  let main_v2 : IVec S8192x128x4 1 := cmpf .olt main_v0 main_v1
  let main_c : IVec S_ 1 := constantI S_ 1 1#1
  let main_v3 : IVec S_ 1 := (fun x v => Host.reduce IntOp.andi x v reducesTo_S8192x128x4_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_v13 main_v16
-- ==== Kernel.lean ====
abbrev S8192x128x4 : Shape := ⟨3, ![8192, 128, 4]⟩
abbrev S2048x2048 : Shape := ⟨2, ![2048, 2048]⟩
abbrev S8192x128x1 : Shape := ⟨3, ![8192, 128, 1]⟩
abbrev S8192x128 : Shape := ⟨2, ![8192, 128]⟩
abbrev S_ : Shape := ⟨0, ![]⟩
abbrev S2048x2048x1 : Shape := ⟨3, ![2048, 2048, 1]⟩
abbrev S2048x2048x4 : Shape := ⟨3, ![2048, 2048, 4]⟩
abbrev S2 : Shape := ⟨1, ![2]⟩
abbrev S1x1x2 : Shape := ⟨3, ![1, 1, 2]⟩
abbrev S8192x128x2 : Shape := ⟨3, ![8192, 128, 2]⟩
abbrev S8192x128x2x1 : Shape := ⟨4, ![8192, 128, 2, 1]⟩
abbrev S8192x128x2x2 : Shape := ⟨4, ![8192, 128, 2, 2]⟩
abbrev S8192x128x2x4 : Shape := ⟨4, ![8192, 128, 2, 4]⟩
abbrev S8192x128x1x4 : Shape := ⟨4, ![8192, 128, 1, 4]⟩
abbrev S2048x128 : Shape := ⟨2, ![2048, 128]⟩

abbrev nBuf : Space → Nat
  | .hbm => 167
  | .vmem => 14
  | .smem => 0
  | _ => 0

abbrev hbmTy0_0 (i : Nat) : BufTy := match i % 128 with
  | 0 => ⟨S8192x128x4, .f32⟩
  | 1 => ⟨S2048x2048, .f32⟩
  | 2 => ⟨S2048x2048, .f32⟩
  | 3 => ⟨S2048x2048, .f32⟩
  | 4 => ⟨S8192x128x1, .f32⟩
  | 5 => ⟨S8192x128, .f32⟩
  | 6 => ⟨S8192x128x1, .f32⟩
  | 7 => ⟨S8192x128, .f32⟩
  | 8 => ⟨S8192x128x1, .f32⟩
  | 9 => ⟨S8192x128, .f32⟩
  | 10 => ⟨S8192x128x1, .f32⟩
  | 11 => ⟨S8192x128, .f32⟩
  | 12 => ⟨S_, .f32⟩
  | 13 => ⟨S8192x128, .f32⟩
  | 14 => ⟨S8192x128, .f32⟩
  | 15 => ⟨S_, .f32⟩
  | 16 => ⟨S8192x128, .f32⟩
  | 17 => ⟨S8192x128, .f32⟩
  | 18 => ⟨S_, .f32⟩
  | 19 => ⟨S8192x128, .f32⟩
  | 20 => ⟨S8192x128, .f32⟩
  | 21 => ⟨S_, .f32⟩
  | 22 => ⟨S_, .f32⟩
  | 23 => ⟨S_, .f32⟩
  | 24 => ⟨S8192x128, .f32⟩
  | 25 => ⟨S8192x128, .f32⟩
  | 26 => ⟨S_, .f32⟩
  | 27 => ⟨S8192x128, .f32⟩
  | 28 => ⟨S8192x128, .f32⟩
  | 29 => ⟨S_, .f32⟩
  | 30 => ⟨S8192x128, .f32⟩
  | 31 => ⟨S8192x128, .f32⟩
  | 32 => ⟨S_, .f32⟩
  | 33 => ⟨S8192x128, .f32⟩
  | 34 => ⟨S8192x128, .f32⟩
  | 35 => ⟨S_, .f32⟩
  | 36 => ⟨S8192x128, .f32⟩
  | 37 => ⟨S8192x128, .f32⟩
  | 38 => ⟨S_, .f32⟩
  | 39 => ⟨S_, .f32⟩
  | 40 => ⟨S_, .f32⟩
  | 41 => ⟨S8192x128, .f32⟩
  | 42 => ⟨S8192x128, .f32⟩
  | 43 => ⟨S_, .f32⟩
  | 44 => ⟨S8192x128, .f32⟩
  | 45 => ⟨S8192x128, .f32⟩
  | 46 => ⟨S_, .f32⟩
  | 47 => ⟨S2048x2048, .f32⟩
  | 48 => ⟨S2048x2048x1, .f32⟩
  | 49 => ⟨S2048x2048x1, .f32⟩
  | 50 => ⟨S2048x2048x1, .f32⟩
  | 51 => ⟨S2048x2048x1, .f32⟩
  | 52 => ⟨S2048x2048x4, .f32⟩
  | 53 => ⟨S8192x128, .f32⟩
  | 54 => ⟨S8192x128, .i32⟩
  | 55 => ⟨S_, .i32⟩
  | 56 => ⟨S_, .i32⟩
  | 57 => ⟨S_, .i32⟩
  | 58 => ⟨S8192x128, .i32⟩
  | 59 => ⟨S8192x128, .i32⟩
  | 60 => ⟨S_, .i32⟩
  | 61 => ⟨S8192x128, .i32⟩
  | 62 => ⟨S8192x128, .i32⟩
  | 63 => ⟨S8192x128, .f32⟩
  | 64 => ⟨S8192x128, .i32⟩
  | 65 => ⟨S_, .i32⟩
  | 66 => ⟨S_, .i32⟩
  | 67 => ⟨S_, .i32⟩
  | 68 => ⟨S8192x128, .i32⟩
  | 69 => ⟨S8192x128, .i32⟩
  | 70 => ⟨S_, .i32⟩
  | 71 => ⟨S8192x128, .i32⟩
  | 72 => ⟨S8192x128, .i32⟩
  | 73 => ⟨S8192x128, .f32⟩
  | 74 => ⟨S8192x128, .f32⟩
  | 75 => ⟨S8192x128, .f32⟩
  | 76 => ⟨S8192x128, .f32⟩
  | 77 => ⟨S8192x128x1, .i32⟩
  | 78 => ⟨S2, .i32⟩
  | 79 => ⟨S1x1x2, .i32⟩
  | 80 => ⟨S8192x128x2, .i32⟩
  | 81 => ⟨S8192x128x2, .i32⟩
  | 82 => ⟨S8192x128x2, .i32⟩
  | 83 => ⟨S8192x128x1, .i32⟩
  | 84 => ⟨S_, .i32⟩
  | 85 => ⟨S8192x128x1, .i32⟩
  | 86 => ⟨S8192x128x1, .i32⟩
  | 87 => ⟨S_, .i32⟩
  | 88 => ⟨S8192x128x1, .i32⟩
  | 89 => ⟨S8192x128x1, .i1⟩
  | 90 => ⟨S_, .i32⟩
  | 91 => ⟨S8192x128x1, .i32⟩
  | 92 => ⟨S8192x128x1, .i32⟩
  | 93 => ⟨S8192x128x1, .i32⟩
  | 94 => ⟨S_, .i32⟩
  | 95 => ⟨S8192x128x2, .i32⟩
  | 96 => ⟨S8192x128x2, .i1⟩
  | 97 => ⟨S_, .i32⟩
  | 98 => ⟨S8192x128x2, .i32⟩
  | 99 => ⟨S8192x128x2, .i32⟩
  | 100 => ⟨S8192x128x2, .i32⟩
  | 101 => ⟨S8192x128x2, .i32⟩
  | 102 => ⟨S8192x128x2x1, .i32⟩
  | 103 => ⟨S8192x128x2x1, .i32⟩
  | 104 => ⟨S8192x128x2x2, .i32⟩
  | 105 => ⟨S8192x128x2x4, .f32⟩
  | 106 => ⟨S_, .i32⟩
  | 107 => ⟨S8192x128x1, .i32⟩
  | 108 => ⟨S8192x128x1, .i1⟩
  | 109 => ⟨S_, .i32⟩
  | 110 => ⟨S8192x128x1, .i32⟩
  | 111 => ⟨S8192x128x1, .i32⟩
  | 112 => ⟨S8192x128x1, .i32⟩
  | 113 => ⟨S_, .i32⟩
  | 114 => ⟨S8192x128x2, .i32⟩
  | 115 => ⟨S8192x128x2, .i1⟩
  | 116 => ⟨S_, .i32⟩
  | 117 => ⟨S8192x128x2, .i32⟩
  | 118 => ⟨S8192x128x2, .i32⟩
  | 119 => ⟨S8192x128x2, .i32⟩
  | 120 => ⟨S8192x128x2, .i32⟩
  | 121 => ⟨S8192x128x2x1, .i32⟩
  | 122 => ⟨S8192x128x2x1, .i32⟩
  | 123 => ⟨S8192x128x2x2, .i32⟩
  | 124 => ⟨S8192x128x2x4, .f32⟩
  | 125 => ⟨S8192x128x1x4, .f32⟩
  | 126 => ⟨S8192x128x4, .f32⟩
  | 127 => ⟨S8192x128x1x4, .f32⟩
  | _ => ⟨S8192x128x4, .f32⟩

abbrev hbmTy0_1 (i : Nat) : BufTy := match i % 128 with
  | 0 => ⟨S8192x128x4, .f32⟩
  | 1 => ⟨S8192x128x1x4, .f32⟩
  | 2 => ⟨S8192x128x4, .f32⟩
  | 3 => ⟨S8192x128x1x4, .f32⟩
  | 4 => ⟨S8192x128x4, .f32⟩
  | 5 => ⟨S8192x128x1, .f32⟩
  | 6 => ⟨S8192x128x1, .f32⟩
  | 7 => ⟨S_, .f32⟩
  | 8 => ⟨S8192x128x1, .f32⟩
  | 9 => ⟨S8192x128x1, .f32⟩
  | 10 => ⟨S8192x128x4, .f32⟩
  | 11 => ⟨S8192x128x4, .f32⟩
  | 12 => ⟨S8192x128x4, .f32⟩
  | 13 => ⟨S8192x128x4, .f32⟩
  | 14 => ⟨S8192x128x4, .f32⟩
  | 15 => ⟨S_, .f32⟩
  | 16 => ⟨S8192x128x1, .f32⟩
  | 17 => ⟨S8192x128x1, .f32⟩
  | 18 => ⟨S8192x128x4, .f32⟩
  | 19 => ⟨S8192x128x4, .f32⟩
  | 20 => ⟨S8192x128x4, .f32⟩
  | 21 => ⟨S8192x128x4, .f32⟩
  | 22 => ⟨S8192x128x4, .f32⟩
  | 23 => ⟨S_, .f32⟩
  | 24 => ⟨S8192x128x1, .f32⟩
  | 25 => ⟨S8192x128x1, .f32⟩
  | 26 => ⟨S8192x128x4, .f32⟩
  | 27 => ⟨S8192x128x4, .f32⟩
  | 28 => ⟨S8192x128x4, .f32⟩
  | 29 => ⟨S8192x128x4, .f32⟩
  | 30 => ⟨S8192x128x4, .f32⟩
  | 31 => ⟨S8192x128x1, .f32⟩
  | 32 => ⟨S8192x128, .f32⟩
  | 33 => ⟨S8192x128x1, .f32⟩
  | 34 => ⟨S8192x128, .f32⟩
  | 35 => ⟨S8192x128x1, .f32⟩
  | 36 => ⟨S8192x128, .f32⟩
  | 37 => ⟨S8192x128, .f32⟩
  | 38 => ⟨S8192x128, .f32⟩
  | _ => ⟨S8192x128x4, .f32⟩

abbrev hbmTy (i : Nat) : BufTy := match i / 128 with
  | 0 => hbmTy0_0 i
  | 1 => hbmTy0_1 i
  | _ => ⟨S8192x128x4, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | _, _ => ⟨S8192x128x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_cst_5 : Ref sig .tc := ⟨.hbm, 32, rfl⟩
abbrev main_v17 : Ref sig .tc := ⟨.hbm, 33, rfl⟩
abbrev main_v18 : Ref sig .tc := ⟨.hbm, 34, rfl⟩
abbrev main_cst_6 : Ref sig .tc := ⟨.hbm, 35, rfl⟩
abbrev main_v19 : Ref sig .tc := ⟨.hbm, 36, rfl⟩
abbrev main_v20 : Ref sig .tc := ⟨.hbm, 37, rfl⟩
abbrev main_cst_7 : Ref sig .tc := ⟨.hbm, 38, rfl⟩
abbrev main_cst_8 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v21 : Ref sig .tc := ⟨.hbm, 45, rfl⟩
abbrev main_cst_9 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c : Ref sig .tc := ⟨.hbm, 55, rfl⟩
abbrev main_c_10 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_c_11 : Ref sig .tc := ⟨.hbm, 65, rfl⟩
abbrev main_c_12 : Ref sig .tc := ⟨.hbm, 66, rfl⟩
abbrev main_call3_v0 : Ref sig .tc := ⟨.hbm, 67, rfl⟩
abbrev main_call3_v1 : Ref sig .tc := ⟨.hbm, 68, rfl⟩
abbrev main_call3_v2 : Ref sig .tc := ⟨.hbm, 69, rfl⟩
abbrev main_call3_v3 : Ref sig .tc := ⟨.hbm, 70, rfl⟩
abbrev main_call3_v4 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_c_13 : Ref sig .tc := ⟨.hbm, 84, rfl⟩
abbrev main_v45 : Ref sig .tc := ⟨.hbm, 85, rfl⟩
abbrev main_v46 : Ref sig .tc := ⟨.hbm, 86, rfl⟩
abbrev main_c_14 : Ref sig .tc := ⟨.hbm, 87, rfl⟩
abbrev main_v47 : Ref sig .tc := ⟨.hbm, 88, rfl⟩
abbrev main_v48 : Ref sig .tc := ⟨.hbm, 89, rfl⟩
abbrev main_c_15 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_c_16 : Ref sig .tc := ⟨.hbm, 94, rfl⟩
abbrev main_v52 : Ref sig .tc := ⟨.hbm, 95, rfl⟩
abbrev main_v53 : Ref sig .tc := ⟨.hbm, 96, rfl⟩
abbrev main_c_17 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_c_18 : Ref sig .tc := ⟨.hbm, 106, rfl⟩
abbrev main_v62 : Ref sig .tc := ⟨.hbm, 107, rfl⟩
abbrev main_v63 : Ref sig .tc := ⟨.hbm, 108, rfl⟩
abbrev main_c_19 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_c_20 : Ref sig .tc := ⟨.hbm, 113, rfl⟩
abbrev main_v67 : Ref sig .tc := ⟨.hbm, 114, rfl⟩
abbrev main_v68 : Ref sig .tc := ⟨.hbm, 115, rfl⟩
abbrev main_c_21 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_cst_22 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_cst_23 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_cst_24 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114_0 : Ref sig .tc := ⟨.hbm, 165, rfl⟩
abbrev main_v114_1 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S8192x128x4_S8192x128x1_0_0_0 : S8192x128x4.Slices ![0, 0, 0] S8192x128x1
  shapeCasts_S8192x128x1_S8192x128 : S8192x128x1.ShapeCasts S8192x128
  slices_S8192x128x4_S8192x128x1_0_0_1 : S8192x128x4.Slices ![0, 0, 1] S8192x128x1
  slices_S8192x128x4_S8192x128x1_0_0_2 : S8192x128x4.Slices ![0, 0, 2] S8192x128x1
  slices_S8192x128x4_S8192x128x1_0_0_3 : S8192x128x4.Slices ![0, 0, 3] S8192x128x1
  bcast_S_S8192x128 : S_.BroadcastsInDim S8192x128 (![] : Fin 0 → Fin S8192x128.rank)
  bcast_S_S2048x2048 : S_.BroadcastsInDim S2048x2048 (![] : Fin 0 → Fin S2048x2048.rank)
  bcast_S2048x2048_S2048x2048x1_0_1 : S2048x2048.BroadcastsInDim S2048x2048x1 (![0, 1] : Fin 2 → Fin S2048x2048x1.rank)
  concatenates_S2048x2048x1_S2048x2048x1_S2048x2048x1_S2048x2048x1_S2048x2048x4_d2 : Shape.Concatenates [S2048x2048x1, S2048x2048x1, S2048x2048x1, S2048x2048x1] S2048x2048x4 2
  bcast_S8192x128_S8192x128x1_0_1 : S8192x128.BroadcastsInDim S8192x128x1 (![0, 1] : Fin 2 → Fin S8192x128x1.rank)
  bcast_S2_S1x1x2_2 : S2.BroadcastsInDim S1x1x2 (![2] : Fin 1 → Fin S1x1x2.rank)
  bcast_S8192x128x1_S8192x128x2_0_1_2 : S8192x128x1.BroadcastsInDim S8192x128x2 (![0, 1, 2] : Fin 3 → Fin S8192x128x2.rank)
  bcast_S1x1x2_S8192x128x2_0_1_2 : S1x1x2.BroadcastsInDim S8192x128x2 (![0, 1, 2] : Fin 3 → Fin S8192x128x2.rank)
  bcast_S_S8192x128x1 : S_.BroadcastsInDim S8192x128x1 (![] : Fin 0 → Fin S8192x128x1.rank)
  bcast_S_S8192x128x2 : S_.BroadcastsInDim S8192x128x2 (![] : Fin 0 → Fin S8192x128x2.rank)
  bcast_S8192x128x2_S8192x128x2x1_0_1_2 : S8192x128x2.BroadcastsInDim S8192x128x2x1 (![0, 1, 2] : Fin 3 → Fin S8192x128x2x1.rank)
  concatenates_S8192x128x2x1_S8192x128x2x1_S8192x128x2x2_d3 : Shape.Concatenates [S8192x128x2x1, S8192x128x2x1] S8192x128x2x2 3
  slices_S8192x128x2x4_S8192x128x1x4_0_0_0_0 : S8192x128x2x4.Slices ![0, 0, 0, 0] S8192x128x1x4
  shapeCasts_S8192x128x1x4_S8192x128x4 : S8192x128x1x4.ShapeCasts S8192x128x4
  slices_S8192x128x2x4_S8192x128x1x4_0_0_1_0 : S8192x128x2x4.Slices ![0, 0, 1, 0] S8192x128x1x4
  bcast_S8192x128x1_S8192x128x4_0_1_2 : S8192x128x1.BroadcastsInDim S8192x128x4 (![0, 1, 2] : Fin 3 → Fin S8192x128x4.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  gather_S2048x2048x4_S8192x128x2x2_S8192x128x2x4_3_01_n_n_01_3_114_wf : GatherDims.WF S2048x2048x4 S8192x128x2x2 S8192x128x2x4 [3] [0, 1] [] [0, 1] [] 3 ![1, 1, 4]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S8192x128.size a
  hwx0_0 : ∀ i : grid0.Coords, EltTy.bits .f32 = 32 ∨ (Rect.block (s := S8192x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S8192x128.size a
  hwx0_1 : ∀ i : grid0.Coords, EltTy.bits .f32 = 32 ∨ (Rect.block (s := S8192x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S8192x128.size a
  hwx0_2 : ∀ i : grid0.Coords, EltTy.bits .f32 = 32 ∨ (Rect.block (s := S8192x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S8192x128.size a
  hwx0_3 : ∀ i : grid0.Coords, EltTy.bits .f32 = 32 ∨ (Rect.block (s := S8192x128) S2048x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S8192x128.size a
  hwx0_4 : ∀ i : grid0.Coords, EltTy.bits .f32 = 32 ∨ (Rect.block (s := S8192x128) S2048x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S8192x128.size a
  hwx0_5 : ∀ i : grid0.Coords, EltTy.bits .f32 = 32 ∨ (Rect.block (s := S8192x128) S2048x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x128.size a ≤ S8192x128.size a
  hwx0_6 : ∀ i : grid0.Coords, EltTy.bits .f32 = 32 ∨ (Rect.block (s := S8192x128) S2048x128.size (cc0_transform_6 i) (hinb0_6 i)).WholeWords (EltTy.packing .f32)

variable [Facts₀]

def gather_S2048x2048x4_S8192x128x2x2_S8192x128x2x4_3_01_n_n_01_3_114 : GatherDims S2048x2048x4 S8192x128x2x2 S8192x128x2x4 where
  offsetDims := [3]
  collapsedSliceDims := [0, 1]
  operandBatchingDims := []
  startIndicesBatchingDims := []
  startIndexMap := [0, 1]
  indexVectorDim := 3
  sliceSizes := ![1, 1, 4]
  wf := gather_S2048x2048x4_S8192x128x2x2_S8192x128x2x4_3_01_n_n_01_3_114_wf

abbrev win0_0 : Pipeline.Window sig grid0 :=
  Pipeline.Window.ofSpec (Memref.whole main_v109) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v111) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v113) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S2048x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v114_0) S2048x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v114_1) S2048x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x128x4 : Shape := ⟨3, ![8192, 128, 4]⟩
abbrev S2048x2048 : Shape := ⟨2, ![2048, 2048]⟩
abbrev S8192x128x2 : Shape := ⟨3, ![8192, 128, 2]⟩
abbrev S1048576x2 : Shape := ⟨2, ![1048576, 2]⟩
abbrev S1048576x1 : Shape := ⟨2, ![1048576, 1]⟩
abbrev S1048576 : Shape := ⟨1, ![1048576]⟩
abbrev S_ : Shape := ⟨0, ![]⟩
abbrev S8192x128 : Shape := ⟨2, ![8192, 128]⟩

abbrev nBuf : Space → Nat
  | .hbm => 494
  | .vmem => 0
  | .smem => 0
  | _ => 0

abbrev hbmTy0_0 (i : Nat) : BufTy := match i % 128 with
  | 0 => ⟨S8192x128x4, .f32⟩
  | 1 => ⟨S2048x2048, .f32⟩
  | 2 => ⟨S2048x2048, .f32⟩
  | 3 => ⟨S2048x2048, .f32⟩
  | 4 => ⟨S8192x128x2, .f32⟩
  | 5 => ⟨S1048576x2, .f32⟩
  | 6 => ⟨S8192x128x2, .f32⟩
  | 7 => ⟨S1048576x2, .f32⟩
  | 8 => ⟨S1048576x1, .f32⟩
  | 9 => ⟨S1048576, .f32⟩
  | 10 => ⟨S_, .f32⟩
  | 11 => ⟨S1048576, .f32⟩
  | 12 => ⟨S1048576, .f32⟩
  | 13 => ⟨S_, .f32⟩
  | 14 => ⟨S1048576, .f32⟩
  | 15 => ⟨S1048576, .f32⟩
  | 16 => ⟨S_, .f32⟩
  | 17 => ⟨S1048576, .f32⟩
  | 18 => ⟨S1048576, .f32⟩
  | 19 => ⟨S_, .f32⟩
  | 20 => ⟨S_, .f32⟩
  | 21 => ⟨S_, .f32⟩
  | 22 => ⟨S1048576, .f32⟩
  | 23 => ⟨S1048576, .f32⟩
  | 24 => ⟨S_, .f32⟩
  | 25 => ⟨S1048576, .f32⟩
  | 26 => ⟨S1048576, .f32⟩
  | 27 => ⟨S1048576x1, .f32⟩
  | 28 => ⟨S1048576, .f32⟩
  | 29 => ⟨S_, .f32⟩
  | 30 => ⟨S1048576, .f32⟩
  | 31 => ⟨S1048576, .f32⟩
  | 32 => ⟨S_, .f32⟩
  | 33 => ⟨S1048576, .f32⟩
  | 34 => ⟨S1048576, .f32⟩
  | 35 => ⟨S_, .f32⟩
  | 36 => ⟨S1048576, .f32⟩
  | 37 => ⟨S1048576, .f32⟩
  | 38 => ⟨S_, .f32⟩
  | 39 => ⟨S_, .f32⟩
  | 40 => ⟨S_, .f32⟩
  | 41 => ⟨S1048576, .f32⟩
  | 42 => ⟨S1048576, .f32⟩
  | 43 => ⟨S_, .f32⟩
  | 44 => ⟨S1048576, .f32⟩
  | 45 => ⟨S1048576, .f32⟩
  | 46 => ⟨S1048576, .f32⟩
  | 47 => ⟨S1048576, .i32⟩
  | 48 => ⟨S_, .i32⟩
  | 49 => ⟨S_, .i32⟩
  | 50 => ⟨S_, .i32⟩
  | 51 => ⟨S1048576, .i32⟩
  | 52 => ⟨S1048576, .i32⟩
  | 53 => ⟨S_, .i32⟩
  | 54 => ⟨S1048576, .i32⟩
  | 55 => ⟨S1048576, .i32⟩
  | 56 => ⟨S1048576, .f32⟩
  | 57 => ⟨S1048576, .i32⟩
  | 58 => ⟨S_, .i32⟩
  | 59 => ⟨S_, .i32⟩
  | 60 => ⟨S_, .i32⟩
  | 61 => ⟨S1048576, .i32⟩
  | 62 => ⟨S1048576, .i32⟩
  | 63 => ⟨S_, .i32⟩
  | 64 => ⟨S1048576, .i32⟩
  | 65 => ⟨S1048576, .i32⟩
  | 66 => ⟨S1048576, .f32⟩
  | 67 => ⟨S1048576, .f32⟩
  | 68 => ⟨S1048576, .f32⟩
  | 69 => ⟨S1048576, .f32⟩
  | 70 => ⟨S_, .i32⟩
  | 71 => ⟨S1048576, .i32⟩
  | 72 => ⟨S1048576, .i1⟩
  | 73 => ⟨S_, .i32⟩
  | 74 => ⟨S1048576, .i32⟩
  | 75 => ⟨S1048576, .i32⟩
  | 76 => ⟨S1048576, .i32⟩
  | 77 => ⟨S_, .i32⟩
  | 78 => ⟨S1048576, .i32⟩
  | 79 => ⟨S1048576, .i1⟩
  | 80 => ⟨S_, .i32⟩
  | 81 => ⟨S1048576, .i32⟩
  | 82 => ⟨S1048576, .i32⟩
  | 83 => ⟨S1048576, .i32⟩
  | 84 => ⟨S1048576x1, .i32⟩
  | 85 => ⟨S1048576x1, .i32⟩
  | 86 => ⟨S1048576x2, .i32⟩
  | 87 => ⟨S1048576, .f32⟩
  | 88 => ⟨S_, .i32⟩
  | 89 => ⟨S1048576, .i32⟩
  | 90 => ⟨S1048576, .i32⟩
  | 91 => ⟨S_, .i32⟩
  | 92 => ⟨S1048576, .i32⟩
  | 93 => ⟨S1048576, .i1⟩
  | 94 => ⟨S_, .i32⟩
  | 95 => ⟨S1048576, .i32⟩
  | 96 => ⟨S1048576, .i32⟩
  | 97 => ⟨S1048576, .i32⟩
  | 98 => ⟨S_, .i32⟩
  | 99 => ⟨S1048576, .i32⟩
  | 100 => ⟨S1048576, .i1⟩
  | 101 => ⟨S_, .i32⟩
  | 102 => ⟨S1048576, .i32⟩
  | 103 => ⟨S1048576, .i32⟩
  | 104 => ⟨S1048576, .i32⟩
  | 105 => ⟨S1048576x1, .i32⟩
  | 106 => ⟨S1048576x1, .i32⟩
  | 107 => ⟨S1048576x2, .i32⟩
  | 108 => ⟨S1048576, .f32⟩
  | 109 => ⟨S_, .i32⟩
  | 110 => ⟨S1048576, .i32⟩
  | 111 => ⟨S1048576, .i32⟩
  | 112 => ⟨S_, .i32⟩
  | 113 => ⟨S1048576, .i32⟩
  | 114 => ⟨S1048576, .i1⟩
  | 115 => ⟨S_, .i32⟩
  | 116 => ⟨S1048576, .i32⟩
  | 117 => ⟨S1048576, .i32⟩
  | 118 => ⟨S1048576, .i32⟩
  | 119 => ⟨S_, .i32⟩
  | 120 => ⟨S1048576, .i32⟩
  | 121 => ⟨S1048576, .i1⟩
  | 122 => ⟨S_, .i32⟩
  | 123 => ⟨S1048576, .i32⟩
  | 124 => ⟨S1048576, .i32⟩
  | 125 => ⟨S1048576, .i32⟩
  | 126 => ⟨S1048576x1, .i32⟩
  | 127 => ⟨S1048576x1, .i32⟩
  | _ => ⟨S8192x128x4, .f32⟩

abbrev hbmTy0_1 (i : Nat) : BufTy := match i % 128 with
  | 0 => ⟨S1048576x2, .i32⟩
  | 1 => ⟨S1048576, .f32⟩
  | 2 => ⟨S_, .i32⟩
  | 3 => ⟨S1048576, .i32⟩
  | 4 => ⟨S1048576, .i32⟩
  | 5 => ⟨S_, .i32⟩
  | 6 => ⟨S1048576, .i32⟩
  | 7 => ⟨S1048576, .i32⟩
  | 8 => ⟨S_, .i32⟩
  | 9 => ⟨S1048576, .i32⟩
  | 10 => ⟨S1048576, .i1⟩
  | 11 => ⟨S_, .i32⟩
  | 12 => ⟨S1048576, .i32⟩
  | 13 => ⟨S1048576, .i32⟩
  | 14 => ⟨S1048576, .i32⟩
  | 15 => ⟨S_, .i32⟩
  | 16 => ⟨S1048576, .i32⟩
  | 17 => ⟨S1048576, .i1⟩
  | 18 => ⟨S_, .i32⟩
  | 19 => ⟨S1048576, .i32⟩
  | 20 => ⟨S1048576, .i32⟩
  | 21 => ⟨S1048576, .i32⟩
  | 22 => ⟨S1048576x1, .i32⟩
  | 23 => ⟨S1048576x1, .i32⟩
  | 24 => ⟨S1048576x2, .i32⟩
  | 25 => ⟨S1048576, .f32⟩
  | 26 => ⟨S_, .f32⟩
  | 27 => ⟨S1048576, .f32⟩
  | 28 => ⟨S1048576, .f32⟩
  | 29 => ⟨S1048576, .f32⟩
  | 30 => ⟨S1048576, .f32⟩
  | 31 => ⟨S1048576, .f32⟩
  | 32 => ⟨S_, .f32⟩
  | 33 => ⟨S1048576, .f32⟩
  | 34 => ⟨S1048576, .f32⟩
  | 35 => ⟨S1048576, .f32⟩
  | 36 => ⟨S1048576, .f32⟩
  | 37 => ⟨S1048576, .f32⟩
  | 38 => ⟨S_, .f32⟩
  | 39 => ⟨S1048576, .f32⟩
  | 40 => ⟨S1048576, .f32⟩
  | 41 => ⟨S1048576, .f32⟩
  | 42 => ⟨S1048576, .f32⟩
  | 43 => ⟨S1048576, .f32⟩
  | 44 => ⟨S1048576, .f32⟩
  | 45 => ⟨S1048576, .i32⟩
  | 46 => ⟨S_, .i32⟩
  | 47 => ⟨S_, .i32⟩
  | 48 => ⟨S_, .i32⟩
  | 49 => ⟨S1048576, .i32⟩
  | 50 => ⟨S1048576, .i32⟩
  | 51 => ⟨S_, .i32⟩
  | 52 => ⟨S1048576, .i32⟩
  | 53 => ⟨S1048576, .i32⟩
  | 54 => ⟨S1048576, .f32⟩
  | 55 => ⟨S1048576, .i32⟩
  | 56 => ⟨S_, .i32⟩
  | 57 => ⟨S_, .i32⟩
  | 58 => ⟨S_, .i32⟩
  | 59 => ⟨S1048576, .i32⟩
  | 60 => ⟨S1048576, .i32⟩
  | 61 => ⟨S_, .i32⟩
  | 62 => ⟨S1048576, .i32⟩
  | 63 => ⟨S1048576, .i32⟩
  | 64 => ⟨S1048576, .f32⟩
  | 65 => ⟨S1048576, .f32⟩
  | 66 => ⟨S1048576, .f32⟩
  | 67 => ⟨S1048576, .f32⟩
  | 68 => ⟨S_, .i32⟩
  | 69 => ⟨S1048576, .i32⟩
  | 70 => ⟨S1048576, .i1⟩
  | 71 => ⟨S_, .i32⟩
  | 72 => ⟨S1048576, .i32⟩
  | 73 => ⟨S1048576, .i32⟩
  | 74 => ⟨S1048576, .i32⟩
  | 75 => ⟨S_, .i32⟩
  | 76 => ⟨S1048576, .i32⟩
  | 77 => ⟨S1048576, .i1⟩
  | 78 => ⟨S_, .i32⟩
  | 79 => ⟨S1048576, .i32⟩
  | 80 => ⟨S1048576, .i32⟩
  | 81 => ⟨S1048576, .i32⟩
  | 82 => ⟨S1048576x1, .i32⟩
  | 83 => ⟨S1048576x1, .i32⟩
  | 84 => ⟨S1048576x2, .i32⟩
  | 85 => ⟨S1048576, .f32⟩
  | 86 => ⟨S_, .i32⟩
  | 87 => ⟨S1048576, .i32⟩
  | 88 => ⟨S1048576, .i32⟩
  | 89 => ⟨S_, .i32⟩
  | 90 => ⟨S1048576, .i32⟩
  | 91 => ⟨S1048576, .i1⟩
  | 92 => ⟨S_, .i32⟩
  | 93 => ⟨S1048576, .i32⟩
  | 94 => ⟨S1048576, .i32⟩
  | 95 => ⟨S1048576, .i32⟩
  | 96 => ⟨S_, .i32⟩
  | 97 => ⟨S1048576, .i32⟩
  | 98 => ⟨S1048576, .i1⟩
  | 99 => ⟨S_, .i32⟩
  | 100 => ⟨S1048576, .i32⟩
  | 101 => ⟨S1048576, .i32⟩
  | 102 => ⟨S1048576, .i32⟩
  | 103 => ⟨S1048576x1, .i32⟩
  | 104 => ⟨S1048576x1, .i32⟩
  | 105 => ⟨S1048576x2, .i32⟩
  | 106 => ⟨S1048576, .f32⟩
  | 107 => ⟨S_, .i32⟩
  | 108 => ⟨S1048576, .i32⟩
  | 109 => ⟨S1048576, .i32⟩
  | 110 => ⟨S_, .i32⟩
  | 111 => ⟨S1048576, .i32⟩
  | 112 => ⟨S1048576, .i1⟩
  | 113 => ⟨S_, .i32⟩
  | 114 => ⟨S1048576, .i32⟩
  | 115 => ⟨S1048576, .i32⟩
  | 116 => ⟨S1048576, .i32⟩
  | 117 => ⟨S_, .i32⟩
  | 118 => ⟨S1048576, .i32⟩
  | 119 => ⟨S1048576, .i1⟩
  | 120 => ⟨S_, .i32⟩
  | 121 => ⟨S1048576, .i32⟩
  | 122 => ⟨S1048576, .i32⟩
  | 123 => ⟨S1048576, .i32⟩
  | 124 => ⟨S1048576x1, .i32⟩
  | 125 => ⟨S1048576x1, .i32⟩
  | 126 => ⟨S1048576x2, .i32⟩
  | 127 => ⟨S1048576, .f32⟩
  | _ => ⟨S8192x128x4, .f32⟩

abbrev hbmTy0_2 (i : Nat) : BufTy := match i % 128 with
  | 0 => ⟨S_, .i32⟩
  | 1 => ⟨S1048576, .i32⟩
  | 2 => ⟨S1048576, .i32⟩
  | 3 => ⟨S_, .i32⟩
  | 4 => ⟨S1048576, .i32⟩
  | 5 => ⟨S1048576, .i32⟩
  | 6 => ⟨S_, .i32⟩
  | 7 => ⟨S1048576, .i32⟩
  | 8 => ⟨S1048576, .i1⟩
  | 9 => ⟨S_, .i32⟩
  | 10 => ⟨S1048576, .i32⟩
  | 11 => ⟨S1048576, .i32⟩
  | 12 => ⟨S1048576, .i32⟩
  | 13 => ⟨S_, .i32⟩
  | 14 => ⟨S1048576, .i32⟩
  | 15 => ⟨S1048576, .i1⟩
  | 16 => ⟨S_, .i32⟩
  | 17 => ⟨S1048576, .i32⟩
  | 18 => ⟨S1048576, .i32⟩
  | 19 => ⟨S1048576, .i32⟩
  | 20 => ⟨S1048576x1, .i32⟩
  | 21 => ⟨S1048576x1, .i32⟩
  | 22 => ⟨S1048576x2, .i32⟩
  | 23 => ⟨S1048576, .f32⟩
  | 24 => ⟨S_, .f32⟩
  | 25 => ⟨S1048576, .f32⟩
  | 26 => ⟨S1048576, .f32⟩
  | 27 => ⟨S1048576, .f32⟩
  | 28 => ⟨S1048576, .f32⟩
  | 29 => ⟨S1048576, .f32⟩
  | 30 => ⟨S_, .f32⟩
  | 31 => ⟨S1048576, .f32⟩
  | 32 => ⟨S1048576, .f32⟩
  | 33 => ⟨S1048576, .f32⟩
  | 34 => ⟨S1048576, .f32⟩
  | 35 => ⟨S1048576, .f32⟩
  | 36 => ⟨S_, .f32⟩
  | 37 => ⟨S1048576, .f32⟩
  | 38 => ⟨S1048576, .f32⟩
  | 39 => ⟨S1048576, .f32⟩
  | 40 => ⟨S1048576, .f32⟩
  | 41 => ⟨S1048576, .f32⟩
  | 42 => ⟨S1048576, .f32⟩
  | 43 => ⟨S1048576, .i32⟩
  | 44 => ⟨S_, .i32⟩
  | 45 => ⟨S_, .i32⟩
  | 46 => ⟨S_, .i32⟩
  | 47 => ⟨S1048576, .i32⟩
  | 48 => ⟨S1048576, .i32⟩
  | 49 => ⟨S_, .i32⟩
  | 50 => ⟨S1048576, .i32⟩
  | 51 => ⟨S1048576, .i32⟩
  | 52 => ⟨S1048576, .f32⟩
  | 53 => ⟨S1048576, .i32⟩
  | 54 => ⟨S_, .i32⟩
  | 55 => ⟨S_, .i32⟩
  | 56 => ⟨S_, .i32⟩
  | 57 => ⟨S1048576, .i32⟩
  | 58 => ⟨S1048576, .i32⟩
  | 59 => ⟨S_, .i32⟩
  | 60 => ⟨S1048576, .i32⟩
  | 61 => ⟨S1048576, .i32⟩
  | 62 => ⟨S1048576, .f32⟩
  | 63 => ⟨S1048576, .f32⟩
  | 64 => ⟨S1048576, .f32⟩
  | 65 => ⟨S1048576, .f32⟩
  | 66 => ⟨S_, .i32⟩
  | 67 => ⟨S1048576, .i32⟩
  | 68 => ⟨S1048576, .i1⟩
  | 69 => ⟨S_, .i32⟩
  | 70 => ⟨S1048576, .i32⟩
  | 71 => ⟨S1048576, .i32⟩
  | 72 => ⟨S1048576, .i32⟩
  | 73 => ⟨S_, .i32⟩
  | 74 => ⟨S1048576, .i32⟩
  | 75 => ⟨S1048576, .i1⟩
  | 76 => ⟨S_, .i32⟩
  | 77 => ⟨S1048576, .i32⟩
  | 78 => ⟨S1048576, .i32⟩
  | 79 => ⟨S1048576, .i32⟩
  | 80 => ⟨S1048576x1, .i32⟩
  | 81 => ⟨S1048576x1, .i32⟩
  | 82 => ⟨S1048576x2, .i32⟩
  | 83 => ⟨S1048576, .f32⟩
  | 84 => ⟨S_, .i32⟩
  | 85 => ⟨S1048576, .i32⟩
  | 86 => ⟨S1048576, .i32⟩
  | 87 => ⟨S_, .i32⟩
  | 88 => ⟨S1048576, .i32⟩
  | 89 => ⟨S1048576, .i1⟩
  | 90 => ⟨S_, .i32⟩
  | 91 => ⟨S1048576, .i32⟩
  | 92 => ⟨S1048576, .i32⟩
  | 93 => ⟨S1048576, .i32⟩
  | 94 => ⟨S_, .i32⟩
  | 95 => ⟨S1048576, .i32⟩
  | 96 => ⟨S1048576, .i1⟩
  | 97 => ⟨S_, .i32⟩
  | 98 => ⟨S1048576, .i32⟩
  | 99 => ⟨S1048576, .i32⟩
  | 100 => ⟨S1048576, .i32⟩
  | 101 => ⟨S1048576x1, .i32⟩
  | 102 => ⟨S1048576x1, .i32⟩
  | 103 => ⟨S1048576x2, .i32⟩
  | 104 => ⟨S1048576, .f32⟩
  | 105 => ⟨S_, .i32⟩
  | 106 => ⟨S1048576, .i32⟩
  | 107 => ⟨S1048576, .i32⟩
  | 108 => ⟨S_, .i32⟩
  | 109 => ⟨S1048576, .i32⟩
  | 110 => ⟨S1048576, .i1⟩
  | 111 => ⟨S_, .i32⟩
  | 112 => ⟨S1048576, .i32⟩
  | 113 => ⟨S1048576, .i32⟩
  | 114 => ⟨S1048576, .i32⟩
  | 115 => ⟨S_, .i32⟩
  | 116 => ⟨S1048576, .i32⟩
  | 117 => ⟨S1048576, .i1⟩
  | 118 => ⟨S_, .i32⟩
  | 119 => ⟨S1048576, .i32⟩
  | 120 => ⟨S1048576, .i32⟩
  | 121 => ⟨S1048576, .i32⟩
  | 122 => ⟨S1048576x1, .i32⟩
  | 123 => ⟨S1048576x1, .i32⟩
  | 124 => ⟨S1048576x2, .i32⟩
  | 125 => ⟨S1048576, .f32⟩
  | 126 => ⟨S_, .i32⟩
  | 127 => ⟨S1048576, .i32⟩
  | _ => ⟨S8192x128x4, .f32⟩

abbrev hbmTy0_3 (i : Nat) : BufTy := match i % 128 with
  | 0 => ⟨S1048576, .i32⟩
  | 1 => ⟨S_, .i32⟩
  | 2 => ⟨S1048576, .i32⟩
  | 3 => ⟨S1048576, .i32⟩
  | 4 => ⟨S_, .i32⟩
  | 5 => ⟨S1048576, .i32⟩
  | 6 => ⟨S1048576, .i1⟩
  | 7 => ⟨S_, .i32⟩
  | 8 => ⟨S1048576, .i32⟩
  | 9 => ⟨S1048576, .i32⟩
  | 10 => ⟨S1048576, .i32⟩
  | 11 => ⟨S_, .i32⟩
  | 12 => ⟨S1048576, .i32⟩
  | 13 => ⟨S1048576, .i1⟩
  | 14 => ⟨S_, .i32⟩
  | 15 => ⟨S1048576, .i32⟩
  | 16 => ⟨S1048576, .i32⟩
  | 17 => ⟨S1048576, .i32⟩
  | 18 => ⟨S1048576x1, .i32⟩
  | 19 => ⟨S1048576x1, .i32⟩
  | 20 => ⟨S1048576x2, .i32⟩
  | 21 => ⟨S1048576, .f32⟩
  | 22 => ⟨S_, .f32⟩
  | 23 => ⟨S1048576, .f32⟩
  | 24 => ⟨S1048576, .f32⟩
  | 25 => ⟨S1048576, .f32⟩
  | 26 => ⟨S1048576, .f32⟩
  | 27 => ⟨S1048576, .f32⟩
  | 28 => ⟨S_, .f32⟩
  | 29 => ⟨S1048576, .f32⟩
  | 30 => ⟨S1048576, .f32⟩
  | 31 => ⟨S1048576, .f32⟩
  | 32 => ⟨S1048576, .f32⟩
  | 33 => ⟨S1048576, .f32⟩
  | 34 => ⟨S_, .f32⟩
  | 35 => ⟨S1048576, .f32⟩
  | 36 => ⟨S1048576, .f32⟩
  | 37 => ⟨S1048576, .f32⟩
  | 38 => ⟨S1048576, .f32⟩
  | 39 => ⟨S1048576, .f32⟩
  | 40 => ⟨S1048576x2, .f32⟩
  | 41 => ⟨S_, .f32⟩
  | 42 => ⟨S1048576, .f32⟩
  | 43 => ⟨S1048576, .f32⟩
  | 44 => ⟨S1048576, .f32⟩
  | 45 => ⟨S1048576, .f32⟩
  | 46 => ⟨S1048576, .f32⟩
  | 47 => ⟨S1048576, .f32⟩
  | 48 => ⟨S1048576x1, .f32⟩
  | 49 => ⟨S1048576, .f32⟩
  | 50 => ⟨S1048576, .f32⟩
  | 51 => ⟨S1048576x1, .f32⟩
  | 52 => ⟨S1048576, .f32⟩
  | 53 => ⟨S1048576, .f32⟩
  | 54 => ⟨S1048576, .f32⟩
  | 55 => ⟨S1048576, .f32⟩
  | 56 => ⟨S_, .f32⟩
  | 57 => ⟨S1048576, .f32⟩
  | 58 => ⟨S1048576, .f32⟩
  | 59 => ⟨S1048576, .f32⟩
  | 60 => ⟨S_, .f32⟩
  | 61 => ⟨S_, .f32⟩
  | 62 => ⟨S_, .f32⟩
  | 63 => ⟨S1048576, .f32⟩
  | 64 => ⟨S1048576, .f32⟩
  | 65 => ⟨S_, .f32⟩
  | 66 => ⟨S1048576, .f32⟩
  | 67 => ⟨S1048576, .f32⟩
  | 68 => ⟨S1048576, .f32⟩
  | 69 => ⟨S_, .f32⟩
  | 70 => ⟨S1048576, .f32⟩
  | 71 => ⟨S1048576, .f32⟩
  | 72 => ⟨S_, .f32⟩
  | 73 => ⟨S1048576, .f32⟩
  | 74 => ⟨S1048576, .f32⟩
  | 75 => ⟨S1048576, .f32⟩
  | 76 => ⟨S1048576, .f32⟩
  | 77 => ⟨S_, .f32⟩
  | 78 => ⟨S1048576, .f32⟩
  | 79 => ⟨S1048576, .f32⟩
  | 80 => ⟨S_, .f32⟩
  | 81 => ⟨S1048576, .f32⟩
  | 82 => ⟨S1048576, .f32⟩
  | 83 => ⟨S1048576, .f32⟩
  | 84 => ⟨S_, .f32⟩
  | 85 => ⟨S1048576, .f32⟩
  | 86 => ⟨S1048576, .f32⟩
  | 87 => ⟨S_, .f32⟩
  | 88 => ⟨S1048576, .f32⟩
  | 89 => ⟨S1048576, .f32⟩
  | 90 => ⟨S_, .f32⟩
  | 91 => ⟨S1048576, .f32⟩
  | 92 => ⟨S1048576, .f32⟩
  | 93 => ⟨S_, .f32⟩
  | 94 => ⟨S1048576, .f32⟩
  | 95 => ⟨S1048576, .f32⟩
  | 96 => ⟨S_, .f32⟩
  | 97 => ⟨S1048576, .f32⟩
  | 98 => ⟨S1048576, .f32⟩
  | 99 => ⟨S1048576, .f32⟩
  | 100 => ⟨S1048576, .f32⟩
  | 101 => ⟨S1048576, .f32⟩
  | 102 => ⟨S_, .f32⟩
  | 103 => ⟨S1048576, .f32⟩
  | 104 => ⟨S1048576, .f32⟩
  | 105 => ⟨S8192x128, .f32⟩
  | 106 => ⟨S_, .f32⟩
  | 107 => ⟨S1048576, .f32⟩
  | 108 => ⟨S1048576, .f32⟩
  | 109 => ⟨S8192x128, .f32⟩
  | _ => ⟨S8192x128x4, .f32⟩

abbrev hbmTy (i : Nat) : BufTy := match i / 128 with
  | 0 => hbmTy0_0 i
  | 1 => hbmTy0_1 i
  | 2 => hbmTy0_2 i
  | 3 => hbmTy0_3 i
  | _ => ⟨S8192x128x4, .f32⟩

abbrev bufTy : (tb : Table) → Fin (tcTables nBuf tb) → BufTy
  | .hbm, ⟨i, _⟩ => hbmTy i
  | _, _ => ⟨S8192x128x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_cst_3 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_cst_5 : Ref sig .tc := ⟨.hbm, 32, rfl⟩
abbrev main_v17 : Ref sig .tc := ⟨.hbm, 33, rfl⟩
abbrev main_v18 : Ref sig .tc := ⟨.hbm, 34, rfl⟩
abbrev main_cst_6 : Ref sig .tc := ⟨.hbm, 35, rfl⟩
abbrev main_v19 : Ref sig .tc := ⟨.hbm, 36, rfl⟩
abbrev main_v20 : Ref sig .tc := ⟨.hbm, 37, rfl⟩
abbrev main_cst_7 : Ref sig .tc := ⟨.hbm, 38, rfl⟩
abbrev main_cst_8 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c : Ref sig .tc := ⟨.hbm, 48, rfl⟩
abbrev main_c_9 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_c_10 : Ref sig .tc := ⟨.hbm, 58, rfl⟩
abbrev main_c_11 : Ref sig .tc := ⟨.hbm, 59, rfl⟩
abbrev main_call3_v0 : Ref sig .tc := ⟨.hbm, 60, rfl⟩
abbrev main_call3_v1 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_c_12 : Ref sig .tc := ⟨.hbm, 70, rfl⟩
abbrev main_v32 : Ref sig .tc := ⟨.hbm, 71, rfl⟩
abbrev main_v33 : Ref sig .tc := ⟨.hbm, 72, rfl⟩
abbrev main_c_13 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_c_14 : Ref sig .tc := ⟨.hbm, 77, rfl⟩
abbrev main_v37 : Ref sig .tc := ⟨.hbm, 78, rfl⟩
abbrev main_v38 : Ref sig .tc := ⟨.hbm, 79, rfl⟩
abbrev main_c_15 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_c_16 : Ref sig .tc := ⟨.hbm, 88, rfl⟩
abbrev main_v46 : Ref sig .tc := ⟨.hbm, 89, rfl⟩
abbrev main_v47 : Ref sig .tc := ⟨.hbm, 90, rfl⟩
abbrev main_c_17 : Ref sig .tc := ⟨.hbm, 91, rfl⟩
abbrev main_v48 : Ref sig .tc := ⟨.hbm, 92, rfl⟩
abbrev main_v49 : Ref sig .tc := ⟨.hbm, 93, rfl⟩
abbrev main_c_18 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_c_19 : Ref sig .tc := ⟨.hbm, 98, rfl⟩
abbrev main_v53 : Ref sig .tc := ⟨.hbm, 99, rfl⟩
abbrev main_v54 : Ref sig .tc := ⟨.hbm, 100, rfl⟩
abbrev main_c_20 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_c_21 : Ref sig .tc := ⟨.hbm, 109, rfl⟩
abbrev main_v62 : Ref sig .tc := ⟨.hbm, 110, rfl⟩
abbrev main_v63 : Ref sig .tc := ⟨.hbm, 111, rfl⟩
abbrev main_c_22 : Ref sig .tc := ⟨.hbm, 112, rfl⟩
abbrev main_v64 : Ref sig .tc := ⟨.hbm, 113, rfl⟩
abbrev main_v65 : Ref sig .tc := ⟨.hbm, 114, rfl⟩
abbrev main_c_23 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_c_24 : Ref sig .tc := ⟨.hbm, 119, rfl⟩
abbrev main_v69 : Ref sig .tc := ⟨.hbm, 120, rfl⟩
abbrev main_v70 : Ref sig .tc := ⟨.hbm, 121, rfl⟩
abbrev main_c_25 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_c_26 : Ref sig .tc := ⟨.hbm, 130, rfl⟩
abbrev main_v78 : Ref sig .tc := ⟨.hbm, 131, rfl⟩
abbrev main_v79 : Ref sig .tc := ⟨.hbm, 132, rfl⟩
abbrev main_c_27 : Ref sig .tc := ⟨.hbm, 133, rfl⟩
abbrev main_v80 : Ref sig .tc := ⟨.hbm, 134, rfl⟩
abbrev main_v81 : Ref sig .tc := ⟨.hbm, 135, rfl⟩
abbrev main_c_28 : Ref sig .tc := ⟨.hbm, 136, rfl⟩
abbrev main_v82 : Ref sig .tc := ⟨.hbm, 137, rfl⟩
abbrev main_v83 : Ref sig .tc := ⟨.hbm, 138, rfl⟩
abbrev main_c_29 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_c_30 : Ref sig .tc := ⟨.hbm, 143, rfl⟩
abbrev main_v87 : Ref sig .tc := ⟨.hbm, 144, rfl⟩
abbrev main_v88 : Ref sig .tc := ⟨.hbm, 145, rfl⟩
abbrev main_c_31 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_cst_32 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_cst_33 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_cst_34 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_c_35 : Ref sig .tc := ⟨.hbm, 174, rfl⟩
abbrev main_c_36 : Ref sig .tc := ⟨.hbm, 175, rfl⟩
abbrev main_call4_v0 : Ref sig .tc := ⟨.hbm, 176, rfl⟩
abbrev main_call4_v1 : Ref sig .tc := ⟨.hbm, 177, rfl⟩
abbrev main_call4_v2 : Ref sig .tc := ⟨.hbm, 178, rfl⟩
abbrev main_call4_v3 : Ref sig .tc := ⟨.hbm, 179, rfl⟩
abbrev main_call4_v4 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_c_37 : Ref sig .tc := ⟨.hbm, 184, rfl⟩
abbrev main_c_38 : Ref sig .tc := ⟨.hbm, 185, rfl⟩
abbrev main_call5_v0 : Ref sig .tc := ⟨.hbm, 186, rfl⟩
abbrev main_call5_v1 : Ref sig .tc := ⟨.hbm, 187, rfl⟩
abbrev main_call5_v2 : Ref sig .tc := ⟨.hbm, 188, rfl⟩
abbrev main_call5_v3 : Ref sig .tc := ⟨.hbm, 189, rfl⟩
abbrev main_call5_v4 : Ref sig .tc := ⟨.hbm, 190, rfl⟩
abbrev main_v116 : Ref sig .tc := ⟨.hbm, 191, rfl⟩
abbrev main_v117 : Ref sig .tc := ⟨.hbm, 192, rfl⟩
abbrev main_v118 : Ref sig .tc := ⟨.hbm, 193, rfl⟩
abbrev main_v119 : Ref sig .tc := ⟨.hbm, 194, rfl⟩
abbrev main_v120 : Ref sig .tc := ⟨.hbm, 195, rfl⟩
abbrev main_c_39 : Ref sig .tc := ⟨.hbm, 196, rfl⟩
abbrev main_v121 : Ref sig .tc := ⟨.hbm, 197, rfl⟩
abbrev main_v122 : Ref sig .tc := ⟨.hbm, 198, rfl⟩
abbrev main_c_40 : Ref sig .tc := ⟨.hbm, 199, rfl⟩
abbrev main_v123 : Ref sig .tc := ⟨.hbm, 200, rfl⟩
abbrev main_v124 : Ref sig .tc := ⟨.hbm, 201, rfl⟩
abbrev main_v125 : Ref sig .tc := ⟨.hbm, 202, rfl⟩
abbrev main_c_41 : Ref sig .tc := ⟨.hbm, 203, rfl⟩
abbrev main_v126 : Ref sig .tc := ⟨.hbm, 204, rfl⟩
abbrev main_v127 : Ref sig .tc := ⟨.hbm, 205, rfl⟩
abbrev main_c_42 : Ref sig .tc := ⟨.hbm, 206, rfl⟩
abbrev main_v128 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_v133 : Ref sig .tc := ⟨.hbm, 212, rfl⟩
abbrev main_v134 : Ref sig .tc := ⟨.hbm, 213, rfl⟩
abbrev main_c_43 : Ref sig .tc := ⟨.hbm, 214, rfl⟩
abbrev main_v135 : Ref sig .tc := ⟨.hbm, 215, rfl⟩
abbrev main_v136 : Ref sig .tc := ⟨.hbm, 216, rfl⟩
abbrev main_c_44 : Ref sig .tc := ⟨.hbm, 217, rfl⟩
abbrev main_v137 : Ref sig .tc := ⟨.hbm, 218, rfl⟩
abbrev main_v138 : Ref sig .tc := ⟨.hbm, 219, rfl⟩
abbrev main_c_45 : Ref sig .tc := ⟨.hbm, 220, rfl⟩
abbrev main_v139 : Ref sig .tc := ⟨.hbm, 221, rfl⟩
abbrev main_v140 : Ref sig .tc := ⟨.hbm, 222, rfl⟩
abbrev main_v141 : Ref sig .tc := ⟨.hbm, 223, rfl⟩
abbrev main_c_46 : Ref sig .tc := ⟨.hbm, 224, rfl⟩
abbrev main_v142 : Ref sig .tc := ⟨.hbm, 225, rfl⟩
abbrev main_v143 : Ref sig .tc := ⟨.hbm, 226, rfl⟩
abbrev main_c_47 : Ref sig .tc := ⟨.hbm, 227, rfl⟩
abbrev main_v144 : Ref sig .tc := ⟨.hbm, 228, rfl⟩
abbrev main_v145 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_v149 : Ref sig .tc := ⟨.hbm, 233, rfl⟩
abbrev main_v150 : Ref sig .tc := ⟨.hbm, 234, rfl⟩
abbrev main_c_48 : Ref sig .tc := ⟨.hbm, 235, rfl⟩
abbrev main_v151 : Ref sig .tc := ⟨.hbm, 236, rfl⟩
abbrev main_v152 : Ref sig .tc := ⟨.hbm, 237, rfl⟩
abbrev main_c_49 : Ref sig .tc := ⟨.hbm, 238, rfl⟩
abbrev main_v153 : Ref sig .tc := ⟨.hbm, 239, rfl⟩
abbrev main_v154 : Ref sig .tc := ⟨.hbm, 240, rfl⟩
abbrev main_c_50 : Ref sig .tc := ⟨.hbm, 241, rfl⟩
abbrev main_v155 : Ref sig .tc := ⟨.hbm, 242, rfl⟩
abbrev main_v156 : Ref sig .tc := ⟨.hbm, 243, rfl⟩
abbrev main_v157 : Ref sig .tc := ⟨.hbm, 244, rfl⟩
abbrev main_c_51 : Ref sig .tc := ⟨.hbm, 245, rfl⟩
abbrev main_v158 : Ref sig .tc := ⟨.hbm, 246, rfl⟩
abbrev main_v159 : Ref sig .tc := ⟨.hbm, 247, rfl⟩
abbrev main_c_52 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_v163 : Ref sig .tc := ⟨.hbm, 252, rfl⟩
abbrev main_v164 : Ref sig .tc := ⟨.hbm, 253, rfl⟩
abbrev main_v165 : Ref sig .tc := ⟨.hbm, 254, rfl⟩
abbrev main_v166 : Ref sig .tc := ⟨.hbm, 255, rfl⟩
abbrev main_c_53 : Ref sig .tc := ⟨.hbm, 256, rfl⟩
abbrev main_v167 : Ref sig .tc := ⟨.hbm, 257, rfl⟩
abbrev main_v168 : Ref sig .tc := ⟨.hbm, 258, rfl⟩
abbrev main_c_54 : Ref sig .tc := ⟨.hbm, 259, rfl⟩
abbrev main_v169 : Ref sig .tc := ⟨.hbm, 260, rfl⟩
abbrev main_v170 : Ref sig .tc := ⟨.hbm, 261, rfl⟩
abbrev main_c_55 : Ref sig .tc := ⟨.hbm, 262, rfl⟩
abbrev main_v171 : Ref sig .tc := ⟨.hbm, 263, rfl⟩
abbrev main_v172 : Ref sig .tc := ⟨.hbm, 264, rfl⟩
abbrev main_c_56 : Ref sig .tc := ⟨.hbm, 265, rfl⟩
abbrev main_v173 : Ref sig .tc := ⟨.hbm, 266, rfl⟩
abbrev main_v174 : Ref sig .tc := ⟨.hbm, 267, rfl⟩
abbrev main_v175 : Ref sig .tc := ⟨.hbm, 268, rfl⟩
abbrev main_c_57 : Ref sig .tc := ⟨.hbm, 269, rfl⟩
abbrev main_v176 : Ref sig .tc := ⟨.hbm, 270, rfl⟩
abbrev main_v177 : Ref sig .tc := ⟨.hbm, 271, rfl⟩
abbrev main_c_58 : Ref sig .tc := ⟨.hbm, 272, rfl⟩
abbrev main_v178 : Ref sig .tc := ⟨.hbm, 273, rfl⟩
abbrev main_v179 : Ref sig .tc := ⟨.hbm, 274, rfl⟩
abbrev main_v180 : Ref sig .tc := ⟨.hbm, 275, rfl⟩
abbrev main_v181 : Ref sig .tc := ⟨.hbm, 276, rfl⟩
abbrev main_v182 : Ref sig .tc := ⟨.hbm, 277, rfl⟩
abbrev main_v183 : Ref sig .tc := ⟨.hbm, 278, rfl⟩
abbrev main_v184 : Ref sig .tc := ⟨.hbm, 279, rfl⟩
abbrev main_cst_59 : Ref sig .tc := ⟨.hbm, 280, rfl⟩
abbrev main_v185 : Ref sig .tc := ⟨.hbm, 281, rfl⟩
abbrev main_v186 : Ref sig .tc := ⟨.hbm, 282, rfl⟩
abbrev main_v187 : Ref sig .tc := ⟨.hbm, 283, rfl⟩
abbrev main_v188 : Ref sig .tc := ⟨.hbm, 284, rfl⟩
abbrev main_v189 : Ref sig .tc := ⟨.hbm, 285, rfl⟩
abbrev main_cst_60 : Ref sig .tc := ⟨.hbm, 286, rfl⟩
abbrev main_v190 : Ref sig .tc := ⟨.hbm, 287, rfl⟩
abbrev main_v191 : Ref sig .tc := ⟨.hbm, 288, rfl⟩
abbrev main_v192 : Ref sig .tc := ⟨.hbm, 289, rfl⟩
abbrev main_v193 : Ref sig .tc := ⟨.hbm, 290, rfl⟩
abbrev main_v194 : Ref sig .tc := ⟨.hbm, 291, rfl⟩
abbrev main_cst_61 : Ref sig .tc := ⟨.hbm, 292, rfl⟩
abbrev main_v195 : Ref sig .tc := ⟨.hbm, 293, rfl⟩
abbrev main_v196 : Ref sig .tc := ⟨.hbm, 294, rfl⟩
abbrev main_v197 : Ref sig .tc := ⟨.hbm, 295, rfl⟩
abbrev main_v198 : Ref sig .tc := ⟨.hbm, 296, rfl⟩
abbrev main_v199 : Ref sig .tc := ⟨.hbm, 297, rfl⟩
abbrev main_v200 : Ref sig .tc := ⟨.hbm, 298, rfl⟩
abbrev main_v201 : Ref sig .tc := ⟨.hbm, 299, rfl⟩
abbrev main_c_62 : Ref sig .tc := ⟨.hbm, 300, rfl⟩
abbrev main_c_63 : Ref sig .tc := ⟨.hbm, 301, rfl⟩
abbrev main_call6_v0 : Ref sig .tc := ⟨.hbm, 302, rfl⟩
abbrev main_call6_v1 : Ref sig .tc := ⟨.hbm, 303, rfl⟩
abbrev main_call6_v2 : Ref sig .tc := ⟨.hbm, 304, rfl⟩
abbrev main_call6_v3 : Ref sig .tc := ⟨.hbm, 305, rfl⟩
abbrev main_call6_v4 : Ref sig .tc := ⟨.hbm, 306, rfl⟩
abbrev main_v202 : Ref sig .tc := ⟨.hbm, 307, rfl⟩
abbrev main_v203 : Ref sig .tc := ⟨.hbm, 308, rfl⟩
abbrev main_v204 : Ref sig .tc := ⟨.hbm, 309, rfl⟩
abbrev main_c_64 : Ref sig .tc := ⟨.hbm, 310, rfl⟩
abbrev main_c_65 : Ref sig .tc := ⟨.hbm, 311, rfl⟩
abbrev main_call7_v0 : Ref sig .tc := ⟨.hbm, 312, rfl⟩
abbrev main_call7_v1 : Ref sig .tc := ⟨.hbm, 313, rfl⟩
abbrev main_call7_v2 : Ref sig .tc := ⟨.hbm, 314, rfl⟩
abbrev main_call7_v3 : Ref sig .tc := ⟨.hbm, 315, rfl⟩
abbrev main_call7_v4 : Ref sig .tc := ⟨.hbm, 316, rfl⟩
abbrev main_v205 : Ref sig .tc := ⟨.hbm, 317, rfl⟩
abbrev main_v206 : Ref sig .tc := ⟨.hbm, 318, rfl⟩
abbrev main_v207 : Ref sig .tc := ⟨.hbm, 319, rfl⟩
abbrev main_v208 : Ref sig .tc := ⟨.hbm, 320, rfl⟩
abbrev main_v209 : Ref sig .tc := ⟨.hbm, 321, rfl⟩
abbrev main_c_66 : Ref sig .tc := ⟨.hbm, 322, rfl⟩
abbrev main_v210 : Ref sig .tc := ⟨.hbm, 323, rfl⟩
abbrev main_v211 : Ref sig .tc := ⟨.hbm, 324, rfl⟩
abbrev main_c_67 : Ref sig .tc := ⟨.hbm, 325, rfl⟩
abbrev main_v212 : Ref sig .tc := ⟨.hbm, 326, rfl⟩
abbrev main_v213 : Ref sig .tc := ⟨.hbm, 327, rfl⟩
abbrev main_v214 : Ref sig .tc := ⟨.hbm, 328, rfl⟩
abbrev main_c_68 : Ref sig .tc := ⟨.hbm, 329, rfl⟩
abbrev main_v215 : Ref sig .tc := ⟨.hbm, 330, rfl⟩
abbrev main_v216 : Ref sig .tc := ⟨.hbm, 331, rfl⟩
abbrev main_c_69 : Ref sig .tc := ⟨.hbm, 332, rfl⟩
abbrev main_v217 : Ref sig .tc := ⟨.hbm, 333, rfl⟩
abbrev main_v218 : Ref sig .tc := ⟨.hbm, 334, rfl⟩
abbrev main_v219 : Ref sig .tc := ⟨.hbm, 335, rfl⟩
abbrev main_v220 : Ref sig .tc := ⟨.hbm, 336, rfl⟩
abbrev main_v221 : Ref sig .tc := ⟨.hbm, 337, rfl⟩
abbrev main_v222 : Ref sig .tc := ⟨.hbm, 338, rfl⟩
abbrev main_v223 : Ref sig .tc := ⟨.hbm, 339, rfl⟩
abbrev main_c_70 : Ref sig .tc := ⟨.hbm, 340, rfl⟩
abbrev main_v224 : Ref sig .tc := ⟨.hbm, 341, rfl⟩
abbrev main_v225 : Ref sig .tc := ⟨.hbm, 342, rfl⟩
abbrev main_c_71 : Ref sig .tc := ⟨.hbm, 343, rfl⟩
abbrev main_v226 : Ref sig .tc := ⟨.hbm, 344, rfl⟩
abbrev main_v227 : Ref sig .tc := ⟨.hbm, 345, rfl⟩
abbrev main_c_72 : Ref sig .tc := ⟨.hbm, 346, rfl⟩
abbrev main_v228 : Ref sig .tc := ⟨.hbm, 347, rfl⟩
abbrev main_v229 : Ref sig .tc := ⟨.hbm, 348, rfl⟩
abbrev main_v230 : Ref sig .tc := ⟨.hbm, 349, rfl⟩
abbrev main_c_73 : Ref sig .tc := ⟨.hbm, 350, rfl⟩
abbrev main_v231 : Ref sig .tc := ⟨.hbm, 351, rfl⟩
abbrev main_v232 : Ref sig .tc := ⟨.hbm, 352, rfl⟩
abbrev main_c_74 : Ref sig .tc := ⟨.hbm, 353, rfl⟩
abbrev main_v233 : Ref sig .tc := ⟨.hbm, 354, rfl⟩
abbrev main_v234 : Ref sig .tc := ⟨.hbm, 355, rfl⟩
abbrev main_v235 : Ref sig .tc := ⟨.hbm, 356, rfl⟩
abbrev main_v236 : Ref sig .tc := ⟨.hbm, 357, rfl⟩
abbrev main_v237 : Ref sig .tc := ⟨.hbm, 358, rfl⟩
abbrev main_v238 : Ref sig .tc := ⟨.hbm, 359, rfl⟩
abbrev main_v239 : Ref sig .tc := ⟨.hbm, 360, rfl⟩
abbrev main_c_75 : Ref sig .tc := ⟨.hbm, 361, rfl⟩
abbrev main_v240 : Ref sig .tc := ⟨.hbm, 362, rfl⟩
abbrev main_v241 : Ref sig .tc := ⟨.hbm, 363, rfl⟩
abbrev main_c_76 : Ref sig .tc := ⟨.hbm, 364, rfl⟩
abbrev main_v242 : Ref sig .tc := ⟨.hbm, 365, rfl⟩
abbrev main_v243 : Ref sig .tc := ⟨.hbm, 366, rfl⟩
abbrev main_c_77 : Ref sig .tc := ⟨.hbm, 367, rfl⟩
abbrev main_v244 : Ref sig .tc := ⟨.hbm, 368, rfl⟩
abbrev main_v245 : Ref sig .tc := ⟨.hbm, 369, rfl⟩
abbrev main_v246 : Ref sig .tc := ⟨.hbm, 370, rfl⟩
abbrev main_c_78 : Ref sig .tc := ⟨.hbm, 371, rfl⟩
abbrev main_v247 : Ref sig .tc := ⟨.hbm, 372, rfl⟩
abbrev main_v248 : Ref sig .tc := ⟨.hbm, 373, rfl⟩
abbrev main_c_79 : Ref sig .tc := ⟨.hbm, 374, rfl⟩
abbrev main_v249 : Ref sig .tc := ⟨.hbm, 375, rfl⟩
abbrev main_v250 : Ref sig .tc := ⟨.hbm, 376, rfl⟩
abbrev main_v251 : Ref sig .tc := ⟨.hbm, 377, rfl⟩
abbrev main_v252 : Ref sig .tc := ⟨.hbm, 378, rfl⟩
abbrev main_v253 : Ref sig .tc := ⟨.hbm, 379, rfl⟩
abbrev main_v254 : Ref sig .tc := ⟨.hbm, 380, rfl⟩
abbrev main_v255 : Ref sig .tc := ⟨.hbm, 381, rfl⟩
abbrev main_c_80 : Ref sig .tc := ⟨.hbm, 382, rfl⟩
abbrev main_v256 : Ref sig .tc := ⟨.hbm, 383, rfl⟩
abbrev main_v257 : Ref sig .tc := ⟨.hbm, 384, rfl⟩
abbrev main_c_81 : Ref sig .tc := ⟨.hbm, 385, rfl⟩
abbrev main_v258 : Ref sig .tc := ⟨.hbm, 386, rfl⟩
abbrev main_v259 : Ref sig .tc := ⟨.hbm, 387, rfl⟩
abbrev main_c_82 : Ref sig .tc := ⟨.hbm, 388, rfl⟩
abbrev main_v260 : Ref sig .tc := ⟨.hbm, 389, rfl⟩
abbrev main_v261 : Ref sig .tc := ⟨.hbm, 390, rfl⟩
abbrev main_c_83 : Ref sig .tc := ⟨.hbm, 391, rfl⟩
abbrev main_v262 : Ref sig .tc := ⟨.hbm, 392, rfl⟩
abbrev main_v263 : Ref sig .tc := ⟨.hbm, 393, rfl⟩
abbrev main_v264 : Ref sig .tc := ⟨.hbm, 394, rfl⟩
abbrev main_c_84 : Ref sig .tc := ⟨.hbm, 395, rfl⟩
abbrev main_v265 : Ref sig .tc := ⟨.hbm, 396, rfl⟩
abbrev main_v266 : Ref sig .tc := ⟨.hbm, 397, rfl⟩
abbrev main_c_85 : Ref sig .tc := ⟨.hbm, 398, rfl⟩
abbrev main_v267 : Ref sig .tc := ⟨.hbm, 399, rfl⟩
abbrev main_v268 : Ref sig .tc := ⟨.hbm, 400, rfl⟩
abbrev main_v269 : Ref sig .tc := ⟨.hbm, 401, rfl⟩
abbrev main_v270 : Ref sig .tc := ⟨.hbm, 402, rfl⟩
abbrev main_v271 : Ref sig .tc := ⟨.hbm, 403, rfl⟩
abbrev main_v272 : Ref sig .tc := ⟨.hbm, 404, rfl⟩
abbrev main_v273 : Ref sig .tc := ⟨.hbm, 405, rfl⟩
abbrev main_cst_86 : Ref sig .tc := ⟨.hbm, 406, rfl⟩
abbrev main_v274 : Ref sig .tc := ⟨.hbm, 407, rfl⟩
abbrev main_v275 : Ref sig .tc := ⟨.hbm, 408, rfl⟩
abbrev main_v276 : Ref sig .tc := ⟨.hbm, 409, rfl⟩
abbrev main_v277 : Ref sig .tc := ⟨.hbm, 410, rfl⟩
abbrev main_v278 : Ref sig .tc := ⟨.hbm, 411, rfl⟩
abbrev main_cst_87 : Ref sig .tc := ⟨.hbm, 412, rfl⟩
abbrev main_v279 : Ref sig .tc := ⟨.hbm, 413, rfl⟩
abbrev main_v280 : Ref sig .tc := ⟨.hbm, 414, rfl⟩
abbrev main_v281 : Ref sig .tc := ⟨.hbm, 415, rfl⟩
abbrev main_v282 : Ref sig .tc := ⟨.hbm, 416, rfl⟩
abbrev main_v283 : Ref sig .tc := ⟨.hbm, 417, rfl⟩
abbrev main_cst_88 : Ref sig .tc := ⟨.hbm, 418, rfl⟩
abbrev main_v284 : Ref sig .tc := ⟨.hbm, 419, rfl⟩
abbrev main_v285 : Ref sig .tc := ⟨.hbm, 420, rfl⟩
abbrev main_v286 : Ref sig .tc := ⟨.hbm, 421, rfl⟩
abbrev main_v287 : Ref sig .tc := ⟨.hbm, 422, rfl⟩
abbrev main_v288 : Ref sig .tc := ⟨.hbm, 423, rfl⟩
abbrev main_call8_v0 : Ref sig .tc := ⟨.hbm, 424, rfl⟩
abbrev main_call8_cst : Ref sig .tc := ⟨.hbm, 425, rfl⟩
abbrev main_call8_v1 : Ref sig .tc := ⟨.hbm, 426, rfl⟩
abbrev main_v289 : Ref sig .tc := ⟨.hbm, 427, rfl⟩
abbrev main_v290 : Ref sig .tc := ⟨.hbm, 428, rfl⟩
abbrev main_v291 : Ref sig .tc := ⟨.hbm, 429, rfl⟩
abbrev main_v292 : Ref sig .tc := ⟨.hbm, 430, rfl⟩
abbrev main_v293 : Ref sig .tc := ⟨.hbm, 431, rfl⟩
abbrev main_v294 : Ref sig .tc := ⟨.hbm, 432, rfl⟩
abbrev main_v295 : Ref sig .tc := ⟨.hbm, 433, rfl⟩
abbrev main_v296 : Ref sig .tc := ⟨.hbm, 434, rfl⟩
abbrev main_v297 : Ref sig .tc := ⟨.hbm, 435, rfl⟩
abbrev main_v298 : Ref sig .tc := ⟨.hbm, 436, rfl⟩
abbrev main_v299 : Ref sig .tc := ⟨.hbm, 437, rfl⟩
abbrev main_v300 : Ref sig .tc := ⟨.hbm, 438, rfl⟩
abbrev main_v301 : Ref sig .tc := ⟨.hbm, 439, rfl⟩
abbrev main_cst_89 : Ref sig .tc := ⟨.hbm, 440, rfl⟩
abbrev main_v302 : Ref sig .tc := ⟨.hbm, 441, rfl⟩
abbrev main_v303 : Ref sig .tc := ⟨.hbm, 442, rfl⟩
abbrev main_v304 : Ref sig .tc := ⟨.hbm, 443, rfl⟩
abbrev main_cst_90 : Ref sig .tc := ⟨.hbm, 444, rfl⟩
abbrev main_cst_91 : Ref sig .tc := ⟨.hbm, 445, rfl⟩
abbrev main_call9_v0 : Ref sig .tc := ⟨.hbm, 446, rfl⟩
abbrev main_call9_v1 : Ref sig .tc := ⟨.hbm, 447, rfl⟩
abbrev main_call9_v2 : Ref sig .tc := ⟨.hbm, 448, rfl⟩
abbrev main_call9_v3 : Ref sig .tc := ⟨.hbm, 449, rfl⟩
abbrev main_call9_v4 : Ref sig .tc := ⟨.hbm, 450, rfl⟩
abbrev main_v305 : Ref sig .tc := ⟨.hbm, 451, rfl⟩
abbrev main_v306 : Ref sig .tc := ⟨.hbm, 452, rfl⟩
abbrev main_cst_92 : Ref sig .tc := ⟨.hbm, 453, rfl⟩
abbrev main_v307 : Ref sig .tc := ⟨.hbm, 454, rfl⟩
abbrev main_v308 : Ref sig .tc := ⟨.hbm, 455, rfl⟩
abbrev main_cst_93 : Ref sig .tc := ⟨.hbm, 456, rfl⟩
abbrev main_v309 : Ref sig .tc := ⟨.hbm, 457, rfl⟩
abbrev main_v310 : Ref sig .tc := ⟨.hbm, 458, rfl⟩
abbrev main_v311 : Ref sig .tc := ⟨.hbm, 459, rfl⟩
abbrev main_v312 : Ref sig .tc := ⟨.hbm, 460, rfl⟩
abbrev main_cst_94 : Ref sig .tc := ⟨.hbm, 461, rfl⟩
abbrev main_v313 : Ref sig .tc := ⟨.hbm, 462, rfl⟩
abbrev main_v314 : Ref sig .tc := ⟨.hbm, 463, rfl⟩
abbrev main_cst_95 : Ref sig .tc := ⟨.hbm, 464, rfl⟩
abbrev main_v315 : Ref sig .tc := ⟨.hbm, 465, rfl⟩
abbrev main_v316 : Ref sig .tc := ⟨.hbm, 466, rfl⟩
abbrev main_v317 : Ref sig .tc := ⟨.hbm, 467, rfl⟩
abbrev main_cst_96 : Ref sig .tc := ⟨.hbm, 468, rfl⟩
abbrev main_v318 : Ref sig .tc := ⟨.hbm, 469, rfl⟩
abbrev main_v319 : Ref sig .tc := ⟨.hbm, 470, rfl⟩
abbrev main_cst_97 : Ref sig .tc := ⟨.hbm, 471, rfl⟩
abbrev main_v320 : Ref sig .tc := ⟨.hbm, 472, rfl⟩
abbrev main_v321 : Ref sig .tc := ⟨.hbm, 473, rfl⟩
abbrev main_cst_98 : Ref sig .tc := ⟨.hbm, 474, rfl⟩
abbrev main_v322 : Ref sig .tc := ⟨.hbm, 475, rfl⟩
abbrev main_v323 : Ref sig .tc := ⟨.hbm, 476, rfl⟩
abbrev main_cst_99 : Ref sig .tc := ⟨.hbm, 477, rfl⟩
abbrev main_v324 : Ref sig .tc := ⟨.hbm, 478, rfl⟩
abbrev main_v325 : Ref sig .tc := ⟨.hbm, 479, rfl⟩
abbrev main_cst_100 : Ref sig .tc := ⟨.hbm, 480, rfl⟩
abbrev main_v326 : Ref sig .tc := ⟨.hbm, 481, rfl⟩
abbrev main_v327 : Ref sig .tc := ⟨.hbm, 482, rfl⟩
abbrev main_v328 : Ref sig .tc := ⟨.hbm, 483, rfl⟩
abbrev main_v329 : Ref sig .tc := ⟨.hbm, 484, rfl⟩
abbrev main_v330 : Ref sig .tc := ⟨.hbm, 485, rfl⟩
abbrev main_cst_101 : Ref sig .tc := ⟨.hbm, 486, rfl⟩
abbrev main_v331 : Ref sig .tc := ⟨.hbm, 487, rfl⟩
abbrev main_v332 : Ref sig .tc := ⟨.hbm, 488, rfl⟩
abbrev main_v333 : Ref sig .tc := ⟨.hbm, 489, rfl⟩
abbrev main_cst_102 : Ref sig .tc := ⟨.hbm, 490, rfl⟩
abbrev main_v334 : Ref sig .tc := ⟨.hbm, 491, rfl⟩
abbrev main_v335 : Ref sig .tc := ⟨.hbm, 492, rfl⟩
abbrev main_v336 : Ref sig .tc := ⟨.hbm, 493, rfl⟩

abbrev nD : Nat := 1
abbrev τ : Topo := Topo.v7x

variable {F : FTy → Type} [FloatOps F]

class Facts₀ : Prop where
  slices_S8192x128x4_S8192x128x2_0_0_0 : S8192x128x4.Slices ![0, 0, 0] S8192x128x2
  shapeCasts_S8192x128x2_S1048576x2 : S8192x128x2.ShapeCasts S1048576x2
  slices_S8192x128x4_S8192x128x2_0_0_2 : S8192x128x4.Slices ![0, 0, 2] S8192x128x2
  slices_S1048576x2_S1048576x1_0_0 : S1048576x2.Slices ![0, 0] S1048576x1
  shapeCasts_S1048576x1_S1048576 : S1048576x1.ShapeCasts S1048576
  bcast_S_S1048576 : S_.BroadcastsInDim S1048576 (![] : Fin 0 → Fin S1048576.rank)
  slices_S1048576x2_S1048576x1_0_1 : S1048576x2.Slices ![0, 1] S1048576x1
  bcast_S1048576_S1048576x1_0 : S1048576.BroadcastsInDim S1048576x1 (![0] : Fin 1 → Fin S1048576x1.rank)
  concatenates_S1048576x1_S1048576x1_S1048576x2_d1 : Shape.Concatenates [S1048576x1, S1048576x1] S1048576x2 1
  reducesTo_S1048576x2_S1048576_d1 : S1048576x2.ReducesTo [1] S1048576
  h_S_ : 0 < S_.numel
  shapeCasts_S1048576_S8192x128 : S1048576.ShapeCasts S8192x128
  gather_S2048x2048_S1048576x2_S1048576_n_01_n_n_01_1_11_wf : GatherDims.WF S2048x2048 S1048576x2 S1048576 [] [0, 1] [] [0, 1] [] 1 ![1, 1]

variable [Facts₀]

def gather_S2048x2048_S1048576x2_S1048576_n_01_n_n_01_1_11 : GatherDims S2048x2048 S1048576x2 S1048576 where
  offsetDims := []
  collapsedSliceDims := [0, 1]
  operandBatchingDims := []
  startIndicesBatchingDims := []
  startIndexMap := [0, 1]
  indexVectorDim := 1
  sliceSizes := ![1, 1]
  wf := gather_S2048x2048_S1048576x2_S1048576_n_01_n_n_01_1_11_wf

class Facts : Prop extends Facts₀ where

variable [Facts]
-- ==== Proof.FrameBits.lean ====
/- The frame of the kernel program, at any float instance `F`: the host operations ahead of its one region leave the four
   argument arrays alone, the region's body reads five whole blocks and stores two, and so the program runs and ends with
   its arguments as they began. Also named here, for the value statement built on it: the arrays as the region finds them
   (`V`), each window's block at a grid point (`iblk`), and what the body leaves in the two output windows (`out0_5`,
   `out0_6`). -/
import proofs.«176869_j84842783965226_2_alg».proof.Proof.Gen.Kernel.Launch
import proofs.«176869_j84842783965226_2_alg».proof.Proof.Gen.Kernel.Skeleton
import proofs.«176869_j84842783965226_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its region -/

/-- Core `c`'s buffers when the region is entered: the initial memory after the nine stretches of host operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

/-- No operation of the stretch `hostOps0` allocates a buffer. -/
theorem hostOps0_fresh : (hostOps0 : List (HloOp τ sig (Elt F))).Forall fun op => op.fresh = ∅ := by
  simp only [List.Forall]; repeat' constructor
/-- No operation of the stretch `hostOps0_1` allocates a buffer. -/
theorem hostOps0_1_fresh : (hostOps0_1 : List (HloOp τ sig (Elt F))).Forall fun op => op.fresh = ∅ := by
  simp only [List.Forall]; repeat' constructor
/-- No operation of the stretch `hostOps0_2` allocates a buffer. -/
theorem hostOps0_2_fresh : (hostOps0_2 : List (HloOp τ sig (Elt F))).Forall fun op => op.fresh = ∅ := by
  simp only [List.Forall]; repeat' constructor
/-- No operation of the stretch `hostOps0_3` allocates a buffer. -/
theorem hostOps0_3_fresh : (hostOps0_3 : List (HloOp τ sig (Elt F))).Forall fun op => op.fresh = ∅ := by
  simp only [List.Forall]; repeat' constructor
/-- No operation of the stretch `hostOps0_4` allocates a buffer. -/
theorem hostOps0_4_fresh : (hostOps0_4 : List (HloOp τ sig (Elt F))).Forall fun op => op.fresh = ∅ := by
  simp only [List.Forall]; repeat' constructor
/-- No operation of the stretch `hostOps0_5` allocates a buffer. -/
theorem hostOps0_5_fresh : (hostOps0_5 : List (HloOp τ sig (Elt F))).Forall fun op => op.fresh = ∅ := by
  simp only [List.Forall]; repeat' constructor
/-- No operation of the stretch `hostOps0_6` allocates a buffer. -/
theorem hostOps0_6_fresh : (hostOps0_6 : List (HloOp τ sig (Elt F))).Forall fun op => op.fresh = ∅ := by
  simp only [List.Forall]; repeat' constructor
/-- No operation of the stretch `hostOps0_7` allocates a buffer. -/
theorem hostOps0_7_fresh : (hostOps0_7 : List (HloOp τ sig (Elt F))).Forall fun op => op.fresh = ∅ := by
  simp only [List.Forall]; repeat' constructor
set_option maxHeartbeats 4000000 in
/-- No operation of the stretch `hostOps0_8` allocates a buffer. -/
theorem hostOps0_8_fresh : (hostOps0_8 : List (HloOp τ sig (Elt F))).Forall fun op => op.fresh = ∅ := by
  simp only [List.Forall]; repeat' constructor

/-- The program is its nine stretches of host operations followed by the region, which is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

set_option maxHeartbeats 4000000 in
/-- No host operation ahead of the region writes `main_arg0`, so the region finds it as the run started. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation ahead of the region writes `main_arg1`, so the region finds it as the run started. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation ahead of the region writes `main_arg2`, so the region finds it as the run started. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation ahead of the region writes `main_arg3`, so the region finds it as the run started. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data over `V` whose body leaves that block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, for any proof data over `V` whose body leaves that block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, for any proof data over `V` whose body leaves that block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, for any proof data over `V` whose body leaves that block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, for any proof data over `V` whose body leaves that block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## From the frame run to the frame statement -/

/-- A run ending in the library's frame post, for proof data over `V`, ends with the four argument arrays as they began: no window stages an argument, so each is an untouched unscoped buffer and then `V` at it is the initial memory. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's one rectangle and what the body stores -/

/-- The whole 2048 × 128 block as a rectangle of itself. -/
abbrev r0_0 : Rect S2048x128 := Rect.unit (s := S2048x128) ![0, 0] S2048x128.size inb_S2048x128_S2048x128_0_0

/-- The first output window's buffer after the body: its one whole-block store, the cost payload of the five loaded blocks. -/
def out0_5 (x0 : Vec F S2048x128 .f32) (x1 : Vec F S2048x128 .f32) (x2 : Vec F S2048x128 .f32) (x3 : Vec F S2048x128 .f32) (x4 : Vec F S2048x128 .f32) : Vec F S2048x128 .f32 :=
  View.canon [⟨r0_0, k0_pay1 (k0_pay6 (View.ld x3 r0_0) (View.ld x4 r0_0)) (k0_pay7 (View.ld x1 r0_0) (View.ld x2 r0_0) (View.ld x3 r0_0) (View.ld x4 r0_0)) (k0_pay9 (View.ld x0 r0_0)) (k0_pay10 (View.ld x0 r0_0))⟩]

/-- The second output window's buffer after the body: its one whole-block store, the judge payload of three loaded blocks. -/
def out0_6 (x0 : Vec F S2048x128 .f32) (x1 : Vec F S2048x128 .f32) (x2 : Vec F S2048x128 .f32) (x3 : Vec F S2048x128 .f32) (x4 : Vec F S2048x128 .f32) : Vec F S2048x128 .f32 :=
  View.canon [⟨r0_0, k0_pay2 (k0_pay8 (View.ld x0 r0_0) (View.ld x3 r0_0) (View.ld x4 r0_0))⟩]

/-- One store through the whole-block rectangle covers the block. -/
theorem cover0 (p0 : Vec F S2048x128 .f32) (y : S2048x128.Idx) :
    ∃ pc ∈ ([⟨r0_0, p0⟩] : List (View.Piece (Elt F) S2048x128 .f32)), y ∈ pc.1.set :=
  View.cover_of_tiled [⟨r0_0, p0⟩] S2048x128.size (by rfl) y

/-! ## The body's triple -/

set_option maxHeartbeats 4000000 in
/-- The body on seven whole staging buffers, the five inputs at `x0 … x4` and the two outputs at anything, runs to a state with the inputs as they were and the outputs at `out0_5` and `out0_6` of the inputs. -/
theorem sound_kernel (c : Dev nD) (E : Set ℕ) (i : grid0.Coords)
    (arg1 : Memref sig .tc .vmem S2048x128 .f32) (harg1 : arg1.IsWhole) (arg2 : Memref sig .tc .vmem S2048x128 .f32) (harg2 : arg2.IsWhole)
    (arg3 : Memref sig .tc .vmem S2048x128 .f32) (harg3 : arg3.IsWhole) (arg4 : Memref sig .tc .vmem S2048x128 .f32) (harg4 : arg4.IsWhole)
    (arg5 : Memref sig .tc .vmem S2048x128 .f32) (harg5 : arg5.IsWhole) (arg6 : Memref sig .tc .vmem S2048x128 .f32) (harg6 : arg6.IsWhole)
    (arg7 : Memref sig .tc .vmem S2048x128 .f32) (harg7 : arg7.IsWhole)
    (x0 : Vec F S2048x128 .f32) (x1 : Vec F S2048x128 .f32) (x2 : Vec F S2048x128 .f32) (x3 : Vec F S2048x128 .f32) (x4 : Vec F S2048x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4) ∗ owns (c : Thread nD τ) arg7 fullShare (out0_6 x0 x1 x2 x3 x4)) -∗ K ⟨⟩))
      ⊢ wp frame (wpE (defs₀ (F := F)) Variants.none c none) E (cc0__cost_chain_kernel i arg1 harg1 arg2 harg2 arg3 harg3 arg4 harg4 arg5 harg5 arg6 harg6 arg7 harg7) K := by
  simp only [cc0__cost_chain_kernel_eq_skeleton]; unfold cc0__cost_chain_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0 _)
  iexists _; isplitr
  swap; · iexact H6
  ipureintro
  exact View.read_writes_eq_canon _ _ _ (cover0 _)

/-! ## The region's proof data -/

/-- The proof data of the one region on core `c`: arrays as the region finds them, each input buffer at its block after the body and each output buffer at its stored payload of the five input blocks, the untouched rest as invariant, full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
    | ⟨6, _⟩ => out0_6 (iblk m c 0 t) (iblk m c 1 t) (iblk m c 2 t) (iblk m c 3 t) (iblk m c 4 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- After the body, input window 0's buffer still holds its block. -/
theorem after0_0 (c : Dev nD) (t : Fin cfg0.N) : (dats m 0 c).after 0 t = iblk m c 0 t := by dsimp only [dats]
/-- After the body, input window 1's buffer still holds its block. -/
theorem after0_1 (c : Dev nD) (t : Fin cfg0.N) : (dats m 0 c).after 1 t = iblk m c 1 t := by dsimp only [dats]
/-- After the body, input window 2's buffer still holds its block. -/
theorem after0_2 (c : Dev nD) (t : Fin cfg0.N) : (dats m 0 c).after 2 t = iblk m c 2 t := by dsimp only [dats]
/-- After the body, input window 3's buffer still holds its block. -/
theorem after0_3 (c : Dev nD) (t : Fin cfg0.N) : (dats m 0 c).after 3 t = iblk m c 3 t := by dsimp only [dats]
/-- After the body, input window 4's buffer still holds its block. -/
theorem after0_4 (c : Dev nD) (t : Fin cfg0.N) : (dats m 0 c).after 4 t = iblk m c 4 t := by dsimp only [dats]
/-- After the body, output window 5's buffer holds the cost payload of the five input blocks. -/
theorem after0_5 (c : Dev nD) (t : Fin cfg0.N) : (dats m 0 c).after 5 t = out0_5 (iblk m c 0 t) (iblk m c 1 t) (iblk m c 2 t) (iblk m c 3 t) (iblk m c 4 t) := by dsimp only [dats]
/-- After the body, output window 6's buffer holds the judge payload of the five input blocks. -/
theorem after0_6 (c : Dev nD) (t : Fin cfg0.N) : (dats m 0 c).after 6 t = out0_6 (iblk m c 0 t) (iblk m c 1 t) (iblk m c 2 t) (iblk m c 3 t) (iblk m c 4 t) := by dsimp only [dats]

/-- Before the body at any point, input window 0's current buffer holds its block. -/
theorem before0_0 (c : Dev nD) (t : Fin cfg0.N) (d) : (dats m 0 c).before 0 t d = iblk m c 0 t :=
  before0_0_of m (dats m 0 c) (A_eq m c 0) (after0_0 m c) t d
/-- Before the body at any point, input window 1's current buffer holds its block. -/
theorem before0_1 (c : Dev nD) (t : Fin cfg0.N) (d) : (dats m 0 c).before 1 t d = iblk m c 1 t :=
  before0_1_of m (dats m 0 c) (A_eq m c 1) (after0_1 m c) t d
/-- Before the body at any point, input window 2's current buffer holds its block. -/
theorem before0_2 (c : Dev nD) (t : Fin cfg0.N) (d) : (dats m 0 c).before 2 t d = iblk m c 2 t :=
  before0_2_of m (dats m 0 c) (A_eq m c 2) (after0_2 m c) t d
/-- Before the body at any point, input window 3's current buffer holds its block. -/
theorem before0_3 (c : Dev nD) (t : Fin cfg0.N) (d) : (dats m 0 c).before 3 t d = iblk m c 3 t :=
  before0_3_of m (dats m 0 c) (A_eq m c 3) (after0_3 m c) t d
/-- Before the body at any point, input window 4's current buffer holds its block. -/
theorem before0_4 (c : Dev nD) (t : Fin cfg0.N) (d) : (dats m 0 c).before 4 t d = iblk m c 4 t :=
  before0_4_of m (dats m 0 c) (A_eq m c 4) (after0_4 m c) t d

/-! ## The body obligation at a generic point -/

/-- What the body is entered with at point `t`: the invariant, the owed transfers, and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What the body returns at point `t`: the invariant, the owed transfers, and each window's buffer at its contents after the body. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 4000000 in
/-- The body at any point takes its precondition to its postcondition: the inputs' buffers hold their blocks, so the body's triple applies, and the invariant and owed transfers pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for the region's proof data, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair run of the program on the TensorCores terminates, and every final state has each window's array at what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs and ends with its four argument arrays unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Hand

end
-- ==== Proof.FrameIdeal.lean ====
/- The frame of the kernel program, at any float instance `F`: the host operations ahead of its one region leave the four
   argument arrays alone, the region's body reads five whole blocks and stores two, and so the program runs and ends with
   its arguments as they began. Also named here, for the value statement built on it: the arrays as the region finds them
   (`V`), each window's block at a grid point (`iblk`), and what the body leaves in the two output windows (`out0_5`,
   `out0_6`). -/
import proofs.«176869_j84842783965226_2_alg».proof.Proof.Gen.KernelIdeal.Launch
import proofs.«176869_j84842783965226_2_alg».proof.Proof.Gen.KernelIdeal.Skeleton
import proofs.«176869_j84842783965226_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its region -/

/-- Core `c`'s buffers when the region is entered: the initial memory after the nine stretches of host operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

/-- No operation of the stretch `hostOps0` allocates a buffer. -/
theorem hostOps0_fresh : (hostOps0 : List (HloOp τ sig (Elt F))).Forall fun op => op.fresh = ∅ := by
  simp only [List.Forall]; repeat' constructor
/-- No operation of the stretch `hostOps0_1` allocates a buffer. -/
theorem hostOps0_1_fresh : (hostOps0_1 : List (HloOp τ sig (Elt F))).Forall fun op => op.fresh = ∅ := by
  simp only [List.Forall]; repeat' constructor
/-- No operation of the stretch `hostOps0_2` allocates a buffer. -/
theorem hostOps0_2_fresh : (hostOps0_2 : List (HloOp τ sig (Elt F))).Forall fun op => op.fresh = ∅ := by
  simp only [List.Forall]; repeat' constructor
/-- No operation of the stretch `hostOps0_3` allocates a buffer. -/
theorem hostOps0_3_fresh : (hostOps0_3 : List (HloOp τ sig (Elt F))).Forall fun op => op.fresh = ∅ := by
  simp only [List.Forall]; repeat' constructor
/-- No operation of the stretch `hostOps0_4` allocates a buffer. -/
theorem hostOps0_4_fresh : (hostOps0_4 : List (HloOp τ sig (Elt F))).Forall fun op => op.fresh = ∅ := by
  simp only [List.Forall]; repeat' constructor
/-- No operation of the stretch `hostOps0_5` allocates a buffer. -/
theorem hostOps0_5_fresh : (hostOps0_5 : List (HloOp τ sig (Elt F))).Forall fun op => op.fresh = ∅ := by
  simp only [List.Forall]; repeat' constructor
/-- No operation of the stretch `hostOps0_6` allocates a buffer. -/
theorem hostOps0_6_fresh : (hostOps0_6 : List (HloOp τ sig (Elt F))).Forall fun op => op.fresh = ∅ := by
  simp only [List.Forall]; repeat' constructor
/-- No operation of the stretch `hostOps0_7` allocates a buffer. -/
theorem hostOps0_7_fresh : (hostOps0_7 : List (HloOp τ sig (Elt F))).Forall fun op => op.fresh = ∅ := by
  simp only [List.Forall]; repeat' constructor
set_option maxHeartbeats 4000000 in
/-- No operation of the stretch `hostOps0_8` allocates a buffer. -/
theorem hostOps0_8_fresh : (hostOps0_8 : List (HloOp τ sig (Elt F))).Forall fun op => op.fresh = ∅ := by
  simp only [List.Forall]; repeat' constructor

/-- The program is its nine stretches of host operations followed by the region, which is entered at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

set_option maxHeartbeats 4000000 in
/-- No host operation ahead of the region writes `main_arg0`, so the region finds it as the run started. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation ahead of the region writes `main_arg1`, so the region finds it as the run started. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation ahead of the region writes `main_arg2`, so the region finds it as the run started. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))
set_option maxHeartbeats 4000000 in
/-- No host operation ahead of the region writes `main_arg3`, so the region finds it as the run started. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data over `V` whose body leaves that block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, for any proof data over `V` whose body leaves that block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, for any proof data over `V` whose body leaves that block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, for any proof data over `V` whose body leaves that block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, for any proof data over `V` whose body leaves that block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## From the frame run to the frame statement -/

/-- A run ending in the library's frame post, for proof data over `V`, ends with the four argument arrays as they began: no window stages an argument, so each is an untouched unscoped buffer and then `V` at it is the initial memory. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## The body's one rectangle and what the body stores -/

/-- The whole 2048 × 128 block as a rectangle of itself. -/
abbrev r0_0 : Rect S2048x128 := Rect.unit (s := S2048x128) ![0, 0] S2048x128.size inb_S2048x128_S2048x128_0_0

/-- The first output window's buffer after the body: its one whole-block store, the cost payload of the five loaded blocks. -/
def out0_5 (x0 : Vec F S2048x128 .f32) (x1 : Vec F S2048x128 .f32) (x2 : Vec F S2048x128 .f32) (x3 : Vec F S2048x128 .f32) (x4 : Vec F S2048x128 .f32) : Vec F S2048x128 .f32 :=
  View.canon [⟨r0_0, k0_pay1 (k0_pay6 (View.ld x3 r0_0) (View.ld x4 r0_0)) (k0_pay7 (View.ld x1 r0_0) (View.ld x2 r0_0) (View.ld x3 r0_0) (View.ld x4 r0_0)) (k0_pay9 (View.ld x0 r0_0)) (k0_pay10 (View.ld x0 r0_0))⟩]

/-- The second output window's buffer after the body: its one whole-block store, the judge payload of three loaded blocks. -/
def out0_6 (x0 : Vec F S2048x128 .f32) (x1 : Vec F S2048x128 .f32) (x2 : Vec F S2048x128 .f32) (x3 : Vec F S2048x128 .f32) (x4 : Vec F S2048x128 .f32) : Vec F S2048x128 .f32 :=
  View.canon [⟨r0_0, k0_pay2 (k0_pay8 (View.ld x0 r0_0) (View.ld x3 r0_0) (View.ld x4 r0_0))⟩]

/-- One store through the whole-block rectangle covers the block. -/
theorem cover0 (p0 : Vec F S2048x128 .f32) (y : S2048x128.Idx) :
    ∃ pc ∈ ([⟨r0_0, p0⟩] : List (View.Piece (Elt F) S2048x128 .f32)), y ∈ pc.1.set :=
  View.cover_of_tiled [⟨r0_0, p0⟩] S2048x128.size (by rfl) y

/-! ## The body's triple -/

set_option maxHeartbeats 4000000 in
/-- The body on seven whole staging buffers, the five inputs at `x0 … x4` and the two outputs at anything, runs to a state with the inputs as they were and the outputs at `out0_5` and `out0_6` of the inputs. -/
theorem sound_kernel (c : Dev nD) (E : Set ℕ) (i : grid0.Coords)
    (arg1 : Memref sig .tc .vmem S2048x128 .f32) (harg1 : arg1.IsWhole) (arg2 : Memref sig .tc .vmem S2048x128 .f32) (harg2 : arg2.IsWhole)
    (arg3 : Memref sig .tc .vmem S2048x128 .f32) (harg3 : arg3.IsWhole) (arg4 : Memref sig .tc .vmem S2048x128 .f32) (harg4 : arg4.IsWhole)
    (arg5 : Memref sig .tc .vmem S2048x128 .f32) (harg5 : arg5.IsWhole) (arg6 : Memref sig .tc .vmem S2048x128 .f32) (harg6 : arg6.IsWhole)
    (arg7 : Memref sig .tc .vmem S2048x128 .f32) (harg7 : arg7.IsWhole)
    (x0 : Vec F S2048x128 .f32) (x1 : Vec F S2048x128 .f32) (x2 : Vec F S2048x128 .f32) (x3 : Vec F S2048x128 .f32) (x4 : Vec F S2048x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4) ∗ owns (c : Thread nD τ) arg7 fullShare (out0_6 x0 x1 x2 x3 x4)) -∗ K ⟨⟩))
      ⊢ wp frame (wpE (defs₀ (F := F)) Variants.none c none) E (cc0__cost_chain_kernel i arg1 harg1 arg2 harg2 arg3 harg3 arg4 harg4 arg5 harg5 arg6 harg6 arg7 harg7) K := by
  simp only [cc0__cost_chain_kernel_eq_skeleton]; unfold cc0__cost_chain_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0 _)
  iexists _; isplitr
  swap; · iexact H6
  ipureintro
  exact View.read_writes_eq_canon _ _ _ (cover0 _)

/-! ## The region's proof data -/

/-- The proof data of the one region on core `c`: arrays as the region finds them, each input buffer at its block after the body and each output buffer at its stored payload of the five input blocks, the untouched rest as invariant, full shares, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
    | ⟨6, _⟩ => out0_6 (iblk m c 0 t) (iblk m c 1 t) (iblk m c 2 t) (iblk m c 3 t) (iblk m c 4 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- After the body, input window 0's buffer still holds its block. -/
theorem after0_0 (c : Dev nD) (t : Fin cfg0.N) : (dats m 0 c).after 0 t = iblk m c 0 t := by dsimp only [dats]
/-- After the body, input window 1's buffer still holds its block. -/
theorem after0_1 (c : Dev nD) (t : Fin cfg0.N) : (dats m 0 c).after 1 t = iblk m c 1 t := by dsimp only [dats]
/-- After the body, input window 2's buffer still holds its block. -/
theorem after0_2 (c : Dev nD) (t : Fin cfg0.N) : (dats m 0 c).after 2 t = iblk m c 2 t := by dsimp only [dats]
/-- After the body, input window 3's buffer still holds its block. -/
theorem after0_3 (c : Dev nD) (t : Fin cfg0.N) : (dats m 0 c).after 3 t = iblk m c 3 t := by dsimp only [dats]
/-- After the body, input window 4's buffer still holds its block. -/
theorem after0_4 (c : Dev nD) (t : Fin cfg0.N) : (dats m 0 c).after 4 t = iblk m c 4 t := by dsimp only [dats]
/-- After the body, output window 5's buffer holds the cost payload of the five input blocks. -/
theorem after0_5 (c : Dev nD) (t : Fin cfg0.N) : (dats m 0 c).after 5 t = out0_5 (iblk m c 0 t) (iblk m c 1 t) (iblk m c 2 t) (iblk m c 3 t) (iblk m c 4 t) := by dsimp only [dats]
/-- After the body, output window 6's buffer holds the judge payload of the five input blocks. -/
theorem after0_6 (c : Dev nD) (t : Fin cfg0.N) : (dats m 0 c).after 6 t = out0_6 (iblk m c 0 t) (iblk m c 1 t) (iblk m c 2 t) (iblk m c 3 t) (iblk m c 4 t) := by dsimp only [dats]

/-- Before the body at any point, input window 0's current buffer holds its block. -/
theorem before0_0 (c : Dev nD) (t : Fin cfg0.N) (d) : (dats m 0 c).before 0 t d = iblk m c 0 t :=
  before0_0_of m (dats m 0 c) (A_eq m c 0) (after0_0 m c) t d
/-- Before the body at any point, input window 1's current buffer holds its block. -/
theorem before0_1 (c : Dev nD) (t : Fin cfg0.N) (d) : (dats m 0 c).before 1 t d = iblk m c 1 t :=
  before0_1_of m (dats m 0 c) (A_eq m c 1) (after0_1 m c) t d
/-- Before the body at any point, input window 2's current buffer holds its block. -/
theorem before0_2 (c : Dev nD) (t : Fin cfg0.N) (d) : (dats m 0 c).before 2 t d = iblk m c 2 t :=
  before0_2_of m (dats m 0 c) (A_eq m c 2) (after0_2 m c) t d
/-- Before the body at any point, input window 3's current buffer holds its block. -/
theorem before0_3 (c : Dev nD) (t : Fin cfg0.N) (d) : (dats m 0 c).before 3 t d = iblk m c 3 t :=
  before0_3_of m (dats m 0 c) (A_eq m c 3) (after0_3 m c) t d
/-- Before the body at any point, input window 4's current buffer holds its block. -/
theorem before0_4 (c : Dev nD) (t : Fin cfg0.N) (d) : (dats m 0 c).before 4 t d = iblk m c 4 t :=
  before0_4_of m (dats m 0 c) (A_eq m c 4) (after0_4 m c) t d

/-! ## The body obligation at a generic point -/

/-- What the body is entered with at point `t`: the invariant, the owed transfers, and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What the body returns at point `t`: the invariant, the owed transfers, and each window's buffer at its contents after the body. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 4000000 in
/-- The body at any point takes its precondition to its postcondition: the inputs' buffers hold their blocks, so the body's triple applies, and the invariant and owed transfers pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for the region's proof data, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair run of the program on the TensorCores terminates, and every final state has each window's array at what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs and ends with its four argument arrays unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Hand

end
-- ==== Proof.Chain.lean ====
/-
  The per-entry cost chain. Every entry of the two results is one scalar function of five numbers at that entry:
  the sampled potential `pot`, the sampled gradient `(gx, gy)` and the velocity `(vx, vy)`.
  With |v| = sqrt (vx² + vy²), |g| = sqrt (gx² + gy²) and
  c = min (1, max (-1, (vx·gx + vy·gy) / (|v|·|g| + ε))), n = 0 - c:
    judge = 1·(1·pot + (½·pot)·|v|)
    cost  = 1·(1·pot + ((½·pot)·|v|)·((1 + 1·max (n, 0)) + (4/5)·min (n, 0)))
  The literals are kept as their f32 words (the same words stand on both sides of the claim), the operations are
  the float interpretation's own, in the order the programs apply them.
-/
import Idealize.ShloMosaic.PureOps

noncomputable section

namespace Cert.Chain

open Idealize.ShloMosaic

variable {F : FTy → Type} [FloatOps F]

/-- The Euclidean length of the pair `(a, b)`: sqrt (a·a + b·b). -/
def norm2 (a b : F .f32) : F .f32 :=
  FloatOps.sqrt (FloatOps.addf (FloatOps.mulf a a) (FloatOps.mulf b b))

/-- Minus the clipped cosine of the angle between velocity and gradient:
    0 - min (1, max (-1, (vx·gx + vy·gy) / (|v|·|g| + ε))). -/
def negCos (gx gy vx vy : F .f32) : F .f32 :=
  FloatOps.subf (FloatOps.ofBits .f32 0x00000000#32)
    (FloatOps.minimumf (FloatOps.ofBits .f32 0x3F800000#32)
      (FloatOps.maximumf (FloatOps.ofBits .f32 0xBF800000#32)
        (FloatOps.divf (FloatOps.addf (FloatOps.mulf vx gx) (FloatOps.mulf vy gy))
          (FloatOps.addf (FloatOps.mulf (norm2 vx vy) (norm2 gx gy)) (FloatOps.ofBits .f32 0x358637BD#32)))))

/-- The second result at an entry: 1·(1·pot + (½·pot)·|v|). -/
def judge (pot vx vy : F .f32) : F .f32 :=
  FloatOps.mulf (FloatOps.ofBits .f32 0x3F800000#32)
    (FloatOps.addf (FloatOps.mulf (FloatOps.ofBits .f32 0x3F800000#32) pot)
      (FloatOps.mulf (FloatOps.mulf (FloatOps.ofBits .f32 0x3F000000#32) pot) (norm2 vx vy)))

/-- The first result at an entry: 1·(1·pot + ((½·pot)·|v|)·((1 + 1·max (n, 0)) + (4/5)·min (n, 0))), n = negCos. -/
def cost (pot gx gy vx vy : F .f32) : F .f32 :=
  FloatOps.mulf (FloatOps.ofBits .f32 0x3F800000#32)
    (FloatOps.addf (FloatOps.mulf (FloatOps.ofBits .f32 0x3F800000#32) pot)
      (FloatOps.mulf (FloatOps.mulf (FloatOps.mulf (FloatOps.ofBits .f32 0x3F000000#32) pot) (norm2 vx vy))
        (FloatOps.addf
          (FloatOps.addf (FloatOps.ofBits .f32 0x3F800000#32)
            (FloatOps.mulf (FloatOps.ofBits .f32 0x3F800000#32)
              (FloatOps.maximumf (negCos gx gy vx vy) (FloatOps.ofBits .f32 0x00000000#32))))
          (FloatOps.mulf (FloatOps.ofBits .f32 0x3F4CCCCD#32)
            (FloatOps.minimumf (negCos gx gy vx vy) (FloatOps.ofBits .f32 0x00000000#32))))))

end Cert.Chain

end
-- ==== Proof.RegionValue.lean ====
/- The kernel program's run with both results named: after the run the first result array is, entry by entry, the cost
   chain of the five arrays its region reads (as the region finds them), the second is the judge chain of three of them, and
   the four argument arrays are as they began. The region's grid has four points; point `t` handles rows
   2048·t … 2048·t + 2047 of every array, so the four blocks tile all 8192 rows and every entry is written exactly once. -/
import proofs.«176869_j84842783965226_2_alg».proof.Proof.FrameIdeal
import proofs.«176869_j84842783965226_2_alg».proof.Proof.Chain
import Idealize.ShloMosaic.Lib.Pipeline.Value

noncomputable section

namespace Cert.KernelIdeal.HandValue

open Cert.KernelIdeal Cert.KernelIdeal.Gen Cert.KernelIdeal.Hand Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## The two whole-array functions -/

/-- The cost chain applied entry by entry to five arrays: potential, gradient pair, velocity pair. -/
abbrev costArr (pot gx gy vx vy : S8192x128.Idx → Elt F .f32) : S8192x128.Idx → Elt F .f32 :=
  fun i => Cert.Chain.cost (pot i) (gx i) (gy i) (vx i) (vy i)

/-- The judge chain applied entry by entry to three arrays: potential and velocity pair. -/
abbrev judgeArr (pot vx vy : S8192x128.Idx → Elt F .f32) : S8192x128.Idx → Elt F .f32 :=
  fun i => Cert.Chain.judge (pot i) (vx i) (vy i)

/-! ## The body's payloads are the chains, entry by entry -/

/-- The payload stored to the first output, of five loaded blocks, is the cost chain at every entry of the block (a reshape of a block to its own shape changes nothing). -/
theorem pay_cost (v0 v2 v4 v6 v8 : Vec F S2048x128 .f32) :
    k0_pay1 (k0_pay6 v6 v8) (k0_pay7 v2 v4 v6 v8) (k0_pay9 v0) (k0_pay10 v0) = fun j => Cert.Chain.cost (v0 j) (v2 j) (v4 j) (v6 j) (v8 j) := by
  unfold k0_pay1 k0_pay7 k0_pay9 k0_pay10 k0_pay6 k0_pay3 k0_pay4 k0_pay5
  simp only [shapeCast_self]
  rfl

/-- The payload stored to the second output, of three loaded blocks, is the judge chain at every entry of the block. -/
theorem pay_judge (v0 v6 v8 : Vec F S2048x128 .f32) :
    k0_pay2 (k0_pay8 v0 v6 v8) = fun j => Cert.Chain.judge (v0 j) (v6 j) (v8 j) := by
  unfold k0_pay2 k0_pay8 k0_pay6 k0_pay3 k0_pay4 k0_pay5
  simp only [shapeCast_self]
  rfl

/-! ## The index maps over the grid -/

/-- The offset pair (0, 0) is the zero offset. -/
theorem off_zero : (![0, 0] : Fin 2 → Nat) = fun _ => 0 := funext fun a => by fin_cases a <;> rfl

/-- At every grid point all seven windows name the same block: each input's and the second output's block index equals the first output's on both axes, which is at most 3 on rows and 0 on columns. -/
theorem same_block : ∀ t : Fin cfg0.N,
    win0_0.index t (0 : Fin 2) = win0_5.index t (0 : Fin 2) ∧ win0_0.index t (1 : Fin 2) = win0_5.index t (1 : Fin 2)
    ∧ win0_1.index t (0 : Fin 2) = win0_5.index t (0 : Fin 2) ∧ win0_1.index t (1 : Fin 2) = win0_5.index t (1 : Fin 2)
    ∧ win0_2.index t (0 : Fin 2) = win0_5.index t (0 : Fin 2) ∧ win0_2.index t (1 : Fin 2) = win0_5.index t (1 : Fin 2)
    ∧ win0_3.index t (0 : Fin 2) = win0_5.index t (0 : Fin 2) ∧ win0_3.index t (1 : Fin 2) = win0_5.index t (1 : Fin 2)
    ∧ win0_4.index t (0 : Fin 2) = win0_5.index t (0 : Fin 2) ∧ win0_4.index t (1 : Fin 2) = win0_5.index t (1 : Fin 2)
    ∧ win0_6.index t (0 : Fin 2) = win0_5.index t (0 : Fin 2) ∧ win0_6.index t (1 : Fin 2) = win0_5.index t (1 : Fin 2)
    ∧ win0_5.index t (0 : Fin 2) ≤ 3 ∧ win0_5.index t (1 : Fin 2) ≤ 0 :=
  (by decide +kernel : ∀ t : Fin grid0.N, _)

/-- Each of the four row blocks is some grid point's. -/
theorem every_block : ∀ q : Fin 4, ∃ t : Fin cfg0.N, win0_5.index t = ![q.val, 0] :=
  (by decide +kernel : ∀ q : Fin 4, ∃ t : Fin grid0.N, win0_5.index t = ![q.val, 0])

/-! ## What each point writes back -/

/-- Input window 0's block at point `t` reads its array at the entries the first output's block names there. -/
theorem iblk0_at5 (c : Dev nD) (t : Fin cfg0.N) (j : S2048x128.Idx) :
    iblk m c 0 t j = V m c main_v109 (((cfg0.win 5).blk t).view.emb j) := by
  obtain ⟨e00, e01, e10, e11, e20, e21, e30, e31, e40, e41, e60, e61, b0, b1⟩ := same_block t
  show V m c main_v109 (((cfg0.win 0).blk t).view.emb j) = _
  refine congrArg (V m c main_v109) ?_
  funext a; apply Fin.ext
  match a with
  | ⟨0, _⟩ => show win0_0.index t (0 : Fin 2) * 2048 + 1 * (j 0).val = win0_5.index t (0 : Fin 2) * 2048 + 1 * (j 0).val; omega
  | ⟨1, _⟩ => show win0_0.index t (1 : Fin 2) * 128 + 1 * (j 1).val = win0_5.index t (1 : Fin 2) * 128 + 1 * (j 1).val; omega

/-- Input window 1's block at point `t` reads its array at the entries the first output's block names there. -/
theorem iblk1_at5 (c : Dev nD) (t : Fin cfg0.N) (j : S2048x128.Idx) :
    iblk m c 1 t j = V m c main_v111 (((cfg0.win 5).blk t).view.emb j) := by
  obtain ⟨e00, e01, e10, e11, e20, e21, e30, e31, e40, e41, e60, e61, b0, b1⟩ := same_block t
  show V m c main_v111 (((cfg0.win 1).blk t).view.emb j) = _
  refine congrArg (V m c main_v111) ?_
  funext a; apply Fin.ext
  match a with
  | ⟨0, _⟩ => show win0_1.index t (0 : Fin 2) * 2048 + 1 * (j 0).val = win0_5.index t (0 : Fin 2) * 2048 + 1 * (j 0).val; omega
  | ⟨1, _⟩ => show win0_1.index t (1 : Fin 2) * 128 + 1 * (j 1).val = win0_5.index t (1 : Fin 2) * 128 + 1 * (j 1).val; omega

/-- Input window 2's block at point `t` reads its array at the entries the first output's block names there. -/
theorem iblk2_at5 (c : Dev nD) (t : Fin cfg0.N) (j : S2048x128.Idx) :
    iblk m c 2 t j = V m c main_v113 (((cfg0.win 5).blk t).view.emb j) := by
  obtain ⟨e00, e01, e10, e11, e20, e21, e30, e31, e40, e41, e60, e61, b0, b1⟩ := same_block t
  show V m c main_v113 (((cfg0.win 2).blk t).view.emb j) = _
  refine congrArg (V m c main_v113) ?_
  funext a; apply Fin.ext
  match a with
  | ⟨0, _⟩ => show win0_2.index t (0 : Fin 2) * 2048 + 1 * (j 0).val = win0_5.index t (0 : Fin 2) * 2048 + 1 * (j 0).val; omega
  | ⟨1, _⟩ => show win0_2.index t (1 : Fin 2) * 128 + 1 * (j 1).val = win0_5.index t (1 : Fin 2) * 128 + 1 * (j 1).val; omega

/-- Input window 3's block at point `t` reads its array at the entries the first output's block names there. -/
theorem iblk3_at5 (c : Dev nD) (t : Fin cfg0.N) (j : S2048x128.Idx) :
    iblk m c 3 t j = V m c main_v5 (((cfg0.win 5).blk t).view.emb j) := by
  obtain ⟨e00, e01, e10, e11, e20, e21, e30, e31, e40, e41, e60, e61, b0, b1⟩ := same_block t
  show V m c main_v5 (((cfg0.win 3).blk t).view.emb j) = _
  refine congrArg (V m c main_v5) ?_
  funext a; apply Fin.ext
  match a with
  | ⟨0, _⟩ => show win0_3.index t (0 : Fin 2) * 2048 + 1 * (j 0).val = win0_5.index t (0 : Fin 2) * 2048 + 1 * (j 0).val; omega
  | ⟨1, _⟩ => show win0_3.index t (1 : Fin 2) * 128 + 1 * (j 1).val = win0_5.index t (1 : Fin 2) * 128 + 1 * (j 1).val; omega

/-- Input window 4's block at point `t` reads its array at the entries the first output's block names there. -/
theorem iblk4_at5 (c : Dev nD) (t : Fin cfg0.N) (j : S2048x128.Idx) :
    iblk m c 4 t j = V m c main_v7 (((cfg0.win 5).blk t).view.emb j) := by
  obtain ⟨e00, e01, e10, e11, e20, e21, e30, e31, e40, e41, e60, e61, b0, b1⟩ := same_block t
  show V m c main_v7 (((cfg0.win 4).blk t).view.emb j) = _
  refine congrArg (V m c main_v7) ?_
  funext a; apply Fin.ext
  match a with
  | ⟨0, _⟩ => show win0_4.index t (0 : Fin 2) * 2048 + 1 * (j 0).val = win0_5.index t (0 : Fin 2) * 2048 + 1 * (j 0).val; omega
  | ⟨1, _⟩ => show win0_4.index t (1 : Fin 2) * 128 + 1 * (j 1).val = win0_5.index t (1 : Fin 2) * 128 + 1 * (j 1).val; omega

/-- Point `t` writes to the first output array block `t` of the cost chain of the five arrays the region reads. -/
theorem flushed5_eq (c : Dev nD) (t : Fin cfg0.N) :
    (dats m 0 c).flushed 5 t = ((cfg0.win 5).blk t).view.read (Elt F) (costArr (V m c main_v109) (V m c main_v111) (V m c main_v113) (V m c main_v5) (V m c main_v7)) := by
  show (cfg0.win 5).cut (grid0.coords t) ((dats m 0 c).after 5 t) = _
  rw [after0_5]
  unfold out0_5
  rw [View.canon_unit_zero off_zero]
  simp only [View.ld_unit_zero (S := S2048x128) off_zero]
  rw [pay_cost]
  funext j
  show Cert.Chain.cost (iblk m c 0 t j) (iblk m c 1 t j) (iblk m c 2 t j) (iblk m c 3 t j) (iblk m c 4 t j) = _
  rw [iblk0_at5, iblk1_at5, iblk2_at5, iblk3_at5, iblk4_at5]
  rfl

/-- Point `t` writes to the second output array block `t` of the judge chain of three arrays the region reads. -/
theorem flushed6_eq (c : Dev nD) (t : Fin cfg0.N) :
    (dats m 0 c).flushed 6 t = ((cfg0.win 6).blk t).view.read (Elt F) (judgeArr (V m c main_v109) (V m c main_v5) (V m c main_v7)) := by
  show (cfg0.win 6).cut (grid0.coords t) ((dats m 0 c).after 6 t) = _
  rw [after0_6]
  unfold out0_6
  rw [View.canon_unit_zero off_zero]
  simp only [View.ld_unit_zero (S := S2048x128) off_zero]
  rw [pay_judge]
  obtain ⟨e00, e01, e10, e11, e20, e21, e30, e31, e40, e41, e60, e61, b0, b1⟩ := same_block t
  funext j
  show Cert.Chain.judge (V m c main_v109 (((cfg0.win 0).blk t).view.emb j)) (V m c main_v5 (((cfg0.win 3).blk t).view.emb j)) (V m c main_v7 (((cfg0.win 4).blk t).view.emb j))
    = Cert.Chain.judge (V m c main_v109 (((cfg0.win 6).blk t).view.emb j)) (V m c main_v5 (((cfg0.win 6).blk t).view.emb j)) (V m c main_v7 (((cfg0.win 6).blk t).view.emb j))
  have h0 : ((cfg0.win 0).blk t).view.emb j = ((cfg0.win 6).blk t).view.emb j := by
    funext a; apply Fin.ext
    match a with
    | ⟨0, _⟩ => show win0_0.index t (0 : Fin 2) * 2048 + 1 * (j 0).val = win0_6.index t (0 : Fin 2) * 2048 + 1 * (j 0).val; omega
    | ⟨1, _⟩ => show win0_0.index t (1 : Fin 2) * 128 + 1 * (j 1).val = win0_6.index t (1 : Fin 2) * 128 + 1 * (j 1).val; omega
  have h3 : ((cfg0.win 3).blk t).view.emb j = ((cfg0.win 6).blk t).view.emb j := by
    funext a; apply Fin.ext
    match a with
    | ⟨0, _⟩ => show win0_3.index t (0 : Fin 2) * 2048 + 1 * (j 0).val = win0_6.index t (0 : Fin 2) * 2048 + 1 * (j 0).val; omega
    | ⟨1, _⟩ => show win0_3.index t (1 : Fin 2) * 128 + 1 * (j 1).val = win0_6.index t (1 : Fin 2) * 128 + 1 * (j 1).val; omega
  have h4 : ((cfg0.win 4).blk t).view.emb j = ((cfg0.win 6).blk t).view.emb j := by
    funext a; apply Fin.ext
    match a with
    | ⟨0, _⟩ => show win0_4.index t (0 : Fin 2) * 2048 + 1 * (j 0).val = win0_6.index t (0 : Fin 2) * 2048 + 1 * (j 0).val; omega
    | ⟨1, _⟩ => show win0_4.index t (1 : Fin 2) * 128 + 1 * (j 1).val = win0_6.index t (1 : Fin 2) * 128 + 1 * (j 1).val; omega
  rw [h0, h3, h4]

/-! ## The four blocks tile the arrays -/

/-- An entry is in point `t`'s block of the first output iff on each axis its coordinate is within the block's range. -/
theorem mem_blk5 (t : Fin cfg0.N) (i : S8192x128.Idx) :
    i ∈ ((cfg0.win 5).blk t).view.set ↔ ∀ a : Fin 2, win0_5.index t a * S2048x128.size a ≤ (i a).val ∧ (i a).val < win0_5.index t a * S2048x128.size a + S2048x128.size a := by
  show i ∈ ((View.whole main_v114_0).slice (win0_5.rect t)).set ↔ _
  rw [View.set_slice_whole, Rect.mem_set_unit]
  exact Iff.rfl

/-- An entry is in point `t`'s block of the second output iff on each axis its coordinate is within the block's range. -/
theorem mem_blk6 (t : Fin cfg0.N) (i : S8192x128.Idx) :
    i ∈ ((cfg0.win 6).blk t).view.set ↔ ∀ a : Fin 2, win0_6.index t a * S2048x128.size a ≤ (i a).val ∧ (i a).val < win0_6.index t a * S2048x128.size a + S2048x128.size a := by
  show i ∈ ((View.whole main_v114_1).slice (win0_6.rect t)).set ↔ _
  rw [View.set_slice_whole, Rect.mem_set_unit]
  exact Iff.rfl

/-- Every entry of the first output array is in the block of the point numbered by its row divided by 2048. -/
theorem cover5 (i : S8192x128.Idx) : ∃ t : Fin cfg0.N, (cfg0.win 5).flush t = true ∧ i ∈ ((cfg0.win 5).blk t).view.set := by
  have hi0 : (i 0).val < 8192 := (i 0).isLt
  have hi1 : (i 1).val < 128 := (i 1).isLt
  obtain ⟨t, ht⟩ := every_block ⟨(i 0).val / 2048, by omega⟩
  have q0 : win0_5.index t (0 : Fin 2) = (i 0).val / 2048 := congrFun ht 0
  have q1 : win0_5.index t (1 : Fin 2) = 0 := congrFun ht 1
  refine ⟨t, flush0_5 t, ?_⟩
  rw [mem_blk5]
  intro a
  match a with
  | ⟨0, _⟩ => show win0_5.index t (0 : Fin 2) * 2048 ≤ (i 0).val ∧ (i 0).val < win0_5.index t (0 : Fin 2) * 2048 + 2048; omega
  | ⟨1, _⟩ => show win0_5.index t (1 : Fin 2) * 128 ≤ (i 1).val ∧ (i 1).val < win0_5.index t (1 : Fin 2) * 128 + 128; omega

/-- Every entry of the second output array is in the block of the point numbered by its row divided by 2048. -/
theorem cover6 (i : S8192x128.Idx) : ∃ t : Fin cfg0.N, (cfg0.win 6).flush t = true ∧ i ∈ ((cfg0.win 6).blk t).view.set := by
  have hi0 : (i 0).val < 8192 := (i 0).isLt
  have hi1 : (i 1).val < 128 := (i 1).isLt
  obtain ⟨t, ht⟩ := every_block ⟨(i 0).val / 2048, by omega⟩
  have q0 : win0_5.index t (0 : Fin 2) = (i 0).val / 2048 := congrFun ht 0
  have q1 : win0_5.index t (1 : Fin 2) = 0 := congrFun ht 1
  obtain ⟨e00, e01, e10, e11, e20, e21, e30, e31, e40, e41, e60, e61, b0, b1⟩ := same_block t
  refine ⟨t, flush0_6 t, ?_⟩
  rw [mem_blk6]
  intro a
  match a with
  | ⟨0, _⟩ => show win0_6.index t (0 : Fin 2) * 2048 ≤ (i 0).val ∧ (i 0).val < win0_6.index t (0 : Fin 2) * 2048 + 2048; omega
  | ⟨1, _⟩ => show win0_6.index t (1 : Fin 2) * 128 ≤ (i 1).val ∧ (i 1).val < win0_6.index t (1 : Fin 2) * 128 + 128; omega

/-! ## The arrays after the run -/

/-- The first output array ends as the cost chain, entry by entry, of the five arrays the region reads. -/
theorem final5 (c : Dev nD) : (dats m 0 c).arrAt 5 cfg0.N = costArr (V m c main_v109) (V m c main_v111) (V m c main_v113) (V m c main_v5) (V m c main_v7) :=
  (dats m 0 c).arrAt_eq_of_cover 5 _ (fun t _ => flushed5_eq m c t) cover5

/-- The second output array ends as the judge chain, entry by entry, of three arrays the region reads. -/
theorem final6 (c : Dev nD) : (dats m 0 c).arrAt 6 cfg0.N = judgeArr (V m c main_v109) (V m c main_v5) (V m c main_v7) :=
  (dats m 0 c).arrAt_eq_of_cover 6 _ (fun t _ => flushed6_eq m c t) cover6

/-- After the frame run `main_arg0` is as the run began: no window stages it and no host operation writes it. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run `main_arg1` is as the run began: no window stages it and no host operation writes it. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run `main_arg2` is as the run began: no window stages it and no host operation writes it. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run `main_arg3` is as the run began: no window stages it and no host operation writes it. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-! ## The run, read -/

/-- The program runs; afterwards the first result is the cost chain and the second the judge chain, entry by entry, of the arrays the region reads, and the four arguments are unchanged. -/
theorem run : θ_run defs (onTc (τ := τ) (main (F := F))) ⟨m, fun _ => 0, ρ⟩ fun r => ∀ c : Dev nD,
      r.2.mem ((c : Thread nD τ).loc main_v114_0) = (fun i => Cert.Chain.cost (V m c main_v109 i) (V m c main_v111 i) (V m c main_v113 i) (V m c main_v5 i) (V m c main_v7 i))
      ∧ r.2.mem ((c : Thread nD τ).loc main_v114_1) = (fun i => Cert.Chain.judge (V m c main_v109 i) (V m c main_v5 i) (V m c main_v7 i))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 5).trans (final5 m c), ((h c).1 6).trans (final6 m c),
      kept_main_arg0 m r h c, kept_main_arg1 m r h c, kept_main_arg2 m r h c, kept_main_arg3 m r h c⟩)
    (run_main m ρ)

end Cert.KernelIdeal.HandValue

end
-- ==== Proof.RefRun.lean ====
/- The reference program as the list of its 490 host operations, in order, and its run as a fold over that list: from
   any memory with zero counters every weakly fair run terminates, and each buffer ends at what the operations, applied
   in order to the initial contents, leave in it. -/
import proofs.«176869_j84842783965226_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- The program's 490 operations, in order. -/
abbrev ops : List (HloOp τ sig (Elt F)) :=
  [ unary main_arg0 main_v0 ((extractStridedSlice S8192x128x2 ![0, 0, 0] · slices_S8192x128x4_S8192x128x2_0_0_0) : (⟨S8192x128x4, .f32⟩ : BufTy).Contents (Elt F) → (⟨S8192x128x2, .f32⟩ : BufTy).Contents (Elt F)),
    reshape main_v0 main_v1 rfl shapeCasts_S8192x128x2_S1048576x2,
    unary main_arg0 main_v2 ((extractStridedSlice S8192x128x2 ![0, 0, 2] · slices_S8192x128x4_S8192x128x2_0_0_2) : (⟨S8192x128x4, .f32⟩ : BufTy).Contents (Elt F) → (⟨S8192x128x2, .f32⟩ : BufTy).Contents (Elt F)),
    reshape main_v2 main_v3 rfl shapeCasts_S8192x128x2_S1048576x2,
    unary main_v1 main_v4 ((extractStridedSlice S1048576x1 ![0, 0] · slices_S1048576x2_S1048576x1_0_0) : (⟨S1048576x2, .f32⟩ : BufTy).Contents (Elt F) → (⟨S1048576x1, .f32⟩ : BufTy).Contents (Elt F)),
    reshape main_v4 main_v5 rfl shapeCasts_S1048576x1_S1048576,
    nullary main_cst (constant S_ .f32 0xBF800000#32),
    unary main_cst main_v6 (broadcastInDim S1048576 ![] bcast_S_S1048576 : (⟨S_, .f32⟩ : BufTy).Contents (Elt F) → (⟨S1048576, .f32⟩ : BufTy).Contents (Elt F)),
    binary main_v5 main_v6 main_v7 (subf : (⟨S1048576, .f32⟩ : BufTy).Contents (Elt F) → (⟨S1048576, .f32⟩ : BufTy).Contents (Elt F) → (⟨S1048576, .f32⟩ : BufTy).Contents (Elt F)),
    nullary main_cst_0 (constant S_ .f32 0x40000000#32),
    unary main_cst_0 main_v8 (broadcastInDim S1048576 ![] bcast_S_S1048576 : (⟨S_, .f32⟩ : BufTy).Contents (Elt F) → (⟨S1048576, .f32⟩ : BufTy).Contents (Elt F)),
    binary main_v7 main_v8 main_v9 (Host.divf : (⟨S1048576, .f32⟩ : BufTy).Contents (Elt F) → (⟨S1048576, .f32⟩ : BufTy).Contents (Elt F) → (⟨S1048576, .f32⟩ : BufTy).Contents (Elt F)),
    nullary main_cst_1 (constant S_ .f32 0x44FFE000#32),
    unary main_cst_1 main_v10 (broadcastInDim S1048576 ![] bcast_S_S1048576 : (⟨S_, .f32⟩ : BufTy).Contents (Elt F) → (⟨S1048576, .f32⟩ : BufTy).Contents (Elt F)),
    binary main_v9 main_v10 main_v11 (mulf : (⟨S1048576, .f32⟩ : BufTy).Contents (Elt F) → (⟨S1048576, .f32⟩ : BufTy).Contents (Elt F) → (⟨S1048576, .f32⟩ : BufTy).Contents (Elt F)),
    nullary main_cst_2 (constant S_ .f32 0x00000000#32),
    nullary main_cst_3 (constant S_ .f32 0x44FFE000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S1048576, .f32⟩) main_call0_v1) (broadcastInDim S1048576 ![] bcast_S_S1048576),
    TRef.binary (TRef.of (T := ⟨S1048576, .f32⟩) main_call0_v1) (TRef.of (T := ⟨S1048576, .f32⟩) main_v11) (TRef.of (T := ⟨S1048576, .f32⟩) main_call0_v2) maximumf,
    TRef.unary (TRef.of (T := ⟨S_, .f32⟩) main_cst_3) (TRef.of (T := ⟨S_, .f32⟩) main_call0_v3) id,
    TRef.unary (TRef.of (T := ⟨S_, .f32⟩) main_call0_v3) (TRef.of (T := ⟨S1048576, .f32⟩) main_call0_v4) (broadcastInDim S1048576 ![] bcast_S_S1048576),
    TRef.binary (TRef.of (T := ⟨S1048576, .f32⟩) main_call0_v4) (TRef.of (T := ⟨S1048576, .f32⟩) main_call0_v2) (TRef.of (T := ⟨S1048576, .f32⟩) main_v12) minimumf,
    unary main_v1 main_v13 ((extractStridedSlice S1048576x1 ![0, 1] · slices_S1048576x2_S1048576x1_0_1) : (⟨S1048576x2, .f32⟩ : BufTy).Contents (Elt F) → (⟨S1048576x1, .f32⟩ : BufTy).Contents (Elt F)),
    reshape main_v13 main_v14 rfl shapeCasts_S1048576x1_S1048576,
    nullary main_cst_4 (constant S_ .f32 0xBF800000#32),
    unary main_cst_4 main_v15 (broadcastInDim S1048576 ![] bcast_S_S1048576 : (⟨S_, .f32⟩ : BufTy).Contents (Elt F) → (⟨S1048576, .f32⟩ : BufTy).Contents (Elt F)),
    binary main_v14 main_v15 main_v16 (subf : (⟨S1048576, .f32⟩ : BufTy).Contents (Elt F) → (⟨S1048576, .f32⟩ : BufTy).Contents (Elt F) → (⟨S1048576, .f32⟩ : BufTy).Contents (Elt F)),
    nullary main_cst_5 (constant S_ .f32 0x40000000#32),
    unary main_cst_5 main_v17 (broadcastInDim S1048576 ![] bcast_S_S1048576 : (⟨S_, .f32⟩ : BufTy).Contents (Elt F) → (⟨S1048576, .f32⟩ : BufTy).Contents (Elt F)),
    binary main_v16 main_v17 main_v18 (Host.divf : (⟨S1048576, .f32⟩ : BufTy).Contents (Elt F) → (⟨S1048576, .f32⟩ : BufTy).Contents (Elt F) → (⟨S1048576, .f32⟩ : BufTy).Contents (Elt F)),
    nullary main_cst_6 (constant S_ .f32 0x44FFE000#32),
    unary main_cst_6 main_v19 (broadcastInDim S1048576 ![] bcast_S_S1048576 : (⟨S_, .f32⟩ : BufTy).Contents (Elt F) → (⟨S1048576, .f32⟩ : BufTy).Contents (Elt F)),
    binary main_v18 main_v19 main_v20 (mulf : (⟨S1048576, .f32⟩ : BufTy).Contents (Elt F) → (⟨S1048576, .f32⟩ : BufTy).Contents (Elt F) → (⟨S1048576, .f32⟩ : BufTy).Contents (Elt F)),
    nullary main_cst_7 (constant S_ .f32 0x00000000#32),
    nullary main_cst_8 (constant S_ .f32 0x44FFE000#32),
    TRef.unary (TRef.of (T := ⟨S_, .f32⟩) main_cst_7) (TRef.of (T := ⟨S_, .f32⟩) main_call1_v0) id,
    TRef.unary (TRef.of (T := ⟨S_, .f32⟩) main_call1_v0) (TRef.of (T := ⟨S1048576, .f32⟩) main_call1_v1) (broadcastInDim S1048576 ![] bcast_S_S1048576),
    TRef.binary (TRef.of (T := ⟨S1048576, .f32⟩) main_call1_v1) (TRef.of (T := ⟨S1048576, .f32⟩) main_v20) (TRef.of (T := ⟨S1048576, .f32⟩) main_call1_v2) maximumf,
    TRef.unary (TRef.of (T := ⟨S_, .f32⟩) main_cst_8) (TRef.of (T := ⟨S_, .f32⟩) main_call1_v3) id,
    TRef.unary (TRef.of (T := ⟨S_, .f32⟩) main_call1_v3) (TRef.of (T := ⟨S1048576, .f32⟩) main_call1_v4) (broadcastInDim S1048576 ![] bcast_S_S1048576),
    TRef.binary (TRef.of (T := ⟨S1048576, .f32⟩) main_call1_v4) (TRef.of (T := ⟨S1048576, .f32⟩) main_call1_v2) (TRef.of (T := ⟨S1048576, .f32⟩) main_v21) minimumf,
    unary main_v12 main_v22 (Host.floor : (⟨S1048576, .f32⟩ : BufTy).Contents (Elt F) → (⟨S1048576, .f32⟩ : BufTy).Contents (Elt F)),
    unary main_v22 main_v23 (fptosi 32 : (⟨S1048576, .f32⟩ : BufTy).Contents (Elt F) → (⟨S1048576, .i32⟩ : BufTy).Contents (Elt F)),
    nullary main_c (constantI S_ 32 0#32),
    nullary main_c_9 (constantI S_ 32 2046#32),
    TRef.unary (TRef.of (T := ⟨S_, .i32⟩) main_c) (TRef.of (T := ⟨S_, .i32⟩) main_call2_v0) id,
    TRef.unary (TRef.of (T := ⟨S_, .i32⟩) main_call2_v0) (TRef.of (T := ⟨S1048576, .i32⟩) main_call2_v1) (broadcastInDim S1048576 ![] bcast_S_S1048576),
    TRef.binary (TRef.of (T := ⟨S1048576, .i32⟩) main_call2_v1) (TRef.of (T := ⟨S1048576, .i32⟩) main_v23) (TRef.of (T := ⟨S1048576, .i32⟩) main_call2_v2) maxsi,
    TRef.unary (TRef.of (T := ⟨S_, .i32⟩) main_c_9) (TRef.of (T := ⟨S_, .i32⟩) main_call2_v3) id,
    TRef.unary (TRef.of (T := ⟨S_, .i32⟩) main_call2_v3) (TRef.of (T := ⟨S1048576, .i32⟩) main_call2_v4) (broadcastInDim S1048576 ![] bcast_S_S1048576),
    TRef.binary (TRef.of (T := ⟨S1048576, .i32⟩) main_call2_v4) (TRef.of (T := ⟨S1048576, .i32⟩) main_call2_v2) (TRef.of (T := ⟨S1048576, .i32⟩) main_v24) minsi,
    unary main_v21 main_v25 (Host.floor : (⟨S1048576, .f32⟩ : BufTy).Contents (Elt F) → (⟨S1048576, .f32⟩ : BufTy).Contents (Elt F)),
    unary main_v25 main_v26 (fptosi 32 : (⟨S1048576, .f32⟩ : BufTy).Contents (Elt F) → (⟨S1048576, .i32⟩ : BufTy).Contents (Elt F)),
    nullary main_c_10 (constantI S_ 32 0#32),
    nullary main_c_11 (constantI S_ 32 2046#32),
    TRef.unary (TRef.of (T := ⟨S_, .i32⟩) main_c_10) (TRef.of (T := ⟨S_, .i32⟩) main_call3_v0) id,
    TRef.unary (TRef.of (T := ⟨S_, .i32⟩) main_call3_v0) (TRef.of (T := ⟨S1048576, .i32⟩) main_call3_v1) (broadcastInDim S1048576 ![] bcast_S_S1048576),
    TRef.binary (TRef.of (T := ⟨S1048576, .i32⟩) main_call3_v1) (TRef.of (T := ⟨S1048576, .i32⟩) main_v26) (TRef.of (T := ⟨S1048576, .i32⟩) main_call3_v2) maxsi,
    TRef.unary (TRef.of (T := ⟨S_, .i32⟩) main_c_11) (TRef.of (T := ⟨S_, .i32⟩) main_call3_v3) id,
    TRef.unary (TRef.of (T := ⟨S_, .i32⟩) main_call3_v3) (TRef.of (T := ⟨S1048576, .i32⟩) main_call3_v4) (broadcastInDim S1048576 ![] bcast_S_S1048576),
    TRef.binary (TRef.of (T := ⟨S1048576, .i32⟩) main_call3_v4) (TRef.of (T := ⟨S1048576, .i32⟩) main_call3_v2) (TRef.of (T := ⟨S1048576, .i32⟩) main_v27) minsi,
    unary main_v24 main_v28 (sitofp .f32 : (⟨S1048576, .i32⟩ : BufTy).Contents (Elt F) → (⟨S1048576, .f32⟩ : BufTy).Contents (Elt F)),
    binary main_v12 main_v28 main_v29 (subf : (⟨S1048576, .f32⟩ : BufTy).Contents (Elt F) → (⟨S1048576, .f32⟩ : BufTy).Contents (Elt F) → (⟨S1048576, .f32⟩ : BufTy).Contents (Elt F)),
    unary main_v27 main_v30 (sitofp .f32 : (⟨S1048576, .i32⟩ : BufTy).Contents (Elt F) → (⟨S1048576, .f32⟩ : BufTy).Contents (Elt F)),
    binary main_v21 main_v30 main_v31 (subf : (⟨S1048576, .f32⟩ : BufTy).Contents (Elt F) → (⟨S1048576, .f32⟩ : BufTy).Contents (Elt F) → (⟨S1048576, .f32⟩ : BufTy).Contents (Elt F)),
    nullary main_c_12 (constantI S_ 32 0#32),
    unary main_c_12 main_v32 (broadcastInDim S1048576 ![] bcast_S_S1048576 : (⟨S_, .i32⟩ : BufTy).Contents (Elt F) → (⟨S1048576, .i32⟩ : BufTy).Contents (Elt F)),
    binary main_v27 main_v32 main_v33 (cmpi .slt : (⟨S1048576, .i32⟩ : BufTy).Contents (Elt F) → (⟨S1048576, .i32⟩ : BufTy).Contents (Elt F) → (⟨S1048576, .i1⟩ : BufTy).Contents (Elt F)),
    nullary main_c_13 (constantI S_ 32 2048#32),
    unary main_c_13 main_v34 (broadcastInDim S1048576 ![] bcast_S_S1048576 : (⟨S_, .i32⟩ : BufTy).Contents (Elt F) → (⟨S1048576, .i32⟩ : BufTy).Contents (Elt F)),
    binary main_v27 main_v34 main_v35 (addi : (⟨S1048576, .i32⟩ : BufTy).Contents (Elt F) → (⟨S1048576, .i32⟩ : BufTy).Contents (Elt F) → (⟨S1048576, .i32⟩ : BufTy).Contents (Elt F)),
    ternary main_v33 main_v35 main_v27 main_v36 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    nullary main_c_14 (constantI S_ 32 0#32),
    unary main_c_14 main_v37 (broadcastInDim S1048576 ![] bcast_S_S1048576 : (⟨S_, .i32⟩ : BufTy).Contents (Elt F) → (⟨S1048576, .i32⟩ : BufTy).Contents (Elt F)),
    binary main_v24 main_v37 main_v38 (cmpi .slt : (⟨S1048576, .i32⟩ : BufTy).Contents (Elt F) → (⟨S1048576, .i32⟩ : BufTy).Contents (Elt F) → (⟨S1048576, .i1⟩ : BufTy).Contents (Elt F)),
    nullary main_c_15 (constantI S_ 32 2048#32),
    unary main_c_15 main_v39 (broadcastInDim S1048576 ![] bcast_S_S1048576 : (⟨S_, .i32⟩ : BufTy).Contents (Elt F) → (⟨S1048576, .i32⟩ : BufTy).Contents (Elt F)),
    binary main_v24 main_v39 main_v40 (addi : (⟨S1048576, .i32⟩ : BufTy).Contents (Elt F) → (⟨S1048576, .i32⟩ : BufTy).Contents (Elt F) → (⟨S1048576, .i32⟩ : BufTy).Contents (Elt F)),
    ternary main_v38 main_v40 main_v24 main_v41 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v36 main_v42 (broadcastInDim S1048576x1 ![0] bcast_S1048576_S1048576x1_0 : (⟨S1048576, .i32⟩ : BufTy).Contents (Elt F) → (⟨S1048576x1, .i32⟩ : BufTy).Contents (Elt F)),
    unary main_v41 main_v43 (broadcastInDim S1048576x1 ![0] bcast_S1048576_S1048576x1_0 : (⟨S1048576, .i32⟩ : BufTy).Contents (Elt F) → (⟨S1048576x1, .i32⟩ : BufTy).Contents (Elt F)),
    binary main_v42 main_v43 main_v44 ((fun a b => concatenate S1048576x2 1 [⟨S1048576x1, a⟩, ⟨S1048576x1, b⟩] concatenates_S1048576x1_S1048576x1_S1048576x2_d1) : (⟨S1048576x1, .i32⟩ : BufTy).Contents (Elt F) → (⟨S1048576x1, .i32⟩ : BufTy).Contents (Elt F) → (⟨S1048576x2, .i32⟩ : BufTy).Contents (Elt F)),
    binary main_arg1 main_v44 main_v45 ((fun x i => Host.gather gather_S2048x2048_S1048576x2_S1048576_n_01_n_n_01_1_11 x i) : (⟨S2048x2048, .f32⟩ : BufTy).Contents (Elt F) → (⟨S1048576x2, .i32⟩ : BufTy).Contents (Elt F) → (⟨S1048576, .f32⟩ : BufTy).Contents (Elt F)),
    nullary main_c_16 (constantI S_ 32 1#32),
    unary main_c_16 main_v46 (broadcastInDim S1048576 ![] bcast_S_S1048576 : (⟨S_, .i32⟩ : BufTy).Contents (Elt F) → (⟨S1048576, .i32⟩ : BufTy).Contents (Elt F)),
    binary main_v24 main_v46 main_v47 (addi : (⟨S1048576, .i32⟩ : BufTy).Contents (Elt F) → (⟨S1048576, .i32⟩ : BufTy).Contents (Elt F) → (⟨S1048576, .i32⟩ : BufTy).Contents (Elt F)),
    nullary main_c_17 (constantI S_ 32 0#32),
    unary main_c_17 main_v48 (broadcastInDim S1048576 ![] bcast_S_S1048576 : (⟨S_, .i32⟩ : BufTy).Contents (Elt F) → (⟨S1048576, .i32⟩ : BufTy).Contents (Elt F)),
    binary main_v27 main_v48 main_v49 (cmpi .slt : (⟨S1048576, .i32⟩ : BufTy).Contents (Elt F) → (⟨S1048576, .i32⟩ : BufTy).Contents (Elt F) → (⟨S1048576, .i1⟩ : BufTy).Contents (Elt F)),
    nullary main_c_18 (constantI S_ 32 2048#32),
    unary main_c_18 main_v50 (broadcastInDim S1048576 ![] bcast_S_S1048576 : (⟨S_, .i32⟩ : BufTy).Contents (Elt F) → (⟨S1048576, .i32⟩ : BufTy).Contents (Elt F)),
    binary main_v27 main_v50 main_v51 (addi : (⟨S1048576, .i32⟩ : BufTy).Contents (Elt F) → (⟨S1048576, .i32⟩ : BufTy).Contents (Elt F) → (⟨S1048576, .i32⟩ : BufTy).Contents (Elt F)),
    ternary main_v49 main_v51 main_v27 main_v52 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    nullary main_c_19 (constantI S_ 32 0#32),
    unary main_c_19 main_v53 (broadcastInDim S1048576 ![] bcast_S_S1048576 : (⟨S_, .i32⟩ : BufTy).Contents (Elt F) → (⟨S1048576, .i32⟩ : BufTy).Contents (Elt F)),
    binary main_v47 main_v53 main_v54 (cmpi .slt : (⟨S1048576, .i32⟩ : BufTy).Contents (Elt F) → (⟨S1048576, .i32⟩ : BufTy).Contents (Elt F) → (⟨S1048576, .i1⟩ : BufTy).Contents (Elt F)),
    nullary main_c_20 (constantI S_ 32 2048#32),
    unary main_c_20 main_v55 (broadcastInDim S1048576 ![] bcast_S_S1048576 : (⟨S_, .i32⟩ : BufTy).Contents (Elt F) → (⟨S1048576, .i32⟩ : BufTy).Contents (Elt F)),
    binary main_v47 main_v55 main_v56 (addi : (⟨S1048576, .i32⟩ : BufTy).Contents (Elt F) → (⟨S1048576, .i32⟩ : BufTy).Contents (Elt F) → (⟨S1048576, .i32⟩ : BufTy).Contents (Elt F)),
    ternary main_v54 main_v56 main_v47 main_v57 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v52 main_v58 (broadcastInDim S1048576x1 ![0] bcast_S1048576_S1048576x1_0 : (⟨S1048576, .i32⟩ : BufTy).Contents (Elt F) → (⟨S1048576x1, .i32⟩ : BufTy).Contents (Elt F)),
    unary main_v57 main_v59 (broadcastInDim S1048576x1 ![0] bcast_S1048576_S1048576x1_0 : (⟨S1048576, .i32⟩ : BufTy).Contents (Elt F) → (⟨S1048576x1, .i32⟩ : BufTy).Contents (Elt F)),
    binary main_v58 main_v59 main_v60 ((fun a b => concatenate S1048576x2 1 [⟨S1048576x1, a⟩, ⟨S1048576x1, b⟩] concatenates_S1048576x1_S1048576x1_S1048576x2_d1) : (⟨S1048576x1, .i32⟩ : BufTy).Contents (Elt F) → (⟨S1048576x1, .i32⟩ : BufTy).Contents (Elt F) → (⟨S1048576x2, .i32⟩ : BufTy).Contents (Elt F)),
    binary main_arg1 main_v60 main_v61 ((fun x i => Host.gather gather_S2048x2048_S1048576x2_S1048576_n_01_n_n_01_1_11 x i) : (⟨S2048x2048, .f32⟩ : BufTy).Contents (Elt F) → (⟨S1048576x2, .i32⟩ : BufTy).Contents (Elt F) → (⟨S1048576, .f32⟩ : BufTy).Contents (Elt F)),
    nullary main_c_21 (constantI S_ 32 1#32),
    unary main_c_21 main_v62 (broadcastInDim S1048576 ![] bcast_S_S1048576 : (⟨S_, .i32⟩ : BufTy).Contents (Elt F) → (⟨S1048576, .i32⟩ : BufTy).Contents (Elt F)),
    binary main_v27 main_v62 main_v63 (addi : (⟨S1048576, .i32⟩ : BufTy).Contents (Elt F) → (⟨S1048576, .i32⟩ : BufTy).Contents (Elt F) → (⟨S1048576, .i32⟩ : BufTy).Contents (Elt F)),
    nullary main_c_22 (constantI S_ 32 0#32),
    unary main_c_22 main_v64 (broadcastInDim S1048576 ![] bcast_S_S1048576 : (⟨S_, .i32⟩ : BufTy).Contents (Elt F) → (⟨S1048576, .i32⟩ : BufTy).Contents (Elt F)),
    binary main_v63 main_v64 main_v65 (cmpi .slt : (⟨S1048576, .i32⟩ : BufTy).Contents (Elt F) → (⟨S1048576, .i32⟩ : BufTy).Contents (Elt F) → (⟨S1048576, .i1⟩ : BufTy).Contents (Elt F)),
    nullary main_c_23 (constantI S_ 32 2048#32),
    unary main_c_23 main_v66 (broadcastInDim S1048576 ![] bcast_S_S1048576 : (⟨S_, .i32⟩ : BufTy).Contents (Elt F) → (⟨S1048576, .i32⟩ : BufTy).Contents (Elt F)),
    binary main_v63 main_v66 main_v67 (addi : (⟨S1048576, .i32⟩ : BufTy).Contents (Elt F) → (⟨S1048576, .i32⟩ : BufTy).Contents (Elt F) → (⟨S1048576, .i32⟩ : BufTy).Contents (Elt F)),
    ternary main_v65 main_v67 main_v63 main_v68 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    nullary main_c_24 (constantI S_ 32 0#32),
    unary main_c_24 main_v69 (broadcastInDim S1048576 ![] bcast_S_S1048576 : (⟨S_, .i32⟩ : BufTy).Contents (Elt F) → (⟨S1048576, .i32⟩ : BufTy).Contents (Elt F)),
    binary main_v24 main_v69 main_v70 (cmpi .slt : (⟨S1048576, .i32⟩ : BufTy).Contents (Elt F) → (⟨S1048576, .i32⟩ : BufTy).Contents (Elt F) → (⟨S1048576, .i1⟩ : BufTy).Contents (Elt F)),
    nullary main_c_25 (constantI S_ 32 2048#32),
    unary main_c_25 main_v71 (broadcastInDim S1048576 ![] bcast_S_S1048576 : (⟨S_, .i32⟩ : BufTy).Contents (Elt F) → (⟨S1048576, .i32⟩ : BufTy).Contents (Elt F)),
    binary main_v24 main_v71 main_v72 (addi : (⟨S1048576, .i32⟩ : BufTy).Contents (Elt F) → (⟨S1048576, .i32⟩ : BufTy).Contents (Elt F) → (⟨S1048576, .i32⟩ : BufTy).Contents (Elt F)),
    ternary main_v70 main_v72 main_v24 main_v73 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v68 main_v74 (broadcastInDim S1048576x1 ![0] bcast_S1048576_S1048576x1_0 : (⟨S1048576, .i32⟩ : BufTy).Contents (Elt F) → (⟨S1048576x1, .i32⟩ : BufTy).Contents (Elt F)),
    unary main_v73 main_v75 (broadcastInDim S1048576x1 ![0] bcast_S1048576_S1048576x1_0 : (⟨S1048576, .i32⟩ : BufTy).Contents (Elt F) → (⟨S1048576x1, .i32⟩ : BufTy).Contents (Elt F)),
    binary main_v74 main_v75 main_v76 ((fun a b => concatenate S1048576x2 1 [⟨S1048576x1, a⟩, ⟨S1048576x1, b⟩] concatenates_S1048576x1_S1048576x1_S1048576x2_d1) : (⟨S1048576x1, .i32⟩ : BufTy).Contents (Elt F) → (⟨S1048576x1, .i32⟩ : BufTy).Contents (Elt F) → (⟨S1048576x2, .i32⟩ : BufTy).Contents (Elt F)),
    binary main_arg1 main_v76 main_v77 ((fun x i => Host.gather gather_S2048x2048_S1048576x2_S1048576_n_01_n_n_01_1_11 x i) : (⟨S2048x2048, .f32⟩ : BufTy).Contents (Elt F) → (⟨S1048576x2, .i32⟩ : BufTy).Contents (Elt F) → (⟨S1048576, .f32⟩ : BufTy).Contents (Elt F)),
    nullary main_c_26 (constantI S_ 32 1#32),
    unary main_c_26 main_v78 (broadcastInDim S1048576 ![] bcast_S_S1048576 : (⟨S_, .i32⟩ : BufTy).Contents (Elt F) → (⟨S1048576, .i32⟩ : BufTy).Contents (Elt F)),
    binary main_v27 main_v78 main_v79 (addi : (⟨S1048576, .i32⟩ : BufTy).Contents (Elt F) → (⟨S1048576, .i32⟩ : BufTy).Contents (Elt F) → (⟨S1048576, .i32⟩ : BufTy).Contents (Elt F)),
    nullary main_c_27 (constantI S_ 32 1#32),
    unary main_c_27 main_v80 (broadcastInDim S1048576 ![] bcast_S_S1048576 : (⟨S_, .i32⟩ : BufTy).Contents (Elt F) → (⟨S1048576, .i32⟩ : BufTy).Contents (Elt F)),
    binary main_v24 main_v80 main_v81 (addi : (⟨S1048576, .i32⟩ : BufTy).Contents (Elt F) → (⟨S1048576, .i32⟩ : BufTy).Contents (Elt F) → (⟨S1048576, .i32⟩ : BufTy).Contents (Elt F)),
    nullary main_c_28 (constantI S_ 32 0#32),
    unary main_c_28 main_v82 (broadcastInDim S1048576 ![] bcast_S_S1048576 : (⟨S_, .i32⟩ : BufTy).Contents (Elt F) → (⟨S1048576, .i32⟩ : BufTy).Contents (Elt F)),
    binary main_v79 main_v82 main_v83 (cmpi .slt : (⟨S1048576, .i32⟩ : BufTy).Contents (Elt F) → (⟨S1048576, .i32⟩ : BufTy).Contents (Elt F) → (⟨S1048576, .i1⟩ : BufTy).Contents (Elt F)),
    nullary main_c_29 (constantI S_ 32 2048#32),
    unary main_c_29 main_v84 (broadcastInDim S1048576 ![] bcast_S_S1048576 : (⟨S_, .i32⟩ : BufTy).Contents (Elt F) → (⟨S1048576, .i32⟩ : BufTy).Contents (Elt F)),
    binary main_v79 main_v84 main_v85 (addi : (⟨S1048576, .i32⟩ : BufTy).Contents (Elt F) → (⟨S1048576, .i32⟩ : BufTy).Contents (Elt F) → (⟨S1048576, .i32⟩ : BufTy).Contents (Elt F)),
    ternary main_v83 main_v85 main_v79 main_v86 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    nullary main_c_30 (constantI S_ 32 0#32),
    unary main_c_30 main_v87 (broadcastInDim S1048576 ![] bcast_S_S1048576 : (⟨S_, .i32⟩ : BufTy).Contents (Elt F) → (⟨S1048576, .i32⟩ : BufTy).Contents (Elt F)),
    binary main_v81 main_v87 main_v88 (cmpi .slt : (⟨S1048576, .i32⟩ : BufTy).Contents (Elt F) → (⟨S1048576, .i32⟩ : BufTy).Contents (Elt F) → (⟨S1048576, .i1⟩ : BufTy).Contents (Elt F)),
    nullary main_c_31 (constantI S_ 32 2048#32),
    unary main_c_31 main_v89 (broadcastInDim S1048576 ![] bcast_S_S1048576 : (⟨S_, .i32⟩ : BufTy).Contents (Elt F) → (⟨S1048576, .i32⟩ : BufTy).Contents (Elt F)),
    binary main_v81 main_v89 main_v90 (addi : (⟨S1048576, .i32⟩ : BufTy).Contents (Elt F) → (⟨S1048576, .i32⟩ : BufTy).Contents (Elt F) → (⟨S1048576, .i32⟩ : BufTy).Contents (Elt F)),
    ternary main_v88 main_v90 main_v81 main_v91 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v86 main_v92 (broadcastInDim S1048576x1 ![0] bcast_S1048576_S1048576x1_0 : (⟨S1048576, .i32⟩ : BufTy).Contents (Elt F) → (⟨S1048576x1, .i32⟩ : BufTy).Contents (Elt F)),
    unary main_v91 main_v93 (broadcastInDim S1048576x1 ![0] bcast_S1048576_S1048576x1_0 : (⟨S1048576, .i32⟩ : BufTy).Contents (Elt F) → (⟨S1048576x1, .i32⟩ : BufTy).Contents (Elt F)),
    binary main_v92 main_v93 main_v94 ((fun a b => concatenate S1048576x2 1 [⟨S1048576x1, a⟩, ⟨S1048576x1, b⟩] concatenates_S1048576x1_S1048576x1_S1048576x2_d1) : (⟨S1048576x1, .i32⟩ : BufTy).Contents (Elt F) → (⟨S1048576x1, .i32⟩ : BufTy).Contents (Elt F) → (⟨S1048576x2, .i32⟩ : BufTy).Contents (Elt F)),
    binary main_arg1 main_v94 main_v95 ((fun x i => Host.gather gather_S2048x2048_S1048576x2_S1048576_n_01_n_n_01_1_11 x i) : (⟨S2048x2048, .f32⟩ : BufTy).Contents (Elt F) → (⟨S1048576x2, .i32⟩ : BufTy).Contents (Elt F) → (⟨S1048576, .f32⟩ : BufTy).Contents (Elt F)),
    nullary main_cst_32 (constant S_ .f32 0x3F800000#32),
    unary main_cst_32 main_v96 (broadcastInDim S1048576 ![] bcast_S_S1048576 : (⟨S_, .f32⟩ : BufTy).Contents (Elt F) → (⟨S1048576, .f32⟩ : BufTy).Contents (Elt F)),
    binary main_v96 main_v29 main_v97 (subf : (⟨S1048576, .f32⟩ : BufTy).Contents (Elt F) → (⟨S1048576, .f32⟩ : BufTy).Contents (Elt F) → (⟨S1048576, .f32⟩ : BufTy).Contents (Elt F)),
    binary main_v45 main_v97 main_v98 (mulf : (⟨S1048576, .f32⟩ : BufTy).Contents (Elt F) → (⟨S1048576, .f32⟩ : BufTy).Contents (Elt F) → (⟨S1048576, .f32⟩ : BufTy).Contents (Elt F)),
    binary main_v61 main_v29 main_v99 (mulf : (⟨S1048576, .f32⟩ : BufTy).Contents (Elt F) → (⟨S1048576, .f32⟩ : BufTy).Contents (Elt F) → (⟨S1048576, .f32⟩ : BufTy).Contents (Elt F)),
    binary main_v98 main_v99 main_v100 (addf : (⟨S1048576, .f32⟩ : BufTy).Contents (Elt F) → (⟨S1048576, .f32⟩ : BufTy).Contents (Elt F) → (⟨S1048576, .f32⟩ : BufTy).Contents (Elt F)),
    nullary main_cst_33 (constant S_ .f32 0x3F800000#32),
    unary main_cst_33 main_v101 (broadcastInDim S1048576 ![] bcast_S_S1048576 : (⟨S_, .f32⟩ : BufTy).Contents (Elt F) → (⟨S1048576, .f32⟩ : BufTy).Contents (Elt F)),
    binary main_v101 main_v29 main_v102 (subf : (⟨S1048576, .f32⟩ : BufTy).Contents (Elt F) → (⟨S1048576, .f32⟩ : BufTy).Contents (Elt F) → (⟨S1048576, .f32⟩ : BufTy).Contents (Elt F)),
    binary main_v77 main_v102 main_v103 (mulf : (⟨S1048576, .f32⟩ : BufTy).Contents (Elt F) → (⟨S1048576, .f32⟩ : BufTy).Contents (Elt F) → (⟨S1048576, .f32⟩ : BufTy).Contents (Elt F)),
    binary main_v95 main_v29 main_v104 (mulf : (⟨S1048576, .f32⟩ : BufTy).Contents (Elt F) → (⟨S1048576, .f32⟩ : BufTy).Contents (Elt F) → (⟨S1048576, .f32⟩ : BufTy).Contents (Elt F)),
    binary main_v103 main_v104 main_v105 (addf : (⟨S1048576, .f32⟩ : BufTy).Contents (Elt F) → (⟨S1048576, .f32⟩ : BufTy).Contents (Elt F) → (⟨S1048576, .f32⟩ : BufTy).Contents (Elt F)),
    nullary main_cst_34 (constant S_ .f32 0x3F800000#32),
    unary main_cst_34 main_v106 (broadcastInDim S1048576 ![] bcast_S_S1048576 : (⟨S_, .f32⟩ : BufTy).Contents (Elt F) → (⟨S1048576, .f32⟩ : BufTy).Contents (Elt F)),
    binary main_v106 main_v31 main_v107 (subf : (⟨S1048576, .f32⟩ : BufTy).Contents (Elt F) → (⟨S1048576, .f32⟩ : BufTy).Contents (Elt F) → (⟨S1048576, .f32⟩ : BufTy).Contents (Elt F)),
    binary main_v100 main_v107 main_v108 (mulf : (⟨S1048576, .f32⟩ : BufTy).Contents (Elt F) → (⟨S1048576, .f32⟩ : BufTy).Contents (Elt F) → (⟨S1048576, .f32⟩ : BufTy).Contents (Elt F)),
    binary main_v105 main_v31 main_v109 (mulf : (⟨S1048576, .f32⟩ : BufTy).Contents (Elt F) → (⟨S1048576, .f32⟩ : BufTy).Contents (Elt F) → (⟨S1048576, .f32⟩ : BufTy).Contents (Elt F)),
    binary main_v108 main_v109 main_v110 (addf : (⟨S1048576, .f32⟩ : BufTy).Contents (Elt F) → (⟨S1048576, .f32⟩ : BufTy).Contents (Elt F) → (⟨S1048576, .f32⟩ : BufTy).Contents (Elt F)),
    unary main_v12 main_v111 (Host.floor : (⟨S1048576, .f32⟩ : BufTy).Contents (Elt F) → (⟨S1048576, .f32⟩ : BufTy).Contents (Elt F)),
    unary main_v111 main_v112 (fptosi 32 : (⟨S1048576, .f32⟩ : BufTy).Contents (Elt F) → (⟨S1048576, .i32⟩ : BufTy).Contents (Elt F)),
    nullary main_c_35 (constantI S_ 32 0#32),
    nullary main_c_36 (constantI S_ 32 2046#32),
    TRef.unary (TRef.of (T := ⟨S_, .i32⟩) main_c_35) (TRef.of (T := ⟨S_, .i32⟩) main_call4_v0) id,
    TRef.unary (TRef.of (T := ⟨S_, .i32⟩) main_call4_v0) (TRef.of (T := ⟨S1048576, .i32⟩) main_call4_v1) (broadcastInDim S1048576 ![] bcast_S_S1048576),
    TRef.binary (TRef.of (T := ⟨S1048576, .i32⟩) main_call4_v1) (TRef.of (T := ⟨S1048576, .i32⟩) main_v112) (TRef.of (T := ⟨S1048576, .i32⟩) main_call4_v2) maxsi,
    TRef.unary (TRef.of (T := ⟨S_, .i32⟩) main_c_36) (TRef.of (T := ⟨S_, .i32⟩) main_call4_v3) id,
    TRef.unary (TRef.of (T := ⟨S_, .i32⟩) main_call4_v3) (TRef.of (T := ⟨S1048576, .i32⟩) main_call4_v4) (broadcastInDim S1048576 ![] bcast_S_S1048576),
    TRef.binary (TRef.of (T := ⟨S1048576, .i32⟩) main_call4_v4) (TRef.of (T := ⟨S1048576, .i32⟩) main_call4_v2) (TRef.of (T := ⟨S1048576, .i32⟩) main_v113) minsi,
    unary main_v21 main_v114 (Host.floor : (⟨S1048576, .f32⟩ : BufTy).Contents (Elt F) → (⟨S1048576, .f32⟩ : BufTy).Contents (Elt F)),
    unary main_v114 main_v115 (fptosi 32 : (⟨S1048576, .f32⟩ : BufTy).Contents (Elt F) → (⟨S1048576, .i32⟩ : BufTy).Contents (Elt F)),
    nullary main_c_37 (constantI S_ 32 0#32),
    nullary main_c_38 (constantI S_ 32 2046#32),
    TRef.unary (TRef.of (T := ⟨S_, .i32⟩) main_c_37) (TRef.of (T := ⟨S_, .i32⟩) main_call5_v0) id,
    TRef.unary (TRef.of (T := ⟨S_, .i32⟩) main_call5_v0) (TRef.of (T := ⟨S1048576, .i32⟩) main_call5_v1) (broadcastInDim S1048576 ![] bcast_S_S1048576),
    TRef.binary (TRef.of (T := ⟨S1048576, .i32⟩) main_call5_v1) (TRef.of (T := ⟨S1048576, .i32⟩) main_v115) (TRef.of (T := ⟨S1048576, .i32⟩) main_call5_v2) maxsi,
    TRef.unary (TRef.of (T := ⟨S_, .i32⟩) main_c_38) (TRef.of (T := ⟨S_, .i32⟩) main_call5_v3) id,
    TRef.unary (TRef.of (T := ⟨S_, .i32⟩) main_call5_v3) (TRef.of (T := ⟨S1048576, .i32⟩) main_call5_v4) (broadcastInDim S1048576 ![] bcast_S_S1048576),
    TRef.binary (TRef.of (T := ⟨S1048576, .i32⟩) main_call5_v4) (TRef.of (T := ⟨S1048576, .i32⟩) main_call5_v2) (TRef.of (T := ⟨S1048576, .i32⟩) main_v116) minsi,
    unary main_v113 main_v117 (sitofp .f32 : (⟨S1048576, .i32⟩ : BufTy).Contents (Elt F) → (⟨S1048576, .f32⟩ : BufTy).Contents (Elt F)),
    binary main_v12 main_v117 main_v118 (subf : (⟨S1048576, .f32⟩ : BufTy).Contents (Elt F) → (⟨S1048576, .f32⟩ : BufTy).Contents (Elt F) → (⟨S1048576, .f32⟩ : BufTy).Contents (Elt F)),
    unary main_v116 main_v119 (sitofp .f32 : (⟨S1048576, .i32⟩ : BufTy).Contents (Elt F) → (⟨S1048576, .f32⟩ : BufTy).Contents (Elt F)),
    binary main_v21 main_v119 main_v120 (subf : (⟨S1048576, .f32⟩ : BufTy).Contents (Elt F) → (⟨S1048576, .f32⟩ : BufTy).Contents (Elt F) → (⟨S1048576, .f32⟩ : BufTy).Contents (Elt F)),
    nullary main_c_39 (constantI S_ 32 0#32),
    unary main_c_39 main_v121 (broadcastInDim S1048576 ![] bcast_S_S1048576 : (⟨S_, .i32⟩ : BufTy).Contents (Elt F) → (⟨S1048576, .i32⟩ : BufTy).Contents (Elt F)),
    binary main_v116 main_v121 main_v122 (cmpi .slt : (⟨S1048576, .i32⟩ : BufTy).Contents (Elt F) → (⟨S1048576, .i32⟩ : BufTy).Contents (Elt F) → (⟨S1048576, .i1⟩ : BufTy).Contents (Elt F)),
    nullary main_c_40 (constantI S_ 32 2048#32),
    unary main_c_40 main_v123 (broadcastInDim S1048576 ![] bcast_S_S1048576 : (⟨S_, .i32⟩ : BufTy).Contents (Elt F) → (⟨S1048576, .i32⟩ : BufTy).Contents (Elt F)),
    binary main_v116 main_v123 main_v124 (addi : (⟨S1048576, .i32⟩ : BufTy).Contents (Elt F) → (⟨S1048576, .i32⟩ : BufTy).Contents (Elt F) → (⟨S1048576, .i32⟩ : BufTy).Contents (Elt F)),
    ternary main_v122 main_v124 main_v116 main_v125 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    nullary main_c_41 (constantI S_ 32 0#32),
    unary main_c_41 main_v126 (broadcastInDim S1048576 ![] bcast_S_S1048576 : (⟨S_, .i32⟩ : BufTy).Contents (Elt F) → (⟨S1048576, .i32⟩ : BufTy).Contents (Elt F)),
    binary main_v113 main_v126 main_v127 (cmpi .slt : (⟨S1048576, .i32⟩ : BufTy).Contents (Elt F) → (⟨S1048576, .i32⟩ : BufTy).Contents (Elt F) → (⟨S1048576, .i1⟩ : BufTy).Contents (Elt F)),
    nullary main_c_42 (constantI S_ 32 2048#32),
    unary main_c_42 main_v128 (broadcastInDim S1048576 ![] bcast_S_S1048576 : (⟨S_, .i32⟩ : BufTy).Contents (Elt F) → (⟨S1048576, .i32⟩ : BufTy).Contents (Elt F)),
    binary main_v113 main_v128 main_v129 (addi : (⟨S1048576, .i32⟩ : BufTy).Contents (Elt F) → (⟨S1048576, .i32⟩ : BufTy).Contents (Elt F) → (⟨S1048576, .i32⟩ : BufTy).Contents (Elt F)),
    ternary main_v127 main_v129 main_v113 main_v130 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v125 main_v131 (broadcastInDim S1048576x1 ![0] bcast_S1048576_S1048576x1_0 : (⟨S1048576, .i32⟩ : BufTy).Contents (Elt F) → (⟨S1048576x1, .i32⟩ : BufTy).Contents (Elt F)),
    unary main_v130 main_v132 (broadcastInDim S1048576x1 ![0] bcast_S1048576_S1048576x1_0 : (⟨S1048576, .i32⟩ : BufTy).Contents (Elt F) → (⟨S1048576x1, .i32⟩ : BufTy).Contents (Elt F)),
    binary main_v131 main_v132 main_v133 ((fun a b => concatenate S1048576x2 1 [⟨S1048576x1, a⟩, ⟨S1048576x1, b⟩] concatenates_S1048576x1_S1048576x1_S1048576x2_d1) : (⟨S1048576x1, .i32⟩ : BufTy).Contents (Elt F) → (⟨S1048576x1, .i32⟩ : BufTy).Contents (Elt F) → (⟨S1048576x2, .i32⟩ : BufTy).Contents (Elt F)),
    binary main_arg2 main_v133 main_v134 ((fun x i => Host.gather gather_S2048x2048_S1048576x2_S1048576_n_01_n_n_01_1_11 x i) : (⟨S2048x2048, .f32⟩ : BufTy).Contents (Elt F) → (⟨S1048576x2, .i32⟩ : BufTy).Contents (Elt F) → (⟨S1048576, .f32⟩ : BufTy).Contents (Elt F)),
    nullary main_c_43 (constantI S_ 32 1#32),
    unary main_c_43 main_v135 (broadcastInDim S1048576 ![] bcast_S_S1048576 : (⟨S_, .i32⟩ : BufTy).Contents (Elt F) → (⟨S1048576, .i32⟩ : BufTy).Contents (Elt F)),
    binary main_v113 main_v135 main_v136 (addi : (⟨S1048576, .i32⟩ : BufTy).Contents (Elt F) → (⟨S1048576, .i32⟩ : BufTy).Contents (Elt F) → (⟨S1048576, .i32⟩ : BufTy).Contents (Elt F)),
    nullary main_c_44 (constantI S_ 32 0#32),
    unary main_c_44 main_v137 (broadcastInDim S1048576 ![] bcast_S_S1048576 : (⟨S_, .i32⟩ : BufTy).Contents (Elt F) → (⟨S1048576, .i32⟩ : BufTy).Contents (Elt F)),
    binary main_v116 main_v137 main_v138 (cmpi .slt : (⟨S1048576, .i32⟩ : BufTy).Contents (Elt F) → (⟨S1048576, .i32⟩ : BufTy).Contents (Elt F) → (⟨S1048576, .i1⟩ : BufTy).Contents (Elt F)),
    nullary main_c_45 (constantI S_ 32 2048#32),
    unary main_c_45 main_v139 (broadcastInDim S1048576 ![] bcast_S_S1048576 : (⟨S_, .i32⟩ : BufTy).Contents (Elt F) → (⟨S1048576, .i32⟩ : BufTy).Contents (Elt F)),
    binary main_v116 main_v139 main_v140 (addi : (⟨S1048576, .i32⟩ : BufTy).Contents (Elt F) → (⟨S1048576, .i32⟩ : BufTy).Contents (Elt F) → (⟨S1048576, .i32⟩ : BufTy).Contents (Elt F)),
    ternary main_v138 main_v140 main_v116 main_v141 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    nullary main_c_46 (constantI S_ 32 0#32),
    unary main_c_46 main_v142 (broadcastInDim S1048576 ![] bcast_S_S1048576 : (⟨S_, .i32⟩ : BufTy).Contents (Elt F) → (⟨S1048576, .i32⟩ : BufTy).Contents (Elt F)),
    binary main_v136 main_v142 main_v143 (cmpi .slt : (⟨S1048576, .i32⟩ : BufTy).Contents (Elt F) → (⟨S1048576, .i32⟩ : BufTy).Contents (Elt F) → (⟨S1048576, .i1⟩ : BufTy).Contents (Elt F)),
    nullary main_c_47 (constantI S_ 32 2048#32),
    unary main_c_47 main_v144 (broadcastInDim S1048576 ![] bcast_S_S1048576 : (⟨S_, .i32⟩ : BufTy).Contents (Elt F) → (⟨S1048576, .i32⟩ : BufTy).Contents (Elt F)),
    binary main_v136 main_v144 main_v145 (addi : (⟨S1048576, .i32⟩ : BufTy).Contents (Elt F) → (⟨S1048576, .i32⟩ : BufTy).Contents (Elt F) → (⟨S1048576, .i32⟩ : BufTy).Contents (Elt F)),
    ternary main_v143 main_v145 main_v136 main_v146 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v141 main_v147 (broadcastInDim S1048576x1 ![0] bcast_S1048576_S1048576x1_0 : (⟨S1048576, .i32⟩ : BufTy).Contents (Elt F) → (⟨S1048576x1, .i32⟩ : BufTy).Contents (Elt F)),
    unary main_v146 main_v148 (broadcastInDim S1048576x1 ![0] bcast_S1048576_S1048576x1_0 : (⟨S1048576, .i32⟩ : BufTy).Contents (Elt F) → (⟨S1048576x1, .i32⟩ : BufTy).Contents (Elt F)),
    binary main_v147 main_v148 main_v149 ((fun a b => concatenate S1048576x2 1 [⟨S1048576x1, a⟩, ⟨S1048576x1, b⟩] concatenates_S1048576x1_S1048576x1_S1048576x2_d1) : (⟨S1048576x1, .i32⟩ : BufTy).Contents (Elt F) → (⟨S1048576x1, .i32⟩ : BufTy).Contents (Elt F) → (⟨S1048576x2, .i32⟩ : BufTy).Contents (Elt F)),
    binary main_arg2 main_v149 main_v150 ((fun x i => Host.gather gather_S2048x2048_S1048576x2_S1048576_n_01_n_n_01_1_11 x i) : (⟨S2048x2048, .f32⟩ : BufTy).Contents (Elt F) → (⟨S1048576x2, .i32⟩ : BufTy).Contents (Elt F) → (⟨S1048576, .f32⟩ : BufTy).Contents (Elt F)),
    nullary main_c_48 (constantI S_ 32 1#32),
    unary main_c_48 main_v151 (broadcastInDim S1048576 ![] bcast_S_S1048576 : (⟨S_, .i32⟩ : BufTy).Contents (Elt F) → (⟨S1048576, .i32⟩ : BufTy).Contents (Elt F)),
    binary main_v116 main_v151 main_v152 (addi : (⟨S1048576, .i32⟩ : BufTy).Contents (Elt F) → (⟨S1048576, .i32⟩ : BufTy).Contents (Elt F) → (⟨S1048576, .i32⟩ : BufTy).Contents (Elt F)),
    nullary main_c_49 (constantI S_ 32 0#32),
    unary main_c_49 main_v153 (broadcastInDim S1048576 ![] bcast_S_S1048576 : (⟨S_, .i32⟩ : BufTy).Contents (Elt F) → (⟨S1048576, .i32⟩ : BufTy).Contents (Elt F)),
    binary main_v152 main_v153 main_v154 (cmpi .slt : (⟨S1048576, .i32⟩ : BufTy).Contents (Elt F) → (⟨S1048576, .i32⟩ : BufTy).Contents (Elt F) → (⟨S1048576, .i1⟩ : BufTy).Contents (Elt F)),
    nullary main_c_50 (constantI S_ 32 2048#32),
    unary main_c_50 main_v155 (broadcastInDim S1048576 ![] bcast_S_S1048576 : (⟨S_, .i32⟩ : BufTy).Contents (Elt F) → (⟨S1048576, .i32⟩ : BufTy).Contents (Elt F)),
    binary main_v152 main_v155 main_v156 (addi : (⟨S1048576, .i32⟩ : BufTy).Contents (Elt F) → (⟨S1048576, .i32⟩ : BufTy).Contents (Elt F) → (⟨S1048576, .i32⟩ : BufTy).Contents (Elt F)),
    ternary main_v154 main_v156 main_v152 main_v157 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    nullary main_c_51 (constantI S_ 32 0#32),
    unary main_c_51 main_v158 (broadcastInDim S1048576 ![] bcast_S_S1048576 : (⟨S_, .i32⟩ : BufTy).Contents (Elt F) → (⟨S1048576, .i32⟩ : BufTy).Contents (Elt F)),
    binary main_v113 main_v158 main_v159 (cmpi .slt : (⟨S1048576, .i32⟩ : BufTy).Contents (Elt F) → (⟨S1048576, .i32⟩ : BufTy).Contents (Elt F) → (⟨S1048576, .i1⟩ : BufTy).Contents (Elt F)),
    nullary main_c_52 (constantI S_ 32 2048#32),
    unary main_c_52 main_v160 (broadcastInDim S1048576 ![] bcast_S_S1048576 : (⟨S_, .i32⟩ : BufTy).Contents (Elt F) → (⟨S1048576, .i32⟩ : BufTy).Contents (Elt F)),
    binary main_v113 main_v160 main_v161 (addi : (⟨S1048576, .i32⟩ : BufTy).Contents (Elt F) → (⟨S1048576, .i32⟩ : BufTy).Contents (Elt F) → (⟨S1048576, .i32⟩ : BufTy).Contents (Elt F)),
    ternary main_v159 main_v161 main_v113 main_v162 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v157 main_v163 (broadcastInDim S1048576x1 ![0] bcast_S1048576_S1048576x1_0 : (⟨S1048576, .i32⟩ : BufTy).Contents (Elt F) → (⟨S1048576x1, .i32⟩ : BufTy).Contents (Elt F)),
    unary main_v162 main_v164 (broadcastInDim S1048576x1 ![0] bcast_S1048576_S1048576x1_0 : (⟨S1048576, .i32⟩ : BufTy).Contents (Elt F) → (⟨S1048576x1, .i32⟩ : BufTy).Contents (Elt F)),
    binary main_v163 main_v164 main_v165 ((fun a b => concatenate S1048576x2 1 [⟨S1048576x1, a⟩, ⟨S1048576x1, b⟩] concatenates_S1048576x1_S1048576x1_S1048576x2_d1) : (⟨S1048576x1, .i32⟩ : BufTy).Contents (Elt F) → (⟨S1048576x1, .i32⟩ : BufTy).Contents (Elt F) → (⟨S1048576x2, .i32⟩ : BufTy).Contents (Elt F)),
    binary main_arg2 main_v165 main_v166 ((fun x i => Host.gather gather_S2048x2048_S1048576x2_S1048576_n_01_n_n_01_1_11 x i) : (⟨S2048x2048, .f32⟩ : BufTy).Contents (Elt F) → (⟨S1048576x2, .i32⟩ : BufTy).Contents (Elt F) → (⟨S1048576, .f32⟩ : BufTy).Contents (Elt F)),
    nullary main_c_53 (constantI S_ 32 1#32),
    unary main_c_53 main_v167 (broadcastInDim S1048576 ![] bcast_S_S1048576 : (⟨S_, .i32⟩ : BufTy).Contents (Elt F) → (⟨S1048576, .i32⟩ : BufTy).Contents (Elt F)),
    binary main_v116 main_v167 main_v168 (addi : (⟨S1048576, .i32⟩ : BufTy).Contents (Elt F) → (⟨S1048576, .i32⟩ : BufTy).Contents (Elt F) → (⟨S1048576, .i32⟩ : BufTy).Contents (Elt F)),
    nullary main_c_54 (constantI S_ 32 1#32),
    unary main_c_54 main_v169 (broadcastInDim S1048576 ![] bcast_S_S1048576 : (⟨S_, .i32⟩ : BufTy).Contents (Elt F) → (⟨S1048576, .i32⟩ : BufTy).Contents (Elt F)),
    binary main_v113 main_v169 main_v170 (addi : (⟨S1048576, .i32⟩ : BufTy).Contents (Elt F) → (⟨S1048576, .i32⟩ : BufTy).Contents (Elt F) → (⟨S1048576, .i32⟩ : BufTy).Contents (Elt F)),
    nullary main_c_55 (constantI S_ 32 0#32),
    unary main_c_55 main_v171 (broadcastInDim S1048576 ![] bcast_S_S1048576 : (⟨S_, .i32⟩ : BufTy).Contents (Elt F) → (⟨S1048576, .i32⟩ : BufTy).Contents (Elt F)),
    binary main_v168 main_v171 main_v172 (cmpi .slt : (⟨S1048576, .i32⟩ : BufTy).Contents (Elt F) → (⟨S1048576, .i32⟩ : BufTy).Contents (Elt F) → (⟨S1048576, .i1⟩ : BufTy).Contents (Elt F)),
    nullary main_c_56 (constantI S_ 32 2048#32),
    unary main_c_56 main_v173 (broadcastInDim S1048576 ![] bcast_S_S1048576 : (⟨S_, .i32⟩ : BufTy).Contents (Elt F) → (⟨S1048576, .i32⟩ : BufTy).Contents (Elt F)),
    binary main_v168 main_v173 main_v174 (addi : (⟨S1048576, .i32⟩ : BufTy).Contents (Elt F) → (⟨S1048576, .i32⟩ : BufTy).Contents (Elt F) → (⟨S1048576, .i32⟩ : BufTy).Contents (Elt F)),
    ternary main_v172 main_v174 main_v168 main_v175 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    nullary main_c_57 (constantI S_ 32 0#32),
    unary main_c_57 main_v176 (broadcastInDim S1048576 ![] bcast_S_S1048576 : (⟨S_, .i32⟩ : BufTy).Contents (Elt F) → (⟨S1048576, .i32⟩ : BufTy).Contents (Elt F)),
    binary main_v170 main_v176 main_v177 (cmpi .slt : (⟨S1048576, .i32⟩ : BufTy).Contents (Elt F) → (⟨S1048576, .i32⟩ : BufTy).Contents (Elt F) → (⟨S1048576, .i1⟩ : BufTy).Contents (Elt F)),
    nullary main_c_58 (constantI S_ 32 2048#32),
    unary main_c_58 main_v178 (broadcastInDim S1048576 ![] bcast_S_S1048576 : (⟨S_, .i32⟩ : BufTy).Contents (Elt F) → (⟨S1048576, .i32⟩ : BufTy).Contents (Elt F)),
    binary main_v170 main_v178 main_v179 (addi : (⟨S1048576, .i32⟩ : BufTy).Contents (Elt F) → (⟨S1048576, .i32⟩ : BufTy).Contents (Elt F) → (⟨S1048576, .i32⟩ : BufTy).Contents (Elt F)),
    ternary main_v177 main_v179 main_v170 main_v180 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v175 main_v181 (broadcastInDim S1048576x1 ![0] bcast_S1048576_S1048576x1_0 : (⟨S1048576, .i32⟩ : BufTy).Contents (Elt F) → (⟨S1048576x1, .i32⟩ : BufTy).Contents (Elt F)),
    unary main_v180 main_v182 (broadcastInDim S1048576x1 ![0] bcast_S1048576_S1048576x1_0 : (⟨S1048576, .i32⟩ : BufTy).Contents (Elt F) → (⟨S1048576x1, .i32⟩ : BufTy).Contents (Elt F)),
    binary main_v181 main_v182 main_v183 ((fun a b => concatenate S1048576x2 1 [⟨S1048576x1, a⟩, ⟨S1048576x1, b⟩] concatenates_S1048576x1_S1048576x1_S1048576x2_d1) : (⟨S1048576x1, .i32⟩ : BufTy).Contents (Elt F) → (⟨S1048576x1, .i32⟩ : BufTy).Contents (Elt F) → (⟨S1048576x2, .i32⟩ : BufTy).Contents (Elt F)),
    binary main_arg2 main_v183 main_v184 ((fun x i => Host.gather gather_S2048x2048_S1048576x2_S1048576_n_01_n_n_01_1_11 x i) : (⟨S2048x2048, .f32⟩ : BufTy).Contents (Elt F) → (⟨S1048576x2, .i32⟩ : BufTy).Contents (Elt F) → (⟨S1048576, .f32⟩ : BufTy).Contents (Elt F)),
    nullary main_cst_59 (constant S_ .f32 0x3F800000#32),
    unary main_cst_59 main_v185 (broadcastInDim S1048576 ![] bcast_S_S1048576 : (⟨S_, .f32⟩ : BufTy).Contents (Elt F) → (⟨S1048576, .f32⟩ : BufTy).Contents (Elt F)),
    binary main_v185 main_v118 main_v186 (subf : (⟨S1048576, .f32⟩ : BufTy).Contents (Elt F) → (⟨S1048576, .f32⟩ : BufTy).Contents (Elt F) → (⟨S1048576, .f32⟩ : BufTy).Contents (Elt F)),
    binary main_v134 main_v186 main_v187 (mulf : (⟨S1048576, .f32⟩ : BufTy).Contents (Elt F) → (⟨S1048576, .f32⟩ : BufTy).Contents (Elt F) → (⟨S1048576, .f32⟩ : BufTy).Contents (Elt F)),
    binary main_v150 main_v118 main_v188 (mulf : (⟨S1048576, .f32⟩ : BufTy).Contents (Elt F) → (⟨S1048576, .f32⟩ : BufTy).Contents (Elt F) → (⟨S1048576, .f32⟩ : BufTy).Contents (Elt F)),
    binary main_v187 main_v188 main_v189 (addf : (⟨S1048576, .f32⟩ : BufTy).Contents (Elt F) → (⟨S1048576, .f32⟩ : BufTy).Contents (Elt F) → (⟨S1048576, .f32⟩ : BufTy).Contents (Elt F)),
    nullary main_cst_60 (constant S_ .f32 0x3F800000#32),
    unary main_cst_60 main_v190 (broadcastInDim S1048576 ![] bcast_S_S1048576 : (⟨S_, .f32⟩ : BufTy).Contents (Elt F) → (⟨S1048576, .f32⟩ : BufTy).Contents (Elt F)),
    binary main_v190 main_v118 main_v191 (subf : (⟨S1048576, .f32⟩ : BufTy).Contents (Elt F) → (⟨S1048576, .f32⟩ : BufTy).Contents (Elt F) → (⟨S1048576, .f32⟩ : BufTy).Contents (Elt F)),
    binary main_v166 main_v191 main_v192 (mulf : (⟨S1048576, .f32⟩ : BufTy).Contents (Elt F) → (⟨S1048576, .f32⟩ : BufTy).Contents (Elt F) → (⟨S1048576, .f32⟩ : BufTy).Contents (Elt F)),
    binary main_v184 main_v118 main_v193 (mulf : (⟨S1048576, .f32⟩ : BufTy).Contents (Elt F) → (⟨S1048576, .f32⟩ : BufTy).Contents (Elt F) → (⟨S1048576, .f32⟩ : BufTy).Contents (Elt F)),
    binary main_v192 main_v193 main_v194 (addf : (⟨S1048576, .f32⟩ : BufTy).Contents (Elt F) → (⟨S1048576, .f32⟩ : BufTy).Contents (Elt F) → (⟨S1048576, .f32⟩ : BufTy).Contents (Elt F)),
    nullary main_cst_61 (constant S_ .f32 0x3F800000#32),
    unary main_cst_61 main_v195 (broadcastInDim S1048576 ![] bcast_S_S1048576 : (⟨S_, .f32⟩ : BufTy).Contents (Elt F) → (⟨S1048576, .f32⟩ : BufTy).Contents (Elt F)),
    binary main_v195 main_v120 main_v196 (subf : (⟨S1048576, .f32⟩ : BufTy).Contents (Elt F) → (⟨S1048576, .f32⟩ : BufTy).Contents (Elt F) → (⟨S1048576, .f32⟩ : BufTy).Contents (Elt F)),
    binary main_v189 main_v196 main_v197 (mulf : (⟨S1048576, .f32⟩ : BufTy).Contents (Elt F) → (⟨S1048576, .f32⟩ : BufTy).Contents (Elt F) → (⟨S1048576, .f32⟩ : BufTy).Contents (Elt F)),
    binary main_v194 main_v120 main_v198 (mulf : (⟨S1048576, .f32⟩ : BufTy).Contents (Elt F) → (⟨S1048576, .f32⟩ : BufTy).Contents (Elt F) → (⟨S1048576, .f32⟩ : BufTy).Contents (Elt F)),
    binary main_v197 main_v198 main_v199 (addf : (⟨S1048576, .f32⟩ : BufTy).Contents (Elt F) → (⟨S1048576, .f32⟩ : BufTy).Contents (Elt F) → (⟨S1048576, .f32⟩ : BufTy).Contents (Elt F)),
    unary main_v12 main_v200 (Host.floor : (⟨S1048576, .f32⟩ : BufTy).Contents (Elt F) → (⟨S1048576, .f32⟩ : BufTy).Contents (Elt F)),
    unary main_v200 main_v201 (fptosi 32 : (⟨S1048576, .f32⟩ : BufTy).Contents (Elt F) → (⟨S1048576, .i32⟩ : BufTy).Contents (Elt F)),
    nullary main_c_62 (constantI S_ 32 0#32),
    nullary main_c_63 (constantI S_ 32 2046#32),
    TRef.unary (TRef.of (T := ⟨S_, .i32⟩) main_c_62) (TRef.of (T := ⟨S_, .i32⟩) main_call6_v0) id,
    TRef.unary (TRef.of (T := ⟨S_, .i32⟩) main_call6_v0) (TRef.of (T := ⟨S1048576, .i32⟩) main_call6_v1) (broadcastInDim S1048576 ![] bcast_S_S1048576),
    TRef.binary (TRef.of (T := ⟨S1048576, .i32⟩) main_call6_v1) (TRef.of (T := ⟨S1048576, .i32⟩) main_v201) (TRef.of (T := ⟨S1048576, .i32⟩) main_call6_v2) maxsi,
    TRef.unary (TRef.of (T := ⟨S_, .i32⟩) main_c_63) (TRef.of (T := ⟨S_, .i32⟩) main_call6_v3) id,
    TRef.unary (TRef.of (T := ⟨S_, .i32⟩) main_call6_v3) (TRef.of (T := ⟨S1048576, .i32⟩) main_call6_v4) (broadcastInDim S1048576 ![] bcast_S_S1048576),
    TRef.binary (TRef.of (T := ⟨S1048576, .i32⟩) main_call6_v4) (TRef.of (T := ⟨S1048576, .i32⟩) main_call6_v2) (TRef.of (T := ⟨S1048576, .i32⟩) main_v202) minsi,
    unary main_v21 main_v203 (Host.floor : (⟨S1048576, .f32⟩ : BufTy).Contents (Elt F) → (⟨S1048576, .f32⟩ : BufTy).Contents (Elt F)),
    unary main_v203 main_v204 (fptosi 32 : (⟨S1048576, .f32⟩ : BufTy).Contents (Elt F) → (⟨S1048576, .i32⟩ : BufTy).Contents (Elt F)),
    nullary main_c_64 (constantI S_ 32 0#32),
    nullary main_c_65 (constantI S_ 32 2046#32),
    TRef.unary (TRef.of (T := ⟨S_, .i32⟩) main_c_64) (TRef.of (T := ⟨S_, .i32⟩) main_call7_v0) id,
    TRef.unary (TRef.of (T := ⟨S_, .i32⟩) main_call7_v0) (TRef.of (T := ⟨S1048576, .i32⟩) main_call7_v1) (broadcastInDim S1048576 ![] bcast_S_S1048576),
    TRef.binary (TRef.of (T := ⟨S1048576, .i32⟩) main_call7_v1) (TRef.of (T := ⟨S1048576, .i32⟩) main_v204) (TRef.of (T := ⟨S1048576, .i32⟩) main_call7_v2) maxsi,
    TRef.unary (TRef.of (T := ⟨S_, .i32⟩) main_c_65) (TRef.of (T := ⟨S_, .i32⟩) main_call7_v3) id,
    TRef.unary (TRef.of (T := ⟨S_, .i32⟩) main_call7_v3) (TRef.of (T := ⟨S1048576, .i32⟩) main_call7_v4) (broadcastInDim S1048576 ![] bcast_S_S1048576),
    TRef.binary (TRef.of (T := ⟨S1048576, .i32⟩) main_call7_v4) (TRef.of (T := ⟨S1048576, .i32⟩) main_call7_v2) (TRef.of (T := ⟨S1048576, .i32⟩) main_v205) minsi,
    unary main_v202 main_v206 (sitofp .f32 : (⟨S1048576, .i32⟩ : BufTy).Contents (Elt F) → (⟨S1048576, .f32⟩ : BufTy).Contents (Elt F)),
    binary main_v12 main_v206 main_v207 (subf : (⟨S1048576, .f32⟩ : BufTy).Contents (Elt F) → (⟨S1048576, .f32⟩ : BufTy).Contents (Elt F) → (⟨S1048576, .f32⟩ : BufTy).Contents (Elt F)),
    unary main_v205 main_v208 (sitofp .f32 : (⟨S1048576, .i32⟩ : BufTy).Contents (Elt F) → (⟨S1048576, .f32⟩ : BufTy).Contents (Elt F)),
    binary main_v21 main_v208 main_v209 (subf : (⟨S1048576, .f32⟩ : BufTy).Contents (Elt F) → (⟨S1048576, .f32⟩ : BufTy).Contents (Elt F) → (⟨S1048576, .f32⟩ : BufTy).Contents (Elt F)),
    nullary main_c_66 (constantI S_ 32 0#32),
    unary main_c_66 main_v210 (broadcastInDim S1048576 ![] bcast_S_S1048576 : (⟨S_, .i32⟩ : BufTy).Contents (Elt F) → (⟨S1048576, .i32⟩ : BufTy).Contents (Elt F)),
    binary main_v205 main_v210 main_v211 (cmpi .slt : (⟨S1048576, .i32⟩ : BufTy).Contents (Elt F) → (⟨S1048576, .i32⟩ : BufTy).Contents (Elt F) → (⟨S1048576, .i1⟩ : BufTy).Contents (Elt F)),
    nullary main_c_67 (constantI S_ 32 2048#32),
    unary main_c_67 main_v212 (broadcastInDim S1048576 ![] bcast_S_S1048576 : (⟨S_, .i32⟩ : BufTy).Contents (Elt F) → (⟨S1048576, .i32⟩ : BufTy).Contents (Elt F)),
    binary main_v205 main_v212 main_v213 (addi : (⟨S1048576, .i32⟩ : BufTy).Contents (Elt F) → (⟨S1048576, .i32⟩ : BufTy).Contents (Elt F) → (⟨S1048576, .i32⟩ : BufTy).Contents (Elt F)),
    ternary main_v211 main_v213 main_v205 main_v214 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    nullary main_c_68 (constantI S_ 32 0#32),
    unary main_c_68 main_v215 (broadcastInDim S1048576 ![] bcast_S_S1048576 : (⟨S_, .i32⟩ : BufTy).Contents (Elt F) → (⟨S1048576, .i32⟩ : BufTy).Contents (Elt F)),
    binary main_v202 main_v215 main_v216 (cmpi .slt : (⟨S1048576, .i32⟩ : BufTy).Contents (Elt F) → (⟨S1048576, .i32⟩ : BufTy).Contents (Elt F) → (⟨S1048576, .i1⟩ : BufTy).Contents (Elt F)),
    nullary main_c_69 (constantI S_ 32 2048#32),
    unary main_c_69 main_v217 (broadcastInDim S1048576 ![] bcast_S_S1048576 : (⟨S_, .i32⟩ : BufTy).Contents (Elt F) → (⟨S1048576, .i32⟩ : BufTy).Contents (Elt F)),
    binary main_v202 main_v217 main_v218 (addi : (⟨S1048576, .i32⟩ : BufTy).Contents (Elt F) → (⟨S1048576, .i32⟩ : BufTy).Contents (Elt F) → (⟨S1048576, .i32⟩ : BufTy).Contents (Elt F)),
    ternary main_v216 main_v218 main_v202 main_v219 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v214 main_v220 (broadcastInDim S1048576x1 ![0] bcast_S1048576_S1048576x1_0 : (⟨S1048576, .i32⟩ : BufTy).Contents (Elt F) → (⟨S1048576x1, .i32⟩ : BufTy).Contents (Elt F)),
    unary main_v219 main_v221 (broadcastInDim S1048576x1 ![0] bcast_S1048576_S1048576x1_0 : (⟨S1048576, .i32⟩ : BufTy).Contents (Elt F) → (⟨S1048576x1, .i32⟩ : BufTy).Contents (Elt F)),
    binary main_v220 main_v221 main_v222 ((fun a b => concatenate S1048576x2 1 [⟨S1048576x1, a⟩, ⟨S1048576x1, b⟩] concatenates_S1048576x1_S1048576x1_S1048576x2_d1) : (⟨S1048576x1, .i32⟩ : BufTy).Contents (Elt F) → (⟨S1048576x1, .i32⟩ : BufTy).Contents (Elt F) → (⟨S1048576x2, .i32⟩ : BufTy).Contents (Elt F)),
    binary main_arg3 main_v222 main_v223 ((fun x i => Host.gather gather_S2048x2048_S1048576x2_S1048576_n_01_n_n_01_1_11 x i) : (⟨S2048x2048, .f32⟩ : BufTy).Contents (Elt F) → (⟨S1048576x2, .i32⟩ : BufTy).Contents (Elt F) → (⟨S1048576, .f32⟩ : BufTy).Contents (Elt F)),
    nullary main_c_70 (constantI S_ 32 1#32),
    unary main_c_70 main_v224 (broadcastInDim S1048576 ![] bcast_S_S1048576 : (⟨S_, .i32⟩ : BufTy).Contents (Elt F) → (⟨S1048576, .i32⟩ : BufTy).Contents (Elt F)),
    binary main_v202 main_v224 main_v225 (addi : (⟨S1048576, .i32⟩ : BufTy).Contents (Elt F) → (⟨S1048576, .i32⟩ : BufTy).Contents (Elt F) → (⟨S1048576, .i32⟩ : BufTy).Contents (Elt F)),
    nullary main_c_71 (constantI S_ 32 0#32),
    unary main_c_71 main_v226 (broadcastInDim S1048576 ![] bcast_S_S1048576 : (⟨S_, .i32⟩ : BufTy).Contents (Elt F) → (⟨S1048576, .i32⟩ : BufTy).Contents (Elt F)),
    binary main_v205 main_v226 main_v227 (cmpi .slt : (⟨S1048576, .i32⟩ : BufTy).Contents (Elt F) → (⟨S1048576, .i32⟩ : BufTy).Contents (Elt F) → (⟨S1048576, .i1⟩ : BufTy).Contents (Elt F)),
    nullary main_c_72 (constantI S_ 32 2048#32),
    unary main_c_72 main_v228 (broadcastInDim S1048576 ![] bcast_S_S1048576 : (⟨S_, .i32⟩ : BufTy).Contents (Elt F) → (⟨S1048576, .i32⟩ : BufTy).Contents (Elt F)),
    binary main_v205 main_v228 main_v229 (addi : (⟨S1048576, .i32⟩ : BufTy).Contents (Elt F) → (⟨S1048576, .i32⟩ : BufTy).Contents (Elt F) → (⟨S1048576, .i32⟩ : BufTy).Contents (Elt F)),
    ternary main_v227 main_v229 main_v205 main_v230 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    nullary main_c_73 (constantI S_ 32 0#32),
    unary main_c_73 main_v231 (broadcastInDim S1048576 ![] bcast_S_S1048576 : (⟨S_, .i32⟩ : BufTy).Contents (Elt F) → (⟨S1048576, .i32⟩ : BufTy).Contents (Elt F)),
    binary main_v225 main_v231 main_v232 (cmpi .slt : (⟨S1048576, .i32⟩ : BufTy).Contents (Elt F) → (⟨S1048576, .i32⟩ : BufTy).Contents (Elt F) → (⟨S1048576, .i1⟩ : BufTy).Contents (Elt F)),
    nullary main_c_74 (constantI S_ 32 2048#32),
    unary main_c_74 main_v233 (broadcastInDim S1048576 ![] bcast_S_S1048576 : (⟨S_, .i32⟩ : BufTy).Contents (Elt F) → (⟨S1048576, .i32⟩ : BufTy).Contents (Elt F)),
    binary main_v225 main_v233 main_v234 (addi : (⟨S1048576, .i32⟩ : BufTy).Contents (Elt F) → (⟨S1048576, .i32⟩ : BufTy).Contents (Elt F) → (⟨S1048576, .i32⟩ : BufTy).Contents (Elt F)),
    ternary main_v232 main_v234 main_v225 main_v235 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v230 main_v236 (broadcastInDim S1048576x1 ![0] bcast_S1048576_S1048576x1_0 : (⟨S1048576, .i32⟩ : BufTy).Contents (Elt F) → (⟨S1048576x1, .i32⟩ : BufTy).Contents (Elt F)),
    unary main_v235 main_v237 (broadcastInDim S1048576x1 ![0] bcast_S1048576_S1048576x1_0 : (⟨S1048576, .i32⟩ : BufTy).Contents (Elt F) → (⟨S1048576x1, .i32⟩ : BufTy).Contents (Elt F)),
    binary main_v236 main_v237 main_v238 ((fun a b => concatenate S1048576x2 1 [⟨S1048576x1, a⟩, ⟨S1048576x1, b⟩] concatenates_S1048576x1_S1048576x1_S1048576x2_d1) : (⟨S1048576x1, .i32⟩ : BufTy).Contents (Elt F) → (⟨S1048576x1, .i32⟩ : BufTy).Contents (Elt F) → (⟨S1048576x2, .i32⟩ : BufTy).Contents (Elt F)),
    binary main_arg3 main_v238 main_v239 ((fun x i => Host.gather gather_S2048x2048_S1048576x2_S1048576_n_01_n_n_01_1_11 x i) : (⟨S2048x2048, .f32⟩ : BufTy).Contents (Elt F) → (⟨S1048576x2, .i32⟩ : BufTy).Contents (Elt F) → (⟨S1048576, .f32⟩ : BufTy).Contents (Elt F)),
    nullary main_c_75 (constantI S_ 32 1#32),
    unary main_c_75 main_v240 (broadcastInDim S1048576 ![] bcast_S_S1048576 : (⟨S_, .i32⟩ : BufTy).Contents (Elt F) → (⟨S1048576, .i32⟩ : BufTy).Contents (Elt F)),
    binary main_v205 main_v240 main_v241 (addi : (⟨S1048576, .i32⟩ : BufTy).Contents (Elt F) → (⟨S1048576, .i32⟩ : BufTy).Contents (Elt F) → (⟨S1048576, .i32⟩ : BufTy).Contents (Elt F)),
    nullary main_c_76 (constantI S_ 32 0#32),
    unary main_c_76 main_v242 (broadcastInDim S1048576 ![] bcast_S_S1048576 : (⟨S_, .i32⟩ : BufTy).Contents (Elt F) → (⟨S1048576, .i32⟩ : BufTy).Contents (Elt F)),
    binary main_v241 main_v242 main_v243 (cmpi .slt : (⟨S1048576, .i32⟩ : BufTy).Contents (Elt F) → (⟨S1048576, .i32⟩ : BufTy).Contents (Elt F) → (⟨S1048576, .i1⟩ : BufTy).Contents (Elt F)),
    nullary main_c_77 (constantI S_ 32 2048#32),
    unary main_c_77 main_v244 (broadcastInDim S1048576 ![] bcast_S_S1048576 : (⟨S_, .i32⟩ : BufTy).Contents (Elt F) → (⟨S1048576, .i32⟩ : BufTy).Contents (Elt F)),
    binary main_v241 main_v244 main_v245 (addi : (⟨S1048576, .i32⟩ : BufTy).Contents (Elt F) → (⟨S1048576, .i32⟩ : BufTy).Contents (Elt F) → (⟨S1048576, .i32⟩ : BufTy).Contents (Elt F)),
    ternary main_v243 main_v245 main_v241 main_v246 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    nullary main_c_78 (constantI S_ 32 0#32),
    unary main_c_78 main_v247 (broadcastInDim S1048576 ![] bcast_S_S1048576 : (⟨S_, .i32⟩ : BufTy).Contents (Elt F) → (⟨S1048576, .i32⟩ : BufTy).Contents (Elt F)),
    binary main_v202 main_v247 main_v248 (cmpi .slt : (⟨S1048576, .i32⟩ : BufTy).Contents (Elt F) → (⟨S1048576, .i32⟩ : BufTy).Contents (Elt F) → (⟨S1048576, .i1⟩ : BufTy).Contents (Elt F)),
    nullary main_c_79 (constantI S_ 32 2048#32),
    unary main_c_79 main_v249 (broadcastInDim S1048576 ![] bcast_S_S1048576 : (⟨S_, .i32⟩ : BufTy).Contents (Elt F) → (⟨S1048576, .i32⟩ : BufTy).Contents (Elt F)),
    binary main_v202 main_v249 main_v250 (addi : (⟨S1048576, .i32⟩ : BufTy).Contents (Elt F) → (⟨S1048576, .i32⟩ : BufTy).Contents (Elt F) → (⟨S1048576, .i32⟩ : BufTy).Contents (Elt F)),
    ternary main_v248 main_v250 main_v202 main_v251 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v246 main_v252 (broadcastInDim S1048576x1 ![0] bcast_S1048576_S1048576x1_0 : (⟨S1048576, .i32⟩ : BufTy).Contents (Elt F) → (⟨S1048576x1, .i32⟩ : BufTy).Contents (Elt F)),
    unary main_v251 main_v253 (broadcastInDim S1048576x1 ![0] bcast_S1048576_S1048576x1_0 : (⟨S1048576, .i32⟩ : BufTy).Contents (Elt F) → (⟨S1048576x1, .i32⟩ : BufTy).Contents (Elt F)),
    binary main_v252 main_v253 main_v254 ((fun a b => concatenate S1048576x2 1 [⟨S1048576x1, a⟩, ⟨S1048576x1, b⟩] concatenates_S1048576x1_S1048576x1_S1048576x2_d1) : (⟨S1048576x1, .i32⟩ : BufTy).Contents (Elt F) → (⟨S1048576x1, .i32⟩ : BufTy).Contents (Elt F) → (⟨S1048576x2, .i32⟩ : BufTy).Contents (Elt F)),
    binary main_arg3 main_v254 main_v255 ((fun x i => Host.gather gather_S2048x2048_S1048576x2_S1048576_n_01_n_n_01_1_11 x i) : (⟨S2048x2048, .f32⟩ : BufTy).Contents (Elt F) → (⟨S1048576x2, .i32⟩ : BufTy).Contents (Elt F) → (⟨S1048576, .f32⟩ : BufTy).Contents (Elt F)),
    nullary main_c_80 (constantI S_ 32 1#32),
    unary main_c_80 main_v256 (broadcastInDim S1048576 ![] bcast_S_S1048576 : (⟨S_, .i32⟩ : BufTy).Contents (Elt F) → (⟨S1048576, .i32⟩ : BufTy).Contents (Elt F)),
    binary main_v205 main_v256 main_v257 (addi : (⟨S1048576, .i32⟩ : BufTy).Contents (Elt F) → (⟨S1048576, .i32⟩ : BufTy).Contents (Elt F) → (⟨S1048576, .i32⟩ : BufTy).Contents (Elt F)),
    nullary main_c_81 (constantI S_ 32 1#32),
    unary main_c_81 main_v258 (broadcastInDim S1048576 ![] bcast_S_S1048576 : (⟨S_, .i32⟩ : BufTy).Contents (Elt F) → (⟨S1048576, .i32⟩ : BufTy).Contents (Elt F)),
    binary main_v202 main_v258 main_v259 (addi : (⟨S1048576, .i32⟩ : BufTy).Contents (Elt F) → (⟨S1048576, .i32⟩ : BufTy).Contents (Elt F) → (⟨S1048576, .i32⟩ : BufTy).Contents (Elt F)),
    nullary main_c_82 (constantI S_ 32 0#32),
    unary main_c_82 main_v260 (broadcastInDim S1048576 ![] bcast_S_S1048576 : (⟨S_, .i32⟩ : BufTy).Contents (Elt F) → (⟨S1048576, .i32⟩ : BufTy).Contents (Elt F)),
    binary main_v257 main_v260 main_v261 (cmpi .slt : (⟨S1048576, .i32⟩ : BufTy).Contents (Elt F) → (⟨S1048576, .i32⟩ : BufTy).Contents (Elt F) → (⟨S1048576, .i1⟩ : BufTy).Contents (Elt F)),
    nullary main_c_83 (constantI S_ 32 2048#32),
    unary main_c_83 main_v262 (broadcastInDim S1048576 ![] bcast_S_S1048576 : (⟨S_, .i32⟩ : BufTy).Contents (Elt F) → (⟨S1048576, .i32⟩ : BufTy).Contents (Elt F)),
    binary main_v257 main_v262 main_v263 (addi : (⟨S1048576, .i32⟩ : BufTy).Contents (Elt F) → (⟨S1048576, .i32⟩ : BufTy).Contents (Elt F) → (⟨S1048576, .i32⟩ : BufTy).Contents (Elt F)),
    ternary main_v261 main_v263 main_v257 main_v264 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    nullary main_c_84 (constantI S_ 32 0#32),
    unary main_c_84 main_v265 (broadcastInDim S1048576 ![] bcast_S_S1048576 : (⟨S_, .i32⟩ : BufTy).Contents (Elt F) → (⟨S1048576, .i32⟩ : BufTy).Contents (Elt F)),
    binary main_v259 main_v265 main_v266 (cmpi .slt : (⟨S1048576, .i32⟩ : BufTy).Contents (Elt F) → (⟨S1048576, .i32⟩ : BufTy).Contents (Elt F) → (⟨S1048576, .i1⟩ : BufTy).Contents (Elt F)),
    nullary main_c_85 (constantI S_ 32 2048#32),
    unary main_c_85 main_v267 (broadcastInDim S1048576 ![] bcast_S_S1048576 : (⟨S_, .i32⟩ : BufTy).Contents (Elt F) → (⟨S1048576, .i32⟩ : BufTy).Contents (Elt F)),
    binary main_v259 main_v267 main_v268 (addi : (⟨S1048576, .i32⟩ : BufTy).Contents (Elt F) → (⟨S1048576, .i32⟩ : BufTy).Contents (Elt F) → (⟨S1048576, .i32⟩ : BufTy).Contents (Elt F)),
    ternary main_v266 main_v268 main_v259 main_v269 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),
    unary main_v264 main_v270 (broadcastInDim S1048576x1 ![0] bcast_S1048576_S1048576x1_0 : (⟨S1048576, .i32⟩ : BufTy).Contents (Elt F) → (⟨S1048576x1, .i32⟩ : BufTy).Contents (Elt F)),
    unary main_v269 main_v271 (broadcastInDim S1048576x1 ![0] bcast_S1048576_S1048576x1_0 : (⟨S1048576, .i32⟩ : BufTy).Contents (Elt F) → (⟨S1048576x1, .i32⟩ : BufTy).Contents (Elt F)),
    binary main_v270 main_v271 main_v272 ((fun a b => concatenate S1048576x2 1 [⟨S1048576x1, a⟩, ⟨S1048576x1, b⟩] concatenates_S1048576x1_S1048576x1_S1048576x2_d1) : (⟨S1048576x1, .i32⟩ : BufTy).Contents (Elt F) → (⟨S1048576x1, .i32⟩ : BufTy).Contents (Elt F) → (⟨S1048576x2, .i32⟩ : BufTy).Contents (Elt F)),
    binary main_arg3 main_v272 main_v273 ((fun x i => Host.gather gather_S2048x2048_S1048576x2_S1048576_n_01_n_n_01_1_11 x i) : (⟨S2048x2048, .f32⟩ : BufTy).Contents (Elt F) → (⟨S1048576x2, .i32⟩ : BufTy).Contents (Elt F) → (⟨S1048576, .f32⟩ : BufTy).Contents (Elt F)),
    nullary main_cst_86 (constant S_ .f32 0x3F800000#32),
    unary main_cst_86 main_v274 (broadcastInDim S1048576 ![] bcast_S_S1048576 : (⟨S_, .f32⟩ : BufTy).Contents (Elt F) → (⟨S1048576, .f32⟩ : BufTy).Contents (Elt F)),
    binary main_v274 main_v207 main_v275 (subf : (⟨S1048576, .f32⟩ : BufTy).Contents (Elt F) → (⟨S1048576, .f32⟩ : BufTy).Contents (Elt F) → (⟨S1048576, .f32⟩ : BufTy).Contents (Elt F)),
    binary main_v223 main_v275 main_v276 (mulf : (⟨S1048576, .f32⟩ : BufTy).Contents (Elt F) → (⟨S1048576, .f32⟩ : BufTy).Contents (Elt F) → (⟨S1048576, .f32⟩ : BufTy).Contents (Elt F)),
    binary main_v239 main_v207 main_v277 (mulf : (⟨S1048576, .f32⟩ : BufTy).Contents (Elt F) → (⟨S1048576, .f32⟩ : BufTy).Contents (Elt F) → (⟨S1048576, .f32⟩ : BufTy).Contents (Elt F)),
    binary main_v276 main_v277 main_v278 (addf : (⟨S1048576, .f32⟩ : BufTy).Contents (Elt F) → (⟨S1048576, .f32⟩ : BufTy).Contents (Elt F) → (⟨S1048576, .f32⟩ : BufTy).Contents (Elt F)),
    nullary main_cst_87 (constant S_ .f32 0x3F800000#32),
    unary main_cst_87 main_v279 (broadcastInDim S1048576 ![] bcast_S_S1048576 : (⟨S_, .f32⟩ : BufTy).Contents (Elt F) → (⟨S1048576, .f32⟩ : BufTy).Contents (Elt F)),
    binary main_v279 main_v207 main_v280 (subf : (⟨S1048576, .f32⟩ : BufTy).Contents (Elt F) → (⟨S1048576, .f32⟩ : BufTy).Contents (Elt F) → (⟨S1048576, .f32⟩ : BufTy).Contents (Elt F)),
    binary main_v255 main_v280 main_v281 (mulf : (⟨S1048576, .f32⟩ : BufTy).Contents (Elt F) → (⟨S1048576, .f32⟩ : BufTy).Contents (Elt F) → (⟨S1048576, .f32⟩ : BufTy).Contents (Elt F)),
    binary main_v273 main_v207 main_v282 (mulf : (⟨S1048576, .f32⟩ : BufTy).Contents (Elt F) → (⟨S1048576, .f32⟩ : BufTy).Contents (Elt F) → (⟨S1048576, .f32⟩ : BufTy).Contents (Elt F)),
    binary main_v281 main_v282 main_v283 (addf : (⟨S1048576, .f32⟩ : BufTy).Contents (Elt F) → (⟨S1048576, .f32⟩ : BufTy).Contents (Elt F) → (⟨S1048576, .f32⟩ : BufTy).Contents (Elt F)),
    nullary main_cst_88 (constant S_ .f32 0x3F800000#32),
    unary main_cst_88 main_v284 (broadcastInDim S1048576 ![] bcast_S_S1048576 : (⟨S_, .f32⟩ : BufTy).Contents (Elt F) → (⟨S1048576, .f32⟩ : BufTy).Contents (Elt F)),
    binary main_v284 main_v209 main_v285 (subf : (⟨S1048576, .f32⟩ : BufTy).Contents (Elt F) → (⟨S1048576, .f32⟩ : BufTy).Contents (Elt F) → (⟨S1048576, .f32⟩ : BufTy).Contents (Elt F)),
    binary main_v278 main_v285 main_v286 (mulf : (⟨S1048576, .f32⟩ : BufTy).Contents (Elt F) → (⟨S1048576, .f32⟩ : BufTy).Contents (Elt F) → (⟨S1048576, .f32⟩ : BufTy).Contents (Elt F)),
    binary main_v283 main_v209 main_v287 (mulf : (⟨S1048576, .f32⟩ : BufTy).Contents (Elt F) → (⟨S1048576, .f32⟩ : BufTy).Contents (Elt F) → (⟨S1048576, .f32⟩ : BufTy).Contents (Elt F)),
    binary main_v286 main_v287 main_v288 (addf : (⟨S1048576, .f32⟩ : BufTy).Contents (Elt F) → (⟨S1048576, .f32⟩ : BufTy).Contents (Elt F) → (⟨S1048576, .f32⟩ : BufTy).Contents (Elt F)),
    TRef.binary (TRef.of (T := ⟨S1048576x2, .f32⟩) main_v3) (TRef.of (T := ⟨S1048576x2, .f32⟩) main_v3) (TRef.of (T := ⟨S1048576x2, .f32⟩) main_call8_v0) mulf,
    TRef.nullary (TRef.of (T := ⟨S_, .f32⟩) main_call8_cst) (constant S_ .f32 0x00000000#32),
    TRef.binary (TRef.of (T := ⟨S1048576x2, .f32⟩) main_call8_v0) (TRef.of (T := ⟨S_, .f32⟩) main_call8_cst) (TRef.of (T := ⟨S1048576, .f32⟩) main_call8_v1) (fun x v => Host.reduceAdd x v reducesTo_S1048576x2_S1048576_d1 h_S_),
    TRef.unary (TRef.of (T := ⟨S1048576, .f32⟩) main_call8_v1) (TRef.of (T := ⟨S1048576, .f32⟩) main_v289) Host.sqrt,
    binary main_v288 main_v288 main_v290 (mulf : (⟨S1048576, .f32⟩ : BufTy).Contents (Elt F) → (⟨S1048576, .f32⟩ : BufTy).Contents (Elt F) → (⟨S1048576, .f32⟩ : BufTy).Contents (Elt F)),
    binary main_v199 main_v199 main_v291 (mulf : (⟨S1048576, .f32⟩ : BufTy).Contents (Elt F) → (⟨S1048576, .f32⟩ : BufTy).Contents (Elt F) → (⟨S1048576, .f32⟩ : BufTy).Contents (Elt F)),
    binary main_v290 main_v291 main_v292 (addf : (⟨S1048576, .f32⟩ : BufTy).Contents (Elt F) → (⟨S1048576, .f32⟩ : BufTy).Contents (Elt F) → (⟨S1048576, .f32⟩ : BufTy).Contents (Elt F)),
    unary main_v292 main_v293 (Host.sqrt : (⟨S1048576, .f32⟩ : BufTy).Contents (Elt F) → (⟨S1048576, .f32⟩ : BufTy).Contents (Elt F)),
    unary main_v3 main_v294 ((extractStridedSlice S1048576x1 ![0, 0] · slices_S1048576x2_S1048576x1_0_0) : (⟨S1048576x2, .f32⟩ : BufTy).Contents (Elt F) → (⟨S1048576x1, .f32⟩ : BufTy).Contents (Elt F)),
    reshape main_v294 main_v295 rfl shapeCasts_S1048576x1_S1048576,
    binary main_v295 main_v288 main_v296 (mulf : (⟨S1048576, .f32⟩ : BufTy).Contents (Elt F) → (⟨S1048576, .f32⟩ : BufTy).Contents (Elt F) → (⟨S1048576, .f32⟩ : BufTy).Contents (Elt F)),
    unary main_v3 main_v297 ((extractStridedSlice S1048576x1 ![0, 1] · slices_S1048576x2_S1048576x1_0_1) : (⟨S1048576x2, .f32⟩ : BufTy).Contents (Elt F) → (⟨S1048576x1, .f32⟩ : BufTy).Contents (Elt F)),
    reshape main_v297 main_v298 rfl shapeCasts_S1048576x1_S1048576,
    binary main_v298 main_v199 main_v299 (mulf : (⟨S1048576, .f32⟩ : BufTy).Contents (Elt F) → (⟨S1048576, .f32⟩ : BufTy).Contents (Elt F) → (⟨S1048576, .f32⟩ : BufTy).Contents (Elt F)),
    binary main_v296 main_v299 main_v300 (addf : (⟨S1048576, .f32⟩ : BufTy).Contents (Elt F) → (⟨S1048576, .f32⟩ : BufTy).Contents (Elt F) → (⟨S1048576, .f32⟩ : BufTy).Contents (Elt F)),
    binary main_v289 main_v293 main_v301 (mulf : (⟨S1048576, .f32⟩ : BufTy).Contents (Elt F) → (⟨S1048576, .f32⟩ : BufTy).Contents (Elt F) → (⟨S1048576, .f32⟩ : BufTy).Contents (Elt F)),
    nullary main_cst_89 (constant S_ .f32 0x358637BD#32),
    unary main_cst_89 main_v302 (broadcastInDim S1048576 ![] bcast_S_S1048576 : (⟨S_, .f32⟩ : BufTy).Contents (Elt F) → (⟨S1048576, .f32⟩ : BufTy).Contents (Elt F)),
    binary main_v301 main_v302 main_v303 (addf : (⟨S1048576, .f32⟩ : BufTy).Contents (Elt F) → (⟨S1048576, .f32⟩ : BufTy).Contents (Elt F) → (⟨S1048576, .f32⟩ : BufTy).Contents (Elt F)),
    binary main_v300 main_v303 main_v304 (Host.divf : (⟨S1048576, .f32⟩ : BufTy).Contents (Elt F) → (⟨S1048576, .f32⟩ : BufTy).Contents (Elt F) → (⟨S1048576, .f32⟩ : BufTy).Contents (Elt F)),
    nullary main_cst_90 (constant S_ .f32 0xBF800000#32),
    nullary main_cst_91 (constant S_ .f32 0x3F800000#32),
    TRef.unary (TRef.of (T := ⟨S_, .f32⟩) main_cst_90) (TRef.of (T := ⟨S_, .f32⟩) main_call9_v0) id,
    TRef.unary (TRef.of (T := ⟨S_, .f32⟩) main_call9_v0) (TRef.of (T := ⟨S1048576, .f32⟩) main_call9_v1) (broadcastInDim S1048576 ![] bcast_S_S1048576),
    TRef.binary (TRef.of (T := ⟨S1048576, .f32⟩) main_call9_v1) (TRef.of (T := ⟨S1048576, .f32⟩) main_v304) (TRef.of (T := ⟨S1048576, .f32⟩) main_call9_v2) maximumf,
    TRef.unary (TRef.of (T := ⟨S_, .f32⟩) main_cst_91) (TRef.of (T := ⟨S_, .f32⟩) main_call9_v3) id,
    TRef.unary (TRef.of (T := ⟨S_, .f32⟩) main_call9_v3) (TRef.of (T := ⟨S1048576, .f32⟩) main_call9_v4) (broadcastInDim S1048576 ![] bcast_S_S1048576),
    TRef.binary (TRef.of (T := ⟨S1048576, .f32⟩) main_call9_v4) (TRef.of (T := ⟨S1048576, .f32⟩) main_call9_v2) (TRef.of (T := ⟨S1048576, .f32⟩) main_v305) minimumf,
    unary main_v305 main_v306 (Host.negf : (⟨S1048576, .f32⟩ : BufTy).Contents (Elt F) → (⟨S1048576, .f32⟩ : BufTy).Contents (Elt F)),
    nullary main_cst_92 (constant S_ .f32 0x3F800000#32),
    unary main_cst_92 main_v307 (broadcastInDim S1048576 ![] bcast_S_S1048576 : (⟨S_, .f32⟩ : BufTy).Contents (Elt F) → (⟨S1048576, .f32⟩ : BufTy).Contents (Elt F)),
    binary main_v307 main_v110 main_v308 (mulf : (⟨S1048576, .f32⟩ : BufTy).Contents (Elt F) → (⟨S1048576, .f32⟩ : BufTy).Contents (Elt F) → (⟨S1048576, .f32⟩ : BufTy).Contents (Elt F)),
    nullary main_cst_93 (constant S_ .f32 0x3F000000#32),
    unary main_cst_93 main_v309 (broadcastInDim S1048576 ![] bcast_S_S1048576 : (⟨S_, .f32⟩ : BufTy).Contents (Elt F) → (⟨S1048576, .f32⟩ : BufTy).Contents (Elt F)),
    binary main_v309 main_v110 main_v310 (mulf : (⟨S1048576, .f32⟩ : BufTy).Contents (Elt F) → (⟨S1048576, .f32⟩ : BufTy).Contents (Elt F) → (⟨S1048576, .f32⟩ : BufTy).Contents (Elt F)),
    binary main_v310 main_v289 main_v311 (mulf : (⟨S1048576, .f32⟩ : BufTy).Contents (Elt F) → (⟨S1048576, .f32⟩ : BufTy).Contents (Elt F) → (⟨S1048576, .f32⟩ : BufTy).Contents (Elt F)),
    binary main_v308 main_v311 main_v312 (addf : (⟨S1048576, .f32⟩ : BufTy).Contents (Elt F) → (⟨S1048576, .f32⟩ : BufTy).Contents (Elt F) → (⟨S1048576, .f32⟩ : BufTy).Contents (Elt F)),
    nullary main_cst_94 (constant S_ .f32 0x3F800000#32),
    unary main_cst_94 main_v313 (broadcastInDim S1048576 ![] bcast_S_S1048576 : (⟨S_, .f32⟩ : BufTy).Contents (Elt F) → (⟨S1048576, .f32⟩ : BufTy).Contents (Elt F)),
    binary main_v313 main_v110 main_v314 (mulf : (⟨S1048576, .f32⟩ : BufTy).Contents (Elt F) → (⟨S1048576, .f32⟩ : BufTy).Contents (Elt F) → (⟨S1048576, .f32⟩ : BufTy).Contents (Elt F)),
    nullary main_cst_95 (constant S_ .f32 0x3F000000#32),
    unary main_cst_95 main_v315 (broadcastInDim S1048576 ![] bcast_S_S1048576 : (⟨S_, .f32⟩ : BufTy).Contents (Elt F) → (⟨S1048576, .f32⟩ : BufTy).Contents (Elt F)),
    binary main_v315 main_v110 main_v316 (mulf : (⟨S1048576, .f32⟩ : BufTy).Contents (Elt F) → (⟨S1048576, .f32⟩ : BufTy).Contents (Elt F) → (⟨S1048576, .f32⟩ : BufTy).Contents (Elt F)),
    binary main_v316 main_v289 main_v317 (mulf : (⟨S1048576, .f32⟩ : BufTy).Contents (Elt F) → (⟨S1048576, .f32⟩ : BufTy).Contents (Elt F) → (⟨S1048576, .f32⟩ : BufTy).Contents (Elt F)),
    nullary main_cst_96 (constant S_ .f32 0x00000000#32),
    unary main_cst_96 main_v318 (broadcastInDim S1048576 ![] bcast_S_S1048576 : (⟨S_, .f32⟩ : BufTy).Contents (Elt F) → (⟨S1048576, .f32⟩ : BufTy).Contents (Elt F)),
    binary main_v306 main_v318 main_v319 (maximumf : (⟨S1048576, .f32⟩ : BufTy).Contents (Elt F) → (⟨S1048576, .f32⟩ : BufTy).Contents (Elt F) → (⟨S1048576, .f32⟩ : BufTy).Contents (Elt F)),
    nullary main_cst_97 (constant S_ .f32 0x3F800000#32),
    unary main_cst_97 main_v320 (broadcastInDim S1048576 ![] bcast_S_S1048576 : (⟨S_, .f32⟩ : BufTy).Contents (Elt F) → (⟨S1048576, .f32⟩ : BufTy).Contents (Elt F)),
    binary main_v320 main_v319 main_v321 (mulf : (⟨S1048576, .f32⟩ : BufTy).Contents (Elt F) → (⟨S1048576, .f32⟩ : BufTy).Contents (Elt F) → (⟨S1048576, .f32⟩ : BufTy).Contents (Elt F)),
    nullary main_cst_98 (constant S_ .f32 0x3F800000#32),
    unary main_cst_98 main_v322 (broadcastInDim S1048576 ![] bcast_S_S1048576 : (⟨S_, .f32⟩ : BufTy).Contents (Elt F) → (⟨S1048576, .f32⟩ : BufTy).Contents (Elt F)),
    binary main_v322 main_v321 main_v323 (addf : (⟨S1048576, .f32⟩ : BufTy).Contents (Elt F) → (⟨S1048576, .f32⟩ : BufTy).Contents (Elt F) → (⟨S1048576, .f32⟩ : BufTy).Contents (Elt F)),
    nullary main_cst_99 (constant S_ .f32 0x00000000#32),
    unary main_cst_99 main_v324 (broadcastInDim S1048576 ![] bcast_S_S1048576 : (⟨S_, .f32⟩ : BufTy).Contents (Elt F) → (⟨S1048576, .f32⟩ : BufTy).Contents (Elt F)),
    binary main_v306 main_v324 main_v325 (minimumf : (⟨S1048576, .f32⟩ : BufTy).Contents (Elt F) → (⟨S1048576, .f32⟩ : BufTy).Contents (Elt F) → (⟨S1048576, .f32⟩ : BufTy).Contents (Elt F)),
    nullary main_cst_100 (constant S_ .f32 0x3F4CCCCD#32),
    unary main_cst_100 main_v326 (broadcastInDim S1048576 ![] bcast_S_S1048576 : (⟨S_, .f32⟩ : BufTy).Contents (Elt F) → (⟨S1048576, .f32⟩ : BufTy).Contents (Elt F)),
    binary main_v326 main_v325 main_v327 (mulf : (⟨S1048576, .f32⟩ : BufTy).Contents (Elt F) → (⟨S1048576, .f32⟩ : BufTy).Contents (Elt F) → (⟨S1048576, .f32⟩ : BufTy).Contents (Elt F)),
    binary main_v323 main_v327 main_v328 (addf : (⟨S1048576, .f32⟩ : BufTy).Contents (Elt F) → (⟨S1048576, .f32⟩ : BufTy).Contents (Elt F) → (⟨S1048576, .f32⟩ : BufTy).Contents (Elt F)),
    binary main_v317 main_v328 main_v329 (mulf : (⟨S1048576, .f32⟩ : BufTy).Contents (Elt F) → (⟨S1048576, .f32⟩ : BufTy).Contents (Elt F) → (⟨S1048576, .f32⟩ : BufTy).Contents (Elt F)),
    binary main_v314 main_v329 main_v330 (addf : (⟨S1048576, .f32⟩ : BufTy).Contents (Elt F) → (⟨S1048576, .f32⟩ : BufTy).Contents (Elt F) → (⟨S1048576, .f32⟩ : BufTy).Contents (Elt F)),
    nullary main_cst_101 (constant S_ .f32 0x3F800000#32),
    unary main_cst_101 main_v331 (broadcastInDim S1048576 ![] bcast_S_S1048576 : (⟨S_, .f32⟩ : BufTy).Contents (Elt F) → (⟨S1048576, .f32⟩ : BufTy).Contents (Elt F)),
    binary main_v331 main_v330 main_v332 (mulf : (⟨S1048576, .f32⟩ : BufTy).Contents (Elt F) → (⟨S1048576, .f32⟩ : BufTy).Contents (Elt F) → (⟨S1048576, .f32⟩ : BufTy).Contents (Elt F)),
    reshape main_v332 main_v333 rfl shapeCasts_S1048576_S8192x128,
    nullary main_cst_102 (constant S_ .f32 0x3F800000#32),
    unary main_cst_102 main_v334 (broadcastInDim S1048576 ![] bcast_S_S1048576 : (⟨S_, .f32⟩ : BufTy).Contents (Elt F) → (⟨S1048576, .f32⟩ : BufTy).Contents (Elt F)),
    binary main_v334 main_v312 main_v335 (mulf : (⟨S1048576, .f32⟩ : BufTy).Contents (Elt F) → (⟨S1048576, .f32⟩ : BufTy).Contents (Elt F) → (⟨S1048576, .f32⟩ : BufTy).Contents (Elt F)),
    reshape main_v335 main_v336 rfl shapeCasts_S1048576_S8192x128 ]

set_option maxRecDepth 65536 in
set_option maxHeartbeats 4000000 in
/-- The program is its operations run in order. -/
theorem main_eq (c : Dev nD) : main (F := F) c = seq ops := rfl
/-- The program scopes no buffer. -/
theorem scopedRefs_eq : (Finset.univ.filter fun b : Ref sig .tc => b.isScoped) = ∅ := by decide
/-- The program scopes no semaphore. -/
theorem scopedSems_eq : (Finset.univ.filter fun sm : SemLoc sig => sm.isScoped .tc) = ∅ := by decide
set_option maxRecDepth 8192 in
/-- Every operation touches TensorCore buffers only. -/
theorem ops_sub : (ops : List (HloOp τ sig (Elt F))).Forall fun op => op.bufs ⊆ tcRefs τ sig :=
  ⟨unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., unary_bufs_sub .., nullary_bufs_sub .., nullary_bufs_sub .., unary_bufs_sub .., unary_bufs_sub .., binary_bufs_sub .., unary_bufs_sub .., unary_bufs_sub .., binary_bufs_sub .., unary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., unary_bufs_sub .., unary_bufs_sub .., nullary_bufs_sub .., nullary_bufs_sub .., unary_bufs_sub .., unary_bufs_sub .., binary_bufs_sub .., unary_bufs_sub .., unary_bufs_sub .., binary_bufs_sub .., unary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., unary_bufs_sub .., unary_bufs_sub .., nullary_bufs_sub .., nullary_bufs_sub .., unary_bufs_sub .., unary_bufs_sub .., binary_bufs_sub .., unary_bufs_sub .., unary_bufs_sub .., binary_bufs_sub .., unary_bufs_sub .., unary_bufs_sub .., nullary_bufs_sub .., nullary_bufs_sub .., unary_bufs_sub .., unary_bufs_sub .., binary_bufs_sub .., unary_bufs_sub .., unary_bufs_sub .., binary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., binary_bufs_sub .., binary_bufs_sub .., binary_bufs_sub .., binary_bufs_sub .., binary_bufs_sub .., nullary_bufs_sub .., binary_bufs_sub .., unary_bufs_sub .., binary_bufs_sub .., binary_bufs_sub .., binary_bufs_sub .., unary_bufs_sub .., unary_bufs_sub .., reshape_bufs_sub .., binary_bufs_sub .., unary_bufs_sub .., reshape_bufs_sub .., binary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., binary_bufs_sub .., nullary_bufs_sub .., unary_bufs_sub .., binary_bufs_sub .., reshape_bufs_sub .., nullary_bufs_sub .., unary_bufs_sub .., binary_bufs_sub .., reshape_bufs_sub ..⟩

set_option maxRecDepth 8192 in
set_option maxHeartbeats 40000000 in
/-- From any memory with zero counters every weakly fair run of the program terminates, and every buffer of every device ends at the fold of the 490 operations over the initial contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops) main_eq (fun _ => ops_sub) m ρ

end Cert.ReferenceIdeal.HandRun

end
-- ==== Proof.LibStages.lean ====
/-
  Reading a long line of host operations in stretches.

  What a line of operations leaves in a buffer is a fold over the line (`StableHlo.after`). Read in one piece, the
  fold's term repeats every shared intermediate result once per use and its evaluation compares every buffer with
  every operation. Cut into stretches the fold is read stretch by stretch: a stretch's results as functions of what
  an ARBITRARY valuation holds in the buffers the stretch reads, and the buffers a stretch does not write kept as
  they were. The whole line's results are then the stretches' functions composed.
  `after_append`, `after_take_drop`: the fold over a line cut in two. `reads_stretch`: a stretch's result read off
  (the literal list computed, each operation's result rewritten once, the rest by unfolding). `keeps_stretch`: a buffer no
  operation of a stretch writes is kept (the references' inequalities decided one by one).
-/
import Idealize.ShloMosaic.Lib.StableHlo.Run

noncomputable section

namespace Cert.LibStages

open Idealize.ShloMosaic Idealize.ShloMosaic.StableHlo

variable {τ : Topo} {sig : RefSig} {Val : EltTy → Type}

/-- Two stretches run one after the other: the second from what the first leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A line cut after its first `k` operations. -/
theorem after_take_drop (k : Nat) (l : List (HloOp τ sig Val)) (V : Valuation τ sig Val) :
    after l V = after (l.drop k) (after (l.take k) V) := by
  rw [← after_append, List.take_append_drop]

/-- `reads_stretch [defs]`: closes `after ‹literal stretch› W ↑b = ‹the stretch's function of W's contents›`. -/
syntax "reads_stretch" "[" Lean.Parser.Tactic.simpLemma,* "]" : tactic
macro_rules
  | `(tactic| reads_stretch [$defs,*]) => `(tactic| (
      simp only [$defs,*, List.take_succ_cons, List.take_zero, List.drop_succ_cons, List.drop_zero,
        List.flatten_cons, List.flatten_nil, List.append_nil, List.cons_append, List.nil_append]
      after_results_simp
      rfl))

/-- `keeps_stretch [defs]`: closes `after ‹literal stretch› W ↑r = W ↑r` when no operation of the stretch writes `r`. -/
syntax "keeps_stretch" "[" Lean.Parser.Tactic.simpLemma,* "]" : tactic
macro_rules
  | `(tactic| keeps_stretch [$defs,*]) => `(tactic| (
      refine StableHlo.after_of_forall_not_mem _ _ (List.forall_iff_forall_mem.mp ?_)
      simp only [$defs,*, List.take_succ_cons, List.take_zero, List.drop_succ_cons, List.drop_zero,
        List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, StableHlo.nary_writes,
        Finset.mem_singleton]
      repeat' apply And.intro
      all_goals exact StableHlo.devRef_ne_of_ne (by decide)))

end Cert.LibStages

end
-- ==== Proof.RefCut.lean ====
/-
  The reference's 490 host operations cut into five stretches: the first 42 (the two pixel-coordinate arrays and the
  velocity pair), three stretches of 126 (one bilinear sample each: of the first, the second and the third table), and
  the last 70 (the velocity's length, the two chains and their reshapes). What the whole line leaves in a buffer is
  what the five stretches leave one after the other.
-/
import proofs.«176869_j84842783965226_2_alg».proof.Proof.RefRun
import proofs.«176869_j84842783965226_2_alg».proof.Proof.LibStages

set_option maxRecDepth 16384

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.LibStages

variable {F : FTy → Type} [FloatOps F]

/-- The five stretches. -/
abbrev sA : List (HloOp τ sig (Elt F)) := (ops (F := F)).take 42
abbrev s1 : List (HloOp τ sig (Elt F)) := ((ops (F := F)).drop 42).take 126
abbrev s2 : List (HloOp τ sig (Elt F)) := (((ops (F := F)).drop 42).drop 126).take 126
abbrev s3 : List (HloOp τ sig (Elt F)) := ((((ops (F := F)).drop 42).drop 126).drop 126).take 126
abbrev sT : List (HloOp τ sig (Elt F)) := ((((ops (F := F)).drop 42).drop 126).drop 126).drop 126

/-- The line is the five stretches one after the other. -/
theorem cut (G : Valuation τ sig (Elt F)) :
    after (ops (F := F)) G = after sT (after s3 (after s2 (after s1 (after sA G)))) :=
  (after_take_drop 42 (ops (F := F)) G).trans
    ((after_take_drop 126 ((ops (F := F)).drop 42) _).trans
      ((after_take_drop 126 (((ops (F := F)).drop 42).drop 126) _).trans
        (after_take_drop 126 ((((ops (F := F)).drop 42).drop 126).drop 126) _)))

end Cert.ReferenceIdeal.HandRun

end
-- ==== Proof.RefStageA.lean ====
/-
  The first stretch: from the state array, its velocity pair along the flattened axis and the two pixel-coordinate
  arrays; the three tables are not written.
-/
import proofs.«176869_j84842783965226_2_alg».proof.Proof.RefCut
import proofs.«176869_j84842783965226_2_alg».proof.Proof.RefReadP

set_option maxRecDepth 16384

noncomputable section

namespace Cert.ReferenceIdeal.HandRun

open Cert.ReferenceIdeal Cert.ReferenceIdeal.Gen Cert.ReferenceIdeal.Read Idealize.ShloMosaic Idealize.ShloMosaic.TcCoe Idealize.SL.Sem Idealize.ShloMosaic.StableHlo
open Cert.LibStages

variable {F : FTy → Type} [FloatOps F]

set_option maxHeartbeats 40000000 in
theorem A_v3 (W : Valuation τ sig (Elt F)) :
    (after sA W (Proc.devRef .tc main_v3) : (⟨S1048576x2, .f32⟩ : BufTy).Contents (Elt F)) = val_main_v3 (F := F) (W (Proc.devRef .tc main_arg0)) := by
  reads_stretch [sA, ops]
set_option maxHeartbeats 40000000 in
theorem A_v12 (W : Valuation τ sig (Elt F)) :
    (after sA W (Proc.devRef .tc main_v12) : (⟨S1048576, .f32⟩ : BufTy).Contents (Elt F)) = val_main_v12 (F := F) (W (Proc.devRef .tc main_arg0)) := by
  reads_stretch [sA, ops]
set_option maxHeartbeats 40000000 in
theorem A_v21 (W : Valuation τ sig (Elt F)) :
    (after sA W (Proc.devRef .tc main_v21) : (⟨S1048576, .f32⟩ : BufTy).Contents (Elt F)) = val_main_v21 (F := F) (W (Proc.devRef .tc main_arg0)) := by
  reads_stretch [sA, ops]
set_option maxHeartbeats 40000000 in
theorem A_keeps_arg0 (W : Valuation τ sig (Elt F)) : after sA W (Proc.devRef .tc main_arg0) = W (Proc.devRef .tc main_arg0) := by
  keeps_stretch [sA, ops]
set_option maxHeartbeats 40000000 in
theorem A_keeps_arg1 (W : Valuation τ sig (Elt F)) : after sA W (Proc.devRef .tc main_arg1) = W (Proc.devRef .tc main_arg1) := by
  keeps_stretch [sA, ops]
set_option maxHeartbeats 40000000 in
theorem A_keeps_arg2 (W : Valuation τ sig (Elt F)) : after sA W (Proc.devRef .tc main_arg2) = W (Proc.devRef .tc main_arg2) := by
  keeps_stretch [sA, ops]
set_option maxHeartbeats 40000000 in
theorem A_keeps_arg3 (W : Valuation τ sig (Elt F)) : after sA W (Proc.devRef .tc main_arg3) = W (Proc.devRef .tc main_arg3) := by
  keeps_stretch [sA, ops]

end Cert.ReferenceIdeal.HandRun

end
-- ==== Proof.RefSub1.lean ====
/-
  The stretch that samples the first table, read in ten pieces: the two cells and the two fractions of the pixel
  coordinates; for each of the four corners of the cell, first its two wrapped index columns and then their join and the
  table lookup; and the interpolation of the four looked-up values by the two fractions. Each piece is read off over an arbitrary valuation
  that holds the piece's inputs; the buffers a later piece reads are not written meanwhile.
-/
import proofs.«176869_j84842783965226_2_alg».proof.Proof.RefCut
import proofs.«176869_j84842783965226_2_alg».proof.Proof.RefReadP

set_option maxRecDepth 16384

noncomputable section

namespace Cert.ReferenceIdeal.HandRun

open Cert.ReferenceIdeal Cert.ReferenceIdeal.Gen Cert.ReferenceIdeal.Read Idealize.ShloMosaic Idealize.ShloMosaic.TcCoe Idealize.SL.Sem Idealize.ShloMosaic.StableHlo
open Cert.LibStages

variable {F : FTy → Type} [FloatOps F]

/-- The ten pieces of the stretch. -/
abbrev s1a : List (HloOp τ sig (Elt F)) := (s1 (F := F)).take 24
abbrev s1g1p : List (HloOp τ sig (Elt F)) := ((s1 (F := F)).drop 24).take 16
abbrev s1g1c : List (HloOp τ sig (Elt F)) := (((s1 (F := F)).drop 24).drop 16).take 2
abbrev s1g2p : List (HloOp τ sig (Elt F)) := ((((s1 (F := F)).drop 24).drop 16).drop 2).take 19
abbrev s1g2c : List (HloOp τ sig (Elt F)) := (((((s1 (F := F)).drop 24).drop 16).drop 2).drop 19).take 2
abbrev s1g3p : List (HloOp τ sig (Elt F)) := ((((((s1 (F := F)).drop 24).drop 16).drop 2).drop 19).drop 2).take 19
abbrev s1g3c : List (HloOp τ sig (Elt F)) := (((((((s1 (F := F)).drop 24).drop 16).drop 2).drop 19).drop 2).drop 19).take 2
abbrev s1g4p : List (HloOp τ sig (Elt F)) := ((((((((s1 (F := F)).drop 24).drop 16).drop 2).drop 19).drop 2).drop 19).drop 2).take 22
abbrev s1g4c : List (HloOp τ sig (Elt F)) := (((((((((s1 (F := F)).drop 24).drop 16).drop 2).drop 19).drop 2).drop 19).drop 2).drop 22).take 2
abbrev s1l : List (HloOp τ sig (Elt F)) := (((((((((s1 (F := F)).drop 24).drop 16).drop 2).drop 19).drop 2).drop 19).drop 2).drop 22).drop 2

/-- The stretch is its ten pieces one after the other. -/
theorem cut1 (W : Valuation τ sig (Elt F)) :
    after (s1 (F := F)) W = after s1l (after s1g4c (after s1g4p (after s1g3c (after s1g3p (after s1g2c (after s1g2p (after s1g1c (after s1g1p (after s1a W))))))))) :=
  (after_take_drop 24 (s1 (F := F)) W).trans
    ((after_take_drop 16 ((s1 (F := F)).drop 24) _).trans
    ((after_take_drop 2 (((s1 (F := F)).drop 24).drop 16) _).trans
    ((after_take_drop 19 ((((s1 (F := F)).drop 24).drop 16).drop 2) _).trans
    ((after_take_drop 2 (((((s1 (F := F)).drop 24).drop 16).drop 2).drop 19) _).trans
    ((after_take_drop 19 ((((((s1 (F := F)).drop 24).drop 16).drop 2).drop 19).drop 2) _).trans
    ((after_take_drop 2 (((((((s1 (F := F)).drop 24).drop 16).drop 2).drop 19).drop 2).drop 19) _).trans
    ((after_take_drop 22 ((((((((s1 (F := F)).drop 24).drop 16).drop 2).drop 19).drop 2).drop 19).drop 2) _).trans
    ((after_take_drop 2 (((((((((s1 (F := F)).drop 24).drop 16).drop 2).drop 19).drop 2).drop 19).drop 2).drop 22) _)))))))))

set_option maxHeartbeats 4000000 in
theorem S1a_v27 (W : Valuation τ sig (Elt F)) (x0 : (⟨S8192x128x4, .f32⟩ : BufTy).Contents (Elt F)) (x1 : (⟨S2048x2048, .f32⟩ : BufTy).Contents (Elt F))
    (h_v21 : (W (Proc.devRef .tc main_v21) : (⟨S1048576, .f32⟩ : BufTy).Contents (Elt F)) = val_main_v21 (F := F) x0)
    : (after s1a W (Proc.devRef .tc main_v27) : (⟨S1048576, .i32⟩ : BufTy).Contents (Elt F)) = val_main_v27 (F := F) x0 := by
  simp only [s1a, s1, ops, List.take_succ_cons, List.take_zero, List.drop_succ_cons, List.drop_zero]
  after_results_simp
  rw [h_v21]
  rfl
set_option maxHeartbeats 4000000 in
theorem S1a_v24 (W : Valuation τ sig (Elt F)) (x0 : (⟨S8192x128x4, .f32⟩ : BufTy).Contents (Elt F)) (x1 : (⟨S2048x2048, .f32⟩ : BufTy).Contents (Elt F))
    (h_v12 : (W (Proc.devRef .tc main_v12) : (⟨S1048576, .f32⟩ : BufTy).Contents (Elt F)) = val_main_v12 (F := F) x0)
    : (after s1a W (Proc.devRef .tc main_v24) : (⟨S1048576, .i32⟩ : BufTy).Contents (Elt F)) = val_main_v24 (F := F) x0 := by
  simp only [s1a, s1, ops, List.take_succ_cons, List.take_zero, List.drop_succ_cons, List.drop_zero]
  after_results_simp
  rw [h_v12]
  rfl
set_option maxHeartbeats 4000000 in
theorem S1a_v29 (W : Valuation τ sig (Elt F)) (x0 : (⟨S8192x128x4, .f32⟩ : BufTy).Contents (Elt F)) (x1 : (⟨S2048x2048, .f32⟩ : BufTy).Contents (Elt F))
    (h_v12 : (W (Proc.devRef .tc main_v12) : (⟨S1048576, .f32⟩ : BufTy).Contents (Elt F)) = val_main_v12 (F := F) x0)
    : (after s1a W (Proc.devRef .tc main_v29) : (⟨S1048576, .f32⟩ : BufTy).Contents (Elt F)) = val_main_v29 (F := F) x0 := by
  simp only [s1a, s1, ops, List.take_succ_cons, List.take_zero, List.drop_succ_cons, List.drop_zero]
  after_results_simp
  rw [h_v12]
  rfl
set_option maxHeartbeats 4000000 in
theorem S1a_v31 (W : Valuation τ sig (Elt F)) (x0 : (⟨S8192x128x4, .f32⟩ : BufTy).Contents (Elt F)) (x1 : (⟨S2048x2048, .f32⟩ : BufTy).Contents (Elt F))
    (h_v21 : (W (Proc.devRef .tc main_v21) : (⟨S1048576, .f32⟩ : BufTy).Contents (Elt F)) = val_main_v21 (F := F) x0)
    : (after s1a W (Proc.devRef .tc main_v31) : (⟨S1048576, .f32⟩ : BufTy).Contents (Elt F)) = val_main_v31 (F := F) x0 := by
  simp only [s1a, s1, ops, List.take_succ_cons, List.take_zero, List.drop_succ_cons, List.drop_zero]
  after_results_simp
  rw [h_v21]
  rfl
set_option maxHeartbeats 4000000 in
theorem S1a_keeps_arg1 (W : Valuation τ sig (Elt F)) : after s1a W (Proc.devRef .tc main_arg1) = W (Proc.devRef .tc main_arg1) := by
  keeps_stretch [s1a, s1, ops]
set_option maxHeartbeats 4000000 in
theorem S1g1p_v42 (W : Valuation τ sig (Elt F)) (x0 : (⟨S8192x128x4, .f32⟩ : BufTy).Contents (Elt F)) (x1 : (⟨S2048x2048, .f32⟩ : BufTy).Contents (Elt F))
    (h_v27 : (W (Proc.devRef .tc main_v27) : (⟨S1048576, .i32⟩ : BufTy).Contents (Elt F)) = val_main_v27 (F := F) x0)
    : (after s1g1p W (Proc.devRef .tc main_v42) : (⟨S1048576x1, .i32⟩ : BufTy).Contents (Elt F)) = val_main_v42 (F := F) x0 := by
  simp only [s1g1p, s1, ops, List.take_succ_cons, List.take_zero, List.drop_succ_cons, List.drop_zero]
  after_results_simp
  rw [h_v27]
  rfl
set_option maxHeartbeats 4000000 in
theorem S1g1p_v43 (W : Valuation τ sig (Elt F)) (x0 : (⟨S8192x128x4, .f32⟩ : BufTy).Contents (Elt F)) (x1 : (⟨S2048x2048, .f32⟩ : BufTy).Contents (Elt F))
    (h_v24 : (W (Proc.devRef .tc main_v24) : (⟨S1048576, .i32⟩ : BufTy).Contents (Elt F)) = val_main_v24 (F := F) x0)
    : (after s1g1p W (Proc.devRef .tc main_v43) : (⟨S1048576x1, .i32⟩ : BufTy).Contents (Elt F)) = val_main_v43 (F := F) x0 := by
  simp only [s1g1p, s1, ops, List.take_succ_cons, List.take_zero, List.drop_succ_cons, List.drop_zero]
  after_results_simp
  rw [h_v24]
  rfl
set_option maxHeartbeats 4000000 in
theorem S1g1p_keeps_arg1 (W : Valuation τ sig (Elt F)) : after s1g1p W (Proc.devRef .tc main_arg1) = W (Proc.devRef .tc main_arg1) := by
  keeps_stretch [s1g1p, s1, ops]
set_option maxHeartbeats 4000000 in
theorem S1g1p_keeps_v24 (W : Valuation τ sig (Elt F)) : after s1g1p W (Proc.devRef .tc main_v24) = W (Proc.devRef .tc main_v24) := by
  keeps_stretch [s1g1p, s1, ops]
set_option maxHeartbeats 4000000 in
theorem S1g1p_keeps_v27 (W : Valuation τ sig (Elt F)) : after s1g1p W (Proc.devRef .tc main_v27) = W (Proc.devRef .tc main_v27) := by
  keeps_stretch [s1g1p, s1, ops]
set_option maxHeartbeats 4000000 in
theorem S1g1p_keeps_v29 (W : Valuation τ sig (Elt F)) : after s1g1p W (Proc.devRef .tc main_v29) = W (Proc.devRef .tc main_v29) := by
  keeps_stretch [s1g1p, s1, ops]
set_option maxHeartbeats 4000000 in
theorem S1g1p_keeps_v31 (W : Valuation τ sig (Elt F)) : after s1g1p W (Proc.devRef .tc main_v31) = W (Proc.devRef .tc main_v31) := by
  keeps_stretch [s1g1p, s1, ops]
set_option maxHeartbeats 4000000 in
theorem S1g1c_v45 (W : Valuation τ sig (Elt F)) (x0 : (⟨S8192x128x4, .f32⟩ : BufTy).Contents (Elt F)) (x1 : (⟨S2048x2048, .f32⟩ : BufTy).Contents (Elt F))
    (h_arg1 : (W (Proc.devRef .tc main_arg1) : (⟨S2048x2048, .f32⟩ : BufTy).Contents (Elt F)) = x1)
    (h_v42 : (W (Proc.devRef .tc main_v42) : (⟨S1048576x1, .i32⟩ : BufTy).Contents (Elt F)) = val_main_v42 (F := F) x0)
    (h_v43 : (W (Proc.devRef .tc main_v43) : (⟨S1048576x1, .i32⟩ : BufTy).Contents (Elt F)) = val_main_v43 (F := F) x0)
    : (after s1g1c W (Proc.devRef .tc main_v45) : (⟨S1048576, .f32⟩ : BufTy).Contents (Elt F)) = val_main_v45 (F := F) x0 x1 := by
  simp only [s1g1c, s1, ops, List.take_succ_cons, List.take_zero, List.drop_succ_cons, List.drop_zero]
  after_results_simp
  rw [h_arg1, h_v42, h_v43]
  rfl
set_option maxHeartbeats 4000000 in
theorem S1g1c_keeps_v24 (W : Valuation τ sig (Elt F)) : after s1g1c W (Proc.devRef .tc main_v24) = W (Proc.devRef .tc main_v24) := by
  keeps_stretch [s1g1c, s1, ops]
set_option maxHeartbeats 4000000 in
theorem S1g1c_keeps_v27 (W : Valuation τ sig (Elt F)) : after s1g1c W (Proc.devRef .tc main_v27) = W (Proc.devRef .tc main_v27) := by
  keeps_stretch [s1g1c, s1, ops]
set_option maxHeartbeats 4000000 in
theorem S1g1c_keeps_arg1 (W : Valuation τ sig (Elt F)) : after s1g1c W (Proc.devRef .tc main_arg1) = W (Proc.devRef .tc main_arg1) := by
  keeps_stretch [s1g1c, s1, ops]
set_option maxHeartbeats 4000000 in
theorem S1g1c_keeps_v29 (W : Valuation τ sig (Elt F)) : after s1g1c W (Proc.devRef .tc main_v29) = W (Proc.devRef .tc main_v29) := by
  keeps_stretch [s1g1c, s1, ops]
set_option maxHeartbeats 4000000 in
theorem S1g1c_keeps_v31 (W : Valuation τ sig (Elt F)) : after s1g1c W (Proc.devRef .tc main_v31) = W (Proc.devRef .tc main_v31) := by
  keeps_stretch [s1g1c, s1, ops]
set_option maxHeartbeats 4000000 in
theorem S1g2p_v58 (W : Valuation τ sig (Elt F)) (x0 : (⟨S8192x128x4, .f32⟩ : BufTy).Contents (Elt F)) (x1 : (⟨S2048x2048, .f32⟩ : BufTy).Contents (Elt F))
    (h_v27 : (W (Proc.devRef .tc main_v27) : (⟨S1048576, .i32⟩ : BufTy).Contents (Elt F)) = val_main_v27 (F := F) x0)
    : (after s1g2p W (Proc.devRef .tc main_v58) : (⟨S1048576x1, .i32⟩ : BufTy).Contents (Elt F)) = val_main_v58 (F := F) x0 := by
  simp only [s1g2p, s1, ops, List.take_succ_cons, List.take_zero, List.drop_succ_cons, List.drop_zero]
  after_results_simp
  rw [h_v27]
  rfl
set_option maxHeartbeats 4000000 in
theorem S1g2p_v59 (W : Valuation τ sig (Elt F)) (x0 : (⟨S8192x128x4, .f32⟩ : BufTy).Contents (Elt F)) (x1 : (⟨S2048x2048, .f32⟩ : BufTy).Contents (Elt F))
    (h_v24 : (W (Proc.devRef .tc main_v24) : (⟨S1048576, .i32⟩ : BufTy).Contents (Elt F)) = val_main_v24 (F := F) x0)
    : (after s1g2p W (Proc.devRef .tc main_v59) : (⟨S1048576x1, .i32⟩ : BufTy).Contents (Elt F)) = val_main_v59 (F := F) x0 := by
  simp only [s1g2p, s1, ops, List.take_succ_cons, List.take_zero, List.drop_succ_cons, List.drop_zero]
  after_results_simp
  rw [h_v24]
  rfl
set_option maxHeartbeats 4000000 in
theorem S1g2p_keeps_arg1 (W : Valuation τ sig (Elt F)) : after s1g2p W (Proc.devRef .tc main_arg1) = W (Proc.devRef .tc main_arg1) := by
  keeps_stretch [s1g2p, s1, ops]
set_option maxHeartbeats 4000000 in
theorem S1g2p_keeps_v27 (W : Valuation τ sig (Elt F)) : after s1g2p W (Proc.devRef .tc main_v27) = W (Proc.devRef .tc main_v27) := by
  keeps_stretch [s1g2p, s1, ops]
set_option maxHeartbeats 4000000 in
theorem S1g2p_keeps_v24 (W : Valuation τ sig (Elt F)) : after s1g2p W (Proc.devRef .tc main_v24) = W (Proc.devRef .tc main_v24) := by
  keeps_stretch [s1g2p, s1, ops]
set_option maxHeartbeats 4000000 in
theorem S1g2p_keeps_v29 (W : Valuation τ sig (Elt F)) : after s1g2p W (Proc.devRef .tc main_v29) = W (Proc.devRef .tc main_v29) := by
  keeps_stretch [s1g2p, s1, ops]
set_option maxHeartbeats 4000000 in
theorem S1g2p_keeps_v45 (W : Valuation τ sig (Elt F)) : after s1g2p W (Proc.devRef .tc main_v45) = W (Proc.devRef .tc main_v45) := by
  keeps_stretch [s1g2p, s1, ops]
set_option maxHeartbeats 4000000 in
theorem S1g2p_keeps_v31 (W : Valuation τ sig (Elt F)) : after s1g2p W (Proc.devRef .tc main_v31) = W (Proc.devRef .tc main_v31) := by
  keeps_stretch [s1g2p, s1, ops]
set_option maxHeartbeats 4000000 in
theorem S1g2c_v61 (W : Valuation τ sig (Elt F)) (x0 : (⟨S8192x128x4, .f32⟩ : BufTy).Contents (Elt F)) (x1 : (⟨S2048x2048, .f32⟩ : BufTy).Contents (Elt F))
    (h_arg1 : (W (Proc.devRef .tc main_arg1) : (⟨S2048x2048, .f32⟩ : BufTy).Contents (Elt F)) = x1)
    (h_v58 : (W (Proc.devRef .tc main_v58) : (⟨S1048576x1, .i32⟩ : BufTy).Contents (Elt F)) = val_main_v58 (F := F) x0)
    (h_v59 : (W (Proc.devRef .tc main_v59) : (⟨S1048576x1, .i32⟩ : BufTy).Contents (Elt F)) = val_main_v59 (F := F) x0)
    : (after s1g2c W (Proc.devRef .tc main_v61) : (⟨S1048576, .f32⟩ : BufTy).Contents (Elt F)) = val_main_v61 (F := F) x0 x1 := by
  simp only [s1g2c, s1, ops, List.take_succ_cons, List.take_zero, List.drop_succ_cons, List.drop_zero]
  after_results_simp
  rw [h_arg1, h_v58, h_v59]
  rfl
set_option maxHeartbeats 4000000 in
theorem S1g2c_keeps_v27 (W : Valuation τ sig (Elt F)) : after s1g2c W (Proc.devRef .tc main_v27) = W (Proc.devRef .tc main_v27) := by
  keeps_stretch [s1g2c, s1, ops]
set_option maxHeartbeats 4000000 in
theorem S1g2c_keeps_v24 (W : Valuation τ sig (Elt F)) : after s1g2c W (Proc.devRef .tc main_v24) = W (Proc.devRef .tc main_v24) := by
  keeps_stretch [s1g2c, s1, ops]
set_option maxHeartbeats 4000000 in
theorem S1g2c_keeps_arg1 (W : Valuation τ sig (Elt F)) : after s1g2c W (Proc.devRef .tc main_arg1) = W (Proc.devRef .tc main_arg1) := by
  keeps_stretch [s1g2c, s1, ops]
set_option maxHeartbeats 4000000 in
theorem S1g2c_keeps_v29 (W : Valuation τ sig (Elt F)) : after s1g2c W (Proc.devRef .tc main_v29) = W (Proc.devRef .tc main_v29) := by
  keeps_stretch [s1g2c, s1, ops]
set_option maxHeartbeats 4000000 in
theorem S1g2c_keeps_v45 (W : Valuation τ sig (Elt F)) : after s1g2c W (Proc.devRef .tc main_v45) = W (Proc.devRef .tc main_v45) := by
  keeps_stretch [s1g2c, s1, ops]
set_option maxHeartbeats 4000000 in
theorem S1g2c_keeps_v31 (W : Valuation τ sig (Elt F)) : after s1g2c W (Proc.devRef .tc main_v31) = W (Proc.devRef .tc main_v31) := by
  keeps_stretch [s1g2c, s1, ops]
set_option maxHeartbeats 4000000 in
theorem S1g3p_v74 (W : Valuation τ sig (Elt F)) (x0 : (⟨S8192x128x4, .f32⟩ : BufTy).Contents (Elt F)) (x1 : (⟨S2048x2048, .f32⟩ : BufTy).Contents (Elt F))
    (h_v27 : (W (Proc.devRef .tc main_v27) : (⟨S1048576, .i32⟩ : BufTy).Contents (Elt F)) = val_main_v27 (F := F) x0)
    : (after s1g3p W (Proc.devRef .tc main_v74) : (⟨S1048576x1, .i32⟩ : BufTy).Contents (Elt F)) = val_main_v74 (F := F) x0 := by
  simp only [s1g3p, s1, ops, List.take_succ_cons, List.take_zero, List.drop_succ_cons, List.drop_zero]
  after_results_simp
  rw [h_v27]
  rfl
set_option maxHeartbeats 4000000 in
theorem S1g3p_v75 (W : Valuation τ sig (Elt F)) (x0 : (⟨S8192x128x4, .f32⟩ : BufTy).Contents (Elt F)) (x1 : (⟨S2048x2048, .f32⟩ : BufTy).Contents (Elt F))
    (h_v24 : (W (Proc.devRef .tc main_v24) : (⟨S1048576, .i32⟩ : BufTy).Contents (Elt F)) = val_main_v24 (F := F) x0)
    : (after s1g3p W (Proc.devRef .tc main_v75) : (⟨S1048576x1, .i32⟩ : BufTy).Contents (Elt F)) = val_main_v75 (F := F) x0 := by
  simp only [s1g3p, s1, ops, List.take_succ_cons, List.take_zero, List.drop_succ_cons, List.drop_zero]
  after_results_simp
  rw [h_v24]
  rfl
set_option maxHeartbeats 4000000 in
theorem S1g3p_keeps_arg1 (W : Valuation τ sig (Elt F)) : after s1g3p W (Proc.devRef .tc main_arg1) = W (Proc.devRef .tc main_arg1) := by
  keeps_stretch [s1g3p, s1, ops]
set_option maxHeartbeats 4000000 in
theorem S1g3p_keeps_v27 (W : Valuation τ sig (Elt F)) : after s1g3p W (Proc.devRef .tc main_v27) = W (Proc.devRef .tc main_v27) := by
  keeps_stretch [s1g3p, s1, ops]
set_option maxHeartbeats 4000000 in
theorem S1g3p_keeps_v24 (W : Valuation τ sig (Elt F)) : after s1g3p W (Proc.devRef .tc main_v24) = W (Proc.devRef .tc main_v24) := by
  keeps_stretch [s1g3p, s1, ops]
set_option maxHeartbeats 4000000 in
theorem S1g3p_keeps_v29 (W : Valuation τ sig (Elt F)) : after s1g3p W (Proc.devRef .tc main_v29) = W (Proc.devRef .tc main_v29) := by
  keeps_stretch [s1g3p, s1, ops]
set_option maxHeartbeats 4000000 in
theorem S1g3p_keeps_v45 (W : Valuation τ sig (Elt F)) : after s1g3p W (Proc.devRef .tc main_v45) = W (Proc.devRef .tc main_v45) := by
  keeps_stretch [s1g3p, s1, ops]
set_option maxHeartbeats 4000000 in
theorem S1g3p_keeps_v61 (W : Valuation τ sig (Elt F)) : after s1g3p W (Proc.devRef .tc main_v61) = W (Proc.devRef .tc main_v61) := by
  keeps_stretch [s1g3p, s1, ops]
set_option maxHeartbeats 4000000 in
theorem S1g3p_keeps_v31 (W : Valuation τ sig (Elt F)) : after s1g3p W (Proc.devRef .tc main_v31) = W (Proc.devRef .tc main_v31) := by
  keeps_stretch [s1g3p, s1, ops]
set_option maxHeartbeats 4000000 in
theorem S1g3c_v77 (W : Valuation τ sig (Elt F)) (x0 : (⟨S8192x128x4, .f32⟩ : BufTy).Contents (Elt F)) (x1 : (⟨S2048x2048, .f32⟩ : BufTy).Contents (Elt F))
    (h_arg1 : (W (Proc.devRef .tc main_arg1) : (⟨S2048x2048, .f32⟩ : BufTy).Contents (Elt F)) = x1)
    (h_v74 : (W (Proc.devRef .tc main_v74) : (⟨S1048576x1, .i32⟩ : BufTy).Contents (Elt F)) = val_main_v74 (F := F) x0)
    (h_v75 : (W (Proc.devRef .tc main_v75) : (⟨S1048576x1, .i32⟩ : BufTy).Contents (Elt F)) = val_main_v75 (F := F) x0)
    : (after s1g3c W (Proc.devRef .tc main_v77) : (⟨S1048576, .f32⟩ : BufTy).Contents (Elt F)) = val_main_v77 (F := F) x0 x1 := by
  simp only [s1g3c, s1, ops, List.take_succ_cons, List.take_zero, List.drop_succ_cons, List.drop_zero]
  after_results_simp
  rw [h_arg1, h_v74, h_v75]
  rfl
set_option maxHeartbeats 4000000 in
theorem S1g3c_keeps_v27 (W : Valuation τ sig (Elt F)) : after s1g3c W (Proc.devRef .tc main_v27) = W (Proc.devRef .tc main_v27) := by
  keeps_stretch [s1g3c, s1, ops]
set_option maxHeartbeats 4000000 in
theorem S1g3c_keeps_v24 (W : Valuation τ sig (Elt F)) : after s1g3c W (Proc.devRef .tc main_v24) = W (Proc.devRef .tc main_v24) := by
  keeps_stretch [s1g3c, s1, ops]
set_option maxHeartbeats 4000000 in
theorem S1g3c_keeps_arg1 (W : Valuation τ sig (Elt F)) : after s1g3c W (Proc.devRef .tc main_arg1) = W (Proc.devRef .tc main_arg1) := by
  keeps_stretch [s1g3c, s1, ops]
set_option maxHeartbeats 4000000 in
theorem S1g3c_keeps_v29 (W : Valuation τ sig (Elt F)) : after s1g3c W (Proc.devRef .tc main_v29) = W (Proc.devRef .tc main_v29) := by
  keeps_stretch [s1g3c, s1, ops]
set_option maxHeartbeats 4000000 in
theorem S1g3c_keeps_v45 (W : Valuation τ sig (Elt F)) : after s1g3c W (Proc.devRef .tc main_v45) = W (Proc.devRef .tc main_v45) := by
  keeps_stretch [s1g3c, s1, ops]
set_option maxHeartbeats 4000000 in
theorem S1g3c_keeps_v61 (W : Valuation τ sig (Elt F)) : after s1g3c W (Proc.devRef .tc main_v61) = W (Proc.devRef .tc main_v61) := by
  keeps_stretch [s1g3c, s1, ops]
set_option maxHeartbeats 4000000 in
theorem S1g3c_keeps_v31 (W : Valuation τ sig (Elt F)) : after s1g3c W (Proc.devRef .tc main_v31) = W (Proc.devRef .tc main_v31) := by
  keeps_stretch [s1g3c, s1, ops]
set_option maxHeartbeats 4000000 in
theorem S1g4p_v92 (W : Valuation τ sig (Elt F)) (x0 : (⟨S8192x128x4, .f32⟩ : BufTy).Contents (Elt F)) (x1 : (⟨S2048x2048, .f32⟩ : BufTy).Contents (Elt F))
    (h_v27 : (W (Proc.devRef .tc main_v27) : (⟨S1048576, .i32⟩ : BufTy).Contents (Elt F)) = val_main_v27 (F := F) x0)
    : (after s1g4p W (Proc.devRef .tc main_v92) : (⟨S1048576x1, .i32⟩ : BufTy).Contents (Elt F)) = val_main_v92 (F := F) x0 := by
  simp only [s1g4p, s1, ops, List.take_succ_cons, List.take_zero, List.drop_succ_cons, List.drop_zero]
  after_results_simp
  rw [h_v27]
  rfl
set_option maxHeartbeats 4000000 in
theorem S1g4p_v93 (W : Valuation τ sig (Elt F)) (x0 : (⟨S8192x128x4, .f32⟩ : BufTy).Contents (Elt F)) (x1 : (⟨S2048x2048, .f32⟩ : BufTy).Contents (Elt F))
    (h_v24 : (W (Proc.devRef .tc main_v24) : (⟨S1048576, .i32⟩ : BufTy).Contents (Elt F)) = val_main_v24 (F := F) x0)
    : (after s1g4p W (Proc.devRef .tc main_v93) : (⟨S1048576x1, .i32⟩ : BufTy).Contents (Elt F)) = val_main_v93 (F := F) x0 := by
  simp only [s1g4p, s1, ops, List.take_succ_cons, List.take_zero, List.drop_succ_cons, List.drop_zero]
  after_results_simp
  rw [h_v24]
  rfl
set_option maxHeartbeats 4000000 in
theorem S1g4p_keeps_arg1 (W : Valuation τ sig (Elt F)) : after s1g4p W (Proc.devRef .tc main_arg1) = W (Proc.devRef .tc main_arg1) := by
  keeps_stretch [s1g4p, s1, ops]
set_option maxHeartbeats 4000000 in
theorem S1g4p_keeps_v29 (W : Valuation τ sig (Elt F)) : after s1g4p W (Proc.devRef .tc main_v29) = W (Proc.devRef .tc main_v29) := by
  keeps_stretch [s1g4p, s1, ops]
set_option maxHeartbeats 4000000 in
theorem S1g4p_keeps_v45 (W : Valuation τ sig (Elt F)) : after s1g4p W (Proc.devRef .tc main_v45) = W (Proc.devRef .tc main_v45) := by
  keeps_stretch [s1g4p, s1, ops]
set_option maxHeartbeats 4000000 in
theorem S1g4p_keeps_v61 (W : Valuation τ sig (Elt F)) : after s1g4p W (Proc.devRef .tc main_v61) = W (Proc.devRef .tc main_v61) := by
  keeps_stretch [s1g4p, s1, ops]
set_option maxHeartbeats 4000000 in
theorem S1g4p_keeps_v77 (W : Valuation τ sig (Elt F)) : after s1g4p W (Proc.devRef .tc main_v77) = W (Proc.devRef .tc main_v77) := by
  keeps_stretch [s1g4p, s1, ops]
set_option maxHeartbeats 4000000 in
theorem S1g4p_keeps_v31 (W : Valuation τ sig (Elt F)) : after s1g4p W (Proc.devRef .tc main_v31) = W (Proc.devRef .tc main_v31) := by
  keeps_stretch [s1g4p, s1, ops]
set_option maxHeartbeats 4000000 in
theorem S1g4c_v95 (W : Valuation τ sig (Elt F)) (x0 : (⟨S8192x128x4, .f32⟩ : BufTy).Contents (Elt F)) (x1 : (⟨S2048x2048, .f32⟩ : BufTy).Contents (Elt F))
    (h_arg1 : (W (Proc.devRef .tc main_arg1) : (⟨S2048x2048, .f32⟩ : BufTy).Contents (Elt F)) = x1)
    (h_v92 : (W (Proc.devRef .tc main_v92) : (⟨S1048576x1, .i32⟩ : BufTy).Contents (Elt F)) = val_main_v92 (F := F) x0)
    (h_v93 : (W (Proc.devRef .tc main_v93) : (⟨S1048576x1, .i32⟩ : BufTy).Contents (Elt F)) = val_main_v93 (F := F) x0)
    : (after s1g4c W (Proc.devRef .tc main_v95) : (⟨S1048576, .f32⟩ : BufTy).Contents (Elt F)) = val_main_v95 (F := F) x0 x1 := by
  simp only [s1g4c, s1, ops, List.take_succ_cons, List.take_zero, List.drop_succ_cons, List.drop_zero]
  after_results_simp
  rw [h_arg1, h_v92, h_v93]
  rfl
set_option maxHeartbeats 4000000 in
theorem S1g4c_keeps_v29 (W : Valuation τ sig (Elt F)) : after s1g4c W (Proc.devRef .tc main_v29) = W (Proc.devRef .tc main_v29) := by
  keeps_stretch [s1g4c, s1, ops]
set_option maxHeartbeats 4000000 in
theorem S1g4c_keeps_v45 (W : Valuation τ sig (Elt F)) : after s1g4c W (Proc.devRef .tc main_v45) = W (Proc.devRef .tc main_v45) := by
  keeps_stretch [s1g4c, s1, ops]
set_option maxHeartbeats 4000000 in
theorem S1g4c_keeps_v61 (W : Valuation τ sig (Elt F)) : after s1g4c W (Proc.devRef .tc main_v61) = W (Proc.devRef .tc main_v61) := by
  keeps_stretch [s1g4c, s1, ops]
set_option maxHeartbeats 4000000 in
theorem S1g4c_keeps_v77 (W : Valuation τ sig (Elt F)) : after s1g4c W (Proc.devRef .tc main_v77) = W (Proc.devRef .tc main_v77) := by
  keeps_stretch [s1g4c, s1, ops]
set_option maxHeartbeats 4000000 in
theorem S1g4c_keeps_v31 (W : Valuation τ sig (Elt F)) : after s1g4c W (Proc.devRef .tc main_v31) = W (Proc.devRef .tc main_v31) := by
  keeps_stretch [s1g4c, s1, ops]
set_option maxHeartbeats 4000000 in
theorem S1l_v110 (W : Valuation τ sig (Elt F)) (x0 : (⟨S8192x128x4, .f32⟩ : BufTy).Contents (Elt F)) (x1 : (⟨S2048x2048, .f32⟩ : BufTy).Contents (Elt F))
    (h_v29 : (W (Proc.devRef .tc main_v29) : (⟨S1048576, .f32⟩ : BufTy).Contents (Elt F)) = val_main_v29 (F := F) x0)
    (h_v31 : (W (Proc.devRef .tc main_v31) : (⟨S1048576, .f32⟩ : BufTy).Contents (Elt F)) = val_main_v31 (F := F) x0)
    (h_v45 : (W (Proc.devRef .tc main_v45) : (⟨S1048576, .f32⟩ : BufTy).Contents (Elt F)) = val_main_v45 (F := F) x0 x1)
    (h_v61 : (W (Proc.devRef .tc main_v61) : (⟨S1048576, .f32⟩ : BufTy).Contents (Elt F)) = val_main_v61 (F := F) x0 x1)
    (h_v77 : (W (Proc.devRef .tc main_v77) : (⟨S1048576, .f32⟩ : BufTy).Contents (Elt F)) = val_main_v77 (F := F) x0 x1)
    (h_v95 : (W (Proc.devRef .tc main_v95) : (⟨S1048576, .f32⟩ : BufTy).Contents (Elt F)) = val_main_v95 (F := F) x0 x1)
    : (after s1l W (Proc.devRef .tc main_v110) : (⟨S1048576, .f32⟩ : BufTy).Contents (Elt F)) = val_main_v110 (F := F) x0 x1 := by
  simp only [s1l, s1, ops, List.take_succ_cons, List.take_zero, List.drop_succ_cons, List.drop_zero]
  after_results_simp
  rw [h_v29, h_v31, h_v45, h_v61, h_v77, h_v95]
  rfl

/-- From a valuation holding the two pixel-coordinate arrays of a state array `x0`, the stretch leaves the sample of the
    table the valuation holds. -/
theorem S1_v110 (W : Valuation τ sig (Elt F)) (x0 : (⟨S8192x128x4, .f32⟩ : BufTy).Contents (Elt F))
    (h12 : (W (Proc.devRef .tc main_v12) : (⟨S1048576, .f32⟩ : BufTy).Contents (Elt F)) = val_main_v12 (F := F) x0)
    (h21 : (W (Proc.devRef .tc main_v21) : (⟨S1048576, .f32⟩ : BufTy).Contents (Elt F)) = val_main_v21 (F := F) x0) :
    (after s1 W (Proc.devRef .tc main_v110) : (⟨S1048576, .f32⟩ : BufTy).Contents (Elt F)) = val_main_v110 (F := F) x0 (W (Proc.devRef .tc main_arg1)) := by
  have a_v27 := S1a_v27 W x0 (W (Proc.devRef .tc main_arg1)) h21
  have a_v24 := S1a_v24 W x0 (W (Proc.devRef .tc main_arg1)) h12
  have a_v29 := S1a_v29 W x0 (W (Proc.devRef .tc main_arg1)) h12
  have a_v31 := S1a_v31 W x0 (W (Proc.devRef .tc main_arg1)) h21
  have a_arg1 := (S1a_keeps_arg1 W).trans (rfl : (W (Proc.devRef .tc main_arg1) : (⟨S2048x2048, .f32⟩ : BufTy).Contents (Elt F)) = W (Proc.devRef .tc main_arg1))
  have g1p_v42 := S1g1p_v42 (after s1a W) x0 (W (Proc.devRef .tc main_arg1)) a_v27
  have g1p_v43 := S1g1p_v43 (after s1a W) x0 (W (Proc.devRef .tc main_arg1)) a_v24
  have g1p_arg1 := (S1g1p_keeps_arg1 (after s1a W)).trans a_arg1
  have g1p_v24 := (S1g1p_keeps_v24 (after s1a W)).trans a_v24
  have g1p_v27 := (S1g1p_keeps_v27 (after s1a W)).trans a_v27
  have g1p_v29 := (S1g1p_keeps_v29 (after s1a W)).trans a_v29
  have g1p_v31 := (S1g1p_keeps_v31 (after s1a W)).trans a_v31
  have g1c_v45 := S1g1c_v45 (after s1g1p (after s1a W)) x0 (W (Proc.devRef .tc main_arg1)) g1p_arg1 g1p_v42 g1p_v43
  have g1c_v24 := (S1g1c_keeps_v24 (after s1g1p (after s1a W))).trans g1p_v24
  have g1c_v27 := (S1g1c_keeps_v27 (after s1g1p (after s1a W))).trans g1p_v27
  have g1c_arg1 := (S1g1c_keeps_arg1 (after s1g1p (after s1a W))).trans g1p_arg1
  have g1c_v29 := (S1g1c_keeps_v29 (after s1g1p (after s1a W))).trans g1p_v29
  have g1c_v31 := (S1g1c_keeps_v31 (after s1g1p (after s1a W))).trans g1p_v31
  have g2p_v58 := S1g2p_v58 (after s1g1c (after s1g1p (after s1a W))) x0 (W (Proc.devRef .tc main_arg1)) g1c_v27
  have g2p_v59 := S1g2p_v59 (after s1g1c (after s1g1p (after s1a W))) x0 (W (Proc.devRef .tc main_arg1)) g1c_v24
  have g2p_arg1 := (S1g2p_keeps_arg1 (after s1g1c (after s1g1p (after s1a W)))).trans g1c_arg1
  have g2p_v27 := (S1g2p_keeps_v27 (after s1g1c (after s1g1p (after s1a W)))).trans g1c_v27
  have g2p_v24 := (S1g2p_keeps_v24 (after s1g1c (after s1g1p (after s1a W)))).trans g1c_v24
  have g2p_v29 := (S1g2p_keeps_v29 (after s1g1c (after s1g1p (after s1a W)))).trans g1c_v29
  have g2p_v45 := (S1g2p_keeps_v45 (after s1g1c (after s1g1p (after s1a W)))).trans g1c_v45
  have g2p_v31 := (S1g2p_keeps_v31 (after s1g1c (after s1g1p (after s1a W)))).trans g1c_v31
  have g2c_v61 := S1g2c_v61 (after s1g2p (after s1g1c (after s1g1p (after s1a W)))) x0 (W (Proc.devRef .tc main_arg1)) g2p_arg1 g2p_v58 g2p_v59
  have g2c_v27 := (S1g2c_keeps_v27 (after s1g2p (after s1g1c (after s1g1p (after s1a W))))).trans g2p_v27
  have g2c_v24 := (S1g2c_keeps_v24 (after s1g2p (after s1g1c (after s1g1p (after s1a W))))).trans g2p_v24
  have g2c_arg1 := (S1g2c_keeps_arg1 (after s1g2p (after s1g1c (after s1g1p (after s1a W))))).trans g2p_arg1
  have g2c_v29 := (S1g2c_keeps_v29 (after s1g2p (after s1g1c (after s1g1p (after s1a W))))).trans g2p_v29
  have g2c_v45 := (S1g2c_keeps_v45 (after s1g2p (after s1g1c (after s1g1p (after s1a W))))).trans g2p_v45
  have g2c_v31 := (S1g2c_keeps_v31 (after s1g2p (after s1g1c (after s1g1p (after s1a W))))).trans g2p_v31
  have g3p_v74 := S1g3p_v74 (after s1g2c (after s1g2p (after s1g1c (after s1g1p (after s1a W))))) x0 (W (Proc.devRef .tc main_arg1)) g2c_v27
  have g3p_v75 := S1g3p_v75 (after s1g2c (after s1g2p (after s1g1c (after s1g1p (after s1a W))))) x0 (W (Proc.devRef .tc main_arg1)) g2c_v24
  have g3p_arg1 := (S1g3p_keeps_arg1 (after s1g2c (after s1g2p (after s1g1c (after s1g1p (after s1a W)))))).trans g2c_arg1
  have g3p_v27 := (S1g3p_keeps_v27 (after s1g2c (after s1g2p (after s1g1c (after s1g1p (after s1a W)))))).trans g2c_v27
  have g3p_v24 := (S1g3p_keeps_v24 (after s1g2c (after s1g2p (after s1g1c (after s1g1p (after s1a W)))))).trans g2c_v24
  have g3p_v29 := (S1g3p_keeps_v29 (after s1g2c (after s1g2p (after s1g1c (after s1g1p (after s1a W)))))).trans g2c_v29
  have g3p_v45 := (S1g3p_keeps_v45 (after s1g2c (after s1g2p (after s1g1c (after s1g1p (after s1a W)))))).trans g2c_v45
  have g3p_v61 := (S1g3p_keeps_v61 (after s1g2c (after s1g2p (after s1g1c (after s1g1p (after s1a W)))))).trans g2c_v61
  have g3p_v31 := (S1g3p_keeps_v31 (after s1g2c (after s1g2p (after s1g1c (after s1g1p (after s1a W)))))).trans g2c_v31
  have g3c_v77 := S1g3c_v77 (after s1g3p (after s1g2c (after s1g2p (after s1g1c (after s1g1p (after s1a W)))))) x0 (W (Proc.devRef .tc main_arg1)) g3p_arg1 g3p_v74 g3p_v75
  have g3c_v27 := (S1g3c_keeps_v27 (after s1g3p (after s1g2c (after s1g2p (after s1g1c (after s1g1p (after s1a W))))))).trans g3p_v27
  have g3c_v24 := (S1g3c_keeps_v24 (after s1g3p (after s1g2c (after s1g2p (after s1g1c (after s1g1p (after s1a W))))))).trans g3p_v24
  have g3c_arg1 := (S1g3c_keeps_arg1 (after s1g3p (after s1g2c (after s1g2p (after s1g1c (after s1g1p (after s1a W))))))).trans g3p_arg1
  have g3c_v29 := (S1g3c_keeps_v29 (after s1g3p (after s1g2c (after s1g2p (after s1g1c (after s1g1p (after s1a W))))))).trans g3p_v29
  have g3c_v45 := (S1g3c_keeps_v45 (after s1g3p (after s1g2c (after s1g2p (after s1g1c (after s1g1p (after s1a W))))))).trans g3p_v45
  have g3c_v61 := (S1g3c_keeps_v61 (after s1g3p (after s1g2c (after s1g2p (after s1g1c (after s1g1p (after s1a W))))))).trans g3p_v61
  have g3c_v31 := (S1g3c_keeps_v31 (after s1g3p (after s1g2c (after s1g2p (after s1g1c (after s1g1p (after s1a W))))))).trans g3p_v31
  have g4p_v92 := S1g4p_v92 (after s1g3c (after s1g3p (after s1g2c (after s1g2p (after s1g1c (after s1g1p (after s1a W))))))) x0 (W (Proc.devRef .tc main_arg1)) g3c_v27
  have g4p_v93 := S1g4p_v93 (after s1g3c (after s1g3p (after s1g2c (after s1g2p (after s1g1c (after s1g1p (after s1a W))))))) x0 (W (Proc.devRef .tc main_arg1)) g3c_v24
  have g4p_arg1 := (S1g4p_keeps_arg1 (after s1g3c (after s1g3p (after s1g2c (after s1g2p (after s1g1c (after s1g1p (after s1a W)))))))).trans g3c_arg1
  have g4p_v29 := (S1g4p_keeps_v29 (after s1g3c (after s1g3p (after s1g2c (after s1g2p (after s1g1c (after s1g1p (after s1a W)))))))).trans g3c_v29
  have g4p_v45 := (S1g4p_keeps_v45 (after s1g3c (after s1g3p (after s1g2c (after s1g2p (after s1g1c (after s1g1p (after s1a W)))))))).trans g3c_v45
  have g4p_v61 := (S1g4p_keeps_v61 (after s1g3c (after s1g3p (after s1g2c (after s1g2p (after s1g1c (after s1g1p (after s1a W)))))))).trans g3c_v61
  have g4p_v77 := (S1g4p_keeps_v77 (after s1g3c (after s1g3p (after s1g2c (after s1g2p (after s1g1c (after s1g1p (after s1a W)))))))).trans g3c_v77
  have g4p_v31 := (S1g4p_keeps_v31 (after s1g3c (after s1g3p (after s1g2c (after s1g2p (after s1g1c (after s1g1p (after s1a W)))))))).trans g3c_v31
  have g4c_v95 := S1g4c_v95 (after s1g4p (after s1g3c (after s1g3p (after s1g2c (after s1g2p (after s1g1c (after s1g1p (after s1a W)))))))) x0 (W (Proc.devRef .tc main_arg1)) g4p_arg1 g4p_v92 g4p_v93
  have g4c_v29 := (S1g4c_keeps_v29 (after s1g4p (after s1g3c (after s1g3p (after s1g2c (after s1g2p (after s1g1c (after s1g1p (after s1a W))))))))).trans g4p_v29
  have g4c_v45 := (S1g4c_keeps_v45 (after s1g4p (after s1g3c (after s1g3p (after s1g2c (after s1g2p (after s1g1c (after s1g1p (after s1a W))))))))).trans g4p_v45
  have g4c_v61 := (S1g4c_keeps_v61 (after s1g4p (after s1g3c (after s1g3p (after s1g2c (after s1g2p (after s1g1c (after s1g1p (after s1a W))))))))).trans g4p_v61
  have g4c_v77 := (S1g4c_keeps_v77 (after s1g4p (after s1g3c (after s1g3p (after s1g2c (after s1g2p (after s1g1c (after s1g1p (after s1a W))))))))).trans g4p_v77
  have g4c_v31 := (S1g4c_keeps_v31 (after s1g4p (after s1g3c (after s1g3p (after s1g2c (after s1g2p (after s1g1c (after s1g1p (after s1a W))))))))).trans g4p_v31
  have l_v110 := S1l_v110 (after s1g4c (after s1g4p (after s1g3c (after s1g3p (after s1g2c (after s1g2p (after s1g1c (after s1g1p (after s1a W))))))))) x0 (W (Proc.devRef .tc main_arg1)) g4c_v29 g4c_v31 g4c_v45 g4c_v61 g4c_v77 g4c_v95
  exact (congrFun (cut1 W) (Proc.devRef .tc main_v110)).trans l_v110

end Cert.ReferenceIdeal.HandRun

end
-- ==== Proof.RefKeep1.lean ====
/-
  The stretch that samples the first table writes none of the buffers the later stretches read, nor an argument.
-/
import proofs.«176869_j84842783965226_2_alg».proof.Proof.RefCut

set_option maxRecDepth 16384

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.LibStages

variable {F : FTy → Type} [FloatOps F]

set_option maxHeartbeats 4000000 in
theorem S1_keeps_v3 (W : Valuation τ sig (Elt F)) : after s1 W (Proc.devRef .tc main_v3) = W (Proc.devRef .tc main_v3) := by
  keeps_stretch [s1, ops]
set_option maxHeartbeats 4000000 in
theorem S1_keeps_v12 (W : Valuation τ sig (Elt F)) : after s1 W (Proc.devRef .tc main_v12) = W (Proc.devRef .tc main_v12) := by
  keeps_stretch [s1, ops]
set_option maxHeartbeats 4000000 in
theorem S1_keeps_v21 (W : Valuation τ sig (Elt F)) : after s1 W (Proc.devRef .tc main_v21) = W (Proc.devRef .tc main_v21) := by
  keeps_stretch [s1, ops]
set_option maxHeartbeats 4000000 in
theorem S1_keeps_arg0 (W : Valuation τ sig (Elt F)) : after s1 W (Proc.devRef .tc main_arg0) = W (Proc.devRef .tc main_arg0) := by
  keeps_stretch [s1, ops]
set_option maxHeartbeats 4000000 in
theorem S1_keeps_arg1 (W : Valuation τ sig (Elt F)) : after s1 W (Proc.devRef .tc main_arg1) = W (Proc.devRef .tc main_arg1) := by
  keeps_stretch [s1, ops]
set_option maxHeartbeats 4000000 in
theorem S1_keeps_arg2 (W : Valuation τ sig (Elt F)) : after s1 W (Proc.devRef .tc main_arg2) = W (Proc.devRef .tc main_arg2) := by
  keeps_stretch [s1, ops]
set_option maxHeartbeats 4000000 in
theorem S1_keeps_arg3 (W : Valuation τ sig (Elt F)) : after s1 W (Proc.devRef .tc main_arg3) = W (Proc.devRef .tc main_arg3) := by
  keeps_stretch [s1, ops]

end Cert.ReferenceIdeal.HandRun

end
-- ==== Proof.RefSub2.lean ====
/-
  The stretch that samples the second table, read in ten pieces: the two cells and the two fractions of the pixel
  coordinates; for each of the four corners of the cell, first its two wrapped index columns and then their join and the
  table lookup; and the interpolation of the four looked-up values by the two fractions. Each piece is read off over an arbitrary valuation
  that holds the piece's inputs; the buffers a later piece reads are not written meanwhile.
-/
import proofs.«176869_j84842783965226_2_alg».proof.Proof.RefCut
import proofs.«176869_j84842783965226_2_alg».proof.Proof.RefReadP

set_option maxRecDepth 16384

noncomputable section

namespace Cert.ReferenceIdeal.HandRun

open Cert.ReferenceIdeal Cert.ReferenceIdeal.Gen Cert.ReferenceIdeal.Read Idealize.ShloMosaic Idealize.ShloMosaic.TcCoe Idealize.SL.Sem Idealize.ShloMosaic.StableHlo
open Cert.LibStages

variable {F : FTy → Type} [FloatOps F]

/-- The ten pieces of the stretch. -/
abbrev s2a : List (HloOp τ sig (Elt F)) := (s2 (F := F)).take 24
abbrev s2g1p : List (HloOp τ sig (Elt F)) := ((s2 (F := F)).drop 24).take 16
abbrev s2g1c : List (HloOp τ sig (Elt F)) := (((s2 (F := F)).drop 24).drop 16).take 2
abbrev s2g2p : List (HloOp τ sig (Elt F)) := ((((s2 (F := F)).drop 24).drop 16).drop 2).take 19
abbrev s2g2c : List (HloOp τ sig (Elt F)) := (((((s2 (F := F)).drop 24).drop 16).drop 2).drop 19).take 2
abbrev s2g3p : List (HloOp τ sig (Elt F)) := ((((((s2 (F := F)).drop 24).drop 16).drop 2).drop 19).drop 2).take 19
abbrev s2g3c : List (HloOp τ sig (Elt F)) := (((((((s2 (F := F)).drop 24).drop 16).drop 2).drop 19).drop 2).drop 19).take 2
abbrev s2g4p : List (HloOp τ sig (Elt F)) := ((((((((s2 (F := F)).drop 24).drop 16).drop 2).drop 19).drop 2).drop 19).drop 2).take 22
abbrev s2g4c : List (HloOp τ sig (Elt F)) := (((((((((s2 (F := F)).drop 24).drop 16).drop 2).drop 19).drop 2).drop 19).drop 2).drop 22).take 2
abbrev s2l : List (HloOp τ sig (Elt F)) := (((((((((s2 (F := F)).drop 24).drop 16).drop 2).drop 19).drop 2).drop 19).drop 2).drop 22).drop 2

/-- The stretch is its ten pieces one after the other. -/
theorem cut2 (W : Valuation τ sig (Elt F)) :
    after (s2 (F := F)) W = after s2l (after s2g4c (after s2g4p (after s2g3c (after s2g3p (after s2g2c (after s2g2p (after s2g1c (after s2g1p (after s2a W))))))))) :=
  (after_take_drop 24 (s2 (F := F)) W).trans
    ((after_take_drop 16 ((s2 (F := F)).drop 24) _).trans
    ((after_take_drop 2 (((s2 (F := F)).drop 24).drop 16) _).trans
    ((after_take_drop 19 ((((s2 (F := F)).drop 24).drop 16).drop 2) _).trans
    ((after_take_drop 2 (((((s2 (F := F)).drop 24).drop 16).drop 2).drop 19) _).trans
    ((after_take_drop 19 ((((((s2 (F := F)).drop 24).drop 16).drop 2).drop 19).drop 2) _).trans
    ((after_take_drop 2 (((((((s2 (F := F)).drop 24).drop 16).drop 2).drop 19).drop 2).drop 19) _).trans
    ((after_take_drop 22 ((((((((s2 (F := F)).drop 24).drop 16).drop 2).drop 19).drop 2).drop 19).drop 2) _).trans
    ((after_take_drop 2 (((((((((s2 (F := F)).drop 24).drop 16).drop 2).drop 19).drop 2).drop 19).drop 2).drop 22) _)))))))))

set_option maxHeartbeats 4000000 in
theorem S2a_v116 (W : Valuation τ sig (Elt F)) (x0 : (⟨S8192x128x4, .f32⟩ : BufTy).Contents (Elt F)) (x2 : (⟨S2048x2048, .f32⟩ : BufTy).Contents (Elt F))
    (h_v21 : (W (Proc.devRef .tc main_v21) : (⟨S1048576, .f32⟩ : BufTy).Contents (Elt F)) = val_main_v21 (F := F) x0)
    : (after s2a W (Proc.devRef .tc main_v116) : (⟨S1048576, .i32⟩ : BufTy).Contents (Elt F)) = val_main_v116 (F := F) x0 := by
  simp only [s2a, s2, ops, List.take_succ_cons, List.take_zero, List.drop_succ_cons, List.drop_zero]
  after_results_simp
  rw [h_v21]
  rfl
set_option maxHeartbeats 4000000 in
theorem S2a_v113 (W : Valuation τ sig (Elt F)) (x0 : (⟨S8192x128x4, .f32⟩ : BufTy).Contents (Elt F)) (x2 : (⟨S2048x2048, .f32⟩ : BufTy).Contents (Elt F))
    (h_v12 : (W (Proc.devRef .tc main_v12) : (⟨S1048576, .f32⟩ : BufTy).Contents (Elt F)) = val_main_v12 (F := F) x0)
    : (after s2a W (Proc.devRef .tc main_v113) : (⟨S1048576, .i32⟩ : BufTy).Contents (Elt F)) = val_main_v113 (F := F) x0 := by
  simp only [s2a, s2, ops, List.take_succ_cons, List.take_zero, List.drop_succ_cons, List.drop_zero]
  after_results_simp
  rw [h_v12]
  rfl
set_option maxHeartbeats 4000000 in
theorem S2a_v118 (W : Valuation τ sig (Elt F)) (x0 : (⟨S8192x128x4, .f32⟩ : BufTy).Contents (Elt F)) (x2 : (⟨S2048x2048, .f32⟩ : BufTy).Contents (Elt F))
    (h_v12 : (W (Proc.devRef .tc main_v12) : (⟨S1048576, .f32⟩ : BufTy).Contents (Elt F)) = val_main_v12 (F := F) x0)
    : (after s2a W (Proc.devRef .tc main_v118) : (⟨S1048576, .f32⟩ : BufTy).Contents (Elt F)) = val_main_v118 (F := F) x0 := by
  simp only [s2a, s2, ops, List.take_succ_cons, List.take_zero, List.drop_succ_cons, List.drop_zero]
  after_results_simp
  rw [h_v12]
  rfl
set_option maxHeartbeats 4000000 in
theorem S2a_v120 (W : Valuation τ sig (Elt F)) (x0 : (⟨S8192x128x4, .f32⟩ : BufTy).Contents (Elt F)) (x2 : (⟨S2048x2048, .f32⟩ : BufTy).Contents (Elt F))
    (h_v21 : (W (Proc.devRef .tc main_v21) : (⟨S1048576, .f32⟩ : BufTy).Contents (Elt F)) = val_main_v21 (F := F) x0)
    : (after s2a W (Proc.devRef .tc main_v120) : (⟨S1048576, .f32⟩ : BufTy).Contents (Elt F)) = val_main_v120 (F := F) x0 := by
  simp only [s2a, s2, ops, List.take_succ_cons, List.take_zero, List.drop_succ_cons, List.drop_zero]
  after_results_simp
  rw [h_v21]
  rfl
set_option maxHeartbeats 4000000 in
theorem S2a_keeps_arg2 (W : Valuation τ sig (Elt F)) : after s2a W (Proc.devRef .tc main_arg2) = W (Proc.devRef .tc main_arg2) := by
  keeps_stretch [s2a, s2, ops]
set_option maxHeartbeats 4000000 in
theorem S2g1p_v131 (W : Valuation τ sig (Elt F)) (x0 : (⟨S8192x128x4, .f32⟩ : BufTy).Contents (Elt F)) (x2 : (⟨S2048x2048, .f32⟩ : BufTy).Contents (Elt F))
    (h_v116 : (W (Proc.devRef .tc main_v116) : (⟨S1048576, .i32⟩ : BufTy).Contents (Elt F)) = val_main_v116 (F := F) x0)
    : (after s2g1p W (Proc.devRef .tc main_v131) : (⟨S1048576x1, .i32⟩ : BufTy).Contents (Elt F)) = val_main_v131 (F := F) x0 := by
  simp only [s2g1p, s2, ops, List.take_succ_cons, List.take_zero, List.drop_succ_cons, List.drop_zero]
  after_results_simp
  rw [h_v116]
  rfl
set_option maxHeartbeats 4000000 in
theorem S2g1p_v132 (W : Valuation τ sig (Elt F)) (x0 : (⟨S8192x128x4, .f32⟩ : BufTy).Contents (Elt F)) (x2 : (⟨S2048x2048, .f32⟩ : BufTy).Contents (Elt F))
    (h_v113 : (W (Proc.devRef .tc main_v113) : (⟨S1048576, .i32⟩ : BufTy).Contents (Elt F)) = val_main_v113 (F := F) x0)
    : (after s2g1p W (Proc.devRef .tc main_v132) : (⟨S1048576x1, .i32⟩ : BufTy).Contents (Elt F)) = val_main_v132 (F := F) x0 := by
  simp only [s2g1p, s2, ops, List.take_succ_cons, List.take_zero, List.drop_succ_cons, List.drop_zero]
  after_results_simp
  rw [h_v113]
  rfl
set_option maxHeartbeats 4000000 in
theorem S2g1p_keeps_arg2 (W : Valuation τ sig (Elt F)) : after s2g1p W (Proc.devRef .tc main_arg2) = W (Proc.devRef .tc main_arg2) := by
  keeps_stretch [s2g1p, s2, ops]
set_option maxHeartbeats 4000000 in
theorem S2g1p_keeps_v113 (W : Valuation τ sig (Elt F)) : after s2g1p W (Proc.devRef .tc main_v113) = W (Proc.devRef .tc main_v113) := by
  keeps_stretch [s2g1p, s2, ops]
set_option maxHeartbeats 4000000 in
theorem S2g1p_keeps_v116 (W : Valuation τ sig (Elt F)) : after s2g1p W (Proc.devRef .tc main_v116) = W (Proc.devRef .tc main_v116) := by
  keeps_stretch [s2g1p, s2, ops]
set_option maxHeartbeats 4000000 in
theorem S2g1p_keeps_v118 (W : Valuation τ sig (Elt F)) : after s2g1p W (Proc.devRef .tc main_v118) = W (Proc.devRef .tc main_v118) := by
  keeps_stretch [s2g1p, s2, ops]
set_option maxHeartbeats 4000000 in
theorem S2g1p_keeps_v120 (W : Valuation τ sig (Elt F)) : after s2g1p W (Proc.devRef .tc main_v120) = W (Proc.devRef .tc main_v120) := by
  keeps_stretch [s2g1p, s2, ops]
set_option maxHeartbeats 4000000 in
theorem S2g1c_v134 (W : Valuation τ sig (Elt F)) (x0 : (⟨S8192x128x4, .f32⟩ : BufTy).Contents (Elt F)) (x2 : (⟨S2048x2048, .f32⟩ : BufTy).Contents (Elt F))
    (h_arg2 : (W (Proc.devRef .tc main_arg2) : (⟨S2048x2048, .f32⟩ : BufTy).Contents (Elt F)) = x2)
    (h_v131 : (W (Proc.devRef .tc main_v131) : (⟨S1048576x1, .i32⟩ : BufTy).Contents (Elt F)) = val_main_v131 (F := F) x0)
    (h_v132 : (W (Proc.devRef .tc main_v132) : (⟨S1048576x1, .i32⟩ : BufTy).Contents (Elt F)) = val_main_v132 (F := F) x0)
    : (after s2g1c W (Proc.devRef .tc main_v134) : (⟨S1048576, .f32⟩ : BufTy).Contents (Elt F)) = val_main_v134 (F := F) x0 x2 := by
  simp only [s2g1c, s2, ops, List.take_succ_cons, List.take_zero, List.drop_succ_cons, List.drop_zero]
  after_results_simp
  rw [h_arg2, h_v131, h_v132]
  rfl
set_option maxHeartbeats 4000000 in
theorem S2g1c_keeps_v113 (W : Valuation τ sig (Elt F)) : after s2g1c W (Proc.devRef .tc main_v113) = W (Proc.devRef .tc main_v113) := by
  keeps_stretch [s2g1c, s2, ops]
set_option maxHeartbeats 4000000 in
theorem S2g1c_keeps_v116 (W : Valuation τ sig (Elt F)) : after s2g1c W (Proc.devRef .tc main_v116) = W (Proc.devRef .tc main_v116) := by
  keeps_stretch [s2g1c, s2, ops]
set_option maxHeartbeats 4000000 in
theorem S2g1c_keeps_arg2 (W : Valuation τ sig (Elt F)) : after s2g1c W (Proc.devRef .tc main_arg2) = W (Proc.devRef .tc main_arg2) := by
  keeps_stretch [s2g1c, s2, ops]
set_option maxHeartbeats 4000000 in
theorem S2g1c_keeps_v118 (W : Valuation τ sig (Elt F)) : after s2g1c W (Proc.devRef .tc main_v118) = W (Proc.devRef .tc main_v118) := by
  keeps_stretch [s2g1c, s2, ops]
set_option maxHeartbeats 4000000 in
theorem S2g1c_keeps_v120 (W : Valuation τ sig (Elt F)) : after s2g1c W (Proc.devRef .tc main_v120) = W (Proc.devRef .tc main_v120) := by
  keeps_stretch [s2g1c, s2, ops]
set_option maxHeartbeats 4000000 in
theorem S2g2p_v147 (W : Valuation τ sig (Elt F)) (x0 : (⟨S8192x128x4, .f32⟩ : BufTy).Contents (Elt F)) (x2 : (⟨S2048x2048, .f32⟩ : BufTy).Contents (Elt F))
    (h_v116 : (W (Proc.devRef .tc main_v116) : (⟨S1048576, .i32⟩ : BufTy).Contents (Elt F)) = val_main_v116 (F := F) x0)
    : (after s2g2p W (Proc.devRef .tc main_v147) : (⟨S1048576x1, .i32⟩ : BufTy).Contents (Elt F)) = val_main_v147 (F := F) x0 := by
  simp only [s2g2p, s2, ops, List.take_succ_cons, List.take_zero, List.drop_succ_cons, List.drop_zero]
  after_results_simp
  rw [h_v116]
  rfl
set_option maxHeartbeats 4000000 in
theorem S2g2p_v148 (W : Valuation τ sig (Elt F)) (x0 : (⟨S8192x128x4, .f32⟩ : BufTy).Contents (Elt F)) (x2 : (⟨S2048x2048, .f32⟩ : BufTy).Contents (Elt F))
    (h_v113 : (W (Proc.devRef .tc main_v113) : (⟨S1048576, .i32⟩ : BufTy).Contents (Elt F)) = val_main_v113 (F := F) x0)
    : (after s2g2p W (Proc.devRef .tc main_v148) : (⟨S1048576x1, .i32⟩ : BufTy).Contents (Elt F)) = val_main_v148 (F := F) x0 := by
  simp only [s2g2p, s2, ops, List.take_succ_cons, List.take_zero, List.drop_succ_cons, List.drop_zero]
  after_results_simp
  rw [h_v113]
  rfl
set_option maxHeartbeats 4000000 in
theorem S2g2p_keeps_arg2 (W : Valuation τ sig (Elt F)) : after s2g2p W (Proc.devRef .tc main_arg2) = W (Proc.devRef .tc main_arg2) := by
  keeps_stretch [s2g2p, s2, ops]
set_option maxHeartbeats 4000000 in
theorem S2g2p_keeps_v116 (W : Valuation τ sig (Elt F)) : after s2g2p W (Proc.devRef .tc main_v116) = W (Proc.devRef .tc main_v116) := by
  keeps_stretch [s2g2p, s2, ops]
set_option maxHeartbeats 4000000 in
theorem S2g2p_keeps_v113 (W : Valuation τ sig (Elt F)) : after s2g2p W (Proc.devRef .tc main_v113) = W (Proc.devRef .tc main_v113) := by
  keeps_stretch [s2g2p, s2, ops]
set_option maxHeartbeats 4000000 in
theorem S2g2p_keeps_v118 (W : Valuation τ sig (Elt F)) : after s2g2p W (Proc.devRef .tc main_v118) = W (Proc.devRef .tc main_v118) := by
  keeps_stretch [s2g2p, s2, ops]
set_option maxHeartbeats 4000000 in
theorem S2g2p_keeps_v134 (W : Valuation τ sig (Elt F)) : after s2g2p W (Proc.devRef .tc main_v134) = W (Proc.devRef .tc main_v134) := by
  keeps_stretch [s2g2p, s2, ops]
set_option maxHeartbeats 4000000 in
theorem S2g2p_keeps_v120 (W : Valuation τ sig (Elt F)) : after s2g2p W (Proc.devRef .tc main_v120) = W (Proc.devRef .tc main_v120) := by
  keeps_stretch [s2g2p, s2, ops]
set_option maxHeartbeats 4000000 in
theorem S2g2c_v150 (W : Valuation τ sig (Elt F)) (x0 : (⟨S8192x128x4, .f32⟩ : BufTy).Contents (Elt F)) (x2 : (⟨S2048x2048, .f32⟩ : BufTy).Contents (Elt F))
    (h_arg2 : (W (Proc.devRef .tc main_arg2) : (⟨S2048x2048, .f32⟩ : BufTy).Contents (Elt F)) = x2)
    (h_v147 : (W (Proc.devRef .tc main_v147) : (⟨S1048576x1, .i32⟩ : BufTy).Contents (Elt F)) = val_main_v147 (F := F) x0)
    (h_v148 : (W (Proc.devRef .tc main_v148) : (⟨S1048576x1, .i32⟩ : BufTy).Contents (Elt F)) = val_main_v148 (F := F) x0)
    : (after s2g2c W (Proc.devRef .tc main_v150) : (⟨S1048576, .f32⟩ : BufTy).Contents (Elt F)) = val_main_v150 (F := F) x0 x2 := by
  simp only [s2g2c, s2, ops, List.take_succ_cons, List.take_zero, List.drop_succ_cons, List.drop_zero]
  after_results_simp
  rw [h_arg2, h_v147, h_v148]
  rfl
set_option maxHeartbeats 4000000 in
theorem S2g2c_keeps_v116 (W : Valuation τ sig (Elt F)) : after s2g2c W (Proc.devRef .tc main_v116) = W (Proc.devRef .tc main_v116) := by
  keeps_stretch [s2g2c, s2, ops]
set_option maxHeartbeats 4000000 in
theorem S2g2c_keeps_v113 (W : Valuation τ sig (Elt F)) : after s2g2c W (Proc.devRef .tc main_v113) = W (Proc.devRef .tc main_v113) := by
  keeps_stretch [s2g2c, s2, ops]
set_option maxHeartbeats 4000000 in
theorem S2g2c_keeps_arg2 (W : Valuation τ sig (Elt F)) : after s2g2c W (Proc.devRef .tc main_arg2) = W (Proc.devRef .tc main_arg2) := by
  keeps_stretch [s2g2c, s2, ops]
set_option maxHeartbeats 4000000 in
theorem S2g2c_keeps_v118 (W : Valuation τ sig (Elt F)) : after s2g2c W (Proc.devRef .tc main_v118) = W (Proc.devRef .tc main_v118) := by
  keeps_stretch [s2g2c, s2, ops]
set_option maxHeartbeats 4000000 in
theorem S2g2c_keeps_v134 (W : Valuation τ sig (Elt F)) : after s2g2c W (Proc.devRef .tc main_v134) = W (Proc.devRef .tc main_v134) := by
  keeps_stretch [s2g2c, s2, ops]
set_option maxHeartbeats 4000000 in
theorem S2g2c_keeps_v120 (W : Valuation τ sig (Elt F)) : after s2g2c W (Proc.devRef .tc main_v120) = W (Proc.devRef .tc main_v120) := by
  keeps_stretch [s2g2c, s2, ops]
set_option maxHeartbeats 4000000 in
theorem S2g3p_v163 (W : Valuation τ sig (Elt F)) (x0 : (⟨S8192x128x4, .f32⟩ : BufTy).Contents (Elt F)) (x2 : (⟨S2048x2048, .f32⟩ : BufTy).Contents (Elt F))
    (h_v116 : (W (Proc.devRef .tc main_v116) : (⟨S1048576, .i32⟩ : BufTy).Contents (Elt F)) = val_main_v116 (F := F) x0)
    : (after s2g3p W (Proc.devRef .tc main_v163) : (⟨S1048576x1, .i32⟩ : BufTy).Contents (Elt F)) = val_main_v163 (F := F) x0 := by
  simp only [s2g3p, s2, ops, List.take_succ_cons, List.take_zero, List.drop_succ_cons, List.drop_zero]
  after_results_simp
  rw [h_v116]
  rfl
set_option maxHeartbeats 4000000 in
theorem S2g3p_v164 (W : Valuation τ sig (Elt F)) (x0 : (⟨S8192x128x4, .f32⟩ : BufTy).Contents (Elt F)) (x2 : (⟨S2048x2048, .f32⟩ : BufTy).Contents (Elt F))
    (h_v113 : (W (Proc.devRef .tc main_v113) : (⟨S1048576, .i32⟩ : BufTy).Contents (Elt F)) = val_main_v113 (F := F) x0)
    : (after s2g3p W (Proc.devRef .tc main_v164) : (⟨S1048576x1, .i32⟩ : BufTy).Contents (Elt F)) = val_main_v164 (F := F) x0 := by
  simp only [s2g3p, s2, ops, List.take_succ_cons, List.take_zero, List.drop_succ_cons, List.drop_zero]
  after_results_simp
  rw [h_v113]
  rfl
set_option maxHeartbeats 4000000 in
theorem S2g3p_keeps_arg2 (W : Valuation τ sig (Elt F)) : after s2g3p W (Proc.devRef .tc main_arg2) = W (Proc.devRef .tc main_arg2) := by
  keeps_stretch [s2g3p, s2, ops]
set_option maxHeartbeats 4000000 in
theorem S2g3p_keeps_v116 (W : Valuation τ sig (Elt F)) : after s2g3p W (Proc.devRef .tc main_v116) = W (Proc.devRef .tc main_v116) := by
  keeps_stretch [s2g3p, s2, ops]
set_option maxHeartbeats 4000000 in
theorem S2g3p_keeps_v113 (W : Valuation τ sig (Elt F)) : after s2g3p W (Proc.devRef .tc main_v113) = W (Proc.devRef .tc main_v113) := by
  keeps_stretch [s2g3p, s2, ops]
set_option maxHeartbeats 4000000 in
theorem S2g3p_keeps_v118 (W : Valuation τ sig (Elt F)) : after s2g3p W (Proc.devRef .tc main_v118) = W (Proc.devRef .tc main_v118) := by
  keeps_stretch [s2g3p, s2, ops]
set_option maxHeartbeats 4000000 in
theorem S2g3p_keeps_v134 (W : Valuation τ sig (Elt F)) : after s2g3p W (Proc.devRef .tc main_v134) = W (Proc.devRef .tc main_v134) := by
  keeps_stretch [s2g3p, s2, ops]
set_option maxHeartbeats 4000000 in
theorem S2g3p_keeps_v150 (W : Valuation τ sig (Elt F)) : after s2g3p W (Proc.devRef .tc main_v150) = W (Proc.devRef .tc main_v150) := by
  keeps_stretch [s2g3p, s2, ops]
set_option maxHeartbeats 4000000 in
theorem S2g3p_keeps_v120 (W : Valuation τ sig (Elt F)) : after s2g3p W (Proc.devRef .tc main_v120) = W (Proc.devRef .tc main_v120) := by
  keeps_stretch [s2g3p, s2, ops]
set_option maxHeartbeats 4000000 in
theorem S2g3c_v166 (W : Valuation τ sig (Elt F)) (x0 : (⟨S8192x128x4, .f32⟩ : BufTy).Contents (Elt F)) (x2 : (⟨S2048x2048, .f32⟩ : BufTy).Contents (Elt F))
    (h_arg2 : (W (Proc.devRef .tc main_arg2) : (⟨S2048x2048, .f32⟩ : BufTy).Contents (Elt F)) = x2)
    (h_v163 : (W (Proc.devRef .tc main_v163) : (⟨S1048576x1, .i32⟩ : BufTy).Contents (Elt F)) = val_main_v163 (F := F) x0)
    (h_v164 : (W (Proc.devRef .tc main_v164) : (⟨S1048576x1, .i32⟩ : BufTy).Contents (Elt F)) = val_main_v164 (F := F) x0)
    : (after s2g3c W (Proc.devRef .tc main_v166) : (⟨S1048576, .f32⟩ : BufTy).Contents (Elt F)) = val_main_v166 (F := F) x0 x2 := by
  simp only [s2g3c, s2, ops, List.take_succ_cons, List.take_zero, List.drop_succ_cons, List.drop_zero]
  after_results_simp
  rw [h_arg2, h_v163, h_v164]
  rfl
set_option maxHeartbeats 4000000 in
theorem S2g3c_keeps_v116 (W : Valuation τ sig (Elt F)) : after s2g3c W (Proc.devRef .tc main_v116) = W (Proc.devRef .tc main_v116) := by
  keeps_stretch [s2g3c, s2, ops]
set_option maxHeartbeats 4000000 in
theorem S2g3c_keeps_v113 (W : Valuation τ sig (Elt F)) : after s2g3c W (Proc.devRef .tc main_v113) = W (Proc.devRef .tc main_v113) := by
  keeps_stretch [s2g3c, s2, ops]
set_option maxHeartbeats 4000000 in
theorem S2g3c_keeps_arg2 (W : Valuation τ sig (Elt F)) : after s2g3c W (Proc.devRef .tc main_arg2) = W (Proc.devRef .tc main_arg2) := by
  keeps_stretch [s2g3c, s2, ops]
set_option maxHeartbeats 4000000 in
theorem S2g3c_keeps_v118 (W : Valuation τ sig (Elt F)) : after s2g3c W (Proc.devRef .tc main_v118) = W (Proc.devRef .tc main_v118) := by
  keeps_stretch [s2g3c, s2, ops]
set_option maxHeartbeats 4000000 in
theorem S2g3c_keeps_v134 (W : Valuation τ sig (Elt F)) : after s2g3c W (Proc.devRef .tc main_v134) = W (Proc.devRef .tc main_v134) := by
  keeps_stretch [s2g3c, s2, ops]
set_option maxHeartbeats 4000000 in
theorem S2g3c_keeps_v150 (W : Valuation τ sig (Elt F)) : after s2g3c W (Proc.devRef .tc main_v150) = W (Proc.devRef .tc main_v150) := by
  keeps_stretch [s2g3c, s2, ops]
set_option maxHeartbeats 4000000 in
theorem S2g3c_keeps_v120 (W : Valuation τ sig (Elt F)) : after s2g3c W (Proc.devRef .tc main_v120) = W (Proc.devRef .tc main_v120) := by
  keeps_stretch [s2g3c, s2, ops]
set_option maxHeartbeats 4000000 in
theorem S2g4p_v181 (W : Valuation τ sig (Elt F)) (x0 : (⟨S8192x128x4, .f32⟩ : BufTy).Contents (Elt F)) (x2 : (⟨S2048x2048, .f32⟩ : BufTy).Contents (Elt F))
    (h_v116 : (W (Proc.devRef .tc main_v116) : (⟨S1048576, .i32⟩ : BufTy).Contents (Elt F)) = val_main_v116 (F := F) x0)
    : (after s2g4p W (Proc.devRef .tc main_v181) : (⟨S1048576x1, .i32⟩ : BufTy).Contents (Elt F)) = val_main_v181 (F := F) x0 := by
  simp only [s2g4p, s2, ops, List.take_succ_cons, List.take_zero, List.drop_succ_cons, List.drop_zero]
  after_results_simp
  rw [h_v116]
  rfl
set_option maxHeartbeats 4000000 in
theorem S2g4p_v182 (W : Valuation τ sig (Elt F)) (x0 : (⟨S8192x128x4, .f32⟩ : BufTy).Contents (Elt F)) (x2 : (⟨S2048x2048, .f32⟩ : BufTy).Contents (Elt F))
    (h_v113 : (W (Proc.devRef .tc main_v113) : (⟨S1048576, .i32⟩ : BufTy).Contents (Elt F)) = val_main_v113 (F := F) x0)
    : (after s2g4p W (Proc.devRef .tc main_v182) : (⟨S1048576x1, .i32⟩ : BufTy).Contents (Elt F)) = val_main_v182 (F := F) x0 := by
  simp only [s2g4p, s2, ops, List.take_succ_cons, List.take_zero, List.drop_succ_cons, List.drop_zero]
  after_results_simp
  rw [h_v113]
  rfl
set_option maxHeartbeats 4000000 in
theorem S2g4p_keeps_arg2 (W : Valuation τ sig (Elt F)) : after s2g4p W (Proc.devRef .tc main_arg2) = W (Proc.devRef .tc main_arg2) := by
  keeps_stretch [s2g4p, s2, ops]
set_option maxHeartbeats 4000000 in
theorem S2g4p_keeps_v118 (W : Valuation τ sig (Elt F)) : after s2g4p W (Proc.devRef .tc main_v118) = W (Proc.devRef .tc main_v118) := by
  keeps_stretch [s2g4p, s2, ops]
set_option maxHeartbeats 4000000 in
theorem S2g4p_keeps_v134 (W : Valuation τ sig (Elt F)) : after s2g4p W (Proc.devRef .tc main_v134) = W (Proc.devRef .tc main_v134) := by
  keeps_stretch [s2g4p, s2, ops]
set_option maxHeartbeats 4000000 in
theorem S2g4p_keeps_v150 (W : Valuation τ sig (Elt F)) : after s2g4p W (Proc.devRef .tc main_v150) = W (Proc.devRef .tc main_v150) := by
  keeps_stretch [s2g4p, s2, ops]
set_option maxHeartbeats 4000000 in
theorem S2g4p_keeps_v166 (W : Valuation τ sig (Elt F)) : after s2g4p W (Proc.devRef .tc main_v166) = W (Proc.devRef .tc main_v166) := by
  keeps_stretch [s2g4p, s2, ops]
set_option maxHeartbeats 4000000 in
theorem S2g4p_keeps_v120 (W : Valuation τ sig (Elt F)) : after s2g4p W (Proc.devRef .tc main_v120) = W (Proc.devRef .tc main_v120) := by
  keeps_stretch [s2g4p, s2, ops]
set_option maxHeartbeats 4000000 in
theorem S2g4c_v184 (W : Valuation τ sig (Elt F)) (x0 : (⟨S8192x128x4, .f32⟩ : BufTy).Contents (Elt F)) (x2 : (⟨S2048x2048, .f32⟩ : BufTy).Contents (Elt F))
    (h_arg2 : (W (Proc.devRef .tc main_arg2) : (⟨S2048x2048, .f32⟩ : BufTy).Contents (Elt F)) = x2)
    (h_v181 : (W (Proc.devRef .tc main_v181) : (⟨S1048576x1, .i32⟩ : BufTy).Contents (Elt F)) = val_main_v181 (F := F) x0)
    (h_v182 : (W (Proc.devRef .tc main_v182) : (⟨S1048576x1, .i32⟩ : BufTy).Contents (Elt F)) = val_main_v182 (F := F) x0)
    : (after s2g4c W (Proc.devRef .tc main_v184) : (⟨S1048576, .f32⟩ : BufTy).Contents (Elt F)) = val_main_v184 (F := F) x0 x2 := by
  simp only [s2g4c, s2, ops, List.take_succ_cons, List.take_zero, List.drop_succ_cons, List.drop_zero]
  after_results_simp
  rw [h_arg2, h_v181, h_v182]
  rfl
set_option maxHeartbeats 4000000 in
theorem S2g4c_keeps_v118 (W : Valuation τ sig (Elt F)) : after s2g4c W (Proc.devRef .tc main_v118) = W (Proc.devRef .tc main_v118) := by
  keeps_stretch [s2g4c, s2, ops]
set_option maxHeartbeats 4000000 in
theorem S2g4c_keeps_v134 (W : Valuation τ sig (Elt F)) : after s2g4c W (Proc.devRef .tc main_v134) = W (Proc.devRef .tc main_v134) := by
  keeps_stretch [s2g4c, s2, ops]
set_option maxHeartbeats 4000000 in
theorem S2g4c_keeps_v150 (W : Valuation τ sig (Elt F)) : after s2g4c W (Proc.devRef .tc main_v150) = W (Proc.devRef .tc main_v150) := by
  keeps_stretch [s2g4c, s2, ops]
set_option maxHeartbeats 4000000 in
theorem S2g4c_keeps_v166 (W : Valuation τ sig (Elt F)) : after s2g4c W (Proc.devRef .tc main_v166) = W (Proc.devRef .tc main_v166) := by
  keeps_stretch [s2g4c, s2, ops]
set_option maxHeartbeats 4000000 in
theorem S2g4c_keeps_v120 (W : Valuation τ sig (Elt F)) : after s2g4c W (Proc.devRef .tc main_v120) = W (Proc.devRef .tc main_v120) := by
  keeps_stretch [s2g4c, s2, ops]
set_option maxHeartbeats 4000000 in
theorem S2l_v199 (W : Valuation τ sig (Elt F)) (x0 : (⟨S8192x128x4, .f32⟩ : BufTy).Contents (Elt F)) (x2 : (⟨S2048x2048, .f32⟩ : BufTy).Contents (Elt F))
    (h_v118 : (W (Proc.devRef .tc main_v118) : (⟨S1048576, .f32⟩ : BufTy).Contents (Elt F)) = val_main_v118 (F := F) x0)
    (h_v120 : (W (Proc.devRef .tc main_v120) : (⟨S1048576, .f32⟩ : BufTy).Contents (Elt F)) = val_main_v120 (F := F) x0)
    (h_v134 : (W (Proc.devRef .tc main_v134) : (⟨S1048576, .f32⟩ : BufTy).Contents (Elt F)) = val_main_v134 (F := F) x0 x2)
    (h_v150 : (W (Proc.devRef .tc main_v150) : (⟨S1048576, .f32⟩ : BufTy).Contents (Elt F)) = val_main_v150 (F := F) x0 x2)
    (h_v166 : (W (Proc.devRef .tc main_v166) : (⟨S1048576, .f32⟩ : BufTy).Contents (Elt F)) = val_main_v166 (F := F) x0 x2)
    (h_v184 : (W (Proc.devRef .tc main_v184) : (⟨S1048576, .f32⟩ : BufTy).Contents (Elt F)) = val_main_v184 (F := F) x0 x2)
    : (after s2l W (Proc.devRef .tc main_v199) : (⟨S1048576, .f32⟩ : BufTy).Contents (Elt F)) = val_main_v199 (F := F) x0 x2 := by
  simp only [s2l, s2, ops, List.take_succ_cons, List.take_zero, List.drop_succ_cons, List.drop_zero]
  after_results_simp
  rw [h_v118, h_v120, h_v134, h_v150, h_v166, h_v184]
  rfl

/-- From a valuation holding the two pixel-coordinate arrays of a state array `x0`, the stretch leaves the sample of the
    table the valuation holds. -/
theorem S2_v199 (W : Valuation τ sig (Elt F)) (x0 : (⟨S8192x128x4, .f32⟩ : BufTy).Contents (Elt F))
    (h12 : (W (Proc.devRef .tc main_v12) : (⟨S1048576, .f32⟩ : BufTy).Contents (Elt F)) = val_main_v12 (F := F) x0)
    (h21 : (W (Proc.devRef .tc main_v21) : (⟨S1048576, .f32⟩ : BufTy).Contents (Elt F)) = val_main_v21 (F := F) x0) :
    (after s2 W (Proc.devRef .tc main_v199) : (⟨S1048576, .f32⟩ : BufTy).Contents (Elt F)) = val_main_v199 (F := F) x0 (W (Proc.devRef .tc main_arg2)) := by
  have a_v116 := S2a_v116 W x0 (W (Proc.devRef .tc main_arg2)) h21
  have a_v113 := S2a_v113 W x0 (W (Proc.devRef .tc main_arg2)) h12
  have a_v118 := S2a_v118 W x0 (W (Proc.devRef .tc main_arg2)) h12
  have a_v120 := S2a_v120 W x0 (W (Proc.devRef .tc main_arg2)) h21
  have a_arg2 := (S2a_keeps_arg2 W).trans (rfl : (W (Proc.devRef .tc main_arg2) : (⟨S2048x2048, .f32⟩ : BufTy).Contents (Elt F)) = W (Proc.devRef .tc main_arg2))
  have g1p_v131 := S2g1p_v131 (after s2a W) x0 (W (Proc.devRef .tc main_arg2)) a_v116
  have g1p_v132 := S2g1p_v132 (after s2a W) x0 (W (Proc.devRef .tc main_arg2)) a_v113
  have g1p_arg2 := (S2g1p_keeps_arg2 (after s2a W)).trans a_arg2
  have g1p_v113 := (S2g1p_keeps_v113 (after s2a W)).trans a_v113
  have g1p_v116 := (S2g1p_keeps_v116 (after s2a W)).trans a_v116
  have g1p_v118 := (S2g1p_keeps_v118 (after s2a W)).trans a_v118
  have g1p_v120 := (S2g1p_keeps_v120 (after s2a W)).trans a_v120
  have g1c_v134 := S2g1c_v134 (after s2g1p (after s2a W)) x0 (W (Proc.devRef .tc main_arg2)) g1p_arg2 g1p_v131 g1p_v132
  have g1c_v113 := (S2g1c_keeps_v113 (after s2g1p (after s2a W))).trans g1p_v113
  have g1c_v116 := (S2g1c_keeps_v116 (after s2g1p (after s2a W))).trans g1p_v116
  have g1c_arg2 := (S2g1c_keeps_arg2 (after s2g1p (after s2a W))).trans g1p_arg2
  have g1c_v118 := (S2g1c_keeps_v118 (after s2g1p (after s2a W))).trans g1p_v118
  have g1c_v120 := (S2g1c_keeps_v120 (after s2g1p (after s2a W))).trans g1p_v120
  have g2p_v147 := S2g2p_v147 (after s2g1c (after s2g1p (after s2a W))) x0 (W (Proc.devRef .tc main_arg2)) g1c_v116
  have g2p_v148 := S2g2p_v148 (after s2g1c (after s2g1p (after s2a W))) x0 (W (Proc.devRef .tc main_arg2)) g1c_v113
  have g2p_arg2 := (S2g2p_keeps_arg2 (after s2g1c (after s2g1p (after s2a W)))).trans g1c_arg2
  have g2p_v116 := (S2g2p_keeps_v116 (after s2g1c (after s2g1p (after s2a W)))).trans g1c_v116
  have g2p_v113 := (S2g2p_keeps_v113 (after s2g1c (after s2g1p (after s2a W)))).trans g1c_v113
  have g2p_v118 := (S2g2p_keeps_v118 (after s2g1c (after s2g1p (after s2a W)))).trans g1c_v118
  have g2p_v134 := (S2g2p_keeps_v134 (after s2g1c (after s2g1p (after s2a W)))).trans g1c_v134
  have g2p_v120 := (S2g2p_keeps_v120 (after s2g1c (after s2g1p (after s2a W)))).trans g1c_v120
  have g2c_v150 := S2g2c_v150 (after s2g2p (after s2g1c (after s2g1p (after s2a W)))) x0 (W (Proc.devRef .tc main_arg2)) g2p_arg2 g2p_v147 g2p_v148
  have g2c_v116 := (S2g2c_keeps_v116 (after s2g2p (after s2g1c (after s2g1p (after s2a W))))).trans g2p_v116
  have g2c_v113 := (S2g2c_keeps_v113 (after s2g2p (after s2g1c (after s2g1p (after s2a W))))).trans g2p_v113
  have g2c_arg2 := (S2g2c_keeps_arg2 (after s2g2p (after s2g1c (after s2g1p (after s2a W))))).trans g2p_arg2
  have g2c_v118 := (S2g2c_keeps_v118 (after s2g2p (after s2g1c (after s2g1p (after s2a W))))).trans g2p_v118
  have g2c_v134 := (S2g2c_keeps_v134 (after s2g2p (after s2g1c (after s2g1p (after s2a W))))).trans g2p_v134
  have g2c_v120 := (S2g2c_keeps_v120 (after s2g2p (after s2g1c (after s2g1p (after s2a W))))).trans g2p_v120
  have g3p_v163 := S2g3p_v163 (after s2g2c (after s2g2p (after s2g1c (after s2g1p (after s2a W))))) x0 (W (Proc.devRef .tc main_arg2)) g2c_v116
  have g3p_v164 := S2g3p_v164 (after s2g2c (after s2g2p (after s2g1c (after s2g1p (after s2a W))))) x0 (W (Proc.devRef .tc main_arg2)) g2c_v113
  have g3p_arg2 := (S2g3p_keeps_arg2 (after s2g2c (after s2g2p (after s2g1c (after s2g1p (after s2a W)))))).trans g2c_arg2
  have g3p_v116 := (S2g3p_keeps_v116 (after s2g2c (after s2g2p (after s2g1c (after s2g1p (after s2a W)))))).trans g2c_v116
  have g3p_v113 := (S2g3p_keeps_v113 (after s2g2c (after s2g2p (after s2g1c (after s2g1p (after s2a W)))))).trans g2c_v113
  have g3p_v118 := (S2g3p_keeps_v118 (after s2g2c (after s2g2p (after s2g1c (after s2g1p (after s2a W)))))).trans g2c_v118
  have g3p_v134 := (S2g3p_keeps_v134 (after s2g2c (after s2g2p (after s2g1c (after s2g1p (after s2a W)))))).trans g2c_v134
  have g3p_v150 := (S2g3p_keeps_v150 (after s2g2c (after s2g2p (after s2g1c (after s2g1p (after s2a W)))))).trans g2c_v150
  have g3p_v120 := (S2g3p_keeps_v120 (after s2g2c (after s2g2p (after s2g1c (after s2g1p (after s2a W)))))).trans g2c_v120
  have g3c_v166 := S2g3c_v166 (after s2g3p (after s2g2c (after s2g2p (after s2g1c (after s2g1p (after s2a W)))))) x0 (W (Proc.devRef .tc main_arg2)) g3p_arg2 g3p_v163 g3p_v164
  have g3c_v116 := (S2g3c_keeps_v116 (after s2g3p (after s2g2c (after s2g2p (after s2g1c (after s2g1p (after s2a W))))))).trans g3p_v116
  have g3c_v113 := (S2g3c_keeps_v113 (after s2g3p (after s2g2c (after s2g2p (after s2g1c (after s2g1p (after s2a W))))))).trans g3p_v113
  have g3c_arg2 := (S2g3c_keeps_arg2 (after s2g3p (after s2g2c (after s2g2p (after s2g1c (after s2g1p (after s2a W))))))).trans g3p_arg2
  have g3c_v118 := (S2g3c_keeps_v118 (after s2g3p (after s2g2c (after s2g2p (after s2g1c (after s2g1p (after s2a W))))))).trans g3p_v118
  have g3c_v134 := (S2g3c_keeps_v134 (after s2g3p (after s2g2c (after s2g2p (after s2g1c (after s2g1p (after s2a W))))))).trans g3p_v134
  have g3c_v150 := (S2g3c_keeps_v150 (after s2g3p (after s2g2c (after s2g2p (after s2g1c (after s2g1p (after s2a W))))))).trans g3p_v150
  have g3c_v120 := (S2g3c_keeps_v120 (after s2g3p (after s2g2c (after s2g2p (after s2g1c (after s2g1p (after s2a W))))))).trans g3p_v120
  have g4p_v181 := S2g4p_v181 (after s2g3c (after s2g3p (after s2g2c (after s2g2p (after s2g1c (after s2g1p (after s2a W))))))) x0 (W (Proc.devRef .tc main_arg2)) g3c_v116
  have g4p_v182 := S2g4p_v182 (after s2g3c (after s2g3p (after s2g2c (after s2g2p (after s2g1c (after s2g1p (after s2a W))))))) x0 (W (Proc.devRef .tc main_arg2)) g3c_v113
  have g4p_arg2 := (S2g4p_keeps_arg2 (after s2g3c (after s2g3p (after s2g2c (after s2g2p (after s2g1c (after s2g1p (after s2a W)))))))).trans g3c_arg2
  have g4p_v118 := (S2g4p_keeps_v118 (after s2g3c (after s2g3p (after s2g2c (after s2g2p (after s2g1c (after s2g1p (after s2a W)))))))).trans g3c_v118
  have g4p_v134 := (S2g4p_keeps_v134 (after s2g3c (after s2g3p (after s2g2c (after s2g2p (after s2g1c (after s2g1p (after s2a W)))))))).trans g3c_v134
  have g4p_v150 := (S2g4p_keeps_v150 (after s2g3c (after s2g3p (after s2g2c (after s2g2p (after s2g1c (after s2g1p (after s2a W)))))))).trans g3c_v150
  have g4p_v166 := (S2g4p_keeps_v166 (after s2g3c (after s2g3p (after s2g2c (after s2g2p (after s2g1c (after s2g1p (after s2a W)))))))).trans g3c_v166
  have g4p_v120 := (S2g4p_keeps_v120 (after s2g3c (after s2g3p (after s2g2c (after s2g2p (after s2g1c (after s2g1p (after s2a W)))))))).trans g3c_v120
  have g4c_v184 := S2g4c_v184 (after s2g4p (after s2g3c (after s2g3p (after s2g2c (after s2g2p (after s2g1c (after s2g1p (after s2a W)))))))) x0 (W (Proc.devRef .tc main_arg2)) g4p_arg2 g4p_v181 g4p_v182
  have g4c_v118 := (S2g4c_keeps_v118 (after s2g4p (after s2g3c (after s2g3p (after s2g2c (after s2g2p (after s2g1c (after s2g1p (after s2a W))))))))).trans g4p_v118
  have g4c_v134 := (S2g4c_keeps_v134 (after s2g4p (after s2g3c (after s2g3p (after s2g2c (after s2g2p (after s2g1c (after s2g1p (after s2a W))))))))).trans g4p_v134
  have g4c_v150 := (S2g4c_keeps_v150 (after s2g4p (after s2g3c (after s2g3p (after s2g2c (after s2g2p (after s2g1c (after s2g1p (after s2a W))))))))).trans g4p_v150
  have g4c_v166 := (S2g4c_keeps_v166 (after s2g4p (after s2g3c (after s2g3p (after s2g2c (after s2g2p (after s2g1c (after s2g1p (after s2a W))))))))).trans g4p_v166
  have g4c_v120 := (S2g4c_keeps_v120 (after s2g4p (after s2g3c (after s2g3p (after s2g2c (after s2g2p (after s2g1c (after s2g1p (after s2a W))))))))).trans g4p_v120
  have l_v199 := S2l_v199 (after s2g4c (after s2g4p (after s2g3c (after s2g3p (after s2g2c (after s2g2p (after s2g1c (after s2g1p (after s2a W))))))))) x0 (W (Proc.devRef .tc main_arg2)) g4c_v118 g4c_v120 g4c_v134 g4c_v150 g4c_v166 g4c_v184
  exact (congrFun (cut2 W) (Proc.devRef .tc main_v199)).trans l_v199

end Cert.ReferenceIdeal.HandRun

end
-- ==== Proof.RefKeep2.lean ====
/-
  The stretch that samples the second table writes none of the buffers the later stretches read, nor an argument.
-/
import proofs.«176869_j84842783965226_2_alg».proof.Proof.RefCut

set_option maxRecDepth 16384

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.LibStages

variable {F : FTy → Type} [FloatOps F]

set_option maxHeartbeats 4000000 in
theorem S2_keeps_v3 (W : Valuation τ sig (Elt F)) : after s2 W (Proc.devRef .tc main_v3) = W (Proc.devRef .tc main_v3) := by
  keeps_stretch [s2, ops]
set_option maxHeartbeats 4000000 in
theorem S2_keeps_v12 (W : Valuation τ sig (Elt F)) : after s2 W (Proc.devRef .tc main_v12) = W (Proc.devRef .tc main_v12) := by
  keeps_stretch [s2, ops]
set_option maxHeartbeats 4000000 in
theorem S2_keeps_v21 (W : Valuation τ sig (Elt F)) : after s2 W (Proc.devRef .tc main_v21) = W (Proc.devRef .tc main_v21) := by
  keeps_stretch [s2, ops]
set_option maxHeartbeats 4000000 in
theorem S2_keeps_v110 (W : Valuation τ sig (Elt F)) : after s2 W (Proc.devRef .tc main_v110) = W (Proc.devRef .tc main_v110) := by
  keeps_stretch [s2, ops]
set_option maxHeartbeats 4000000 in
theorem S2_keeps_arg0 (W : Valuation τ sig (Elt F)) : after s2 W (Proc.devRef .tc main_arg0) = W (Proc.devRef .tc main_arg0) := by
  keeps_stretch [s2, ops]
set_option maxHeartbeats 4000000 in
theorem S2_keeps_arg1 (W : Valuation τ sig (Elt F)) : after s2 W (Proc.devRef .tc main_arg1) = W (Proc.devRef .tc main_arg1) := by
  keeps_stretch [s2, ops]
set_option maxHeartbeats 4000000 in
theorem S2_keeps_arg2 (W : Valuation τ sig (Elt F)) : after s2 W (Proc.devRef .tc main_arg2) = W (Proc.devRef .tc main_arg2) := by
  keeps_stretch [s2, ops]
set_option maxHeartbeats 4000000 in
theorem S2_keeps_arg3 (W : Valuation τ sig (Elt F)) : after s2 W (Proc.devRef .tc main_arg3) = W (Proc.devRef .tc main_arg3) := by
  keeps_stretch [s2, ops]

end Cert.ReferenceIdeal.HandRun

end
-- ==== Proof.RefSub3.lean ====
/-
  The stretch that samples the third table, read in ten pieces: the two cells and the two fractions of the pixel
  coordinates; for each of the four corners of the cell, first its two wrapped index columns and then their join and the
  table lookup; and the interpolation of the four looked-up values by the two fractions. Each piece is read off over an arbitrary valuation
  that holds the piece's inputs; the buffers a later piece reads are not written meanwhile.
-/
import proofs.«176869_j84842783965226_2_alg».proof.Proof.RefCut
import proofs.«176869_j84842783965226_2_alg».proof.Proof.RefReadP

set_option maxRecDepth 16384

noncomputable section

namespace Cert.ReferenceIdeal.HandRun

open Cert.ReferenceIdeal Cert.ReferenceIdeal.Gen Cert.ReferenceIdeal.Read Idealize.ShloMosaic Idealize.ShloMosaic.TcCoe Idealize.SL.Sem Idealize.ShloMosaic.StableHlo
open Cert.LibStages

variable {F : FTy → Type} [FloatOps F]

/-- The ten pieces of the stretch. -/
abbrev s3a : List (HloOp τ sig (Elt F)) := (s3 (F := F)).take 24
abbrev s3g1p : List (HloOp τ sig (Elt F)) := ((s3 (F := F)).drop 24).take 16
abbrev s3g1c : List (HloOp τ sig (Elt F)) := (((s3 (F := F)).drop 24).drop 16).take 2
abbrev s3g2p : List (HloOp τ sig (Elt F)) := ((((s3 (F := F)).drop 24).drop 16).drop 2).take 19
abbrev s3g2c : List (HloOp τ sig (Elt F)) := (((((s3 (F := F)).drop 24).drop 16).drop 2).drop 19).take 2
abbrev s3g3p : List (HloOp τ sig (Elt F)) := ((((((s3 (F := F)).drop 24).drop 16).drop 2).drop 19).drop 2).take 19
abbrev s3g3c : List (HloOp τ sig (Elt F)) := (((((((s3 (F := F)).drop 24).drop 16).drop 2).drop 19).drop 2).drop 19).take 2
abbrev s3g4p : List (HloOp τ sig (Elt F)) := ((((((((s3 (F := F)).drop 24).drop 16).drop 2).drop 19).drop 2).drop 19).drop 2).take 22
abbrev s3g4c : List (HloOp τ sig (Elt F)) := (((((((((s3 (F := F)).drop 24).drop 16).drop 2).drop 19).drop 2).drop 19).drop 2).drop 22).take 2
abbrev s3l : List (HloOp τ sig (Elt F)) := (((((((((s3 (F := F)).drop 24).drop 16).drop 2).drop 19).drop 2).drop 19).drop 2).drop 22).drop 2

/-- The stretch is its ten pieces one after the other. -/
theorem cut3 (W : Valuation τ sig (Elt F)) :
    after (s3 (F := F)) W = after s3l (after s3g4c (after s3g4p (after s3g3c (after s3g3p (after s3g2c (after s3g2p (after s3g1c (after s3g1p (after s3a W))))))))) :=
  (after_take_drop 24 (s3 (F := F)) W).trans
    ((after_take_drop 16 ((s3 (F := F)).drop 24) _).trans
    ((after_take_drop 2 (((s3 (F := F)).drop 24).drop 16) _).trans
    ((after_take_drop 19 ((((s3 (F := F)).drop 24).drop 16).drop 2) _).trans
    ((after_take_drop 2 (((((s3 (F := F)).drop 24).drop 16).drop 2).drop 19) _).trans
    ((after_take_drop 19 ((((((s3 (F := F)).drop 24).drop 16).drop 2).drop 19).drop 2) _).trans
    ((after_take_drop 2 (((((((s3 (F := F)).drop 24).drop 16).drop 2).drop 19).drop 2).drop 19) _).trans
    ((after_take_drop 22 ((((((((s3 (F := F)).drop 24).drop 16).drop 2).drop 19).drop 2).drop 19).drop 2) _).trans
    ((after_take_drop 2 (((((((((s3 (F := F)).drop 24).drop 16).drop 2).drop 19).drop 2).drop 19).drop 2).drop 22) _)))))))))

set_option maxHeartbeats 4000000 in
theorem S3a_v205 (W : Valuation τ sig (Elt F)) (x0 : (⟨S8192x128x4, .f32⟩ : BufTy).Contents (Elt F)) (x3 : (⟨S2048x2048, .f32⟩ : BufTy).Contents (Elt F))
    (h_v21 : (W (Proc.devRef .tc main_v21) : (⟨S1048576, .f32⟩ : BufTy).Contents (Elt F)) = val_main_v21 (F := F) x0)
    : (after s3a W (Proc.devRef .tc main_v205) : (⟨S1048576, .i32⟩ : BufTy).Contents (Elt F)) = val_main_v205 (F := F) x0 := by
  simp only [s3a, s3, ops, List.take_succ_cons, List.take_zero, List.drop_succ_cons, List.drop_zero]
  after_results_simp
  rw [h_v21]
  rfl
set_option maxHeartbeats 4000000 in
theorem S3a_v202 (W : Valuation τ sig (Elt F)) (x0 : (⟨S8192x128x4, .f32⟩ : BufTy).Contents (Elt F)) (x3 : (⟨S2048x2048, .f32⟩ : BufTy).Contents (Elt F))
    (h_v12 : (W (Proc.devRef .tc main_v12) : (⟨S1048576, .f32⟩ : BufTy).Contents (Elt F)) = val_main_v12 (F := F) x0)
    : (after s3a W (Proc.devRef .tc main_v202) : (⟨S1048576, .i32⟩ : BufTy).Contents (Elt F)) = val_main_v202 (F := F) x0 := by
  simp only [s3a, s3, ops, List.take_succ_cons, List.take_zero, List.drop_succ_cons, List.drop_zero]
  after_results_simp
  rw [h_v12]
  rfl
set_option maxHeartbeats 4000000 in
theorem S3a_v207 (W : Valuation τ sig (Elt F)) (x0 : (⟨S8192x128x4, .f32⟩ : BufTy).Contents (Elt F)) (x3 : (⟨S2048x2048, .f32⟩ : BufTy).Contents (Elt F))
    (h_v12 : (W (Proc.devRef .tc main_v12) : (⟨S1048576, .f32⟩ : BufTy).Contents (Elt F)) = val_main_v12 (F := F) x0)
    : (after s3a W (Proc.devRef .tc main_v207) : (⟨S1048576, .f32⟩ : BufTy).Contents (Elt F)) = val_main_v207 (F := F) x0 := by
  simp only [s3a, s3, ops, List.take_succ_cons, List.take_zero, List.drop_succ_cons, List.drop_zero]
  after_results_simp
  rw [h_v12]
  rfl
set_option maxHeartbeats 4000000 in
theorem S3a_v209 (W : Valuation τ sig (Elt F)) (x0 : (⟨S8192x128x4, .f32⟩ : BufTy).Contents (Elt F)) (x3 : (⟨S2048x2048, .f32⟩ : BufTy).Contents (Elt F))
    (h_v21 : (W (Proc.devRef .tc main_v21) : (⟨S1048576, .f32⟩ : BufTy).Contents (Elt F)) = val_main_v21 (F := F) x0)
    : (after s3a W (Proc.devRef .tc main_v209) : (⟨S1048576, .f32⟩ : BufTy).Contents (Elt F)) = val_main_v209 (F := F) x0 := by
  simp only [s3a, s3, ops, List.take_succ_cons, List.take_zero, List.drop_succ_cons, List.drop_zero]
  after_results_simp
  rw [h_v21]
  rfl
set_option maxHeartbeats 4000000 in
theorem S3a_keeps_arg3 (W : Valuation τ sig (Elt F)) : after s3a W (Proc.devRef .tc main_arg3) = W (Proc.devRef .tc main_arg3) := by
  keeps_stretch [s3a, s3, ops]
set_option maxHeartbeats 4000000 in
theorem S3g1p_v220 (W : Valuation τ sig (Elt F)) (x0 : (⟨S8192x128x4, .f32⟩ : BufTy).Contents (Elt F)) (x3 : (⟨S2048x2048, .f32⟩ : BufTy).Contents (Elt F))
    (h_v205 : (W (Proc.devRef .tc main_v205) : (⟨S1048576, .i32⟩ : BufTy).Contents (Elt F)) = val_main_v205 (F := F) x0)
    : (after s3g1p W (Proc.devRef .tc main_v220) : (⟨S1048576x1, .i32⟩ : BufTy).Contents (Elt F)) = val_main_v220 (F := F) x0 := by
  simp only [s3g1p, s3, ops, List.take_succ_cons, List.take_zero, List.drop_succ_cons, List.drop_zero]
  after_results_simp
  rw [h_v205]
  rfl
set_option maxHeartbeats 4000000 in
theorem S3g1p_v221 (W : Valuation τ sig (Elt F)) (x0 : (⟨S8192x128x4, .f32⟩ : BufTy).Contents (Elt F)) (x3 : (⟨S2048x2048, .f32⟩ : BufTy).Contents (Elt F))
    (h_v202 : (W (Proc.devRef .tc main_v202) : (⟨S1048576, .i32⟩ : BufTy).Contents (Elt F)) = val_main_v202 (F := F) x0)
    : (after s3g1p W (Proc.devRef .tc main_v221) : (⟨S1048576x1, .i32⟩ : BufTy).Contents (Elt F)) = val_main_v221 (F := F) x0 := by
  simp only [s3g1p, s3, ops, List.take_succ_cons, List.take_zero, List.drop_succ_cons, List.drop_zero]
  after_results_simp
  rw [h_v202]
  rfl
set_option maxHeartbeats 4000000 in
theorem S3g1p_keeps_arg3 (W : Valuation τ sig (Elt F)) : after s3g1p W (Proc.devRef .tc main_arg3) = W (Proc.devRef .tc main_arg3) := by
  keeps_stretch [s3g1p, s3, ops]
set_option maxHeartbeats 4000000 in
theorem S3g1p_keeps_v202 (W : Valuation τ sig (Elt F)) : after s3g1p W (Proc.devRef .tc main_v202) = W (Proc.devRef .tc main_v202) := by
  keeps_stretch [s3g1p, s3, ops]
set_option maxHeartbeats 4000000 in
theorem S3g1p_keeps_v205 (W : Valuation τ sig (Elt F)) : after s3g1p W (Proc.devRef .tc main_v205) = W (Proc.devRef .tc main_v205) := by
  keeps_stretch [s3g1p, s3, ops]
set_option maxHeartbeats 4000000 in
theorem S3g1p_keeps_v207 (W : Valuation τ sig (Elt F)) : after s3g1p W (Proc.devRef .tc main_v207) = W (Proc.devRef .tc main_v207) := by
  keeps_stretch [s3g1p, s3, ops]
set_option maxHeartbeats 4000000 in
theorem S3g1p_keeps_v209 (W : Valuation τ sig (Elt F)) : after s3g1p W (Proc.devRef .tc main_v209) = W (Proc.devRef .tc main_v209) := by
  keeps_stretch [s3g1p, s3, ops]
set_option maxHeartbeats 4000000 in
theorem S3g1c_v223 (W : Valuation τ sig (Elt F)) (x0 : (⟨S8192x128x4, .f32⟩ : BufTy).Contents (Elt F)) (x3 : (⟨S2048x2048, .f32⟩ : BufTy).Contents (Elt F))
    (h_arg3 : (W (Proc.devRef .tc main_arg3) : (⟨S2048x2048, .f32⟩ : BufTy).Contents (Elt F)) = x3)
    (h_v220 : (W (Proc.devRef .tc main_v220) : (⟨S1048576x1, .i32⟩ : BufTy).Contents (Elt F)) = val_main_v220 (F := F) x0)
    (h_v221 : (W (Proc.devRef .tc main_v221) : (⟨S1048576x1, .i32⟩ : BufTy).Contents (Elt F)) = val_main_v221 (F := F) x0)
    : (after s3g1c W (Proc.devRef .tc main_v223) : (⟨S1048576, .f32⟩ : BufTy).Contents (Elt F)) = val_main_v223 (F := F) x0 x3 := by
  simp only [s3g1c, s3, ops, List.take_succ_cons, List.take_zero, List.drop_succ_cons, List.drop_zero]
  after_results_simp
  rw [h_arg3, h_v220, h_v221]
  rfl
set_option maxHeartbeats 4000000 in
theorem S3g1c_keeps_v202 (W : Valuation τ sig (Elt F)) : after s3g1c W (Proc.devRef .tc main_v202) = W (Proc.devRef .tc main_v202) := by
  keeps_stretch [s3g1c, s3, ops]
set_option maxHeartbeats 4000000 in
theorem S3g1c_keeps_v205 (W : Valuation τ sig (Elt F)) : after s3g1c W (Proc.devRef .tc main_v205) = W (Proc.devRef .tc main_v205) := by
  keeps_stretch [s3g1c, s3, ops]
set_option maxHeartbeats 4000000 in
theorem S3g1c_keeps_arg3 (W : Valuation τ sig (Elt F)) : after s3g1c W (Proc.devRef .tc main_arg3) = W (Proc.devRef .tc main_arg3) := by
  keeps_stretch [s3g1c, s3, ops]
set_option maxHeartbeats 4000000 in
theorem S3g1c_keeps_v207 (W : Valuation τ sig (Elt F)) : after s3g1c W (Proc.devRef .tc main_v207) = W (Proc.devRef .tc main_v207) := by
  keeps_stretch [s3g1c, s3, ops]
set_option maxHeartbeats 4000000 in
theorem S3g1c_keeps_v209 (W : Valuation τ sig (Elt F)) : after s3g1c W (Proc.devRef .tc main_v209) = W (Proc.devRef .tc main_v209) := by
  keeps_stretch [s3g1c, s3, ops]
set_option maxHeartbeats 4000000 in
theorem S3g2p_v236 (W : Valuation τ sig (Elt F)) (x0 : (⟨S8192x128x4, .f32⟩ : BufTy).Contents (Elt F)) (x3 : (⟨S2048x2048, .f32⟩ : BufTy).Contents (Elt F))
    (h_v205 : (W (Proc.devRef .tc main_v205) : (⟨S1048576, .i32⟩ : BufTy).Contents (Elt F)) = val_main_v205 (F := F) x0)
    : (after s3g2p W (Proc.devRef .tc main_v236) : (⟨S1048576x1, .i32⟩ : BufTy).Contents (Elt F)) = val_main_v236 (F := F) x0 := by
  simp only [s3g2p, s3, ops, List.take_succ_cons, List.take_zero, List.drop_succ_cons, List.drop_zero]
  after_results_simp
  rw [h_v205]
  rfl
set_option maxHeartbeats 4000000 in
theorem S3g2p_v237 (W : Valuation τ sig (Elt F)) (x0 : (⟨S8192x128x4, .f32⟩ : BufTy).Contents (Elt F)) (x3 : (⟨S2048x2048, .f32⟩ : BufTy).Contents (Elt F))
    (h_v202 : (W (Proc.devRef .tc main_v202) : (⟨S1048576, .i32⟩ : BufTy).Contents (Elt F)) = val_main_v202 (F := F) x0)
    : (after s3g2p W (Proc.devRef .tc main_v237) : (⟨S1048576x1, .i32⟩ : BufTy).Contents (Elt F)) = val_main_v237 (F := F) x0 := by
  simp only [s3g2p, s3, ops, List.take_succ_cons, List.take_zero, List.drop_succ_cons, List.drop_zero]
  after_results_simp
  rw [h_v202]
  rfl
set_option maxHeartbeats 4000000 in
theorem S3g2p_keeps_arg3 (W : Valuation τ sig (Elt F)) : after s3g2p W (Proc.devRef .tc main_arg3) = W (Proc.devRef .tc main_arg3) := by
  keeps_stretch [s3g2p, s3, ops]
set_option maxHeartbeats 4000000 in
theorem S3g2p_keeps_v205 (W : Valuation τ sig (Elt F)) : after s3g2p W (Proc.devRef .tc main_v205) = W (Proc.devRef .tc main_v205) := by
  keeps_stretch [s3g2p, s3, ops]
set_option maxHeartbeats 4000000 in
theorem S3g2p_keeps_v202 (W : Valuation τ sig (Elt F)) : after s3g2p W (Proc.devRef .tc main_v202) = W (Proc.devRef .tc main_v202) := by
  keeps_stretch [s3g2p, s3, ops]
set_option maxHeartbeats 4000000 in
theorem S3g2p_keeps_v207 (W : Valuation τ sig (Elt F)) : after s3g2p W (Proc.devRef .tc main_v207) = W (Proc.devRef .tc main_v207) := by
  keeps_stretch [s3g2p, s3, ops]
set_option maxHeartbeats 4000000 in
theorem S3g2p_keeps_v223 (W : Valuation τ sig (Elt F)) : after s3g2p W (Proc.devRef .tc main_v223) = W (Proc.devRef .tc main_v223) := by
  keeps_stretch [s3g2p, s3, ops]
set_option maxHeartbeats 4000000 in
theorem S3g2p_keeps_v209 (W : Valuation τ sig (Elt F)) : after s3g2p W (Proc.devRef .tc main_v209) = W (Proc.devRef .tc main_v209) := by
  keeps_stretch [s3g2p, s3, ops]
set_option maxHeartbeats 4000000 in
theorem S3g2c_v239 (W : Valuation τ sig (Elt F)) (x0 : (⟨S8192x128x4, .f32⟩ : BufTy).Contents (Elt F)) (x3 : (⟨S2048x2048, .f32⟩ : BufTy).Contents (Elt F))
    (h_arg3 : (W (Proc.devRef .tc main_arg3) : (⟨S2048x2048, .f32⟩ : BufTy).Contents (Elt F)) = x3)
    (h_v236 : (W (Proc.devRef .tc main_v236) : (⟨S1048576x1, .i32⟩ : BufTy).Contents (Elt F)) = val_main_v236 (F := F) x0)
    (h_v237 : (W (Proc.devRef .tc main_v237) : (⟨S1048576x1, .i32⟩ : BufTy).Contents (Elt F)) = val_main_v237 (F := F) x0)
    : (after s3g2c W (Proc.devRef .tc main_v239) : (⟨S1048576, .f32⟩ : BufTy).Contents (Elt F)) = val_main_v239 (F := F) x0 x3 := by
  simp only [s3g2c, s3, ops, List.take_succ_cons, List.take_zero, List.drop_succ_cons, List.drop_zero]
  after_results_simp
  rw [h_arg3, h_v236, h_v237]
  rfl
set_option maxHeartbeats 4000000 in
theorem S3g2c_keeps_v205 (W : Valuation τ sig (Elt F)) : after s3g2c W (Proc.devRef .tc main_v205) = W (Proc.devRef .tc main_v205) := by
  keeps_stretch [s3g2c, s3, ops]
set_option maxHeartbeats 4000000 in
theorem S3g2c_keeps_v202 (W : Valuation τ sig (Elt F)) : after s3g2c W (Proc.devRef .tc main_v202) = W (Proc.devRef .tc main_v202) := by
  keeps_stretch [s3g2c, s3, ops]
set_option maxHeartbeats 4000000 in
theorem S3g2c_keeps_arg3 (W : Valuation τ sig (Elt F)) : after s3g2c W (Proc.devRef .tc main_arg3) = W (Proc.devRef .tc main_arg3) := by
  keeps_stretch [s3g2c, s3, ops]
set_option maxHeartbeats 4000000 in
theorem S3g2c_keeps_v207 (W : Valuation τ sig (Elt F)) : after s3g2c W (Proc.devRef .tc main_v207) = W (Proc.devRef .tc main_v207) := by
  keeps_stretch [s3g2c, s3, ops]
set_option maxHeartbeats 4000000 in
theorem S3g2c_keeps_v223 (W : Valuation τ sig (Elt F)) : after s3g2c W (Proc.devRef .tc main_v223) = W (Proc.devRef .tc main_v223) := by
  keeps_stretch [s3g2c, s3, ops]
set_option maxHeartbeats 4000000 in
theorem S3g2c_keeps_v209 (W : Valuation τ sig (Elt F)) : after s3g2c W (Proc.devRef .tc main_v209) = W (Proc.devRef .tc main_v209) := by
  keeps_stretch [s3g2c, s3, ops]
set_option maxHeartbeats 4000000 in
theorem S3g3p_v252 (W : Valuation τ sig (Elt F)) (x0 : (⟨S8192x128x4, .f32⟩ : BufTy).Contents (Elt F)) (x3 : (⟨S2048x2048, .f32⟩ : BufTy).Contents (Elt F))
    (h_v205 : (W (Proc.devRef .tc main_v205) : (⟨S1048576, .i32⟩ : BufTy).Contents (Elt F)) = val_main_v205 (F := F) x0)
    : (after s3g3p W (Proc.devRef .tc main_v252) : (⟨S1048576x1, .i32⟩ : BufTy).Contents (Elt F)) = val_main_v252 (F := F) x0 := by
  simp only [s3g3p, s3, ops, List.take_succ_cons, List.take_zero, List.drop_succ_cons, List.drop_zero]
  after_results_simp
  rw [h_v205]
  rfl
set_option maxHeartbeats 4000000 in
theorem S3g3p_v253 (W : Valuation τ sig (Elt F)) (x0 : (⟨S8192x128x4, .f32⟩ : BufTy).Contents (Elt F)) (x3 : (⟨S2048x2048, .f32⟩ : BufTy).Contents (Elt F))
    (h_v202 : (W (Proc.devRef .tc main_v202) : (⟨S1048576, .i32⟩ : BufTy).Contents (Elt F)) = val_main_v202 (F := F) x0)
    : (after s3g3p W (Proc.devRef .tc main_v253) : (⟨S1048576x1, .i32⟩ : BufTy).Contents (Elt F)) = val_main_v253 (F := F) x0 := by
  simp only [s3g3p, s3, ops, List.take_succ_cons, List.take_zero, List.drop_succ_cons, List.drop_zero]
  after_results_simp
  rw [h_v202]
  rfl
set_option maxHeartbeats 4000000 in
theorem S3g3p_keeps_arg3 (W : Valuation τ sig (Elt F)) : after s3g3p W (Proc.devRef .tc main_arg3) = W (Proc.devRef .tc main_arg3) := by
  keeps_stretch [s3g3p, s3, ops]
set_option maxHeartbeats 4000000 in
theorem S3g3p_keeps_v205 (W : Valuation τ sig (Elt F)) : after s3g3p W (Proc.devRef .tc main_v205) = W (Proc.devRef .tc main_v205) := by
  keeps_stretch [s3g3p, s3, ops]
set_option maxHeartbeats 4000000 in
theorem S3g3p_keeps_v202 (W : Valuation τ sig (Elt F)) : after s3g3p W (Proc.devRef .tc main_v202) = W (Proc.devRef .tc main_v202) := by
  keeps_stretch [s3g3p, s3, ops]
set_option maxHeartbeats 4000000 in
theorem S3g3p_keeps_v207 (W : Valuation τ sig (Elt F)) : after s3g3p W (Proc.devRef .tc main_v207) = W (Proc.devRef .tc main_v207) := by
  keeps_stretch [s3g3p, s3, ops]
set_option maxHeartbeats 4000000 in
theorem S3g3p_keeps_v223 (W : Valuation τ sig (Elt F)) : after s3g3p W (Proc.devRef .tc main_v223) = W (Proc.devRef .tc main_v223) := by
  keeps_stretch [s3g3p, s3, ops]
set_option maxHeartbeats 4000000 in
theorem S3g3p_keeps_v239 (W : Valuation τ sig (Elt F)) : after s3g3p W (Proc.devRef .tc main_v239) = W (Proc.devRef .tc main_v239) := by
  keeps_stretch [s3g3p, s3, ops]
set_option maxHeartbeats 4000000 in
theorem S3g3p_keeps_v209 (W : Valuation τ sig (Elt F)) : after s3g3p W (Proc.devRef .tc main_v209) = W (Proc.devRef .tc main_v209) := by
  keeps_stretch [s3g3p, s3, ops]
set_option maxHeartbeats 4000000 in
theorem S3g3c_v255 (W : Valuation τ sig (Elt F)) (x0 : (⟨S8192x128x4, .f32⟩ : BufTy).Contents (Elt F)) (x3 : (⟨S2048x2048, .f32⟩ : BufTy).Contents (Elt F))
    (h_arg3 : (W (Proc.devRef .tc main_arg3) : (⟨S2048x2048, .f32⟩ : BufTy).Contents (Elt F)) = x3)
    (h_v252 : (W (Proc.devRef .tc main_v252) : (⟨S1048576x1, .i32⟩ : BufTy).Contents (Elt F)) = val_main_v252 (F := F) x0)
    (h_v253 : (W (Proc.devRef .tc main_v253) : (⟨S1048576x1, .i32⟩ : BufTy).Contents (Elt F)) = val_main_v253 (F := F) x0)
    : (after s3g3c W (Proc.devRef .tc main_v255) : (⟨S1048576, .f32⟩ : BufTy).Contents (Elt F)) = val_main_v255 (F := F) x0 x3 := by
  simp only [s3g3c, s3, ops, List.take_succ_cons, List.take_zero, List.drop_succ_cons, List.drop_zero]
  after_results_simp
  rw [h_arg3, h_v252, h_v253]
  rfl
set_option maxHeartbeats 4000000 in
theorem S3g3c_keeps_v205 (W : Valuation τ sig (Elt F)) : after s3g3c W (Proc.devRef .tc main_v205) = W (Proc.devRef .tc main_v205) := by
  keeps_stretch [s3g3c, s3, ops]
set_option maxHeartbeats 4000000 in
theorem S3g3c_keeps_v202 (W : Valuation τ sig (Elt F)) : after s3g3c W (Proc.devRef .tc main_v202) = W (Proc.devRef .tc main_v202) := by
  keeps_stretch [s3g3c, s3, ops]
set_option maxHeartbeats 4000000 in
theorem S3g3c_keeps_arg3 (W : Valuation τ sig (Elt F)) : after s3g3c W (Proc.devRef .tc main_arg3) = W (Proc.devRef .tc main_arg3) := by
  keeps_stretch [s3g3c, s3, ops]
set_option maxHeartbeats 4000000 in
theorem S3g3c_keeps_v207 (W : Valuation τ sig (Elt F)) : after s3g3c W (Proc.devRef .tc main_v207) = W (Proc.devRef .tc main_v207) := by
  keeps_stretch [s3g3c, s3, ops]
set_option maxHeartbeats 4000000 in
theorem S3g3c_keeps_v223 (W : Valuation τ sig (Elt F)) : after s3g3c W (Proc.devRef .tc main_v223) = W (Proc.devRef .tc main_v223) := by
  keeps_stretch [s3g3c, s3, ops]
set_option maxHeartbeats 4000000 in
theorem S3g3c_keeps_v239 (W : Valuation τ sig (Elt F)) : after s3g3c W (Proc.devRef .tc main_v239) = W (Proc.devRef .tc main_v239) := by
  keeps_stretch [s3g3c, s3, ops]
set_option maxHeartbeats 4000000 in
theorem S3g3c_keeps_v209 (W : Valuation τ sig (Elt F)) : after s3g3c W (Proc.devRef .tc main_v209) = W (Proc.devRef .tc main_v209) := by
  keeps_stretch [s3g3c, s3, ops]
set_option maxHeartbeats 4000000 in
theorem S3g4p_v270 (W : Valuation τ sig (Elt F)) (x0 : (⟨S8192x128x4, .f32⟩ : BufTy).Contents (Elt F)) (x3 : (⟨S2048x2048, .f32⟩ : BufTy).Contents (Elt F))
    (h_v205 : (W (Proc.devRef .tc main_v205) : (⟨S1048576, .i32⟩ : BufTy).Contents (Elt F)) = val_main_v205 (F := F) x0)
    : (after s3g4p W (Proc.devRef .tc main_v270) : (⟨S1048576x1, .i32⟩ : BufTy).Contents (Elt F)) = val_main_v270 (F := F) x0 := by
  simp only [s3g4p, s3, ops, List.take_succ_cons, List.take_zero, List.drop_succ_cons, List.drop_zero]
  after_results_simp
  rw [h_v205]
  rfl
set_option maxHeartbeats 4000000 in
theorem S3g4p_v271 (W : Valuation τ sig (Elt F)) (x0 : (⟨S8192x128x4, .f32⟩ : BufTy).Contents (Elt F)) (x3 : (⟨S2048x2048, .f32⟩ : BufTy).Contents (Elt F))
    (h_v202 : (W (Proc.devRef .tc main_v202) : (⟨S1048576, .i32⟩ : BufTy).Contents (Elt F)) = val_main_v202 (F := F) x0)
    : (after s3g4p W (Proc.devRef .tc main_v271) : (⟨S1048576x1, .i32⟩ : BufTy).Contents (Elt F)) = val_main_v271 (F := F) x0 := by
  simp only [s3g4p, s3, ops, List.take_succ_cons, List.take_zero, List.drop_succ_cons, List.drop_zero]
  after_results_simp
  rw [h_v202]
  rfl
set_option maxHeartbeats 4000000 in
theorem S3g4p_keeps_arg3 (W : Valuation τ sig (Elt F)) : after s3g4p W (Proc.devRef .tc main_arg3) = W (Proc.devRef .tc main_arg3) := by
  keeps_stretch [s3g4p, s3, ops]
set_option maxHeartbeats 4000000 in
theorem S3g4p_keeps_v207 (W : Valuation τ sig (Elt F)) : after s3g4p W (Proc.devRef .tc main_v207) = W (Proc.devRef .tc main_v207) := by
  keeps_stretch [s3g4p, s3, ops]
set_option maxHeartbeats 4000000 in
theorem S3g4p_keeps_v223 (W : Valuation τ sig (Elt F)) : after s3g4p W (Proc.devRef .tc main_v223) = W (Proc.devRef .tc main_v223) := by
  keeps_stretch [s3g4p, s3, ops]
set_option maxHeartbeats 4000000 in
theorem S3g4p_keeps_v239 (W : Valuation τ sig (Elt F)) : after s3g4p W (Proc.devRef .tc main_v239) = W (Proc.devRef .tc main_v239) := by
  keeps_stretch [s3g4p, s3, ops]
set_option maxHeartbeats 4000000 in
theorem S3g4p_keeps_v255 (W : Valuation τ sig (Elt F)) : after s3g4p W (Proc.devRef .tc main_v255) = W (Proc.devRef .tc main_v255) := by
  keeps_stretch [s3g4p, s3, ops]
set_option maxHeartbeats 4000000 in
theorem S3g4p_keeps_v209 (W : Valuation τ sig (Elt F)) : after s3g4p W (Proc.devRef .tc main_v209) = W (Proc.devRef .tc main_v209) := by
  keeps_stretch [s3g4p, s3, ops]
set_option maxHeartbeats 4000000 in
theorem S3g4c_v273 (W : Valuation τ sig (Elt F)) (x0 : (⟨S8192x128x4, .f32⟩ : BufTy).Contents (Elt F)) (x3 : (⟨S2048x2048, .f32⟩ : BufTy).Contents (Elt F))
    (h_arg3 : (W (Proc.devRef .tc main_arg3) : (⟨S2048x2048, .f32⟩ : BufTy).Contents (Elt F)) = x3)
    (h_v270 : (W (Proc.devRef .tc main_v270) : (⟨S1048576x1, .i32⟩ : BufTy).Contents (Elt F)) = val_main_v270 (F := F) x0)
    (h_v271 : (W (Proc.devRef .tc main_v271) : (⟨S1048576x1, .i32⟩ : BufTy).Contents (Elt F)) = val_main_v271 (F := F) x0)
    : (after s3g4c W (Proc.devRef .tc main_v273) : (⟨S1048576, .f32⟩ : BufTy).Contents (Elt F)) = val_main_v273 (F := F) x0 x3 := by
  simp only [s3g4c, s3, ops, List.take_succ_cons, List.take_zero, List.drop_succ_cons, List.drop_zero]
  after_results_simp
  rw [h_arg3, h_v270, h_v271]
  rfl
set_option maxHeartbeats 4000000 in
theorem S3g4c_keeps_v207 (W : Valuation τ sig (Elt F)) : after s3g4c W (Proc.devRef .tc main_v207) = W (Proc.devRef .tc main_v207) := by
  keeps_stretch [s3g4c, s3, ops]
set_option maxHeartbeats 4000000 in
theorem S3g4c_keeps_v223 (W : Valuation τ sig (Elt F)) : after s3g4c W (Proc.devRef .tc main_v223) = W (Proc.devRef .tc main_v223) := by
  keeps_stretch [s3g4c, s3, ops]
set_option maxHeartbeats 4000000 in
theorem S3g4c_keeps_v239 (W : Valuation τ sig (Elt F)) : after s3g4c W (Proc.devRef .tc main_v239) = W (Proc.devRef .tc main_v239) := by
  keeps_stretch [s3g4c, s3, ops]
set_option maxHeartbeats 4000000 in
theorem S3g4c_keeps_v255 (W : Valuation τ sig (Elt F)) : after s3g4c W (Proc.devRef .tc main_v255) = W (Proc.devRef .tc main_v255) := by
  keeps_stretch [s3g4c, s3, ops]
set_option maxHeartbeats 4000000 in
theorem S3g4c_keeps_v209 (W : Valuation τ sig (Elt F)) : after s3g4c W (Proc.devRef .tc main_v209) = W (Proc.devRef .tc main_v209) := by
  keeps_stretch [s3g4c, s3, ops]
set_option maxHeartbeats 4000000 in
theorem S3l_v288 (W : Valuation τ sig (Elt F)) (x0 : (⟨S8192x128x4, .f32⟩ : BufTy).Contents (Elt F)) (x3 : (⟨S2048x2048, .f32⟩ : BufTy).Contents (Elt F))
    (h_v207 : (W (Proc.devRef .tc main_v207) : (⟨S1048576, .f32⟩ : BufTy).Contents (Elt F)) = val_main_v207 (F := F) x0)
    (h_v209 : (W (Proc.devRef .tc main_v209) : (⟨S1048576, .f32⟩ : BufTy).Contents (Elt F)) = val_main_v209 (F := F) x0)
    (h_v223 : (W (Proc.devRef .tc main_v223) : (⟨S1048576, .f32⟩ : BufTy).Contents (Elt F)) = val_main_v223 (F := F) x0 x3)
    (h_v239 : (W (Proc.devRef .tc main_v239) : (⟨S1048576, .f32⟩ : BufTy).Contents (Elt F)) = val_main_v239 (F := F) x0 x3)
    (h_v255 : (W (Proc.devRef .tc main_v255) : (⟨S1048576, .f32⟩ : BufTy).Contents (Elt F)) = val_main_v255 (F := F) x0 x3)
    (h_v273 : (W (Proc.devRef .tc main_v273) : (⟨S1048576, .f32⟩ : BufTy).Contents (Elt F)) = val_main_v273 (F := F) x0 x3)
    : (after s3l W (Proc.devRef .tc main_v288) : (⟨S1048576, .f32⟩ : BufTy).Contents (Elt F)) = val_main_v288 (F := F) x0 x3 := by
  simp only [s3l, s3, ops, List.take_succ_cons, List.take_zero, List.drop_succ_cons, List.drop_zero]
  after_results_simp
  rw [h_v207, h_v209, h_v223, h_v239, h_v255, h_v273]
  rfl

/-- From a valuation holding the two pixel-coordinate arrays of a state array `x0`, the stretch leaves the sample of the
    table the valuation holds. -/
theorem S3_v288 (W : Valuation τ sig (Elt F)) (x0 : (⟨S8192x128x4, .f32⟩ : BufTy).Contents (Elt F))
    (h12 : (W (Proc.devRef .tc main_v12) : (⟨S1048576, .f32⟩ : BufTy).Contents (Elt F)) = val_main_v12 (F := F) x0)
    (h21 : (W (Proc.devRef .tc main_v21) : (⟨S1048576, .f32⟩ : BufTy).Contents (Elt F)) = val_main_v21 (F := F) x0) :
    (after s3 W (Proc.devRef .tc main_v288) : (⟨S1048576, .f32⟩ : BufTy).Contents (Elt F)) = val_main_v288 (F := F) x0 (W (Proc.devRef .tc main_arg3)) := by
  have a_v205 := S3a_v205 W x0 (W (Proc.devRef .tc main_arg3)) h21
  have a_v202 := S3a_v202 W x0 (W (Proc.devRef .tc main_arg3)) h12
  have a_v207 := S3a_v207 W x0 (W (Proc.devRef .tc main_arg3)) h12
  have a_v209 := S3a_v209 W x0 (W (Proc.devRef .tc main_arg3)) h21
  have a_arg3 := (S3a_keeps_arg3 W).trans (rfl : (W (Proc.devRef .tc main_arg3) : (⟨S2048x2048, .f32⟩ : BufTy).Contents (Elt F)) = W (Proc.devRef .tc main_arg3))
  have g1p_v220 := S3g1p_v220 (after s3a W) x0 (W (Proc.devRef .tc main_arg3)) a_v205
  have g1p_v221 := S3g1p_v221 (after s3a W) x0 (W (Proc.devRef .tc main_arg3)) a_v202
  have g1p_arg3 := (S3g1p_keeps_arg3 (after s3a W)).trans a_arg3
  have g1p_v202 := (S3g1p_keeps_v202 (after s3a W)).trans a_v202
  have g1p_v205 := (S3g1p_keeps_v205 (after s3a W)).trans a_v205
  have g1p_v207 := (S3g1p_keeps_v207 (after s3a W)).trans a_v207
  have g1p_v209 := (S3g1p_keeps_v209 (after s3a W)).trans a_v209
  have g1c_v223 := S3g1c_v223 (after s3g1p (after s3a W)) x0 (W (Proc.devRef .tc main_arg3)) g1p_arg3 g1p_v220 g1p_v221
  have g1c_v202 := (S3g1c_keeps_v202 (after s3g1p (after s3a W))).trans g1p_v202
  have g1c_v205 := (S3g1c_keeps_v205 (after s3g1p (after s3a W))).trans g1p_v205
  have g1c_arg3 := (S3g1c_keeps_arg3 (after s3g1p (after s3a W))).trans g1p_arg3
  have g1c_v207 := (S3g1c_keeps_v207 (after s3g1p (after s3a W))).trans g1p_v207
  have g1c_v209 := (S3g1c_keeps_v209 (after s3g1p (after s3a W))).trans g1p_v209
  have g2p_v236 := S3g2p_v236 (after s3g1c (after s3g1p (after s3a W))) x0 (W (Proc.devRef .tc main_arg3)) g1c_v205
  have g2p_v237 := S3g2p_v237 (after s3g1c (after s3g1p (after s3a W))) x0 (W (Proc.devRef .tc main_arg3)) g1c_v202
  have g2p_arg3 := (S3g2p_keeps_arg3 (after s3g1c (after s3g1p (after s3a W)))).trans g1c_arg3
  have g2p_v205 := (S3g2p_keeps_v205 (after s3g1c (after s3g1p (after s3a W)))).trans g1c_v205
  have g2p_v202 := (S3g2p_keeps_v202 (after s3g1c (after s3g1p (after s3a W)))).trans g1c_v202
  have g2p_v207 := (S3g2p_keeps_v207 (after s3g1c (after s3g1p (after s3a W)))).trans g1c_v207
  have g2p_v223 := (S3g2p_keeps_v223 (after s3g1c (after s3g1p (after s3a W)))).trans g1c_v223
  have g2p_v209 := (S3g2p_keeps_v209 (after s3g1c (after s3g1p (after s3a W)))).trans g1c_v209
  have g2c_v239 := S3g2c_v239 (after s3g2p (after s3g1c (after s3g1p (after s3a W)))) x0 (W (Proc.devRef .tc main_arg3)) g2p_arg3 g2p_v236 g2p_v237
  have g2c_v205 := (S3g2c_keeps_v205 (after s3g2p (after s3g1c (after s3g1p (after s3a W))))).trans g2p_v205
  have g2c_v202 := (S3g2c_keeps_v202 (after s3g2p (after s3g1c (after s3g1p (after s3a W))))).trans g2p_v202
  have g2c_arg3 := (S3g2c_keeps_arg3 (after s3g2p (after s3g1c (after s3g1p (after s3a W))))).trans g2p_arg3
  have g2c_v207 := (S3g2c_keeps_v207 (after s3g2p (after s3g1c (after s3g1p (after s3a W))))).trans g2p_v207
  have g2c_v223 := (S3g2c_keeps_v223 (after s3g2p (after s3g1c (after s3g1p (after s3a W))))).trans g2p_v223
  have g2c_v209 := (S3g2c_keeps_v209 (after s3g2p (after s3g1c (after s3g1p (after s3a W))))).trans g2p_v209
  have g3p_v252 := S3g3p_v252 (after s3g2c (after s3g2p (after s3g1c (after s3g1p (after s3a W))))) x0 (W (Proc.devRef .tc main_arg3)) g2c_v205
  have g3p_v253 := S3g3p_v253 (after s3g2c (after s3g2p (after s3g1c (after s3g1p (after s3a W))))) x0 (W (Proc.devRef .tc main_arg3)) g2c_v202
  have g3p_arg3 := (S3g3p_keeps_arg3 (after s3g2c (after s3g2p (after s3g1c (after s3g1p (after s3a W)))))).trans g2c_arg3
  have g3p_v205 := (S3g3p_keeps_v205 (after s3g2c (after s3g2p (after s3g1c (after s3g1p (after s3a W)))))).trans g2c_v205
  have g3p_v202 := (S3g3p_keeps_v202 (after s3g2c (after s3g2p (after s3g1c (after s3g1p (after s3a W)))))).trans g2c_v202
  have g3p_v207 := (S3g3p_keeps_v207 (after s3g2c (after s3g2p (after s3g1c (after s3g1p (after s3a W)))))).trans g2c_v207
  have g3p_v223 := (S3g3p_keeps_v223 (after s3g2c (after s3g2p (after s3g1c (after s3g1p (after s3a W)))))).trans g2c_v223
  have g3p_v239 := (S3g3p_keeps_v239 (after s3g2c (after s3g2p (after s3g1c (after s3g1p (after s3a W)))))).trans g2c_v239
  have g3p_v209 := (S3g3p_keeps_v209 (after s3g2c (after s3g2p (after s3g1c (after s3g1p (after s3a W)))))).trans g2c_v209
  have g3c_v255 := S3g3c_v255 (after s3g3p (after s3g2c (after s3g2p (after s3g1c (after s3g1p (after s3a W)))))) x0 (W (Proc.devRef .tc main_arg3)) g3p_arg3 g3p_v252 g3p_v253
  have g3c_v205 := (S3g3c_keeps_v205 (after s3g3p (after s3g2c (after s3g2p (after s3g1c (after s3g1p (after s3a W))))))).trans g3p_v205
  have g3c_v202 := (S3g3c_keeps_v202 (after s3g3p (after s3g2c (after s3g2p (after s3g1c (after s3g1p (after s3a W))))))).trans g3p_v202
  have g3c_arg3 := (S3g3c_keeps_arg3 (after s3g3p (after s3g2c (after s3g2p (after s3g1c (after s3g1p (after s3a W))))))).trans g3p_arg3
  have g3c_v207 := (S3g3c_keeps_v207 (after s3g3p (after s3g2c (after s3g2p (after s3g1c (after s3g1p (after s3a W))))))).trans g3p_v207
  have g3c_v223 := (S3g3c_keeps_v223 (after s3g3p (after s3g2c (after s3g2p (after s3g1c (after s3g1p (after s3a W))))))).trans g3p_v223
  have g3c_v239 := (S3g3c_keeps_v239 (after s3g3p (after s3g2c (after s3g2p (after s3g1c (after s3g1p (after s3a W))))))).trans g3p_v239
  have g3c_v209 := (S3g3c_keeps_v209 (after s3g3p (after s3g2c (after s3g2p (after s3g1c (after s3g1p (after s3a W))))))).trans g3p_v209
  have g4p_v270 := S3g4p_v270 (after s3g3c (after s3g3p (after s3g2c (after s3g2p (after s3g1c (after s3g1p (after s3a W))))))) x0 (W (Proc.devRef .tc main_arg3)) g3c_v205
  have g4p_v271 := S3g4p_v271 (after s3g3c (after s3g3p (after s3g2c (after s3g2p (after s3g1c (after s3g1p (after s3a W))))))) x0 (W (Proc.devRef .tc main_arg3)) g3c_v202
  have g4p_arg3 := (S3g4p_keeps_arg3 (after s3g3c (after s3g3p (after s3g2c (after s3g2p (after s3g1c (after s3g1p (after s3a W)))))))).trans g3c_arg3
  have g4p_v207 := (S3g4p_keeps_v207 (after s3g3c (after s3g3p (after s3g2c (after s3g2p (after s3g1c (after s3g1p (after s3a W)))))))).trans g3c_v207
  have g4p_v223 := (S3g4p_keeps_v223 (after s3g3c (after s3g3p (after s3g2c (after s3g2p (after s3g1c (after s3g1p (after s3a W)))))))).trans g3c_v223
  have g4p_v239 := (S3g4p_keeps_v239 (after s3g3c (after s3g3p (after s3g2c (after s3g2p (after s3g1c (after s3g1p (after s3a W)))))))).trans g3c_v239
  have g4p_v255 := (S3g4p_keeps_v255 (after s3g3c (after s3g3p (after s3g2c (after s3g2p (after s3g1c (after s3g1p (after s3a W)))))))).trans g3c_v255
  have g4p_v209 := (S3g4p_keeps_v209 (after s3g3c (after s3g3p (after s3g2c (after s3g2p (after s3g1c (after s3g1p (after s3a W)))))))).trans g3c_v209
  have g4c_v273 := S3g4c_v273 (after s3g4p (after s3g3c (after s3g3p (after s3g2c (after s3g2p (after s3g1c (after s3g1p (after s3a W)))))))) x0 (W (Proc.devRef .tc main_arg3)) g4p_arg3 g4p_v270 g4p_v271
  have g4c_v207 := (S3g4c_keeps_v207 (after s3g4p (after s3g3c (after s3g3p (after s3g2c (after s3g2p (after s3g1c (after s3g1p (after s3a W))))))))).trans g4p_v207
  have g4c_v223 := (S3g4c_keeps_v223 (after s3g4p (after s3g3c (after s3g3p (after s3g2c (after s3g2p (after s3g1c (after s3g1p (after s3a W))))))))).trans g4p_v223
  have g4c_v239 := (S3g4c_keeps_v239 (after s3g4p (after s3g3c (after s3g3p (after s3g2c (after s3g2p (after s3g1c (after s3g1p (after s3a W))))))))).trans g4p_v239
  have g4c_v255 := (S3g4c_keeps_v255 (after s3g4p (after s3g3c (after s3g3p (after s3g2c (after s3g2p (after s3g1c (after s3g1p (after s3a W))))))))).trans g4p_v255
  have g4c_v209 := (S3g4c_keeps_v209 (after s3g4p (after s3g3c (after s3g3p (after s3g2c (after s3g2p (after s3g1c (after s3g1p (after s3a W))))))))).trans g4p_v209
  have l_v288 := S3l_v288 (after s3g4c (after s3g4p (after s3g3c (after s3g3p (after s3g2c (after s3g2p (after s3g1c (after s3g1p (after s3a W))))))))) x0 (W (Proc.devRef .tc main_arg3)) g4c_v207 g4c_v209 g4c_v223 g4c_v239 g4c_v255 g4c_v273
  exact (congrFun (cut3 W) (Proc.devRef .tc main_v288)).trans l_v288

end Cert.ReferenceIdeal.HandRun

end
-- ==== Proof.RefKeep3.lean ====
/-
  The stretch that samples the third table writes none of the buffers the later stretches read, nor an argument.
-/
import proofs.«176869_j84842783965226_2_alg».proof.Proof.RefCut

set_option maxRecDepth 16384

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.LibStages

variable {F : FTy → Type} [FloatOps F]

set_option maxHeartbeats 4000000 in
theorem S3_keeps_v3 (W : Valuation τ sig (Elt F)) : after s3 W (Proc.devRef .tc main_v3) = W (Proc.devRef .tc main_v3) := by
  keeps_stretch [s3, ops]
set_option maxHeartbeats 4000000 in
theorem S3_keeps_v110 (W : Valuation τ sig (Elt F)) : after s3 W (Proc.devRef .tc main_v110) = W (Proc.devRef .tc main_v110) := by
  keeps_stretch [s3, ops]
set_option maxHeartbeats 4000000 in
theorem S3_keeps_v199 (W : Valuation τ sig (Elt F)) : after s3 W (Proc.devRef .tc main_v199) = W (Proc.devRef .tc main_v199) := by
  keeps_stretch [s3, ops]
set_option maxHeartbeats 4000000 in
theorem S3_keeps_arg0 (W : Valuation τ sig (Elt F)) : after s3 W (Proc.devRef .tc main_arg0) = W (Proc.devRef .tc main_arg0) := by
  keeps_stretch [s3, ops]
set_option maxHeartbeats 4000000 in
theorem S3_keeps_arg1 (W : Valuation τ sig (Elt F)) : after s3 W (Proc.devRef .tc main_arg1) = W (Proc.devRef .tc main_arg1) := by
  keeps_stretch [s3, ops]
set_option maxHeartbeats 4000000 in
theorem S3_keeps_arg2 (W : Valuation τ sig (Elt F)) : after s3 W (Proc.devRef .tc main_arg2) = W (Proc.devRef .tc main_arg2) := by
  keeps_stretch [s3, ops]
set_option maxHeartbeats 4000000 in
theorem S3_keeps_arg3 (W : Valuation τ sig (Elt F)) : after s3 W (Proc.devRef .tc main_arg3) = W (Proc.devRef .tc main_arg3) := by
  keeps_stretch [s3, ops]

end Cert.ReferenceIdeal.HandRun

end
-- ==== Proof.RefStageT.lean ====
/-
  The last stretch: from the velocity pair and the three samples, the two results.
-/
import proofs.«176869_j84842783965226_2_alg».proof.Proof.RefCut
import proofs.«176869_j84842783965226_2_alg».proof.Proof.RefReadP

set_option maxRecDepth 16384

noncomputable section

namespace Cert.ReferenceIdeal.HandRun

open Cert.ReferenceIdeal Cert.ReferenceIdeal.Gen Cert.ReferenceIdeal.Read Idealize.ShloMosaic Idealize.ShloMosaic.TcCoe Idealize.SL.Sem Idealize.ShloMosaic.StableHlo
open Cert.LibStages

variable {F : FTy → Type} [FloatOps F]

set_option maxHeartbeats 40000000 in
theorem T_v333 (W : Valuation τ sig (Elt F)) (x0 : (⟨S8192x128x4, .f32⟩ : BufTy).Contents (Elt F)) (x1 x2 x3 : (⟨S2048x2048, .f32⟩ : BufTy).Contents (Elt F))
    (h3 : (W (Proc.devRef .tc main_v3) : (⟨S1048576x2, .f32⟩ : BufTy).Contents (Elt F)) = val_main_v3 (F := F) x0)
    (h110 : (W (Proc.devRef .tc main_v110) : (⟨S1048576, .f32⟩ : BufTy).Contents (Elt F)) = val_main_v110 (F := F) x0 x1)
    (h199 : (W (Proc.devRef .tc main_v199) : (⟨S1048576, .f32⟩ : BufTy).Contents (Elt F)) = val_main_v199 (F := F) x0 x2)
    (h288 : (W (Proc.devRef .tc main_v288) : (⟨S1048576, .f32⟩ : BufTy).Contents (Elt F)) = val_main_v288 (F := F) x0 x3) :
    (after sT W (Proc.devRef .tc main_v333) : (⟨S8192x128, .f32⟩ : BufTy).Contents (Elt F)) = val_main_v333 (F := F) x0 x1 x2 x3 := by
  simp only [sT, ops, List.take_succ_cons, List.take_zero, List.drop_succ_cons, List.drop_zero]
  after_results_simp
  rw [h3, h110, h199, h288]
  rfl
set_option maxHeartbeats 40000000 in
theorem T_v336 (W : Valuation τ sig (Elt F)) (x0 : (⟨S8192x128x4, .f32⟩ : BufTy).Contents (Elt F)) (x1 : (⟨S2048x2048, .f32⟩ : BufTy).Contents (Elt F))
    (h3 : (W (Proc.devRef .tc main_v3) : (⟨S1048576x2, .f32⟩ : BufTy).Contents (Elt F)) = val_main_v3 (F := F) x0)
    (h110 : (W (Proc.devRef .tc main_v110) : (⟨S1048576, .f32⟩ : BufTy).Contents (Elt F)) = val_main_v110 (F := F) x0 x1) :
    (after sT W (Proc.devRef .tc main_v336) : (⟨S8192x128, .f32⟩ : BufTy).Contents (Elt F)) = val_main_v336 (F := F) x0 x1 := by
  simp only [sT, ops, List.take_succ_cons, List.take_zero, List.drop_succ_cons, List.drop_zero]
  after_results_simp
  rw [h3, h110]
  rfl
set_option maxHeartbeats 40000000 in
theorem T_keeps_arg0 (W : Valuation τ sig (Elt F)) : after sT W (Proc.devRef .tc main_arg0) = W (Proc.devRef .tc main_arg0) := by
  keeps_stretch [sT, ops]
set_option maxHeartbeats 40000000 in
theorem T_keeps_arg1 (W : Valuation τ sig (Elt F)) : after sT W (Proc.devRef .tc main_arg1) = W (Proc.devRef .tc main_arg1) := by
  keeps_stretch [sT, ops]
set_option maxHeartbeats 40000000 in
theorem T_keeps_arg2 (W : Valuation τ sig (Elt F)) : after sT W (Proc.devRef .tc main_arg2) = W (Proc.devRef .tc main_arg2) := by
  keeps_stretch [sT, ops]
set_option maxHeartbeats 40000000 in
theorem T_keeps_arg3 (W : Valuation τ sig (Elt F)) : after sT W (Proc.devRef .tc main_arg3) = W (Proc.devRef .tc main_arg3) := by
  keeps_stretch [sT, ops]

end Cert.ReferenceIdeal.HandRun

end
-- ==== Proof.RefStages.lean ====
/-
  The reference's run read back: every weakly fair execution terminates with the two results at the stage functions of
  the four argument arrays (the reading of the operations one at a time), and the arguments unchanged. The five
  stretches are composed: the first leaves the pixel coordinates and the velocity pair, each of the next three (read in ten pieces each) its
  table's sample (the pixel coordinates and the later tables kept meanwhile), the last the two results.
-/
import proofs.«176869_j84842783965226_2_alg».proof.Proof.RefStageA
import proofs.«176869_j84842783965226_2_alg».proof.Proof.RefSub1
import proofs.«176869_j84842783965226_2_alg».proof.Proof.RefKeep1
import proofs.«176869_j84842783965226_2_alg».proof.Proof.RefSub2
import proofs.«176869_j84842783965226_2_alg».proof.Proof.RefKeep2
import proofs.«176869_j84842783965226_2_alg».proof.Proof.RefSub3
import proofs.«176869_j84842783965226_2_alg».proof.Proof.RefKeep3
import proofs.«176869_j84842783965226_2_alg».proof.Proof.RefStageT

set_option maxRecDepth 16384

noncomputable section

namespace Cert.ReferenceIdeal.HandRun

open Cert.ReferenceIdeal Cert.ReferenceIdeal.Gen Cert.ReferenceIdeal.Read Idealize.ShloMosaic Idealize.ShloMosaic.TcCoe Idealize.SL.Sem Idealize.ShloMosaic.StableHlo
open Cert.LibStages

variable {F : FTy → Type} [FloatOps F]

/-- What the first four stretches leave in the velocity pair's buffer. -/
theorem upto_v3 (G : Valuation τ sig (Elt F)) :
    (after s3 (after s2 (after s1 (after sA G))) (Proc.devRef .tc main_v3) : (⟨S1048576x2, .f32⟩ : BufTy).Contents (Elt F)) = val_main_v3 (F := F) (G (Proc.devRef .tc main_arg0)) := by
  rw [S3_keeps_v3, S2_keeps_v3, S1_keeps_v3]; exact A_v3 G

/-- … in the first sample's buffer. -/
theorem upto_v110 (G : Valuation τ sig (Elt F)) :
    (after s3 (after s2 (after s1 (after sA G))) (Proc.devRef .tc main_v110) : (⟨S1048576, .f32⟩ : BufTy).Contents (Elt F))
      = val_main_v110 (F := F) (G (Proc.devRef .tc main_arg0)) (G (Proc.devRef .tc main_arg1)) := by
  rw [S3_keeps_v110, S2_keeps_v110]
  have h := S1_v110 (after sA G) (G (Proc.devRef .tc main_arg0)) (A_v12 G) (A_v21 G)
  rw [A_keeps_arg1] at h
  exact h

/-- … in the second sample's buffer. -/
theorem upto_v199 (G : Valuation τ sig (Elt F)) :
    (after s3 (after s2 (after s1 (after sA G))) (Proc.devRef .tc main_v199) : (⟨S1048576, .f32⟩ : BufTy).Contents (Elt F))
      = val_main_v199 (F := F) (G (Proc.devRef .tc main_arg0)) (G (Proc.devRef .tc main_arg2)) := by
  rw [S3_keeps_v199]
  have h := S2_v199 (after s1 (after sA G)) (G (Proc.devRef .tc main_arg0))
    (by rw [S1_keeps_v12]; exact A_v12 G) (by rw [S1_keeps_v21]; exact A_v21 G)
  rw [S1_keeps_arg2, A_keeps_arg2] at h
  exact h

/-- … in the third sample's buffer. -/
theorem upto_v288 (G : Valuation τ sig (Elt F)) :
    (after s3 (after s2 (after s1 (after sA G))) (Proc.devRef .tc main_v288) : (⟨S1048576, .f32⟩ : BufTy).Contents (Elt F))
      = val_main_v288 (F := F) (G (Proc.devRef .tc main_arg0)) (G (Proc.devRef .tc main_arg3)) := by
  have h := S3_v288 (after s2 (after s1 (after sA G))) (G (Proc.devRef .tc main_arg0))
    (by rw [S2_keeps_v12, S1_keeps_v12]; exact A_v12 G) (by rw [S2_keeps_v21, S1_keeps_v21]; exact A_v21 G)
  rw [S2_keeps_arg3, S1_keeps_arg3, A_keeps_arg3] at h
  exact h

/-- The whole line leaves the first result's stage function of the four arguments in the first result's buffer. -/
theorem whole_v333 (G : Valuation τ sig (Elt F)) :
    (after (ops (F := F)) G (Proc.devRef .tc main_v333) : (⟨S8192x128, .f32⟩ : BufTy).Contents (Elt F))
      = val_main_v333 (F := F) (G (Proc.devRef .tc main_arg0)) (G (Proc.devRef .tc main_arg1)) (G (Proc.devRef .tc main_arg2)) (G (Proc.devRef .tc main_arg3)) :=
  (congrFun (cut G) (Proc.devRef .tc main_v333)).trans
    (T_v333 _ (G (Proc.devRef .tc main_arg0)) (G (Proc.devRef .tc main_arg1)) (G (Proc.devRef .tc main_arg2)) (G (Proc.devRef .tc main_arg3)) (upto_v3 G) (upto_v110 G) (upto_v199 G) (upto_v288 G))

/-- The whole line leaves the second result's stage function in the second result's buffer. -/
theorem whole_v336 (G : Valuation τ sig (Elt F)) :
    (after (ops (F := F)) G (Proc.devRef .tc main_v336) : (⟨S8192x128, .f32⟩ : BufTy).Contents (Elt F))
      = val_main_v336 (F := F) (G (Proc.devRef .tc main_arg0)) (G (Proc.devRef .tc main_arg1)) :=
  (congrFun (cut G) (Proc.devRef .tc main_v336)).trans
    (T_v336 _ (G (Proc.devRef .tc main_arg0)) (G (Proc.devRef .tc main_arg1)) (upto_v3 G) (upto_v110 G))

/-- No operation writes argument 0. -/
theorem whole_keeps_arg0 (G : Valuation τ sig (Elt F)) :
    after (ops (F := F)) G (Proc.devRef .tc main_arg0) = G (Proc.devRef .tc main_arg0) := by
  rw [cut, T_keeps_arg0, S3_keeps_arg0, S2_keeps_arg0, S1_keeps_arg0, A_keeps_arg0]

/-- No operation writes argument 1. -/
theorem whole_keeps_arg1 (G : Valuation τ sig (Elt F)) :
    after (ops (F := F)) G (Proc.devRef .tc main_arg1) = G (Proc.devRef .tc main_arg1) := by
  rw [cut, T_keeps_arg1, S3_keeps_arg1, S2_keeps_arg1, S1_keeps_arg1, A_keeps_arg1]

/-- No operation writes argument 2. -/
theorem whole_keeps_arg2 (G : Valuation τ sig (Elt F)) :
    after (ops (F := F)) G (Proc.devRef .tc main_arg2) = G (Proc.devRef .tc main_arg2) := by
  rw [cut, T_keeps_arg2, S3_keeps_arg2, S2_keeps_arg2, S1_keeps_arg2, A_keeps_arg2]

/-- No operation writes argument 3. -/
theorem whole_keeps_arg3 (G : Valuation τ sig (Elt F)) :
    after (ops (F := F)) G (Proc.devRef .tc main_arg3) = G (Proc.devRef .tc main_arg3) := by
  rw [cut, T_keeps_arg3, S3_keeps_arg3, S2_keeps_arg3, S1_keeps_arg3, A_keeps_arg3]

/-- THE REFERENCE'S RUN: on every device, from any memory with zero counters, every weakly fair execution terminates
    with the two results at the stage functions of the four arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v333) = val_main_v333 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v336) = val_main_v336 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c main_v333).trans (whole_v333 (launchContents m c)),
       (h c main_v336).trans (whole_v336 (launchContents m c)),
       (h c main_arg0).trans (whole_keeps_arg0 (launchContents m c)),
       (h c main_arg1).trans (whole_keeps_arg1 (launchContents m c)),
       (h c main_arg2).trans (whole_keeps_arg2 (launchContents m c)),
       (h c main_arg3).trans (whole_keeps_arg3 (launchContents m c))⟩)
    (run_fold m ρ)

end Cert.ReferenceIdeal.HandRun

end
-- ==== Proof.KHost.lean ====
/-
  The host side of the kernel's program, as whole-array functions of the four argument arrays.

  Before its one region the program computes five [8192,128] arrays from the arguments: the three bilinear samples
  (of the tables packed as the channels of one [2048,2048,4] table: channel 0 the first table, channel 1 the
  THIRD argument table, channel 2 the second, channel 3 zeros) and the two velocity channels of the state array.
  Each stage below is one step of that computation, over whole arrays, spelt as the program spells it.
-/
import proofs.«176869_j84842783965226_2_alg».proof.Proof.Gen.KernelIdeal.Launch
import Idealize.ShloMosaic.Lib.StableHlo.Run

noncomputable section

namespace Cert.KernelIdeal.HostVal

open Cert.KernelIdeal Cert.KernelIdeal.Gen Idealize.ShloMosaic Idealize.ShloMosaic.TcCoe Idealize.SL.Sem Idealize.ShloMosaic.StableHlo

variable {F : FTy → Type} [FloatOps F]

/-- A [8192,128] float array, a [8192,128] integer array, and so on. -/
abbrev C2 (F : FTy → Type) := S8192x128.Idx → F .f32
abbrev I2 := S8192x128.Idx → BitVec 32

/-- Channel `k` (0 … 3) of the state array, as a [8192,128] array. -/
def chan0 (a0 : S8192x128x4.Idx → F .f32) : C2 F :=
  shapeCast S8192x128 (extractStridedSlice S8192x128x1 ![0, 0, 0] a0 slices_S8192x128x4_S8192x128x1_0_0_0) shapeCasts_S8192x128x1_S8192x128
def chan1 (a0 : S8192x128x4.Idx → F .f32) : C2 F :=
  shapeCast S8192x128 (extractStridedSlice S8192x128x1 ![0, 0, 1] a0 slices_S8192x128x4_S8192x128x1_0_0_1) shapeCasts_S8192x128x1_S8192x128
def chan2 (a0 : S8192x128x4.Idx → F .f32) : C2 F :=
  shapeCast S8192x128 (extractStridedSlice S8192x128x1 ![0, 0, 2] a0 slices_S8192x128x4_S8192x128x1_0_0_2) shapeCasts_S8192x128x1_S8192x128
def chan3 (a0 : S8192x128x4.Idx → F .f32) : C2 F :=
  shapeCast S8192x128 (extractStridedSlice S8192x128x1 ![0, 0, 3] a0 slices_S8192x128x4_S8192x128x1_0_0_3) shapeCasts_S8192x128x1_S8192x128

/-- World coordinates to clipped pixel coordinates, entry by entry: min (2047, max (0, ((p + 1) / 2)·2047)). -/
def pixA (p : C2 F) : C2 F :=
  minimumf (broadcastInDim S8192x128 ![] bcast_S_S8192x128 (id (constant (F := F) S_ .f32 0x44FFE000#32)))
    (maximumf (broadcastInDim S8192x128 ![] bcast_S_S8192x128 (id (constant (F := F) S_ .f32 0x00000000#32)))
      (mulf (Host.divf (subf p (broadcastInDim S8192x128 ![] bcast_S_S8192x128 (constant (F := F) S_ .f32 0xBF800000#32)))
          (broadcastInDim S8192x128 ![] bcast_S_S8192x128 (constant (F := F) S_ .f32 0x40000000#32)))
        (broadcastInDim S8192x128 ![] bcast_S_S8192x128 (constant (F := F) S_ .f32 0x44FFE000#32))))

/-- The cell of each pixel coordinate: its floor as an integer, held in [0, 2046]. -/
def cellA (q : C2 F) : I2 :=
  minsi (broadcastInDim S8192x128 ![] bcast_S_S8192x128 (id (constantI S_ 32 2046#32)))
    (maxsi (broadcastInDim S8192x128 ![] bcast_S_S8192x128 (id (constantI S_ 32 0#32))) (fptosi 32 (Host.floor q)))

/-- A pixel coordinate less a cell (as a float), entry by entry; with the coordinate's own cell, its fraction. -/
def fracOf (q : C2 F) (c : I2) : C2 F := subf q (sitofp .f32 c)
def fracA (q : C2 F) : C2 F := fracOf q (cellA q)

/-- A negative index counts from the end (i + 2048), on [8192,128,1] and on [8192,128,2] integer arrays. -/
def wrap1 (y : S8192x128x1.Idx → BitVec 32) : S8192x128x1.Idx → BitVec 32 :=
  select (cmpi .slt y (broadcastInDim S8192x128x1 ![] bcast_S_S8192x128x1 (constantI S_ 32 0#32)))
    (addi y (broadcastInDim S8192x128x1 ![] bcast_S_S8192x128x1 (constantI S_ 32 2048#32))) y
def wrap2 (x : S8192x128x2.Idx → BitVec 32) : S8192x128x2.Idx → BitVec 32 :=
  select (cmpi .slt x (broadcastInDim S8192x128x2 ![] bcast_S_S8192x128x2 (constantI S_ 32 0#32)))
    (addi x (broadcastInDim S8192x128x2 ![] bcast_S_S8192x128x2 (constantI S_ 32 2048#32))) x

/-- The column cell and its successor side by side: [8192,128,2], entry k being x0 + k. -/
def colPair (x0 : I2) : S8192x128x2.Idx → BitVec 32 :=
  addi (broadcastInDim S8192x128x2 ![0, 1, 2] bcast_S8192x128x1_S8192x128x2_0_1_2 (broadcastInDim S8192x128x1 ![0, 1] bcast_S8192x128_S8192x128x1_0_1 x0))
    (broadcastInDim S8192x128x2 ![0, 1, 2] bcast_S1x1x2_S8192x128x2_0_1_2 (broadcastInDim S1x1x2 ![2] bcast_S2_S1x1x2_2 (iotaInDim S2 32 0)))

/-- The row cell as a [8192,128,1] column, and its successor. -/
def rowCol (y0 : I2) : S8192x128x1.Idx → BitVec 32 := broadcastInDim S8192x128x1 ![0, 1] bcast_S8192x128_S8192x128x1_0_1 y0
def rowNext (y0 : I2) : S8192x128x1.Idx → BitVec 32 :=
  addi (rowCol y0) (broadcastInDim S8192x128x1 ![] bcast_S_S8192x128x1 (constantI S_ 32 1#32))

/-- The start indices of one gather: at (b, t, k) the pair (row, column k), both already wrapped. -/
def startIdx (row : S8192x128x1.Idx → BitVec 32) (cols : S8192x128x2.Idx → BitVec 32) : S8192x128x2x2.Idx → BitVec 32 :=
  concatenate S8192x128x2x2 3
    [⟨S8192x128x2x1, broadcastInDim S8192x128x2x1 ![0, 1, 2] bcast_S8192x128x2_S8192x128x2x1_0_1_2 (broadcastInDim S8192x128x2 ![0, 1, 2] bcast_S8192x128x1_S8192x128x2_0_1_2 row)⟩,
     ⟨S8192x128x2x1, broadcastInDim S8192x128x2x1 ![0, 1, 2] bcast_S8192x128x2_S8192x128x2x1_0_1_2 cols⟩]
    concatenates_S8192x128x2x1_S8192x128x2x1_S8192x128x2x2_d3

/-- The three tables and a table of zeros as the four channels of one [2048,2048,4] table (channel 1 is the THIRD
    argument table, channel 2 the second). -/
def table4 (a1 a2 a3 : S2048x2048.Idx → F .f32) : S2048x2048x4.Idx → F .f32 :=
  concatenate S2048x2048x4 2
    [⟨S2048x2048x1, broadcastInDim S2048x2048x1 ![0, 1] bcast_S2048x2048_S2048x2048x1_0_1 a1⟩,
     ⟨S2048x2048x1, broadcastInDim S2048x2048x1 ![0, 1] bcast_S2048x2048_S2048x2048x1_0_1 a3⟩,
     ⟨S2048x2048x1, broadcastInDim S2048x2048x1 ![0, 1] bcast_S2048x2048_S2048x2048x1_0_1 a2⟩,
     ⟨S2048x2048x1, broadcastInDim S2048x2048x1 ![0, 1] bcast_S2048x2048_S2048x2048x1_0_1
        (broadcastInDim S2048x2048 ![] bcast_S_S2048x2048 (constant (F := F) S_ .f32 0x00000000#32))⟩]
    concatenates_S2048x2048x1_S2048x2048x1_S2048x2048x1_S2048x2048x1_S2048x2048x4_d2

/-- The table's rows gathered at the start indices: [8192,128,2,4]. -/
def gathered (tbl : S2048x2048x4.Idx → F .f32) (idx : S8192x128x2x2.Idx → BitVec 32) : S8192x128x2x4.Idx → F .f32 :=
  Host.gather gather_S2048x2048x4_S8192x128x2x2_S8192x128x2x4_3_01_n_n_01_3_114 tbl idx

/-- Corner k = 0 or 1 of a gathered pair, as a [8192,128,4] array. -/
def corner0 (g : S8192x128x2x4.Idx → F .f32) : S8192x128x4.Idx → F .f32 :=
  shapeCast S8192x128x4 (extractStridedSlice S8192x128x1x4 ![0, 0, 0, 0] g slices_S8192x128x2x4_S8192x128x1x4_0_0_0_0) shapeCasts_S8192x128x1x4_S8192x128x4
def corner1 (g : S8192x128x2x4.Idx → F .f32) : S8192x128x4.Idx → F .f32 :=
  shapeCast S8192x128x4 (extractStridedSlice S8192x128x1x4 ![0, 0, 1, 0] g slices_S8192x128x2x4_S8192x128x1x4_0_0_1_0) shapeCasts_S8192x128x1x4_S8192x128x4

/-- A [8192,128] fraction as a [8192,128,1] column; that column, or one minus it, across the four channels. -/
def fcol (f : C2 F) : S8192x128x1.Idx → F .f32 := broadcastInDim S8192x128x1 ![0, 1] bcast_S8192x128_S8192x128x1_0_1 f
def across (f : S8192x128x1.Idx → F .f32) : S8192x128x4.Idx → F .f32 := broadcastInDim S8192x128x4 ![0, 1, 2] bcast_S8192x128x1_S8192x128x4_0_1_2 f
def oneMinus (f : S8192x128x1.Idx → F .f32) : S8192x128x1.Idx → F .f32 :=
  subf (broadcastInDim S8192x128x1 ![] bcast_S_S8192x128x1 (constant (F := F) S_ .f32 0x3F800000#32)) f

/-- u·(1 - f) + v·f on [8192,128,4] arrays, the fraction a [8192,128,1] column. -/
def mix (u v : S8192x128x4.Idx → F .f32) (f : S8192x128x1.Idx → F .f32) : S8192x128x4.Idx → F .f32 :=
  addf (mulf u (across (oneMinus f))) (mulf v (across f))

/-- The interpolation of two gathered corner pairs (rows y0 and y0 + 1) by the two fractions, all four channels at once. -/
def lerpA (g0 g1 : S8192x128x2x4.Idx → F .f32) (fx fy : C2 F) : S8192x128x4.Idx → F .f32 :=
  mix (mix (corner0 g0) (corner1 g0) (fcol fx)) (mix (corner0 g1) (corner1 g1) (fcol fx)) (fcol fy)

/-- Channel 0, 1, 2 of a [8192,128,4] array, as a [8192,128] array. -/
def pick0 (x : S8192x128x4.Idx → F .f32) : C2 F :=
  shapeCast S8192x128 (extractStridedSlice S8192x128x1 ![0, 0, 0] x slices_S8192x128x4_S8192x128x1_0_0_0) shapeCasts_S8192x128x1_S8192x128
def pick1 (x : S8192x128x4.Idx → F .f32) : C2 F :=
  shapeCast S8192x128 (extractStridedSlice S8192x128x1 ![0, 0, 1] x slices_S8192x128x4_S8192x128x1_0_0_1) shapeCasts_S8192x128x1_S8192x128
def pick2 (x : S8192x128x4.Idx → F .f32) : C2 F :=
  shapeCast S8192x128 (extractStridedSlice S8192x128x1 ![0, 0, 2] x slices_S8192x128x4_S8192x128x1_0_0_2) shapeCasts_S8192x128x1_S8192x128

/-- The two gathers' start indices from the two cell arrays: rows y0 (resp. y0 + 1), columns x0 and x0 + 1. -/
def idxTop (x0 y0 : I2) : S8192x128x2x2.Idx → BitVec 32 := startIdx (wrap1 (rowCol y0)) (wrap2 (colPair x0))
def idxBot (x0 y0 : I2) : S8192x128x2x2.Idx → BitVec 32 := startIdx (wrap1 (rowNext y0)) (wrap2 (colPair x0))

/-- The bilinear samples of all four channels at once: [8192,128,4]. -/
def sampled (a0 : S8192x128x4.Idx → F .f32) (a1 a2 a3 : S2048x2048.Idx → F .f32) : S8192x128x4.Idx → F .f32 :=
  lerpA (gathered (table4 a1 a2 a3) (idxTop (cellA (pixA (chan0 a0))) (cellA (pixA (chan1 a0)))))
    (gathered (table4 a1 a2 a3) (idxBot (cellA (pixA (chan0 a0))) (cellA (pixA (chan1 a0)))))
    (fracA (pixA (chan0 a0))) (fracA (pixA (chan1 a0)))

/-- Channel 0, 1, 2 of the samples, as [8192,128] arrays. -/
def sampled0 (a0 : S8192x128x4.Idx → F .f32) (a1 a2 a3 : S2048x2048.Idx → F .f32) : C2 F := pick0 (sampled a0 a1 a2 a3)
def sampled1 (a0 : S8192x128x4.Idx → F .f32) (a1 a2 a3 : S2048x2048.Idx → F .f32) : C2 F := pick1 (sampled a0 a1 a2 a3)
def sampled2 (a0 : S8192x128x4.Idx → F .f32) (a1 a2 a3 : S2048x2048.Idx → F .f32) : C2 F := pick2 (sampled a0 a1 a2 a3)

end Cert.KernelIdeal.HostVal

end
-- ==== Proof.Spec.lean ====
/-
  The sampling arithmetic shared by the two programs, one entry at a time.

  A world coordinate p becomes the pixel coordinate  pix p = min (2047, max (0, ((p - (-1)) / 2) * 2047)).
  Its cell is the integer  cell q = min (2046, max (0, ⌊q⌋ as a 32-bit integer))  and its fraction is
  frac q = q - (cell q as a float). A table entry is addressed by two 32-bit integers, each first wrapped
  (a negative i becomes i + 2048) and then, read as a signed integer, clamped into [0, 2047].
  The bilinear sample of a table A at (px, py) is
     (A[y0, x0]·(1 - fx) + A[y0, x0+1]·fx)·(1 - fy) + (A[y0+1, x0]·(1 - fx) + A[y0+1, x0+1]·fx)·fy
  with x0 = cell px, y0 = cell py, fx = frac px, fy = frac py.
  Literals are kept as their words; the operations are the float interpretation's own.
-/
import Idealize.ShloMosaic.PureOps
import Idealize.ShloMosaic.Lib.ValueIdx

noncomputable section

namespace Cert.Spec

open Idealize.ShloMosaic Idealize.ShloMosaic.ValueIdx

variable {F : FTy → Type} [FloatOps F]

/-- The pixel coordinate of a world coordinate: min (2047, max (0, ((p + 1) / 2) · 2047)). -/
def pix (p : F .f32) : F .f32 :=
  FloatOps.minimumf (FloatOps.ofBits .f32 0x44FFE000#32)
    (FloatOps.maximumf (FloatOps.ofBits .f32 0x00000000#32)
      (FloatOps.mulf (FloatOps.hostDivf (FloatOps.subf p (FloatOps.ofBits .f32 0xBF800000#32)) (FloatOps.ofBits .f32 0x40000000#32))
        (FloatOps.ofBits .f32 0x44FFE000#32)))

/-- The cell of a pixel coordinate: its floor as a 32-bit integer, held in [0, 2046]. -/
def cell (q : F .f32) : BitVec 32 :=
  IntOp.minsi 2046#32 (IntOp.maxsi 0#32 (FloatOps.fptosi 32 (FloatOps.hostUnary .floor q)))

/-- The fraction of a pixel coordinate inside its cell. -/
def frac (q : F .f32) : F .f32 := FloatOps.subf q (FloatOps.sitofp .f32 (cell q))

/-- A negative table index counts from the end: i + 2048 when i < 0. -/
def wrap (i : BitVec 32) : BitVec 32 := Scalar.select (IntOp.cmpi .slt i 0#32) (IntOp.addi i 2048#32) i

/-- The successor cell. -/
def next (i : BitVec 32) : BitVec 32 := IntOp.addi i 1#32

/-- A 32-bit start index read signed and clamped into [0, n - 1]. -/
def clampIx (n : Nat) (hn : 0 < n) (i : BitVec 32) : Fin n := ⟨min i.toInt.toNat (n - 1), by omega⟩

/-- The interpolation of four corner values by the two fractions. -/
def lerp2 (v00 v01 v10 v11 fx fy : F .f32) : F .f32 :=
  FloatOps.addf
    (FloatOps.mulf (FloatOps.addf (FloatOps.mulf v00 (FloatOps.subf (FloatOps.ofBits .f32 0x3F800000#32) fx)) (FloatOps.mulf v01 fx))
      (FloatOps.subf (FloatOps.ofBits .f32 0x3F800000#32) fy))
    (FloatOps.mulf (FloatOps.addf (FloatOps.mulf v10 (FloatOps.subf (FloatOps.ofBits .f32 0x3F800000#32) fx)) (FloatOps.mulf v11 fx))
      fy)

/-- A table entry at a pair of 32-bit indices (row, column), each wrapped, then clamped. -/
def entry (A : (⟨2, ![2048, 2048]⟩ : Shape).Idx → F .f32) (y x : BitVec 32) : F .f32 :=
  A (ix2 (clampIx 2048 (by decide) (wrap y)) (clampIx 2048 (by decide) (wrap x)))

/-- The bilinear sample of the table `A` at the pixel coordinates (px, py). -/
def sample (A : (⟨2, ![2048, 2048]⟩ : Shape).Idx → F .f32) (px py : F .f32) : F .f32 :=
  lerp2 (entry A (cell py) (cell px)) (entry A (cell py) (next (cell px)))
    (entry A (next (cell py)) (cell px)) (entry A (next (cell py)) (next (cell px))) (frac px) (frac py)

end Cert.Spec

end
-- ==== Proof.LibGatherPoints.lean ====
/-
  A gather of POINTS read at an index.

  `stablehlo.gather` with both leading operand axes collapsed and named by the start index (start_index_map [0, 1],
  slice sizes 1 on both): each result element reads the operand at the (row, column) its start index names, each
  component read as a signed integer and clamped into the axis (StableHLO clamps every start index).
  Two forms: a rank-2 operand [H, W] at start indices [N, 2] (index vector on the last axis) giving [N]; and a
  rank-3 operand [H, W, C] whose trailing axis is kept whole (slice size C, one offset axis) at start indices
  [B, T, K, 2] giving [B, T, K, C]. Generic in the extents; the records' conditions `wf` are decided on literal shapes.
-/
import Idealize.ShloMosaic.PureOps
import Idealize.ShloMosaic.Lib.ValueIdx

noncomputable section

namespace Cert.LibGatherPoints

open Idealize.ShloMosaic Idealize.ShloMosaic.ValueIdx

variable {α : Type}

/-! ## A rank-2 operand -/

/-- The dimension numbers of a point gather from `[H, W]` at start indices `[N, 2]` into `[N]`. -/
abbrev pointDims2 (H W N : Nat)
    (wf : GatherDims.WF ⟨2, ![H, W]⟩ ⟨2, ![N, 2]⟩ ⟨1, ![N]⟩ [] [0, 1] [] [0, 1] [] 1 ![1, 1]) :
    GatherDims ⟨2, ![H, W]⟩ ⟨2, ![N, 2]⟩ ⟨1, ![N]⟩ where
  offsetDims := []
  collapsedSliceDims := [0, 1]
  operandBatchingDims := []
  startIndicesBatchingDims := []
  startIndexMap := [0, 1]
  indexVectorDim := 1
  sliceSizes := ![1, 1]
  wf := wf

section Two
variable {H W N w : Nat}
  (wf : GatherDims.WF ⟨2, ![H, W]⟩ ⟨2, ![N, 2]⟩ ⟨1, ![N]⟩ [] [0, 1] [] [0, 1] [] 1 ![1, 1])
  (idx : IVec ⟨2, ![N, 2]⟩ w) (n : Fin N)

/-- The operand row a result element reads: component 0 of its start index, signed, clamped. -/
theorem row2 : ((pointDims2 H W N wf).operandIdx (ix1 n) idx (0 : Fin 2)).val
    = min (idx (ix2 n (0 : Fin 2))).toInt.toNat (H - 1) := by
  show (pointDims2 H W N wf).start (ix1 n) idx 0 + (pointDims2 H W N wf).batchCoord (ix1 n) 0
      + (pointDims2 H W N wf).offCoord (ix1 n) 0 = _
  rw [GatherDims.batchCoord_eq_zero _ _ _ List.not_mem_nil,
    GatherDims.offCoord_eq_zero _ _ _ (fun h => ((GatherDims.mem_sKept _ _).mp h).1 List.mem_cons_self)]
  simp only [Nat.add_zero]
  unfold GatherDims.start
  rw [dif_pos (show (0 : Fin 2) ∈ (pointDims2 H W N wf).startIndexMap from List.mem_cons_self)]
  have hsi : (pointDims2 H W N wf).siIdx (ix1 n) ⟨List.idxOf (0 : Fin 2) (pointDims2 H W N wf).startIndexMap,
      List.idxOf_lt_length_iff.2 List.mem_cons_self⟩ = ix2 n (0 : Fin 2) := by
    funext b; refine Fin.ext ?_
    match b with
    | ⟨0, _⟩ => rfl
    | ⟨1, _⟩ => rfl
  rw [hsi]
  rfl

/-- The operand column a result element reads: component 1 of its start index, signed, clamped. -/
theorem col2 : ((pointDims2 H W N wf).operandIdx (ix1 n) idx (1 : Fin 2)).val
    = min (idx (ix2 n (1 : Fin 2))).toInt.toNat (W - 1) := by
  show (pointDims2 H W N wf).start (ix1 n) idx 1 + (pointDims2 H W N wf).batchCoord (ix1 n) 1
      + (pointDims2 H W N wf).offCoord (ix1 n) 1 = _
  rw [GatherDims.batchCoord_eq_zero _ _ _ List.not_mem_nil,
    GatherDims.offCoord_eq_zero _ _ _ (fun h => ((GatherDims.mem_sKept _ _).mp h).1 (List.mem_cons_of_mem _ List.mem_cons_self))]
  simp only [Nat.add_zero]
  unfold GatherDims.start
  rw [dif_pos (show (1 : Fin 2) ∈ (pointDims2 H W N wf).startIndexMap from List.mem_cons_of_mem _ List.mem_cons_self)]
  have hsi : (pointDims2 H W N wf).siIdx (ix1 n) ⟨List.idxOf (1 : Fin 2) (pointDims2 H W N wf).startIndexMap,
      List.idxOf_lt_length_iff.2 (List.mem_cons_of_mem _ List.mem_cons_self)⟩ = ix2 n (1 : Fin 2) := by
    funext b; refine Fin.ext ?_
    match b with
    | ⟨0, _⟩ => rfl
    | ⟨1, _⟩ => rfl
  rw [hsi]
  rfl

/-- THE POINT GATHER READ AT `n`: the operand at (row, column) = the two components of start index `n`, each read
    signed and clamped into its axis. -/
theorem gather_points2_apply (hH : 0 < H) (hW : 0 < W) (x : (⟨2, ![H, W]⟩ : Shape).Idx → α) :
    Host.gather (pointDims2 H W N wf) x idx (ix1 n)
      = x (ix2 ⟨min (idx (ix2 n (0 : Fin 2))).toInt.toNat (H - 1), by omega⟩
               ⟨min (idx (ix2 n (1 : Fin 2))).toInt.toNat (W - 1), by omega⟩) := by
  unfold Host.gather
  refine congrArg x (funext fun a => Fin.ext ?_)
  match a with
  | ⟨0, _⟩ => exact row2 wf idx n
  | ⟨1, _⟩ => exact col2 wf idx n

end Two

/-! ## A rank-3 operand whose trailing axis is kept whole -/

/-- The dimension numbers of a point gather from `[H, W, C]`, the trailing axis kept whole, at start indices
    `[B, T, K, 2]` into `[B, T, K, C]`. -/
abbrev pointDims3 (H W C B T K : Nat)
    (wf : GatherDims.WF ⟨3, ![H, W, C]⟩ ⟨4, ![B, T, K, 2]⟩ ⟨4, ![B, T, K, C]⟩ [3] [0, 1] [] [0, 1] [] 3 ![1, 1, C]) :
    GatherDims ⟨3, ![H, W, C]⟩ ⟨4, ![B, T, K, 2]⟩ ⟨4, ![B, T, K, C]⟩ where
  offsetDims := [3]
  collapsedSliceDims := [0, 1]
  operandBatchingDims := []
  startIndicesBatchingDims := []
  startIndexMap := [0, 1]
  indexVectorDim := 3
  sliceSizes := ![1, 1, C]
  wf := wf

section Three
variable {H W C B T K w : Nat}
  (wf : GatherDims.WF ⟨3, ![H, W, C]⟩ ⟨4, ![B, T, K, 2]⟩ ⟨4, ![B, T, K, C]⟩ [3] [0, 1] [] [0, 1] [] 3 ![1, 1, C])
  (idx : IVec ⟨4, ![B, T, K, 2]⟩ w) (b : Fin B) (t : Fin T) (k : Fin K) (ch : Fin C)

/-- The operand row a result element reads: component 0 of its start index, signed, clamped. -/
theorem row3 : ((pointDims3 H W C B T K wf).operandIdx (ix4 b t k ch) idx (0 : Fin 3)).val
    = min (idx (ix4 b t k (0 : Fin 2))).toInt.toNat (H - 1) := by
  show (pointDims3 H W C B T K wf).start (ix4 b t k ch) idx 0 + (pointDims3 H W C B T K wf).batchCoord (ix4 b t k ch) 0
      + (pointDims3 H W C B T K wf).offCoord (ix4 b t k ch) 0 = _
  rw [GatherDims.batchCoord_eq_zero _ _ _ List.not_mem_nil,
    GatherDims.offCoord_eq_zero _ _ _ (fun h => ((GatherDims.mem_sKept _ _).mp h).1 List.mem_cons_self)]
  simp only [Nat.add_zero]
  unfold GatherDims.start
  rw [dif_pos (show (0 : Fin 3) ∈ (pointDims3 H W C B T K wf).startIndexMap from List.mem_cons_self)]
  have hsi : (pointDims3 H W C B T K wf).siIdx (ix4 b t k ch) ⟨List.idxOf (0 : Fin 3) (pointDims3 H W C B T K wf).startIndexMap,
      List.idxOf_lt_length_iff.2 List.mem_cons_self⟩ = ix4 b t k (0 : Fin 2) := by
    funext e; refine Fin.ext ?_
    match e with
    | ⟨0, _⟩ => rfl
    | ⟨1, _⟩ => rfl
    | ⟨2, _⟩ => rfl
    | ⟨3, _⟩ => rfl
  rw [hsi]
  rfl

/-- The operand column a result element reads: component 1 of its start index, signed, clamped. -/
theorem col3 : ((pointDims3 H W C B T K wf).operandIdx (ix4 b t k ch) idx (1 : Fin 3)).val
    = min (idx (ix4 b t k (1 : Fin 2))).toInt.toNat (W - 1) := by
  show (pointDims3 H W C B T K wf).start (ix4 b t k ch) idx 1 + (pointDims3 H W C B T K wf).batchCoord (ix4 b t k ch) 1
      + (pointDims3 H W C B T K wf).offCoord (ix4 b t k ch) 1 = _
  rw [GatherDims.batchCoord_eq_zero _ _ _ List.not_mem_nil,
    GatherDims.offCoord_eq_zero _ _ _ (fun h => ((GatherDims.mem_sKept _ _).mp h).1 (List.mem_cons_of_mem _ List.mem_cons_self))]
  simp only [Nat.add_zero]
  unfold GatherDims.start
  rw [dif_pos (show (1 : Fin 3) ∈ (pointDims3 H W C B T K wf).startIndexMap from List.mem_cons_of_mem _ List.mem_cons_self)]
  have hsi : (pointDims3 H W C B T K wf).siIdx (ix4 b t k ch) ⟨List.idxOf (1 : Fin 3) (pointDims3 H W C B T K wf).startIndexMap,
      List.idxOf_lt_length_iff.2 (List.mem_cons_of_mem _ List.mem_cons_self)⟩ = ix4 b t k (1 : Fin 2) := by
    funext e; refine Fin.ext ?_
    match e with
    | ⟨0, _⟩ => rfl
    | ⟨1, _⟩ => rfl
    | ⟨2, _⟩ => rfl
    | ⟨3, _⟩ => rfl
  rw [hsi]
  rfl

/-- On the kept trailing axis a result element reads its own trailing coordinate. -/
theorem chan3 : ((pointDims3 H W C B T K wf).operandIdx (ix4 b t k ch) idx (2 : Fin 3)).val = ch.val := by
  show (pointDims3 H W C B T K wf).start (ix4 b t k ch) idx 2 + (pointDims3 H W C B T K wf).batchCoord (ix4 b t k ch) 2
      + (pointDims3 H W C B T K wf).offCoord (ix4 b t k ch) 2 = _
  rw [GatherDims.batchCoord_eq_zero _ _ _ List.not_mem_nil]
  have hnot : (2 : Fin 3) ∉ (pointDims3 H W C B T K wf).startIndexMap :=
    (by decide : (2 : Fin 3) ∉ ([0, 1] : List (Fin 3)))
  have hk : (2 : Fin 3) ∈ (pointDims3 H W C B T K wf).sKept :=
    (GatherDims.mem_sKept _ _).mpr ⟨(by decide : (2 : Fin 3) ∉ ([0, 1] : List (Fin 3))), List.not_mem_nil⟩
  unfold GatherDims.start GatherDims.offCoord
  rw [dif_neg hnot, dif_pos hk]
  simp only [Nat.add_zero, Nat.zero_add]
  rfl

/-- THE POINT GATHER WITH A KEPT TRAILING AXIS READ AT `(b, t, k, ch)`: the operand at (row, column, ch), row and
    column the two components of start index `(b, t, k)`, each read signed and clamped into its axis. -/
theorem gather_points3_apply (hH : 0 < H) (hW : 0 < W) (x : (⟨3, ![H, W, C]⟩ : Shape).Idx → α) :
    Host.gather (pointDims3 H W C B T K wf) x idx (ix4 b t k ch)
      = x (ix3 ⟨min (idx (ix4 b t k (0 : Fin 2))).toInt.toNat (H - 1), by omega⟩
               ⟨min (idx (ix4 b t k (1 : Fin 2))).toInt.toNat (W - 1), by omega⟩ ch) := by
  unfold Host.gather
  refine congrArg x (funext fun a => Fin.ext ?_)
  match a with
  | ⟨0, _⟩ => exact row3 wf idx b t k ch
  | ⟨1, _⟩ => exact col3 wf idx b t k ch
  | ⟨2, _⟩ => exact chan3 wf idx b t k ch

end Three

end Cert.LibGatherPoints

end
-- ==== Proof.KHostAt.lean ====
/-
  The host side of the kernel's program read at an index.

  Each stage of `HostVal` at an entry (b, t) (or (b, t, channel)) in terms of the stage before it at the entries it
  reads: the pointwise stages are the scalar functions of `Cert.Spec` entry by entry; a slice, a change of shape,
  a broadcast or a join reads one entry of its operand; the gather reads the packed table at the wrapped and clamped
  start index. Put together: the three sampled arrays at (b, t) are the bilinear samples of the three argument tables
  at the pixel coordinates of the state array's first two channels at (b, t).
-/
import proofs.«176869_j84842783965226_2_alg».proof.Proof.KHost
import proofs.«176869_j84842783965226_2_alg».proof.Proof.Spec
import proofs.«176869_j84842783965226_2_alg».proof.Proof.LibGatherPoints
import Idealize.ShloMosaic.Lib.Pipeline.Value
import Idealize.ShloMosaic.Lib.ValueIdx

noncomputable section

namespace Cert.KernelIdeal.HostVal

open Cert.KernelIdeal Cert.KernelIdeal.Gen Idealize.ShloMosaic Idealize.ShloMosaic.ValueIdx

variable {F : FTy → Type} [FloatOps F] {α : Type}

/-! ## Layout stages -/

/-- Channel `c` of a [8192,128,4] array, sliced out and with its unit axis dropped, at (b, t). -/
theorem chan_apply (x : S8192x128x4.Idx → α) (c : Fin 4) (h : S8192x128x4.Slices ![0, 0, c.val] S8192x128x1)
    (h' : S8192x128x1.ShapeCasts S8192x128) (b : Fin 8192) (t : Fin 128) :
    shapeCast S8192x128 (extractStridedSlice S8192x128x1 ![0, 0, c.val] x h) h' (ix2 b t) = x (ix3 b t c) :=
  (shapeCast_apply _ h' (ix2 b t) (ix3 b t (0 : Fin 1))
    (by rewrite [Shape.rowMajor_val_three, Shape.rowMajor_val_two]
        show (b.val * 128 + t.val) * 1 + 0 = b.val * 128 + t.val; omega)).trans
    (extractStridedSlice_apply _ x h (ix3 b t (0 : Fin 1)) (ix3 b t c) (fun a => match a with
      | ⟨0, _⟩ => by show b.val = 0 + b.val; omega
      | ⟨1, _⟩ => by show t.val = 0 + t.val; omega
      | ⟨2, _⟩ => by show c.val = c.val + 0; omega))

theorem chan0_apply (a0 : S8192x128x4.Idx → F .f32) (b : Fin 8192) (t : Fin 128) : chan0 a0 (ix2 b t) = a0 (ix3 b t (0 : Fin 4)) :=
  chan_apply a0 0 _ _ b t
theorem chan1_apply (a0 : S8192x128x4.Idx → F .f32) (b : Fin 8192) (t : Fin 128) : chan1 a0 (ix2 b t) = a0 (ix3 b t (1 : Fin 4)) :=
  chan_apply a0 1 _ _ b t
theorem chan2_apply (a0 : S8192x128x4.Idx → F .f32) (b : Fin 8192) (t : Fin 128) : chan2 a0 (ix2 b t) = a0 (ix3 b t (2 : Fin 4)) :=
  chan_apply a0 2 _ _ b t
theorem chan3_apply (a0 : S8192x128x4.Idx → F .f32) (b : Fin 8192) (t : Fin 128) : chan3 a0 (ix2 b t) = a0 (ix3 b t (3 : Fin 4)) :=
  chan_apply a0 3 _ _ b t

/-- A [8192,128] array as a [8192,128,1] column reads the array at (b, t). -/
theorem col1_apply (y : S8192x128.Idx → α) (b : Fin 8192) (t : Fin 128) (u : Fin 1) :
    broadcastInDim S8192x128x1 ![0, 1] bcast_S8192x128_S8192x128x1_0_1 y (ix3 b t u) = y (ix2 b t) :=
  broadcastInDim_apply _ _ y (ix3 b t u) (ix2 b t) (fun a => match a with | ⟨0, _⟩ => rfl | ⟨1, _⟩ => rfl)

/-- A [8192,128,1] column across a trailing axis of extent 2 or 4 reads the column at (b, t, 0). -/
theorem across2_apply (y : S8192x128x1.Idx → α) (b : Fin 8192) (t : Fin 128) (k : Fin 2) :
    broadcastInDim S8192x128x2 ![0, 1, 2] bcast_S8192x128x1_S8192x128x2_0_1_2 y (ix3 b t k) = y (ix3 b t (0 : Fin 1)) :=
  broadcastInDim_apply _ _ y (ix3 b t k) (ix3 b t (0 : Fin 1)) (fun a => match a with | ⟨0, _⟩ => rfl | ⟨1, _⟩ => rfl | ⟨2, _⟩ => rfl)
theorem across4_apply (y : S8192x128x1.Idx → α) (b : Fin 8192) (t : Fin 128) (ch : Fin 4) :
    broadcastInDim S8192x128x4 ![0, 1, 2] bcast_S8192x128x1_S8192x128x4_0_1_2 y (ix3 b t ch) = y (ix3 b t (0 : Fin 1)) :=
  broadcastInDim_apply _ _ y (ix3 b t ch) (ix3 b t (0 : Fin 1)) (fun a => match a with | ⟨0, _⟩ => rfl | ⟨1, _⟩ => rfl | ⟨2, _⟩ => rfl)

theorem fcol_apply (f : C2 F) (b : Fin 8192) (t : Fin 128) (u : Fin 1) : fcol f (ix3 b t u) = f (ix2 b t) :=
  col1_apply f b t u

theorem rowCol_apply (y0 : I2) (b : Fin 8192) (t : Fin 128) (u : Fin 1) : rowCol y0 (ix3 b t u) = y0 (ix2 b t) :=
  col1_apply y0 b t u

theorem rowNext_apply (y0 : I2) (b : Fin 8192) (t : Fin 128) (u : Fin 1) : rowNext y0 (ix3 b t u) = Spec.next (y0 (ix2 b t)) := by
  show IntOp.addi (rowCol y0 (ix3 b t u)) 1#32 = _
  rw [rowCol_apply]; rfl

/-- The pair of column cells: entry k is x0 + k. -/
theorem colPair_apply (x0 : I2) (b : Fin 8192) (t : Fin 128) (k : Fin 2) :
    colPair x0 (ix3 b t k) = IntOp.addi (x0 (ix2 b t)) (BitVec.ofNat 32 k.val) := by
  unfold colPair
  show IntOp.addi _ _ = _
  refine congrArg₂ IntOp.addi ?_ ?_
  · exact (across2_apply _ b t k).trans (col1_apply x0 b t 0)
  · exact (broadcastInDim_apply _ bcast_S1x1x2_S8192x128x2_0_1_2 _ (ix3 b t k) (ix3 (0 : Fin 1) (0 : Fin 1) k)
        (fun a => match a with | ⟨0, _⟩ => rfl | ⟨1, _⟩ => rfl | ⟨2, _⟩ => rfl)).trans
      ((broadcastInDim_apply _ bcast_S2_S1x1x2_2 _ (ix3 (0 : Fin 1) (0 : Fin 1) k) (ix1 k)
        (fun a => match a with | ⟨0, _⟩ => rfl)).trans rfl)

theorem colPair_zero (x0 : I2) (b : Fin 8192) (t : Fin 128) : colPair x0 (ix3 b t (0 : Fin 2)) = x0 (ix2 b t) := by
  rw [colPair_apply]
  show x0 (ix2 b t) + 0#32 = _
  exact BitVec.add_zero _

theorem colPair_one (x0 : I2) (b : Fin 8192) (t : Fin 128) : colPair x0 (ix3 b t (1 : Fin 2)) = Spec.next (x0 (ix2 b t)) := by
  rw [colPair_apply]; rfl

/-- Component 0 of the start index at (b, t, k) is the row. -/
theorem startIdx_row (row : S8192x128x1.Idx → BitVec 32) (cols : S8192x128x2.Idx → BitVec 32) (b : Fin 8192) (t : Fin 128) (k : Fin 2) :
    startIdx row cols (ix4 b t k (0 : Fin 2)) = row (ix3 b t (0 : Fin 1)) := by
  unfold startIdx
  refine (concatenate_pair_apply_left (t := S8192x128x2x2) (s₁ := S8192x128x2x1) (s₂ := S8192x128x2x1) (3 : Fin 4) _ _ concatenates_S8192x128x2x1_S8192x128x2x1_S8192x128x2x2_d3
    (ix4 b t k (0 : Fin 2)) rfl (ix4 b t k (0 : Fin 1) : S8192x128x2x1.Idx)
    (fun e => match e with | ⟨0, _⟩ => rfl | ⟨1, _⟩ => rfl | ⟨2, _⟩ => rfl | ⟨3, _⟩ => rfl)).trans ?_
  exact (broadcastInDim_apply _ bcast_S8192x128x2_S8192x128x2x1_0_1_2 _ (ix4 b t k (0 : Fin 1) : S8192x128x2x1.Idx) (ix3 b t k)
      (fun a => match a with | ⟨0, _⟩ => rfl | ⟨1, _⟩ => rfl | ⟨2, _⟩ => rfl)).trans (across2_apply row b t k)

/-- Component 1 of the start index at (b, t, k) is column k. -/
theorem startIdx_col (row : S8192x128x1.Idx → BitVec 32) (cols : S8192x128x2.Idx → BitVec 32) (b : Fin 8192) (t : Fin 128) (k : Fin 2) :
    startIdx row cols (ix4 b t k (1 : Fin 2)) = cols (ix3 b t k) := by
  unfold startIdx
  refine (concatenate_pair_apply_right (t := S8192x128x2x2) (s₁ := S8192x128x2x1) (s₂ := S8192x128x2x1) (3 : Fin 4) _ _ concatenates_S8192x128x2x1_S8192x128x2x1_S8192x128x2x2_d3
    (ix4 b t k (1 : Fin 2)) rfl rfl (ix4 b t k (0 : Fin 1) : S8192x128x2x1.Idx)
    (fun e => match e with
      | ⟨0, _⟩ => fun _ => rfl | ⟨1, _⟩ => fun _ => rfl | ⟨2, _⟩ => fun _ => rfl
      | ⟨3, _⟩ => fun hne => absurd rfl hne) rfl).trans ?_
  exact broadcastInDim_apply _ bcast_S8192x128x2_S8192x128x2x1_0_1_2 _ (ix4 b t k (0 : Fin 1) : S8192x128x2x1.Idx) (ix3 b t k)
      (fun a => match a with | ⟨0, _⟩ => rfl | ⟨1, _⟩ => rfl | ⟨2, _⟩ => rfl)

/-- The packed table's four pieces, in order. -/
def pieces (a1 a2 a3 : S2048x2048.Idx → F .f32) : List ((s : Shape) × (s.Idx → F .f32)) :=
  [⟨S2048x2048x1, broadcastInDim S2048x2048x1 ![0, 1] bcast_S2048x2048_S2048x2048x1_0_1 a1⟩,
   ⟨S2048x2048x1, broadcastInDim S2048x2048x1 ![0, 1] bcast_S2048x2048_S2048x2048x1_0_1 a3⟩,
   ⟨S2048x2048x1, broadcastInDim S2048x2048x1 ![0, 1] bcast_S2048x2048_S2048x2048x1_0_1 a2⟩,
   ⟨S2048x2048x1, broadcastInDim S2048x2048x1 ![0, 1] bcast_S2048x2048_S2048x2048x1_0_1
      (broadcastInDim S2048x2048 ![] bcast_S_S2048x2048 (constant (F := F) S_ .f32 0x00000000#32))⟩]

/-- Channel 0 of the packed table is the first argument table, channel 1 the third, channel 2 the second. -/
theorem table4_ch0 (a1 a2 a3 : S2048x2048.Idx → F .f32) (y x : Fin 2048) :
    table4 a1 a2 a3 (ix3 y x (0 : Fin 4)) = a1 (ix2 y x) := by
  show concatenate S2048x2048x4 2 (pieces a1 a2 a3) concatenates_S2048x2048x1_S2048x2048x1_S2048x2048x1_S2048x2048x1_S2048x2048x4_d2 (ix3 y x (0 : Fin 4)) = _
  refine (concatenate_apply_piece (t := S2048x2048x4) (2 : Fin 3) (pieces a1 a2 a3) concatenates_S2048x2048x1_S2048x2048x1_S2048x2048x1_S2048x2048x1_S2048x2048x4_d2
    (ix3 y x (0 : Fin 4)) 0 (by show (0 : Nat) < 4; decide) S2048x2048x1 (broadcastInDim S2048x2048x1 ![0, 1] bcast_S2048x2048_S2048x2048x1_0_1 a1) rfl rfl 0 rfl (ix3 y x (0 : Fin 1) : S2048x2048x1.Idx)
    (fun e => match e with | ⟨0, _⟩ => fun _ => rfl | ⟨1, _⟩ => fun _ => rfl | ⟨2, _⟩ => fun hne => absurd rfl hne) rfl).trans ?_
  exact broadcastInDim_apply _ bcast_S2048x2048_S2048x2048x1_0_1 a1 (ix3 y x (0 : Fin 1)) (ix2 y x)
    (fun a => match a with | ⟨0, _⟩ => rfl | ⟨1, _⟩ => rfl)
theorem table4_ch1 (a1 a2 a3 : S2048x2048.Idx → F .f32) (y x : Fin 2048) :
    table4 a1 a2 a3 (ix3 y x (1 : Fin 4)) = a3 (ix2 y x) := by
  show concatenate S2048x2048x4 2 (pieces a1 a2 a3) concatenates_S2048x2048x1_S2048x2048x1_S2048x2048x1_S2048x2048x1_S2048x2048x4_d2 (ix3 y x (1 : Fin 4)) = _
  refine (concatenate_apply_piece (t := S2048x2048x4) (2 : Fin 3) (pieces a1 a2 a3) concatenates_S2048x2048x1_S2048x2048x1_S2048x2048x1_S2048x2048x1_S2048x2048x4_d2
    (ix3 y x (1 : Fin 4)) 1 (by show (1 : Nat) < 4; decide) S2048x2048x1 (broadcastInDim S2048x2048x1 ![0, 1] bcast_S2048x2048_S2048x2048x1_0_1 a3) rfl rfl 1 rfl (ix3 y x (0 : Fin 1) : S2048x2048x1.Idx)
    (fun e => match e with | ⟨0, _⟩ => fun _ => rfl | ⟨1, _⟩ => fun _ => rfl | ⟨2, _⟩ => fun hne => absurd rfl hne) rfl).trans ?_
  exact broadcastInDim_apply _ bcast_S2048x2048_S2048x2048x1_0_1 a3 (ix3 y x (0 : Fin 1)) (ix2 y x)
    (fun a => match a with | ⟨0, _⟩ => rfl | ⟨1, _⟩ => rfl)
theorem table4_ch2 (a1 a2 a3 : S2048x2048.Idx → F .f32) (y x : Fin 2048) :
    table4 a1 a2 a3 (ix3 y x (2 : Fin 4)) = a2 (ix2 y x) := by
  show concatenate S2048x2048x4 2 (pieces a1 a2 a3) concatenates_S2048x2048x1_S2048x2048x1_S2048x2048x1_S2048x2048x1_S2048x2048x4_d2 (ix3 y x (2 : Fin 4)) = _
  refine (concatenate_apply_piece (t := S2048x2048x4) (2 : Fin 3) (pieces a1 a2 a3) concatenates_S2048x2048x1_S2048x2048x1_S2048x2048x1_S2048x2048x1_S2048x2048x4_d2
    (ix3 y x (2 : Fin 4)) 2 (by show (2 : Nat) < 4; decide) S2048x2048x1 (broadcastInDim S2048x2048x1 ![0, 1] bcast_S2048x2048_S2048x2048x1_0_1 a2) rfl rfl 2 rfl (ix3 y x (0 : Fin 1) : S2048x2048x1.Idx)
    (fun e => match e with | ⟨0, _⟩ => fun _ => rfl | ⟨1, _⟩ => fun _ => rfl | ⟨2, _⟩ => fun hne => absurd rfl hne) rfl).trans ?_
  exact broadcastInDim_apply _ bcast_S2048x2048_S2048x2048x1_0_1 a2 (ix3 y x (0 : Fin 1)) (ix2 y x)
    (fun a => match a with | ⟨0, _⟩ => rfl | ⟨1, _⟩ => rfl)

/-- The gather at (b, t, k, ch): the table at (row, column, ch), row and column the start index's two components,
    each read signed and clamped into [0, 2047]. -/
theorem gathered_apply (tbl : S2048x2048x4.Idx → F .f32) (idx : S8192x128x2x2.Idx → BitVec 32)
    (b : Fin 8192) (t : Fin 128) (k : Fin 2) (ch : Fin 4) :
    gathered tbl idx (ix4 b t k ch)
      = tbl (ix3 (Spec.clampIx 2048 (by decide) (idx (ix4 b t k (0 : Fin 2)))) (Spec.clampIx 2048 (by decide) (idx (ix4 b t k (1 : Fin 2)))) ch) :=
  Cert.LibGatherPoints.gather_points3_apply (H := 2048) (W := 2048) (C := 4) (B := 8192) (T := 128) (K := 2)
    gather_S2048x2048x4_S8192x128x2x2_S8192x128x2x4_3_01_n_n_01_3_114_wf idx b t k ch (by decide) (by decide) tbl

/-- Corner k of a gathered pair at (b, t, ch). -/
theorem corner0_apply (g : S8192x128x2x4.Idx → α) (b : Fin 8192) (t : Fin 128) (ch : Fin 4) :
    shapeCast S8192x128x4 (extractStridedSlice S8192x128x1x4 ![0, 0, 0, 0] g slices_S8192x128x2x4_S8192x128x1x4_0_0_0_0) shapeCasts_S8192x128x1x4_S8192x128x4 (ix3 b t ch)
      = g (ix4 b t (0 : Fin 2) ch) :=
  (shapeCast_apply _ _ (ix3 b t ch) (ix4 b t (0 : Fin 1) ch)
    (by rewrite [Shape.rowMajor_val_four, Shape.rowMajor_val_three]
        show ((b.val * 128 + t.val) * 1 + 0) * 4 + ch.val = (b.val * 128 + t.val) * 4 + ch.val; omega)).trans
    (extractStridedSlice_apply _ g _ (ix4 b t (0 : Fin 1) ch) (ix4 b t (0 : Fin 2) ch) (fun a => match a with
      | ⟨0, _⟩ => by show b.val = 0 + b.val; omega
      | ⟨1, _⟩ => by show t.val = 0 + t.val; omega
      | ⟨2, _⟩ => by show 0 = 0 + 0; rfl
      | ⟨3, _⟩ => by show ch.val = 0 + ch.val; omega))
theorem corner1_apply (g : S8192x128x2x4.Idx → α) (b : Fin 8192) (t : Fin 128) (ch : Fin 4) :
    shapeCast S8192x128x4 (extractStridedSlice S8192x128x1x4 ![0, 0, 1, 0] g slices_S8192x128x2x4_S8192x128x1x4_0_0_1_0) shapeCasts_S8192x128x1x4_S8192x128x4 (ix3 b t ch)
      = g (ix4 b t (1 : Fin 2) ch) :=
  (shapeCast_apply _ _ (ix3 b t ch) (ix4 b t (0 : Fin 1) ch)
    (by rewrite [Shape.rowMajor_val_four, Shape.rowMajor_val_three]
        show ((b.val * 128 + t.val) * 1 + 0) * 4 + ch.val = (b.val * 128 + t.val) * 4 + ch.val; omega)).trans
    (extractStridedSlice_apply _ g _ (ix4 b t (0 : Fin 1) ch) (ix4 b t (1 : Fin 2) ch) (fun a => match a with
      | ⟨0, _⟩ => by show b.val = 0 + b.val; omega
      | ⟨1, _⟩ => by show t.val = 0 + t.val; omega
      | ⟨2, _⟩ => by show 1 = 1 + 0; rfl
      | ⟨3, _⟩ => by show ch.val = 0 + ch.val; omega))

/-- u·(1 - f) + v·f at (b, t, ch): the fraction read at (b, t, 0). -/
theorem mix_apply (u v : S8192x128x4.Idx → F .f32) (f : S8192x128x1.Idx → F .f32) (b : Fin 8192) (t : Fin 128) (ch : Fin 4) :
    mix u v f (ix3 b t ch)
      = FloatOps.addf (FloatOps.mulf (u (ix3 b t ch)) (FloatOps.subf (FloatOps.ofBits .f32 0x3F800000#32) (f (ix3 b t (0 : Fin 1)))))
          (FloatOps.mulf (v (ix3 b t ch)) (f (ix3 b t (0 : Fin 1)))) := by
  show FloatOps.addf (FloatOps.mulf (u (ix3 b t ch)) (across (oneMinus f) (ix3 b t ch))) (FloatOps.mulf (v (ix3 b t ch)) (across f (ix3 b t ch))) = _
  unfold across
  rw [across4_apply, across4_apply]
  rfl

/-! ## The samples -/

/-- THE SAMPLED CHANNELS at (b, t, ch): the bilinear interpolation of the packed table's channel `ch` at the pixel
    coordinates of the state array's channels 0 and 1 at (b, t). -/
theorem sampled_apply (a0 : S8192x128x4.Idx → F .f32) (a1 a2 a3 : S2048x2048.Idx → F .f32) (b : Fin 8192) (t : Fin 128) (ch : Fin 4) :
    sampled a0 a1 a2 a3 (ix3 b t ch)
      = Spec.lerp2
          (table4 a1 a2 a3 (ix3 (Spec.clampIx 2048 (by decide) (Spec.wrap (Spec.cell (Spec.pix (a0 (ix3 b t (1 : Fin 4)))))))
                                (Spec.clampIx 2048 (by decide) (Spec.wrap (Spec.cell (Spec.pix (a0 (ix3 b t (0 : Fin 4))))))) ch))
          (table4 a1 a2 a3 (ix3 (Spec.clampIx 2048 (by decide) (Spec.wrap (Spec.cell (Spec.pix (a0 (ix3 b t (1 : Fin 4)))))))
                                (Spec.clampIx 2048 (by decide) (Spec.wrap (Spec.next (Spec.cell (Spec.pix (a0 (ix3 b t (0 : Fin 4)))))))) ch))
          (table4 a1 a2 a3 (ix3 (Spec.clampIx 2048 (by decide) (Spec.wrap (Spec.next (Spec.cell (Spec.pix (a0 (ix3 b t (1 : Fin 4))))))))
                                (Spec.clampIx 2048 (by decide) (Spec.wrap (Spec.cell (Spec.pix (a0 (ix3 b t (0 : Fin 4))))))) ch))
          (table4 a1 a2 a3 (ix3 (Spec.clampIx 2048 (by decide) (Spec.wrap (Spec.next (Spec.cell (Spec.pix (a0 (ix3 b t (1 : Fin 4))))))))
                                (Spec.clampIx 2048 (by decide) (Spec.wrap (Spec.next (Spec.cell (Spec.pix (a0 (ix3 b t (0 : Fin 4)))))))) ch))
          (Spec.frac (Spec.pix (a0 (ix3 b t (0 : Fin 4))))) (Spec.frac (Spec.pix (a0 (ix3 b t (1 : Fin 4))))) := by
  unfold sampled lerpA
  simp only [mix_apply]
  unfold corner0 corner1 idxTop idxBot
  simp only [corner0_apply, corner1_apply, gathered_apply, startIdx_row, startIdx_col, fcol_apply]
  show Spec.lerp2 _ _ _ _ _ _ = _
  simp only [show ∀ (y : S8192x128x1.Idx → BitVec 32) i, wrap1 y i = Spec.wrap (y i) from fun _ _ => rfl,
    show ∀ (x : S8192x128x2.Idx → BitVec 32) i, wrap2 x i = Spec.wrap (x i) from fun _ _ => rfl,
    rowCol_apply, rowNext_apply, colPair_zero, colPair_one]
  simp only [show ∀ (q : C2 F) i, cellA q i = Spec.cell (q i) from fun _ _ => rfl,
    show ∀ (q : C2 F) i, fracA q i = Spec.frac (q i) from fun _ _ => rfl,
    show ∀ (p : C2 F) i, pixA p i = Spec.pix (p i) from fun _ _ => rfl, chan0_apply, chan1_apply]

/-- The three sampled arrays at (b, t) are the bilinear samples of the three argument tables. -/
theorem sampled0_apply (a0 : S8192x128x4.Idx → F .f32) (a1 a2 a3 : S2048x2048.Idx → F .f32) (b : Fin 8192) (t : Fin 128) :
    sampled0 a0 a1 a2 a3 (ix2 b t) = Spec.sample a1 (Spec.pix (a0 (ix3 b t (0 : Fin 4)))) (Spec.pix (a0 (ix3 b t (1 : Fin 4)))) := by
  unfold sampled0 pick0
  refine (chan_apply (sampled a0 a1 a2 a3) 0 _ _ b t).trans ?_
  rw [sampled_apply]
  simp only [table4_ch0]
  rfl
theorem sampled1_apply (a0 : S8192x128x4.Idx → F .f32) (a1 a2 a3 : S2048x2048.Idx → F .f32) (b : Fin 8192) (t : Fin 128) :
    sampled1 a0 a1 a2 a3 (ix2 b t) = Spec.sample a3 (Spec.pix (a0 (ix3 b t (0 : Fin 4)))) (Spec.pix (a0 (ix3 b t (1 : Fin 4)))) := by
  unfold sampled1 pick1
  refine (chan_apply (sampled a0 a1 a2 a3) 1 _ _ b t).trans ?_
  rw [sampled_apply]
  simp only [table4_ch1]
  rfl
theorem sampled2_apply (a0 : S8192x128x4.Idx → F .f32) (a1 a2 a3 : S2048x2048.Idx → F .f32) (b : Fin 8192) (t : Fin 128) :
    sampled2 a0 a1 a2 a3 (ix2 b t) = Spec.sample a2 (Spec.pix (a0 (ix3 b t (0 : Fin 4)))) (Spec.pix (a0 (ix3 b t (1 : Fin 4)))) := by
  unfold sampled2 pick2
  refine (chan_apply (sampled a0 a1 a2 a3) 2 _ _ b t).trans ?_
  rw [sampled_apply]
  simp only [table4_ch2]
  rfl

end Cert.KernelIdeal.HostVal

end
-- ==== Proof.KStages.lean ====
/-
  What the region finds in its five input arrays: the host line read in three stretches.

  Stretch A (the first fifty-odd operations) computes, from the arguments, the two velocity channels, the two
  pixel-coordinate arrays, their two cell arrays and the packed table. Stretch B computes from those the two fraction arrays
  and the two gathers. Stretch C interpolates and splits the channels. Each stretch is read off over an arbitrary
  valuation; composed, the five arrays are `chan2`, `chan3` of the state array and `sampled0`, `sampled1`, `sampled2` of
  the four arguments.
-/
import proofs.«176869_j84842783965226_2_alg».proof.Proof.KHost
import proofs.«176869_j84842783965226_2_alg».proof.Proof.LibStages

set_option maxRecDepth 16384

noncomputable section

namespace Cert.KernelIdeal.HostVal

open Cert.KernelIdeal Cert.KernelIdeal.Gen Idealize.ShloMosaic Idealize.ShloMosaic.TcCoe Idealize.SL.Sem Idealize.ShloMosaic.StableHlo
open Cert.LibStages

variable {F : FTy → Type} [FloatOps F]

/-- The host operations before the region, in order, and the three stretches they are read in. -/
abbrev hostLine : List (HloOp τ sig (Elt F)) :=
  List.flatten [hostOps0, hostOps0_1, hostOps0_2, hostOps0_3, hostOps0_4, hostOps0_5, hostOps0_6, hostOps0_7, hostOps0_8]
abbrev lineA : List (HloOp τ sig (Elt F)) :=
  List.flatten [hostOps0, hostOps0_1, hostOps0_2, hostOps0_3, hostOps0_4, hostOps0_5, hostOps0_6, hostOps0_7]
abbrev lineB : List (HloOp τ sig (Elt F)) := (hostOps0_8 (F := F)).take 52
abbrev lineC : List (HloOp τ sig (Elt F)) := (hostOps0_8 (F := F)).drop 52

/-- The line is the three stretches one after the other. -/
theorem line_cut (G : Valuation τ sig (Elt F)) : after hostLine G = after lineC (after lineB (after lineA G)) := by
  have h : (hostLine : List (HloOp τ sig (Elt F))) = lineA ++ (lineB ++ lineC) := by
    simp only [hostLine, lineA, lineB, lineC, List.take_append_drop, List.flatten_cons, List.flatten_nil, List.append_nil,
      List.append_assoc]
  rw [h, after_append, after_append]

/-! ## Stretch A -/

set_option maxHeartbeats 4000000 in
theorem A_v5 (W : Valuation τ sig (Elt F)) :
    (after lineA W (Proc.devRef .tc main_v5) : S8192x128.Idx → F .f32) = chan2 (W (Proc.devRef .tc main_arg0)) := by
  reads_stretch [lineA, hostOps0, hostOps0_1, hostOps0_2, hostOps0_3, hostOps0_4, hostOps0_5, hostOps0_6, hostOps0_7]
set_option maxHeartbeats 4000000 in
theorem A_v7 (W : Valuation τ sig (Elt F)) :
    (after lineA W (Proc.devRef .tc main_v7) : S8192x128.Idx → F .f32) = chan3 (W (Proc.devRef .tc main_arg0)) := by
  reads_stretch [lineA, hostOps0, hostOps0_1, hostOps0_2, hostOps0_3, hostOps0_4, hostOps0_5, hostOps0_6, hostOps0_7]
set_option maxHeartbeats 4000000 in
theorem A_v14 (W : Valuation τ sig (Elt F)) :
    (after lineA W (Proc.devRef .tc main_v14) : S8192x128.Idx → F .f32) = pixA (chan0 (W (Proc.devRef .tc main_arg0))) := by
  reads_stretch [lineA, hostOps0, hostOps0_1, hostOps0_2, hostOps0_3, hostOps0_4, hostOps0_5, hostOps0_6, hostOps0_7]
set_option maxHeartbeats 4000000 in
theorem A_v21 (W : Valuation τ sig (Elt F)) :
    (after lineA W (Proc.devRef .tc main_v21) : S8192x128.Idx → F .f32) = pixA (chan1 (W (Proc.devRef .tc main_arg0))) := by
  reads_stretch [lineA, hostOps0, hostOps0_1, hostOps0_2, hostOps0_3, hostOps0_4, hostOps0_5, hostOps0_6, hostOps0_7]
set_option maxHeartbeats 4000000 in
theorem A_v27 (W : Valuation τ sig (Elt F)) :
    (after lineA W (Proc.devRef .tc main_v27) : S2048x2048x4.Idx → F .f32)
      = table4 (W (Proc.devRef .tc main_arg1)) (W (Proc.devRef .tc main_arg2)) (W (Proc.devRef .tc main_arg3)) := by
  reads_stretch [lineA, hostOps0, hostOps0_1, hostOps0_2, hostOps0_3, hostOps0_4, hostOps0_5, hostOps0_6, hostOps0_7]
set_option maxHeartbeats 4000000 in
theorem A_v30 (W : Valuation τ sig (Elt F)) :
    (after lineA W (Proc.devRef .tc main_v30) : S8192x128.Idx → BitVec 32) = cellA (pixA (chan0 (W (Proc.devRef .tc main_arg0)))) := by
  reads_stretch [lineA, hostOps0, hostOps0_1, hostOps0_2, hostOps0_3, hostOps0_4, hostOps0_5, hostOps0_6, hostOps0_7]
set_option maxHeartbeats 4000000 in
theorem A_v33 (W : Valuation τ sig (Elt F)) :
    (after lineA W (Proc.devRef .tc main_v33) : S8192x128.Idx → BitVec 32) = cellA (pixA (chan1 (W (Proc.devRef .tc main_arg0)))) := by
  reads_stretch [lineA, hostOps0, hostOps0_1, hostOps0_2, hostOps0_3, hostOps0_4, hostOps0_5, hostOps0_6, hostOps0_7]

/-! ## Stretch B -/

set_option maxHeartbeats 4000000 in
theorem B_v35 (W : Valuation τ sig (Elt F)) :
    (after lineB W (Proc.devRef .tc main_v35) : S8192x128.Idx → F .f32)
      = fracOf (W (Proc.devRef .tc main_v14)) (W (Proc.devRef .tc main_v30)) := by
  reads_stretch [lineB, hostOps0_8]
set_option maxHeartbeats 4000000 in
theorem B_v37 (W : Valuation τ sig (Elt F)) :
    (after lineB W (Proc.devRef .tc main_v37) : S8192x128.Idx → F .f32)
      = fracOf (W (Proc.devRef .tc main_v21)) (W (Proc.devRef .tc main_v33)) := by
  reads_stretch [lineB, hostOps0_8]
set_option maxHeartbeats 4000000 in
theorem B_v61 (W : Valuation τ sig (Elt F)) :
    (after lineB W (Proc.devRef .tc main_v61) : S8192x128x2x4.Idx → F .f32)
      = gathered (W (Proc.devRef .tc main_v27)) (idxTop (W (Proc.devRef .tc main_v30)) (W (Proc.devRef .tc main_v33))) := by
  reads_stretch [lineB, hostOps0_8]
set_option maxHeartbeats 4000000 in
theorem B_v76 (W : Valuation τ sig (Elt F)) :
    (after lineB W (Proc.devRef .tc main_v76) : S8192x128x2x4.Idx → F .f32)
      = gathered (W (Proc.devRef .tc main_v27)) (idxBot (W (Proc.devRef .tc main_v30)) (W (Proc.devRef .tc main_v33))) := by
  reads_stretch [lineB, hostOps0_8]
set_option maxHeartbeats 4000000 in
theorem B_keeps_v5 (W : Valuation τ sig (Elt F)) : after lineB W (Proc.devRef .tc main_v5) = W (Proc.devRef .tc main_v5) := by
  keeps_stretch [lineB, hostOps0_8]
set_option maxHeartbeats 4000000 in
theorem B_keeps_v7 (W : Valuation τ sig (Elt F)) : after lineB W (Proc.devRef .tc main_v7) = W (Proc.devRef .tc main_v7) := by
  keeps_stretch [lineB, hostOps0_8]

/-! ## Stretch C -/

set_option maxHeartbeats 4000000 in
theorem C_v109 (W : Valuation τ sig (Elt F)) :
    (after lineC W (Proc.devRef .tc main_v109) : S8192x128.Idx → F .f32)
      = pick0 (lerpA (W (Proc.devRef .tc main_v61)) (W (Proc.devRef .tc main_v76)) (W (Proc.devRef .tc main_v35)) (W (Proc.devRef .tc main_v37))) := by
  reads_stretch [lineC, hostOps0_8]
set_option maxHeartbeats 4000000 in
theorem C_v111 (W : Valuation τ sig (Elt F)) :
    (after lineC W (Proc.devRef .tc main_v111) : S8192x128.Idx → F .f32)
      = pick1 (lerpA (W (Proc.devRef .tc main_v61)) (W (Proc.devRef .tc main_v76)) (W (Proc.devRef .tc main_v35)) (W (Proc.devRef .tc main_v37))) := by
  reads_stretch [lineC, hostOps0_8]
set_option maxHeartbeats 4000000 in
theorem C_v113 (W : Valuation τ sig (Elt F)) :
    (after lineC W (Proc.devRef .tc main_v113) : S8192x128.Idx → F .f32)
      = pick2 (lerpA (W (Proc.devRef .tc main_v61)) (W (Proc.devRef .tc main_v76)) (W (Proc.devRef .tc main_v35)) (W (Proc.devRef .tc main_v37))) := by
  reads_stretch [lineC, hostOps0_8]
set_option maxHeartbeats 4000000 in
theorem C_keeps_v5 (W : Valuation τ sig (Elt F)) : after lineC W (Proc.devRef .tc main_v5) = W (Proc.devRef .tc main_v5) := by
  keeps_stretch [lineC, hostOps0_8]
set_option maxHeartbeats 4000000 in
theorem C_keeps_v7 (W : Valuation τ sig (Elt F)) : after lineC W (Proc.devRef .tc main_v7) = W (Proc.devRef .tc main_v7) := by
  keeps_stretch [lineC, hostOps0_8]

/-! ## The five arrays -/

/-- The fourth window's array is velocity channel 2 of the state array. -/
theorem found_v5 (G : Valuation τ sig (Elt F)) :
    (after hostLine G (Proc.devRef .tc main_v5) : S8192x128.Idx → F .f32) = chan2 (G (Proc.devRef .tc main_arg0)) := by
  rw [line_cut, C_keeps_v5, B_keeps_v5, A_v5]
/-- The fifth window's array is velocity channel 3 of the state array. -/
theorem found_v7 (G : Valuation τ sig (Elt F)) :
    (after hostLine G (Proc.devRef .tc main_v7) : S8192x128.Idx → F .f32) = chan3 (G (Proc.devRef .tc main_arg0)) := by
  rw [line_cut, C_keeps_v7, B_keeps_v7, A_v7]
/-- The first window's array is channel 0 of the samples. -/
theorem found_v109 (G : Valuation τ sig (Elt F)) :
    (after hostLine G (Proc.devRef .tc main_v109) : S8192x128.Idx → F .f32)
      = sampled0 (G (Proc.devRef .tc main_arg0)) (G (Proc.devRef .tc main_arg1)) (G (Proc.devRef .tc main_arg2)) (G (Proc.devRef .tc main_arg3)) := by
  rw [line_cut, C_v109, B_v61, B_v76, B_v35, B_v37, A_v27, A_v30, A_v33, A_v14, A_v21]
  rfl
/-- The second window's array is channel 1 of the samples. -/
theorem found_v111 (G : Valuation τ sig (Elt F)) :
    (after hostLine G (Proc.devRef .tc main_v111) : S8192x128.Idx → F .f32)
      = sampled1 (G (Proc.devRef .tc main_arg0)) (G (Proc.devRef .tc main_arg1)) (G (Proc.devRef .tc main_arg2)) (G (Proc.devRef .tc main_arg3)) := by
  rw [line_cut, C_v111, B_v61, B_v76, B_v35, B_v37, A_v27, A_v30, A_v33, A_v14, A_v21]
  rfl
/-- The third window's array is channel 2 of the samples. -/
theorem found_v113 (G : Valuation τ sig (Elt F)) :
    (after hostLine G (Proc.devRef .tc main_v113) : S8192x128.Idx → F .f32)
      = sampled2 (G (Proc.devRef .tc main_arg0)) (G (Proc.devRef .tc main_arg1)) (G (Proc.devRef .tc main_arg2)) (G (Proc.devRef .tc main_arg3)) := by
  rw [line_cut, C_v113, B_v61, B_v76, B_v35, B_v37, A_v27, A_v30, A_v33, A_v14, A_v21]
  rfl

end Cert.KernelIdeal.HostVal

end
-- ==== Proof.RefLookup.lean ====
/-
  The reference's table lookups and its three samples, read at a position of the flattened axis: a lookup reads its
  table at the pair of start indices the two joined index columns hold there, each read signed and clamped; a sample
  is the bilinear interpolation (`Cert.Spec.sample`) of its table at the position's two pixel coordinates.
-/
import proofs.«176869_j84842783965226_2_alg».proof.Proof.RefReadP
import proofs.«176869_j84842783965226_2_alg».proof.Proof.Spec
import proofs.«176869_j84842783965226_2_alg».proof.Proof.LibGatherPoints
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

variable {F : FTy → Type} [FloatOps F] {α : Type}

/-! ## A table lookup at a position -/

/-- A lookup in a [2048,2048] table whose start indices are two [N] integer arrays joined as the two columns of an
    [N,2] array reads, at position n, the table at (row n, column n), each read signed and clamped into [0, 2047]. -/
theorem gather_rc (x : S2048x2048.Idx → α) (r c : S1048576.Idx → BitVec 32) (n : Fin 1048576) :
    Host.gather gather_S2048x2048_S1048576x2_S1048576_n_01_n_n_01_1_11 x
      (concatenate S1048576x2 1
        [⟨S1048576x1, broadcastInDim S1048576x1 ![0] bcast_S1048576_S1048576x1_0 r⟩,
         ⟨S1048576x1, broadcastInDim S1048576x1 ![0] bcast_S1048576_S1048576x1_0 c⟩]
        concatenates_S1048576x1_S1048576x1_S1048576x2_d1) (ix1 n)
      = x (ix2 (Spec.clampIx 2048 (by decide) (r (ix1 n))) (Spec.clampIx 2048 (by decide) (c (ix1 n)))) := by
  have h0 : concatenate S1048576x2 1
        [⟨S1048576x1, broadcastInDim S1048576x1 ![0] bcast_S1048576_S1048576x1_0 r⟩,
         ⟨S1048576x1, broadcastInDim S1048576x1 ![0] bcast_S1048576_S1048576x1_0 c⟩]
        concatenates_S1048576x1_S1048576x1_S1048576x2_d1 (ix2 n (0 : Fin 2)) = r (ix1 n) :=
    (concatenate_pair_apply_left (t := S1048576x2) (s₁ := S1048576x1) (s₂ := S1048576x1) (1 : Fin 2) _ _ concatenates_S1048576x1_S1048576x1_S1048576x2_d1 (ix2 n (0 : Fin 2)) rfl
      (ix2 n (0 : Fin 1) : S1048576x1.Idx) (fun e => match e with | ⟨0, _⟩ => rfl | ⟨1, _⟩ => rfl)).trans
      (broadcastInDim_apply _ bcast_S1048576_S1048576x1_0 r (ix2 n (0 : Fin 1) : S1048576x1.Idx) (ix1 n) (fun a => match a with | ⟨0, _⟩ => rfl))
  have h1 : concatenate S1048576x2 1
        [⟨S1048576x1, broadcastInDim S1048576x1 ![0] bcast_S1048576_S1048576x1_0 r⟩,
         ⟨S1048576x1, broadcastInDim S1048576x1 ![0] bcast_S1048576_S1048576x1_0 c⟩]
        concatenates_S1048576x1_S1048576x1_S1048576x2_d1 (ix2 n (1 : Fin 2)) = c (ix1 n) :=
    (concatenate_pair_apply_right (t := S1048576x2) (s₁ := S1048576x1) (s₂ := S1048576x1) (1 : Fin 2) _ _ concatenates_S1048576x1_S1048576x1_S1048576x2_d1 (ix2 n (1 : Fin 2)) rfl rfl
      (ix2 n (0 : Fin 1) : S1048576x1.Idx) (fun e => match e with | ⟨0, _⟩ => fun _ => rfl | ⟨1, _⟩ => fun hne => absurd rfl hne) rfl).trans
      (broadcastInDim_apply _ bcast_S1048576_S1048576x1_0 c (ix2 n (0 : Fin 1) : S1048576x1.Idx) (ix1 n) (fun a => match a with | ⟨0, _⟩ => rfl))
  refine (Cert.LibGatherPoints.gather_points2_apply (H := 2048) (W := 2048) (N := 1048576)
    gather_S2048x2048_S1048576x2_S1048576_n_01_n_n_01_1_11_wf _ n (by decide) (by decide) x).trans (congrArg x ?_)
  funext a
  match a with
  | ⟨0, _⟩ => exact Fin.ext (congrArg (fun v : BitVec 32 => min v.toInt.toNat (2048 - 1)) h0)
  | ⟨1, _⟩ => exact Fin.ext (congrArg (fun v : BitVec 32 => min v.toInt.toNat (2048 - 1)) h1)

/-! ## The twelve lookups -/

theorem at_v45 (x0 : S8192x128x4.Idx → F .f32) (x1 : S2048x2048.Idx → F .f32) (n : Fin 1048576) :
    val_main_v45 (F := F) x0 x1 (ix1 n)
      = x1 (ix2 (Spec.clampIx 2048 (by decide) (val_main_v36 (F := F) x0 (ix1 n))) (Spec.clampIx 2048 (by decide) (val_main_v41 (F := F) x0 (ix1 n)))) :=
  gather_rc x1 (val_main_v36 (F := F) x0) (val_main_v41 (F := F) x0) n
theorem at_v61 (x0 : S8192x128x4.Idx → F .f32) (x1 : S2048x2048.Idx → F .f32) (n : Fin 1048576) :
    val_main_v61 (F := F) x0 x1 (ix1 n)
      = x1 (ix2 (Spec.clampIx 2048 (by decide) (val_main_v52 (F := F) x0 (ix1 n))) (Spec.clampIx 2048 (by decide) (val_main_v57 (F := F) x0 (ix1 n)))) :=
  gather_rc x1 (val_main_v52 (F := F) x0) (val_main_v57 (F := F) x0) n
theorem at_v77 (x0 : S8192x128x4.Idx → F .f32) (x1 : S2048x2048.Idx → F .f32) (n : Fin 1048576) :
    val_main_v77 (F := F) x0 x1 (ix1 n)
      = x1 (ix2 (Spec.clampIx 2048 (by decide) (val_main_v68 (F := F) x0 (ix1 n))) (Spec.clampIx 2048 (by decide) (val_main_v73 (F := F) x0 (ix1 n)))) :=
  gather_rc x1 (val_main_v68 (F := F) x0) (val_main_v73 (F := F) x0) n
theorem at_v95 (x0 : S8192x128x4.Idx → F .f32) (x1 : S2048x2048.Idx → F .f32) (n : Fin 1048576) :
    val_main_v95 (F := F) x0 x1 (ix1 n)
      = x1 (ix2 (Spec.clampIx 2048 (by decide) (val_main_v86 (F := F) x0 (ix1 n))) (Spec.clampIx 2048 (by decide) (val_main_v91 (F := F) x0 (ix1 n)))) :=
  gather_rc x1 (val_main_v86 (F := F) x0) (val_main_v91 (F := F) x0) n
theorem at_v134 (x0 : S8192x128x4.Idx → F .f32) (x2 : S2048x2048.Idx → F .f32) (n : Fin 1048576) :
    val_main_v134 (F := F) x0 x2 (ix1 n)
      = x2 (ix2 (Spec.clampIx 2048 (by decide) (val_main_v125 (F := F) x0 (ix1 n))) (Spec.clampIx 2048 (by decide) (val_main_v130 (F := F) x0 (ix1 n)))) :=
  gather_rc x2 (val_main_v125 (F := F) x0) (val_main_v130 (F := F) x0) n
theorem at_v150 (x0 : S8192x128x4.Idx → F .f32) (x2 : S2048x2048.Idx → F .f32) (n : Fin 1048576) :
    val_main_v150 (F := F) x0 x2 (ix1 n)
      = x2 (ix2 (Spec.clampIx 2048 (by decide) (val_main_v141 (F := F) x0 (ix1 n))) (Spec.clampIx 2048 (by decide) (val_main_v146 (F := F) x0 (ix1 n)))) :=
  gather_rc x2 (val_main_v141 (F := F) x0) (val_main_v146 (F := F) x0) n
theorem at_v166 (x0 : S8192x128x4.Idx → F .f32) (x2 : S2048x2048.Idx → F .f32) (n : Fin 1048576) :
    val_main_v166 (F := F) x0 x2 (ix1 n)
      = x2 (ix2 (Spec.clampIx 2048 (by decide) (val_main_v157 (F := F) x0 (ix1 n))) (Spec.clampIx 2048 (by decide) (val_main_v162 (F := F) x0 (ix1 n)))) :=
  gather_rc x2 (val_main_v157 (F := F) x0) (val_main_v162 (F := F) x0) n
theorem at_v184 (x0 : S8192x128x4.Idx → F .f32) (x2 : S2048x2048.Idx → F .f32) (n : Fin 1048576) :
    val_main_v184 (F := F) x0 x2 (ix1 n)
      = x2 (ix2 (Spec.clampIx 2048 (by decide) (val_main_v175 (F := F) x0 (ix1 n))) (Spec.clampIx 2048 (by decide) (val_main_v180 (F := F) x0 (ix1 n)))) :=
  gather_rc x2 (val_main_v175 (F := F) x0) (val_main_v180 (F := F) x0) n
theorem at_v223 (x0 : S8192x128x4.Idx → F .f32) (x3 : S2048x2048.Idx → F .f32) (n : Fin 1048576) :
    val_main_v223 (F := F) x0 x3 (ix1 n)
      = x3 (ix2 (Spec.clampIx 2048 (by decide) (val_main_v214 (F := F) x0 (ix1 n))) (Spec.clampIx 2048 (by decide) (val_main_v219 (F := F) x0 (ix1 n)))) :=
  gather_rc x3 (val_main_v214 (F := F) x0) (val_main_v219 (F := F) x0) n
theorem at_v239 (x0 : S8192x128x4.Idx → F .f32) (x3 : S2048x2048.Idx → F .f32) (n : Fin 1048576) :
    val_main_v239 (F := F) x0 x3 (ix1 n)
      = x3 (ix2 (Spec.clampIx 2048 (by decide) (val_main_v230 (F := F) x0 (ix1 n))) (Spec.clampIx 2048 (by decide) (val_main_v235 (F := F) x0 (ix1 n)))) :=
  gather_rc x3 (val_main_v230 (F := F) x0) (val_main_v235 (F := F) x0) n
theorem at_v255 (x0 : S8192x128x4.Idx → F .f32) (x3 : S2048x2048.Idx → F .f32) (n : Fin 1048576) :
    val_main_v255 (F := F) x0 x3 (ix1 n)
      = x3 (ix2 (Spec.clampIx 2048 (by decide) (val_main_v246 (F := F) x0 (ix1 n))) (Spec.clampIx 2048 (by decide) (val_main_v251 (F := F) x0 (ix1 n)))) :=
  gather_rc x3 (val_main_v246 (F := F) x0) (val_main_v251 (F := F) x0) n
theorem at_v273 (x0 : S8192x128x4.Idx → F .f32) (x3 : S2048x2048.Idx → F .f32) (n : Fin 1048576) :
    val_main_v273 (F := F) x0 x3 (ix1 n)
      = x3 (ix2 (Spec.clampIx 2048 (by decide) (val_main_v264 (F := F) x0 (ix1 n))) (Spec.clampIx 2048 (by decide) (val_main_v269 (F := F) x0 (ix1 n)))) :=
  gather_rc x3 (val_main_v264 (F := F) x0) (val_main_v269 (F := F) x0) n

/-! ## The three samples -/

/-- The first table's sample at entry n is the bilinear sample of its table at the entry's two pixel coordinates. -/
theorem sample_v110 (x0 : S8192x128x4.Idx → F .f32) (x1 : S2048x2048.Idx → F .f32) (n : Fin 1048576) :
    val_main_v110 (F := F) x0 x1 (ix1 n) = Spec.sample x1 (val_main_v12 (F := F) x0 (ix1 n)) (val_main_v21 (F := F) x0 (ix1 n)) := by
  have e : val_main_v110 (F := F) x0 x1 (ix1 n)
      = Spec.lerp2 (val_main_v45 (F := F) x0 x1 (ix1 n)) (val_main_v61 (F := F) x0 x1 (ix1 n))
          (val_main_v77 (F := F) x0 x1 (ix1 n)) (val_main_v95 (F := F) x0 x1 (ix1 n))
          (val_main_v29 (F := F) x0 (ix1 n)) (val_main_v31 (F := F) x0 (ix1 n)) := rfl
  rw [e, at_v45, at_v61, at_v77, at_v95]
  rfl

/-- The second table's sample at entry n is the bilinear sample of its table at the entry's two pixel coordinates. -/
theorem sample_v199 (x0 : S8192x128x4.Idx → F .f32) (x2 : S2048x2048.Idx → F .f32) (n : Fin 1048576) :
    val_main_v199 (F := F) x0 x2 (ix1 n) = Spec.sample x2 (val_main_v12 (F := F) x0 (ix1 n)) (val_main_v21 (F := F) x0 (ix1 n)) := by
  have e : val_main_v199 (F := F) x0 x2 (ix1 n)
      = Spec.lerp2 (val_main_v134 (F := F) x0 x2 (ix1 n)) (val_main_v150 (F := F) x0 x2 (ix1 n))
          (val_main_v166 (F := F) x0 x2 (ix1 n)) (val_main_v184 (F := F) x0 x2 (ix1 n))
          (val_main_v118 (F := F) x0 (ix1 n)) (val_main_v120 (F := F) x0 (ix1 n)) := rfl
  rw [e, at_v134, at_v150, at_v166, at_v184]
  rfl

/-- The third table's sample at entry n is the bilinear sample of its table at the entry's two pixel coordinates. -/
theorem sample_v288 (x0 : S8192x128x4.Idx → F .f32) (x3 : S2048x2048.Idx → F .f32) (n : Fin 1048576) :
    val_main_v288 (F := F) x0 x3 (ix1 n) = Spec.sample x3 (val_main_v12 (F := F) x0 (ix1 n)) (val_main_v21 (F := F) x0 (ix1 n)) := by
  have e : val_main_v288 (F := F) x0 x3 (ix1 n)
      = Spec.lerp2 (val_main_v223 (F := F) x0 x3 (ix1 n)) (val_main_v239 (F := F) x0 x3 (ix1 n))
          (val_main_v255 (F := F) x0 x3 (ix1 n)) (val_main_v273 (F := F) x0 x3 (ix1 n))
          (val_main_v207 (F := F) x0 (ix1 n)) (val_main_v209 (F := F) x0 (ix1 n)) := rfl
  rw [e, at_v223, at_v239, at_v255, at_v273]
  rfl

end Cert.ReferenceIdeal.RefValue

end
-- ==== Proof.RefPos.lean ====
/-
  The reference's flattened axis: entry (b, t) of the 8192 x 128 grid sits at position b·128 + t, where the four
  channels of the state array are read back through the reference's slices and changes of shape.
-/
import proofs.«176869_j84842783965226_2_alg».proof.Proof.RefReadP
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

variable {F : FTy → Type} [FloatOps F] {α : Type}

/-- The position of entry (b, t) on the flattened axis. -/
def flat (b : Fin 8192) (t : Fin 128) : Fin 1048576 := ⟨b.val * 128 + t.val, by omega⟩

/-! ## The four channels of the state array at position b·128 + t -/

theorem pos_x (x0 : S8192x128x4.Idx → F .f32) (b : Fin 8192) (t : Fin 128) :
    val_main_v5 (F := F) x0 (ix1 (flat b t)) = x0 (ix3 b t (0 : Fin 4)) := by
  rw [val_main_v5_apply, val_main_v4_apply, val_main_v1_apply, val_main_v0_apply]
  refine congrArg x0 (funext fun a => Fin.ext ?_)
  match a with
  | ⟨0, _⟩ => show ((b.val * 128 + t.val) / 1 * 2 + 0) / 256 = b.val; omega
  | ⟨1, _⟩ => show ((b.val * 128 + t.val) / 1 * 2 + 0) / 2 % 128 = t.val; omega
  | ⟨2, _⟩ => show ((b.val * 128 + t.val) / 1 * 2 + 0) % 2 = 0; omega

theorem pos_y (x0 : S8192x128x4.Idx → F .f32) (b : Fin 8192) (t : Fin 128) :
    val_main_v14 (F := F) x0 (ix1 (flat b t)) = x0 (ix3 b t (1 : Fin 4)) := by
  rw [val_main_v14_apply, val_main_v13_apply, val_main_v1_apply, val_main_v0_apply]
  refine congrArg x0 (funext fun a => Fin.ext ?_)
  match a with
  | ⟨0, _⟩ => show ((b.val * 128 + t.val) / 1 * 2 + (1 + 0)) / 256 = b.val; omega
  | ⟨1, _⟩ => show ((b.val * 128 + t.val) / 1 * 2 + (1 + 0)) / 2 % 128 = t.val; omega
  | ⟨2, _⟩ => show ((b.val * 128 + t.val) / 1 * 2 + (1 + 0)) % 2 = 1; omega

theorem vel_x (x0 : S8192x128x4.Idx → F .f32) (b : Fin 8192) (t : Fin 128) :
    val_main_v295 (F := F) x0 (ix1 (flat b t)) = x0 (ix3 b t (2 : Fin 4)) := by
  rw [val_main_v295_apply, val_main_v294_apply, val_main_v3_apply, val_main_v2_apply]
  refine congrArg x0 (funext fun a => Fin.ext ?_)
  match a with
  | ⟨0, _⟩ => show ((b.val * 128 + t.val) / 1 * 2 + 0) / 256 = b.val; omega
  | ⟨1, _⟩ => show ((b.val * 128 + t.val) / 1 * 2 + 0) / 2 % 128 = t.val; omega
  | ⟨2, _⟩ => show 2 + ((b.val * 128 + t.val) / 1 * 2 + 0) % 2 = 2; omega

theorem vel_y (x0 : S8192x128x4.Idx → F .f32) (b : Fin 8192) (t : Fin 128) :
    val_main_v298 (F := F) x0 (ix1 (flat b t)) = x0 (ix3 b t (3 : Fin 4)) := by
  rw [val_main_v298_apply, val_main_v297_apply, val_main_v3_apply, val_main_v2_apply]
  refine congrArg x0 (funext fun a => Fin.ext ?_)
  match a with
  | ⟨0, _⟩ => show ((b.val * 128 + t.val) / 1 * 2 + (1 + 0)) / 256 = b.val; omega
  | ⟨1, _⟩ => show ((b.val * 128 + t.val) / 1 * 2 + (1 + 0)) / 2 % 128 = t.val; omega
  | ⟨2, _⟩ => show 2 + ((b.val * 128 + t.val) / 1 * 2 + (1 + 0)) % 2 = 3; omega

/-- The grid is restored from the flattened axis: entry (b, t) is position b·128 + t. -/
theorem unflat (b : Fin 8192) (t : Fin 128) : idx_main_v333 (ix2 b t) = ix1 (flat b t) :=
  funext fun a => Fin.ext (by match a with | ⟨0, _⟩ => rfl)

end Cert.ReferenceIdeal.RefValue

end
-- ==== Proof.RefTail.lean ====
/-
  The reference's last stretch at the ideal float interpretation: the velocity's length (the host's two-term sum from
  zero under a square root) and the two results along the flattened axis as the cost chain and the judge chain
  (`Cert.Chain`) of the three samples and the two velocity channels. The host's negation is zero minus its operand.
-/
import proofs.«176869_j84842783965226_2_alg».proof.Proof.RefReadP
import proofs.«176869_j84842783965226_2_alg».proof.Proof.Chain
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

variable {F : FTy → Type} [FloatOps F] {α : Type}

/-! ## The tail, at the ideal interpretation -/

/-- The velocity's length as the host computes it — the square root of zero plus the sum of the two squares — is the
    square root of the sum of the two squares. -/
theorem norm_ref (x0 : S8192x128x4.Idx → Ideal .f32) (n : Fin 1048576) :
    val_main_v289 (F := Ideal) x0 (ix1 n) = Cert.Chain.norm2 (F := Ideal) (val_main_v295 (F := Ideal) x0 (ix1 n)) (val_main_v298 (F := Ideal) x0 (ix1 n)) := by
  have e0 : val_main_call8_v0 (F := Ideal) x0 (idx_main_call8_v1 (ix1 n) 0)
      = val_main_v295 (F := Ideal) x0 (ix1 n) * val_main_v295 (F := Ideal) x0 (ix1 n) := by
    rw [val_main_call8_v0_apply, val_main_v295_apply, val_main_v294_apply]
    have hi : idx_main_v294 (idx_main_v295 (ix1 n)) = idx_main_call8_v1 (ix1 n) 0 :=
      funext fun a => Fin.ext (by
        match a with
        | ⟨0, _⟩ => show n.val / 1 = n.val; omega
        | ⟨1, _⟩ => rfl)
    rw [hi]; rfl
  have e1 : val_main_call8_v0 (F := Ideal) x0 (idx_main_call8_v1 (ix1 n) 1)
      = val_main_v298 (F := Ideal) x0 (ix1 n) * val_main_v298 (F := Ideal) x0 (ix1 n) := by
    rw [val_main_call8_v0_apply, val_main_v298_apply, val_main_v297_apply]
    have hi : idx_main_v297 (idx_main_v298 (ix1 n)) = idx_main_call8_v1 (ix1 n) 1 :=
      funext fun a => Fin.ext (by
        match a with
        | ⟨0, _⟩ => show n.val / 1 = n.val; omega
        | ⟨1, _⟩ => rfl)
    rw [hi]; rfl
  rw [val_main_v289_apply, val_main_call8_v1_apply, Fin.sum_univ_two, e0, e1]
  show Ideal.sqrt (Ideal.ofBits .f32 0x00000000#32 + _) = Ideal.sqrt _
  rw [Ideal.ofBits_zero_f32, zero_add]
  rfl

/-- The reference's spelling of the first result at an entry, the velocity's length a separate argument `nv`. -/
def costH (pot gx gy vx vy nv : Ideal .f32) : Ideal .f32 :=
  FloatOps.mulf (FloatOps.ofBits .f32 0x3F800000#32)
    (FloatOps.addf (FloatOps.mulf (FloatOps.ofBits .f32 0x3F800000#32) pot)
      (FloatOps.mulf (FloatOps.mulf (FloatOps.mulf (FloatOps.ofBits .f32 0x3F000000#32) pot) nv)
        (FloatOps.addf
          (FloatOps.addf (FloatOps.ofBits .f32 0x3F800000#32)
            (FloatOps.mulf (FloatOps.ofBits .f32 0x3F800000#32)
              (FloatOps.maximumf
                (FloatOps.hostNegf (FloatOps.minimumf (FloatOps.ofBits .f32 0x3F800000#32)
                  (FloatOps.maximumf (FloatOps.ofBits .f32 0xBF800000#32)
                    (FloatOps.hostDivf (FloatOps.addf (FloatOps.mulf vx gx) (FloatOps.mulf vy gy))
                      (FloatOps.addf (FloatOps.mulf nv (FloatOps.hostUnary .sqrt (FloatOps.addf (FloatOps.mulf gx gx) (FloatOps.mulf gy gy))))
                        (FloatOps.ofBits .f32 0x358637BD#32))))))
                (FloatOps.ofBits .f32 0x00000000#32))))
          (FloatOps.mulf (FloatOps.ofBits .f32 0x3F4CCCCD#32)
            (FloatOps.minimumf
              (FloatOps.hostNegf (FloatOps.minimumf (FloatOps.ofBits .f32 0x3F800000#32)
                (FloatOps.maximumf (FloatOps.ofBits .f32 0xBF800000#32)
                  (FloatOps.hostDivf (FloatOps.addf (FloatOps.mulf vx gx) (FloatOps.mulf vy gy))
                    (FloatOps.addf (FloatOps.mulf nv (FloatOps.hostUnary .sqrt (FloatOps.addf (FloatOps.mulf gx gx) (FloatOps.mulf gy gy))))
                      (FloatOps.ofBits .f32 0x358637BD#32))))))
              (FloatOps.ofBits .f32 0x00000000#32))))))

/-- Zero minus c is minus c on the extended reals: the kernel's and the host's negated cosine are one number. -/
theorem zero_sub_ideal (c : EReal) : Ideal.ofBits .f32 0x00000000#32 - c = -c := by
  rw [Ideal.ofBits_zero_f32, zero_sub]

/-- With the velocity's length put in, the reference's spelling is the cost chain. -/
theorem costH_eq (pot gx gy vx vy : Ideal .f32) :
    costH pot gx gy vx vy (Cert.Chain.norm2 vx vy) = Cert.Chain.cost pot gx gy vx vy := by
  unfold costH Cert.Chain.cost Cert.Chain.negCos
  simp only [Ideal.hostNegf_def, Ideal.negf_def, Ideal.subf_def, Ideal.ofBits_def, zero_sub_ideal]
  rfl

/-- The first result along the flattened axis is the cost chain of the three samples and the two velocity channels:
    the pointwise operations are read one by one, every broadcast constant is its word, and the velocity's length is
    the length of the two velocity channels. -/
theorem tail_cost (x0 : S8192x128x4.Idx → Ideal .f32) (x1 x2 x3 : S2048x2048.Idx → Ideal .f32) (n : Fin 1048576) :
    val_main_v332 (F := Ideal) x0 x1 x2 x3 (ix1 n)
      = Cert.Chain.cost (F := Ideal) (val_main_v110 (F := Ideal) x0 x1 (ix1 n)) (val_main_v288 (F := Ideal) x0 x3 (ix1 n)) (val_main_v199 (F := Ideal) x0 x2 (ix1 n))
          (val_main_v295 (F := Ideal) x0 (ix1 n)) (val_main_v298 (F := Ideal) x0 (ix1 n)) := by
  rw [val_main_v332_apply, val_main_v331_apply, val_main_cst_101_apply,
    val_main_v330_apply, val_main_v314_apply, val_main_v313_apply, val_main_cst_94_apply,
    val_main_v329_apply, val_main_v317_apply, val_main_v316_apply, val_main_v315_apply, val_main_cst_95_apply,
    val_main_v328_apply, val_main_v323_apply, val_main_v322_apply, val_main_cst_98_apply,
    val_main_v321_apply, val_main_v320_apply, val_main_cst_97_apply,
    val_main_v319_apply, val_main_v318_apply, val_main_cst_96_apply,
    val_main_v327_apply, val_main_v326_apply, val_main_cst_100_apply,
    val_main_v325_apply, val_main_v324_apply, val_main_cst_99_apply,
    val_main_v306_apply, val_main_v305_apply,
    val_main_call9_v4_apply, val_main_call9_v3_apply, val_main_cst_91_apply,
    val_main_call9_v2_apply, val_main_call9_v1_apply, val_main_call9_v0_apply, val_main_cst_90_apply,
    val_main_v304_apply, val_main_v300_apply, val_main_v296_apply, val_main_v299_apply,
    val_main_v303_apply, val_main_v301_apply, val_main_v302_apply, val_main_cst_89_apply,
    val_main_v293_apply, val_main_v292_apply, val_main_v290_apply, val_main_v291_apply,
    norm_ref]
  exact costH_eq (val_main_v110 (F := Ideal) x0 x1 (ix1 n)) (val_main_v288 (F := Ideal) x0 x3 (ix1 n)) (val_main_v199 (F := Ideal) x0 x2 (ix1 n))
    (val_main_v295 (F := Ideal) x0 (ix1 n)) (val_main_v298 (F := Ideal) x0 (ix1 n))

/-- The second result along the flattened axis is the judge chain of the first sample and the two velocity channels. -/
theorem tail_judge (x0 : S8192x128x4.Idx → Ideal .f32) (x1 : S2048x2048.Idx → Ideal .f32) (n : Fin 1048576) :
    val_main_v335 (F := Ideal) x0 x1 (ix1 n)
      = Cert.Chain.judge (F := Ideal) (val_main_v110 (F := Ideal) x0 x1 (ix1 n)) (val_main_v295 (F := Ideal) x0 (ix1 n)) (val_main_v298 (F := Ideal) x0 (ix1 n)) := by
  rw [val_main_v335_apply, val_main_v334_apply, val_main_cst_102_apply,
    val_main_v312_apply, val_main_v308_apply, val_main_v307_apply, val_main_cst_92_apply,
    val_main_v311_apply, val_main_v310_apply, val_main_v309_apply, val_main_cst_93_apply,
    norm_ref]
  rfl

end Cert.ReferenceIdeal.RefValue

end
-- ==== Proof.RefSide.lean ====
/-
  The reference's two results at entry (b, t): the restored grid read at (b, t) is the flattened axis at b·128 + t; there
  the results are the chains of the three samples and the two velocity channels, the samples the bilinear samples of
  the three tables at the pixel coordinates of the state array's first two channels at (b, t).
-/
import proofs.«176869_j84842783965226_2_alg».proof.Proof.RefLookup
import proofs.«176869_j84842783965226_2_alg».proof.Proof.RefPos
import proofs.«176869_j84842783965226_2_alg».proof.Proof.RefTail
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

variable {F : FTy → Type} [FloatOps F] {α : Type}

/-! ## The pixel coordinates along the flattened axis -/

/-- The first pixel-coordinate array at a position is the pixel coordinate of the first world coordinate there: the
    subtraction, the division, the scaling and the two clips read one by one, every broadcast constant its word. -/
theorem pix_v12 (x0 : S8192x128x4.Idx → Ideal .f32) (n : Fin 1048576) :
    val_main_v12 (F := Ideal) x0 (ix1 n) = Spec.pix (F := Ideal) (val_main_v5 (F := Ideal) x0 (ix1 n)) := by
  rw [val_main_v12_apply, val_main_call0_v4_apply, val_main_call0_v3_apply, val_main_cst_3_apply,
    val_main_call0_v2_apply, val_main_call0_v1_apply, val_main_call0_v0_apply, val_main_cst_2_apply,
    val_main_v11_apply, val_main_v10_apply, val_main_cst_1_apply,
    val_main_v9_apply, val_main_v8_apply, val_main_cst_0_apply,
    val_main_v7_apply, val_main_v6_apply, val_main_cst_apply]
  rfl

/-- The second pixel-coordinate array at a position is the pixel coordinate of the second world coordinate there. -/
theorem pix_v21 (x0 : S8192x128x4.Idx → Ideal .f32) (n : Fin 1048576) :
    val_main_v21 (F := Ideal) x0 (ix1 n) = Spec.pix (F := Ideal) (val_main_v14 (F := Ideal) x0 (ix1 n)) := by
  rw [val_main_v21_apply, val_main_call1_v4_apply, val_main_call1_v3_apply, val_main_cst_8_apply,
    val_main_call1_v2_apply, val_main_call1_v1_apply, val_main_call1_v0_apply, val_main_cst_7_apply,
    val_main_v20_apply, val_main_v19_apply, val_main_cst_6_apply,
    val_main_v18_apply, val_main_v17_apply, val_main_cst_5_apply,
    val_main_v16_apply, val_main_v15_apply, val_main_cst_4_apply]
  rfl

/-! ## The two results at (b, t) -/

/-- THE REFERENCE'S FIRST RESULT at (b, t). -/
theorem ref_cost (x0 : S8192x128x4.Idx → Ideal .f32) (x1 x2 x3 : S2048x2048.Idx → Ideal .f32) (b : Fin 8192) (t : Fin 128) :
    val_main_v333 (F := Ideal) x0 x1 x2 x3 (ix2 b t)
      = Cert.Chain.cost (F := Ideal)
          (Spec.sample x1 (Spec.pix (x0 (ix3 b t (0 : Fin 4)))) (Spec.pix (x0 (ix3 b t (1 : Fin 4)))))
          (Spec.sample x3 (Spec.pix (x0 (ix3 b t (0 : Fin 4)))) (Spec.pix (x0 (ix3 b t (1 : Fin 4)))))
          (Spec.sample x2 (Spec.pix (x0 (ix3 b t (0 : Fin 4)))) (Spec.pix (x0 (ix3 b t (1 : Fin 4)))))
          (x0 (ix3 b t (2 : Fin 4))) (x0 (ix3 b t (3 : Fin 4))) := by
  rw [val_main_v333_apply, unflat, tail_cost, sample_v110, sample_v288, sample_v199, vel_x, vel_y,
    pix_v12, pix_v21,
    pos_x, pos_y]

/-- THE REFERENCE'S SECOND RESULT at (b, t). -/
theorem ref_judge (x0 : S8192x128x4.Idx → Ideal .f32) (x1 : S2048x2048.Idx → Ideal .f32) (b : Fin 8192) (t : Fin 128) :
    val_main_v336 (F := Ideal) x0 x1 (ix2 b t)
      = Cert.Chain.judge (F := Ideal)
          (Spec.sample x1 (Spec.pix (x0 (ix3 b t (0 : Fin 4)))) (Spec.pix (x0 (ix3 b t (1 : Fin 4)))))
          (x0 (ix3 b t (2 : Fin 4))) (x0 (ix3 b t (3 : Fin 4))) := by
  have hu : idx_main_v336 (ix2 b t) = ix1 (flat b t) := funext fun a => Fin.ext (by match a with | ⟨0, _⟩ => rfl)
  rw [val_main_v336_apply, hu, tail_judge, sample_v110, vel_x, vel_y,
    pix_v12, pix_v21,
    pos_x, pos_y]

end Cert.ReferenceIdeal.RefValue

end
-- ==== Proof.Bridge.lean ====
/-
  The two results as functions of the four argument arrays, and both programs' values equal to them.

  At entry (b, t): with p = state[b, t, 0], q = state[b, t, 1] the world coordinates and (vx, vy) = state[b, t, 2 … 3] the
  velocity, the pixel coordinates are px = pix p and py = pix q, the potential is the bilinear sample of the first table
  at (px, py), the gradient's x-component the sample of the THIRD table and its y-component the sample of the second,
  and the two results are the cost chain and the judge chain of those five numbers.
  The kernel's program reaches these values by sampling one packed four-channel table on the host and running the
  chain block by block in its region; the reference by sampling the three tables one by one along a flattened axis
  and running the chain there. Entry by entry both are the same expression.
-/
import proofs.«176869_j84842783965226_2_alg».proof.Proof.KHostAt
import proofs.«176869_j84842783965226_2_alg».proof.Proof.KStages
import proofs.«176869_j84842783965226_2_alg».proof.Proof.RefSide

noncomputable section

namespace Cert.Bridge

open Idealize.ShloMosaic Idealize.ShloMosaic.ValueIdx Idealize.ShloMosaic.StableHlo

/-- The state array and a table, as index functions over the literal shapes. -/
abbrev State := (⟨3, ![8192, 128, 4]⟩ : Shape).Idx → EReal
abbrev Table := (⟨2, ![2048, 2048]⟩ : Shape).Idx → EReal

/-- The potential, the gradient's two components, at entry (b, t). -/
def potAt (a0 : State) (a1 : Table) (b : Fin 8192) (t : Fin 128) : EReal :=
  Cert.Spec.sample (F := Ideal) a1 (Cert.Spec.pix (F := Ideal) (a0 (ix3 b t (0 : Fin 4)))) (Cert.Spec.pix (F := Ideal) (a0 (ix3 b t (1 : Fin 4))))

/-- The first result at entry (b, t). -/
def costAt (a0 : State) (a1 a2 a3 : Table) (b : Fin 8192) (t : Fin 128) : EReal :=
  Cert.Chain.cost (F := Ideal) (potAt a0 a1 b t) (potAt a0 a3 b t) (potAt a0 a2 b t) (a0 (ix3 b t (2 : Fin 4))) (a0 (ix3 b t (3 : Fin 4)))

/-- The second result at entry (b, t). -/
def judgeAt (a0 : State) (a1 : Table) (b : Fin 8192) (t : Fin 128) : EReal :=
  Cert.Chain.judge (F := Ideal) (potAt a0 a1 b t) (a0 (ix3 b t (2 : Fin 4))) (a0 (ix3 b t (3 : Fin 4)))

/-- The two result arrays. -/
def costArr (a0 : State) (a1 a2 a3 : Table) : (⟨2, ![8192, 128]⟩ : Shape).Idx → EReal :=
  fun i => costAt a0 a1 a2 a3 ⟨(i 0).val, idx2_lt0 i⟩ ⟨(i 1).val, idx2_lt1 i⟩
def judgeArr (a0 : State) (a1 : Table) : (⟨2, ![8192, 128]⟩ : Shape).Idx → EReal :=
  fun i => judgeAt a0 a1 ⟨(i 0).val, idx2_lt0 i⟩ ⟨(i 1).val, idx2_lt1 i⟩

/-! ## The kernel's program -/

section Kernel
open Cert.KernelIdeal Cert.KernelIdeal.Gen Cert.KernelIdeal.HostVal

/-- The cost chain of the five arrays the region finds, entry by entry, is the first result array. -/
theorem kernel_cost (G : Valuation τ sig (Elt Ideal)) :
    (fun i => Cert.Chain.cost (F := Ideal)
        ((after hostLine G (Proc.devRef .tc main_v109) : S8192x128.Idx → EReal) i)
        ((after hostLine G (Proc.devRef .tc main_v111) : S8192x128.Idx → EReal) i)
        ((after hostLine G (Proc.devRef .tc main_v113) : S8192x128.Idx → EReal) i)
        ((after hostLine G (Proc.devRef .tc main_v5) : S8192x128.Idx → EReal) i)
        ((after hostLine G (Proc.devRef .tc main_v7) : S8192x128.Idx → EReal) i))
      = costArr (G (Proc.devRef .tc main_arg0)) (G (Proc.devRef .tc main_arg1)) (G (Proc.devRef .tc main_arg2)) (G (Proc.devRef .tc main_arg3)) := by
  funext i
  obtain ⟨b, t, rfl⟩ : ∃ (b : Fin 8192) (t : Fin 128), i = ix2 b t := ⟨i 0, i 1, eq_ix2 i⟩
  rw [found_v109, found_v111, found_v113, found_v5, found_v7,
    sampled0_apply, sampled1_apply, sampled2_apply, chan2_apply, chan3_apply]
  rfl

/-- The judge chain of the arrays the region finds, entry by entry, is the second result array. -/
theorem kernel_judge (G : Valuation τ sig (Elt Ideal)) :
    (fun i => Cert.Chain.judge (F := Ideal)
        ((after hostLine G (Proc.devRef .tc main_v109) : S8192x128.Idx → EReal) i)
        ((after hostLine G (Proc.devRef .tc main_v5) : S8192x128.Idx → EReal) i)
        ((after hostLine G (Proc.devRef .tc main_v7) : S8192x128.Idx → EReal) i))
      = judgeArr (G (Proc.devRef .tc main_arg0)) (G (Proc.devRef .tc main_arg1)) := by
  funext i
  obtain ⟨b, t, rfl⟩ : ∃ (b : Fin 8192) (t : Fin 128), i = ix2 b t := ⟨i 0, i 1, eq_ix2 i⟩
  rw [found_v109, found_v5, found_v7, sampled0_apply, chan2_apply, chan3_apply]
  rfl

end Kernel

/-! ## The reference -/

section Reference
open Cert.ReferenceIdeal Cert.ReferenceIdeal.Read Cert.ReferenceIdeal.RefValue

/-- The reference's first result is the first result array. -/
theorem ref_cost_arr (x0 : State) (x1 x2 x3 : Table) :
    val_main_v333 (F := Ideal) x0 x1 x2 x3 = costArr x0 x1 x2 x3 := by
  funext i
  obtain ⟨b, t, rfl⟩ : ∃ (b : Fin 8192) (t : Fin 128), i = ix2 b t := ⟨i 0, i 1, eq_ix2 i⟩
  rw [ref_cost]
  rfl

/-- The reference's second result is the second result array. -/
theorem ref_judge_arr (x0 : State) (x1 : Table) :
    val_main_v336 (F := Ideal) x0 x1 = judgeArr x0 x1 := by
  funext i
  obtain ⟨b, t, rfl⟩ : ∃ (b : Fin 8192) (t : Fin 128), i = ix2 b t := ⟨i 0, i 1, eq_ix2 i⟩
  rw [ref_judge]
  rfl

end Reference

end Cert.Bridge

end
-- ==== Proof.lean ====
/-
  The five claims of this certificate.

  Both programs compute, at every entry (b, t) of an [8192, 128] grid, two numbers from the state array's four channels
  at (b, t) and three [2048, 2048] tables: the world coordinates (channels 0 and 1) become pixel coordinates, each table
  is sampled bilinearly there (a potential and the two components of its gradient), and the two results are the cost
  chain and the judge chain (`Cert.Chain`) of the three samples and the velocity (channels 2 and 3).
  The kernel program samples one packed table on the host and runs the chains block by block in a region of four grid
  points; the reference samples the three tables one by one along a flattened axis of 1048576 positions and runs the
  chains there. Entry by entry the two are the same expression of the same operations on the extended reals, so no law
  of arithmetic is needed and the precondition is never opened.

  The frames: each kernel program's host operations leave the arguments alone and its region reads five whole blocks
  and stores two (`Hand.frame`); the reference is a straight line of host operations, none of which writes an argument
  (`HandRun.run`). The idealization rewrote nothing, so `preserves` is trivial. The value claim pairs the kernel
  program's run, read at every entry (`HandValue.run` and `Bridge.kernel_cost` / `kernel_judge`), with the
  reference's (`HandRun.run` and `Bridge.ref_cost_arr` / `ref_judge_arr`) at the same two arrays.
-/
import proofs.«176869_j84842783965226_2_alg».proof.Defs
import proofs.«176869_j84842783965226_2_alg».proof.Proof.Gen.Kernel
import proofs.«176869_j84842783965226_2_alg».proof.Proof.Gen.Kernel.Skeleton
import proofs.«176869_j84842783965226_2_alg».proof.Proof.Gen.Kernel.Launch
import proofs.«176869_j84842783965226_2_alg».proof.Proof.Gen.Kernel.Points
import proofs.«176869_j84842783965226_2_alg».proof.Proof.Gen.KernelIdeal
import proofs.«176869_j84842783965226_2_alg».proof.Proof.Gen.KernelIdeal.Skeleton
import proofs.«176869_j84842783965226_2_alg».proof.Proof.Gen.KernelIdeal.Launch
import proofs.«176869_j84842783965226_2_alg».proof.Proof.Gen.KernelIdeal.Points
import proofs.«176869_j84842783965226_2_alg».proof.Proof.Gen.ReferenceIdeal
import proofs.«176869_j84842783965226_2_alg».proof.Proof.Gen.Pre_finite_inputs
import proofs.«176869_j84842783965226_2_alg».proof.Proof.FrameBits
import proofs.«176869_j84842783965226_2_alg».proof.Proof.RegionValue
import proofs.«176869_j84842783965226_2_alg».proof.Proof.RefStages
import proofs.«176869_j84842783965226_2_alg».proof.Proof.Bridge
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  -- the word-level kernel program runs and keeps its arguments
  fun m g _ => Cert.Kernel.Hand.frame (F := Bits) m g,
  -- so does the idealized one
  fun m g _ => Cert.KernelIdeal.Hand.frame (F := Ideal) m g,
  -- the reference's run, its results dropped
  fun m g _ => (θ_run Cert.ReferenceIdeal.defs _ _).mono (fun _ h c => (h c).2.2)
    (Cert.ReferenceIdeal.HandRun.run (F := Ideal) m g),
  -- the idealization rewrote nothing
  trivial,
  -- both runs end with the cost array and the judge array of the kernel program's four arguments
  fun m g m' g' _ hagree =>
    ⟨fun c => Cert.Bridge.costArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
     fun c => Cert.Bridge.judgeArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
     (θ_run Cert.KernelIdeal.defs _ _).mono (fun _ h c =>
        ⟨(h c).1.trans (Cert.Bridge.kernel_cost (fun b => m (c, b))),
         (h c).2.1.trans (Cert.Bridge.kernel_judge (fun b => m (c, b))),
         (h c).2.2⟩)
       (Cert.KernelIdeal.HandValue.run (F := Ideal) m g),
     (θ_run Cert.ReferenceIdeal.defs _ _).mono (fun _ h c =>
        ⟨(h c).1.trans (by
            rw [(hagree c).1, (hagree c).2.1, (hagree c).2.2.1, (hagree c).2.2.2]
            exact Cert.Bridge.ref_cost_arr _ _ _ _),
         (h c).2.1.trans (by
            rw [(hagree c).1, (hagree c).2.1]
            exact Cert.Bridge.ref_judge_arr _ _),
         (h c).2.2⟩)
       (Cert.ReferenceIdeal.HandRun.run (F := Ideal) m' g')⟩⟩

end Cert.Proof

end
